-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![2, 256, 8, 64]⟩ ⟨4, ![2, 512, 8, 64]⟩ (Layout.meshBlock [2, 2, 2] ![[], [2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 256, 8, 64]⟩ ⟨4, ![2, 512, 8, 64]⟩ (Layout.meshBlock [2, 2, 2] ![[], [2], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 256, 8, 64]⟩ ⟨4, ![2, 512, 8, 64]⟩ (Layout.meshBlock [2, 2, 2] ![[], [2], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨4, ![2, 256, 8, 64]⟩ ⟨4, ![2, 512, 8, 64]⟩ (Layout.meshBlock [2, 2, 2] ![[], [2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2x256x8x64 : Shape := ⟨4, ![2, 256, 8, 64]⟩
abbrev S_ : Shape := ⟨0, ![]⟩

class Facts : Prop where
  bcast_S_S2x256x8x64 : S_.BroadcastsInDim S2x256x8x64 (![] : Fin 0 → Fin S2x256x8x64.rank)
  reducesTo_S2x256x8x64_S_d0_1_2_3 : S2x256x8x64.ReducesTo [0, 1, 2, 3] S_
  h_S_ : 0 < S_.numel

variable [Facts]

def fn {F : FTy → Type} [FloatOps F] (main_arg0 : FVec F S2x256x8x64 .f32) (main_arg1 : FVec F S2x256x8x64 .f32) (main_arg2 : FVec F S2x256x8x64 .f32) : IVec S_ 1 :=
  let main_v0 : FVec F S2x256x8x64 .f32 := Host.absf main_arg0
  let main_cst : FVec F S_ .f32 := constant S_ .f32 0x7F800000#32
  let main_v1 : FVec F S2x256x8x64 .f32 := broadcastInDim S2x256x8x64 ![] bcast_S_S2x256x8x64 main_cst
  let main_v2 : IVec S2x256x8x64 1 := cmpf .olt main_v0 main_v1
  let main_c : IVec S_ 1 := constantI S_ 1 1#1
  let main_v3 : IVec S_ 1 := (fun x v => Host.reduce IntOp.andi x v reducesTo_S2x256x8x64_S_d0_1_2_3 h_S_) main_v2 main_c
  let main_v4 : FVec F S2x256x8x64 .f32 := Host.absf main_arg1
  let main_cst_0 : FVec F S_ .f32 := constant S_ .f32 0x7F800000#32
  let main_v5 : FVec F S2x256x8x64 .f32 := broadcastInDim S2x256x8x64 ![] bcast_S_S2x256x8x64 main_cst_0
  let main_v6 : IVec S2x256x8x64 1 := cmpf .olt main_v4 main_v5
  let main_c_1 : IVec S_ 1 := constantI S_ 1 1#1
  let main_v7 : IVec S_ 1 := (fun x v => Host.reduce IntOp.andi x v reducesTo_S2x256x8x64_S_d0_1_2_3 h_S_) main_v6 main_c_1
  let main_v8 : IVec S_ 1 := andi main_v3 main_v7
  let main_v9 : FVec F S2x256x8x64 .f32 := Host.absf main_arg2
  let main_cst_2 : FVec F S_ .f32 := constant S_ .f32 0x7F800000#32
  let main_v10 : FVec F S2x256x8x64 .f32 := broadcastInDim S2x256x8x64 ![] bcast_S_S2x256x8x64 main_cst_2
  let main_v11 : IVec S2x256x8x64 1 := cmpf .olt main_v9 main_v10
  let main_c_3 : IVec S_ 1 := constantI S_ 1 1#1
  let main_v12 : IVec S_ 1 := (fun x v => Host.reduce IntOp.andi x v reducesTo_S2x256x8x64_S_d0_1_2_3 h_S_) main_v11 main_c_3
  let main_v13 : IVec S_ 1 := andi main_v8 main_v12
  main_v13
-- ==== Pre_finite_inputs_ReferenceIdeal.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)
  reducesTo_S2x512x8x64_S_d0_1_2_3 : S2x512x8x64.ReducesTo [0, 1, 2, 3] S_
  h_S_ : 0 < S_.numel

variable [Facts]

def fn {F : FTy → Type} [FloatOps F] (main_arg0 : FVec F S2x512x8x64 .f32) (main_arg1 : FVec F S2x512x8x64 .f32) (main_arg2 : FVec F S2x512x8x64 .f32) : IVec S_ 1 :=
  let main_v0 : FVec F S2x512x8x64 .f32 := Host.absf main_arg0
  let main_cst : FVec F S_ .f32 := constant S_ .f32 0x7F800000#32
  let main_v1 : FVec F S2x512x8x64 .f32 := broadcastInDim S2x512x8x64 ![] bcast_S_S2x512x8x64 main_cst
  let main_v2 : IVec S2x512x8x64 1 := cmpf .olt main_v0 main_v1
  let main_c : IVec S_ 1 := constantI S_ 1 1#1
  let main_v3 : IVec S_ 1 := (fun x v => Host.reduce IntOp.andi x v reducesTo_S2x512x8x64_S_d0_1_2_3 h_S_) main_v2 main_c
  let main_v4 : FVec F S2x512x8x64 .f32 := Host.absf main_arg1
  let main_cst_0 : FVec F S_ .f32 := constant S_ .f32 0x7F800000#32
  let main_v5 : FVec F S2x512x8x64 .f32 := broadcastInDim S2x512x8x64 ![] bcast_S_S2x512x8x64 main_cst_0
  let main_v6 : IVec S2x512x8x64 1 := cmpf .olt main_v4 main_v5
  let main_c_1 : IVec S_ 1 := constantI S_ 1 1#1
  let main_v7 : IVec S_ 1 := (fun x v => Host.reduce IntOp.andi x v reducesTo_S2x512x8x64_S_d0_1_2_3 h_S_) main_v6 main_c_1
  let main_v8 : IVec S_ 1 := andi main_v3 main_v7
  let main_v9 : FVec F S2x512x8x64 .f32 := Host.absf main_arg2
  let main_cst_2 : FVec F S_ .f32 := constant S_ .f32 0x7F800000#32
  let main_v10 : FVec F S2x512x8x64 .f32 := broadcastInDim S2x512x8x64 ![] bcast_S_S2x512x8x64 main_cst_2
  let main_v11 : IVec S2x512x8x64 1 := cmpf .olt main_v9 main_v10
  let main_c_3 : IVec S_ 1 := constantI S_ 1 1#1
  let main_v12 : IVec S_ 1 := (fun x v => Host.reduce IntOp.andi x v reducesTo_S2x512x8x64_S_d0_1_2_3 h_S_) main_v11 main_c_3
  let main_v13 : IVec S_ 1 := andi main_v8 main_v12
  main_v13
-- ==== Kernel.lean ====
abbrev S2x256x8x64 : Shape := ⟨4, ![2, 256, 8, 64]⟩
abbrev S2x8x256x64 : Shape := ⟨4, ![2, 8, 256, 64]⟩
abbrev S2x8x256x1 : Shape := ⟨4, ![2, 8, 256, 1]⟩
abbrev S8 : Shape := ⟨1, ![8]⟩
abbrev S_ : Shape := ⟨0, ![]⟩
abbrev S1 : Shape := ⟨1, ![1]⟩
abbrev S2x64x8x64 : Shape := ⟨4, ![2, 64, 8, 64]⟩
abbrev S1x256x1x64 : Shape := ⟨4, ![1, 256, 1, 64]⟩
abbrev S256x64 : Shape := ⟨2, ![256, 64]⟩
abbrev S1x1x256x64 : Shape := ⟨4, ![1, 1, 256, 64]⟩
abbrev S256x256 : Shape := ⟨2, ![256, 256]⟩
abbrev S256 : Shape := ⟨1, ![256]⟩
abbrev S256x1 : Shape := ⟨2, ![256, 1]⟩
abbrev S1x1x256x1 : Shape := ⟨4, ![1, 1, 256, 1]⟩
abbrev S1x64x1x64 : Shape := ⟨4, ![1, 64, 1, 64]⟩
abbrev S64x64 : Shape := ⟨2, ![64, 64]⟩

abbrev nBuf : Space → Nat
  | .hbm => 4
  | .vmem => 9
  | .smem => 0
  | _ => 0

abbrev bufTy : (tb : Table) → Fin (tcTables nBuf tb) → BufTy
  | .hbm, ⟨0, _⟩ => ⟨S2x256x8x64, .f32⟩
  | .hbm, ⟨1, _⟩ => ⟨S2x256x8x64, .f32⟩
  | .hbm, ⟨2, _⟩ => ⟨S2x256x8x64, .f32⟩
  | .hbm, ⟨3, _⟩ => ⟨S2x256x8x64, .f32⟩
  | .local _ .vmem, ⟨0, _⟩ => ⟨S2x256x8x64, .f32⟩
  | .local _ .vmem, ⟨1, _⟩ => ⟨S2x256x8x64, .f32⟩
  | .local _ .vmem, ⟨2, _⟩ => ⟨S2x256x8x64, .f32⟩
  | .local _ .vmem, ⟨3, _⟩ => ⟨S2x256x8x64, .f32⟩
  | .local _ .vmem, ⟨4, _⟩ => ⟨S2x256x8x64, .f32⟩
  | .local _ .vmem, ⟨5, _⟩ => ⟨S2x256x8x64, .f32⟩
  | .local _ .vmem, ⟨6, _⟩ => ⟨S2x8x256x64, .f32⟩
  | .local _ .vmem, ⟨7, _⟩ => ⟨S2x8x256x64, .f32⟩
  | .local _ .vmem, ⟨8, _⟩ => ⟨S2x8x256x1, .f32⟩
  | _, _ => ⟨S2x256x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  { ofTc nBuf bufTy 1 20 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_dev2 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v17 : BitVec 32 := Scalar.muli v2 c4_i32_11
  let v18 : BitVec 32 := Scalar.addi c0_i32_12 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v19 : BitVec 32 := Scalar.muli v5 c2_i32_13
  let v20 : BitVec 32 := Scalar.addi v18 v19
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_14 : BitVec 32 := 1#32
  let v21 : BitVec 32 := Scalar.muli v9 c1_i32_14
  let v22 : BitVec 32 := Scalar.addi v20 v21
  v22.toNat
def k0_dev3 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_25 : BitVec 32 := 4#32
  let v29 : BitVec 32 := Scalar.muli v2 c4_i32_25
  let v30 : BitVec 32 := Scalar.addi c0_i32_26 v29
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_27 : BitVec 32 := 2#32
  let v31 : BitVec 32 := Scalar.muli v5 c2_i32_27
  let v32 : BitVec 32 := Scalar.addi v30 v31
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_28 : BitVec 32 := 1#32
  let v33 : BitVec 32 := Scalar.muli v9 c1_i32_28
  let v34 : BitVec 32 := Scalar.addi v32 v33
  v34.toNat
def k0_dev4 (d0 : Dev nD) : Nat :=
  let c0_i32_40 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_39 : BitVec 32 := 4#32
  let v41 : BitVec 32 := Scalar.muli v2 c4_i32_39
  let v42 : BitVec 32 := Scalar.addi c0_i32_40 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_41 : BitVec 32 := 2#32
  let v43 : BitVec 32 := Scalar.muli v5 c2_i32_41
  let v44 : BitVec 32 := Scalar.addi v42 v43
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_42 : BitVec 32 := 1#32
  let v45 : BitVec 32 := Scalar.muli v9 c1_i32_42
  let v46 : BitVec 32 := Scalar.addi v44 v45
  v46.toNat
def k0_dev5 (d0 : Dev nD) : Nat :=
  let c0_i32_52 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_51 : BitVec 32 := 4#32
  let v53 : BitVec 32 := Scalar.muli v2 c4_i32_51
  let v54 : BitVec 32 := Scalar.addi c0_i32_52 v53
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_53 : BitVec 32 := 2#32
  let v55 : BitVec 32 := Scalar.muli v5 c2_i32_53
  let v56 : BitVec 32 := Scalar.addi v54 v55
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_54 : BitVec 32 := 1#32
  let v57 : BitVec 32 := Scalar.muli v9 c1_i32_54
  let v58 : BitVec 32 := Scalar.addi v56 v57
  v58.toNat
def k0_dev6 (d0 : Dev nD) : Nat :=
  let c0_i32_66 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_65 : BitVec 32 := 4#32
  let v65 : BitVec 32 := Scalar.muli v2 c4_i32_65
  let v66 : BitVec 32 := Scalar.addi c0_i32_66 v65
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v67 : BitVec 32 := Scalar.muli v5 c2_i32_67
  let v68 : BitVec 32 := Scalar.addi v66 v67
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_68 : BitVec 32 := 1#32
  let v69 : BitVec 32 := Scalar.muli v9 c1_i32_68
  let v70 : BitVec 32 := Scalar.addi v68 v69
  v70.toNat
def k0_dev7 (d0 : Dev nD) : Nat :=
  let c0_i32_78 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_77 : BitVec 32 := 4#32
  let v77 : BitVec 32 := Scalar.muli v2 c4_i32_77
  let v78 : BitVec 32 := Scalar.addi c0_i32_78 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_79 : BitVec 32 := 2#32
  let v79 : BitVec 32 := Scalar.muli v5 c2_i32_79
  let v80 : BitVec 32 := Scalar.addi v78 v79
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_80 : BitVec 32 := 1#32
  let v81 : BitVec 32 := Scalar.muli v9 c1_i32_80
  let v82 : BitVec 32 := Scalar.addi v80 v81
  v82.toNat
def k0_dev8 (d0 : Dev nD) : Nat :=
  let c0_i32_91 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_90 : BitVec 32 := 4#32
  let v89 : BitVec 32 := Scalar.muli v2 c4_i32_90
  let v90 : BitVec 32 := Scalar.addi c0_i32_91 v89
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_92 : BitVec 32 := 2#32
  let v91 : BitVec 32 := Scalar.muli v5 c2_i32_92
  let v92 : BitVec 32 := Scalar.addi v90 v91
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_93 : BitVec 32 := 1#32
  let v93 : BitVec 32 := Scalar.muli v9 c1_i32_93
  let v94 : BitVec 32 := Scalar.addi v92 v93
  v94.toNat
def k0_dev9 (d0 : Dev nD) : Nat :=
  let c0_i32_103 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_102 : BitVec 32 := 4#32
  let v101 : BitVec 32 := Scalar.muli v2 c4_i32_102
  let v102 : BitVec 32 := Scalar.addi c0_i32_103 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_104 : BitVec 32 := 2#32
  let v103 : BitVec 32 := Scalar.muli v5 c2_i32_104
  let v104 : BitVec 32 := Scalar.addi v102 v103
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_105 : BitVec 32 := 1#32
  let v105 : BitVec 32 := Scalar.muli v9 c1_i32_105
  let v106 : BitVec 32 := Scalar.addi v104 v105
  v106.toNat
abbrev stage0_0 : Fin 1 → Memref sig .tc .vmem S2x256x8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x256x8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  hamt_1 : (1#32 : BitVec 32).msb = false
  inb_S8_S1_0 : ∀ a, (![0] : Fin 1 → Nat) a + S1.size a ≤ S8.size a
  squeezes_S1_S_ : S1.Squeezes S_
  inb_S2x256x8x64_S2x64x8x64_0_0_0_0 : ∀ a, (![0, 0, 0, 0] : Fin 4 → Nat) a + S2x64x8x64.size a ≤ S2x256x8x64.size a
  inb_S8_S1_1 : ∀ a, (![1] : Fin 1 → Nat) a + S1.size a ≤ S8.size a
  inb_S8_S1_2 : ∀ a, (![2] : Fin 1 → Nat) a + S1.size a ≤ S8.size a
  inb_S2x256x8x64_S2x64x8x64_0_64_0_0 : ∀ a, (![0, 64, 0, 0] : Fin 4 → Nat) a + S2x64x8x64.size a ≤ S2x256x8x64.size a
  inb_S8_S1_3 : ∀ a, (![3] : Fin 1 → Nat) a + S1.size a ≤ S8.size a
  inb_S8_S1_4 : ∀ a, (![4] : Fin 1 → Nat) a + S1.size a ≤ S8.size a
  inb_S2x256x8x64_S2x64x8x64_0_128_0_0 : ∀ a, (![0, 128, 0, 0] : Fin 4 → Nat) a + S2x64x8x64.size a ≤ S2x256x8x64.size a
  inb_S8_S1_5 : ∀ a, (![5] : Fin 1 → Nat) a + S1.size a ≤ S8.size a
  inb_S8_S1_6 : ∀ a, (![6] : Fin 1 → Nat) a + S1.size a ≤ S8.size a
  inb_S2x256x8x64_S2x64x8x64_0_192_0_0 : ∀ a, (![0, 192, 0, 0] : Fin 4 → Nat) a + S2x64x8x64.size a ≤ S2x256x8x64.size a
  inb_S8_S1_7 : ∀ a, (![7] : Fin 1 → Nat) a + S1.size a ≤ S8.size a
  inb_S2x256x8x64_S1x256x1x64_0_0_0_0 : ∀ a, (![0, 0, 0, 0] : Fin 4 → Nat) a + S1x256x1x64.size a ≤ S2x256x8x64.size a
  h_S1x256x1x64 : 0 < S1x256x1x64.numel
  shapeCasts_S1x256x1x64_S256x64 : S1x256x1x64.ShapeCasts S256x64
  inb_S2x8x256x64_S1x1x256x64_0_0_0_0 : ∀ a, (![0, 0, 0, 0] : Fin 4 → Nat) a + S1x1x256x64.size a ≤ S2x8x256x64.size a
  h_S1x1x256x64 : 0 < S1x1x256x64.numel
  shapeCasts_S1x1x256x64_S256x64 : S1x1x256x64.ShapeCasts S256x64
  shapeCasts_S256x64_S1x1x256x64 : S256x64.ShapeCasts S1x1x256x64
  reduces_S256x256_S256 : S256x256.Reduces [1] S256
  shapeCasts_S256_S256x1 : S256.ShapeCasts S256x1
  inb_S2x8x256x1_S1x1x256x1_0_0_0_0 : ∀ a, (![0, 0, 0, 0] : Fin 4 → Nat) a + S1x1x256x1.size a ≤ S2x8x256x1.size a
  h_S1x1x256x1 : 0 < S1x1x256x1.numel
  shapeCasts_S1x1x256x1_S256x1 : S1x1x256x1.ShapeCasts S256x1
  shapeCasts_S256x1_S1x1x256x1 : S256x1.ShapeCasts S1x1x256x1
  shapeCasts_S256x64_S1x256x1x64 : S256x64.ShapeCasts S1x256x1x64
  inb_S2x256x8x64_S1x256x1x64_0_0_1_0 : ∀ a, (![0, 0, 1, 0] : Fin 4 → Nat) a + S1x256x1x64.size a ≤ S2x256x8x64.size a
  inb_S2x8x256x64_S1x1x256x64_0_1_0_0 : ∀ a, (![0, 1, 0, 0] : Fin 4 → Nat) a + S1x1x256x64.size a ≤ S2x8x256x64.size a
  inb_S2x8x256x1_S1x1x256x1_0_1_0_0 : ∀ a, (![0, 1, 0, 0] : Fin 4 → Nat) a + S1x1x256x1.size a ≤ S2x8x256x1.size a
  inb_S2x256x8x64_S1x256x1x64_0_0_2_0 : ∀ a, (![0, 0, 2, 0] : Fin 4 → Nat) a + S1x256x1x64.size a ≤ S2x256x8x64.size a
  inb_S2x8x256x64_S1x1x256x64_0_2_0_0 : ∀ a, (![0, 2, 0, 0] : Fin 4 → Nat) a + S1x1x256x64.size a ≤ S2x8x256x64.size a
  inb_S2x8x256x1_S1x1x256x1_0_2_0_0 : ∀ a, (![0, 2, 0, 0] : Fin 4 → Nat) a + S1x1x256x1.size a ≤ S2x8x256x1.size a
  inb_S2x256x8x64_S1x256x1x64_0_0_3_0 : ∀ a, (![0, 0, 3, 0] : Fin 4 → Nat) a + S1x256x1x64.size a ≤ S2x256x8x64.size a
  inb_S2x8x256x64_S1x1x256x64_0_3_0_0 : ∀ a, (![0, 3, 0, 0] : Fin 4 → Nat) a + S1x1x256x64.size a ≤ S2x8x256x64.size a
  inb_S2x8x256x1_S1x1x256x1_0_3_0_0 : ∀ a, (![0, 3, 0, 0] : Fin 4 → Nat) a + S1x1x256x1.size a ≤ S2x8x256x1.size a
  inb_S2x256x8x64_S1x256x1x64_0_0_4_0 : ∀ a, (![0, 0, 4, 0] : Fin 4 → Nat) a + S1x256x1x64.size a ≤ S2x256x8x64.size a
  inb_S2x8x256x64_S1x1x256x64_0_4_0_0 : ∀ a, (![0, 4, 0, 0] : Fin 4 → Nat) a + S1x1x256x64.size a ≤ S2x8x256x64.size a
  inb_S2x8x256x1_S1x1x256x1_0_4_0_0 : ∀ a, (![0, 4, 0, 0] : Fin 4 → Nat) a + S1x1x256x1.size a ≤ S2x8x256x1.size a
  inb_S2x256x8x64_S1x256x1x64_0_0_5_0 : ∀ a, (![0, 0, 5, 0] : Fin 4 → Nat) a + S1x256x1x64.size a ≤ S2x256x8x64.size a
  inb_S2x8x256x64_S1x1x256x64_0_5_0_0 : ∀ a, (![0, 5, 0, 0] : Fin 4 → Nat) a + S1x1x256x64.size a ≤ S2x8x256x64.size a
  inb_S2x8x256x1_S1x1x256x1_0_5_0_0 : ∀ a, (![0, 5, 0, 0] : Fin 4 → Nat) a + S1x1x256x1.size a ≤ S2x8x256x1.size a
  inb_S2x256x8x64_S1x256x1x64_0_0_6_0 : ∀ a, (![0, 0, 6, 0] : Fin 4 → Nat) a + S1x256x1x64.size a ≤ S2x256x8x64.size a
  inb_S2x8x256x64_S1x1x256x64_0_6_0_0 : ∀ a, (![0, 6, 0, 0] : Fin 4 → Nat) a + S1x1x256x64.size a ≤ S2x8x256x64.size a
  inb_S2x8x256x1_S1x1x256x1_0_6_0_0 : ∀ a, (![0, 6, 0, 0] : Fin 4 → Nat) a + S1x1x256x1.size a ≤ S2x8x256x1.size a
  inb_S2x256x8x64_S1x256x1x64_0_0_7_0 : ∀ a, (![0, 0, 7, 0] : Fin 4 → Nat) a + S1x256x1x64.size a ≤ S2x256x8x64.size a
  inb_S2x8x256x64_S1x1x256x64_0_7_0_0 : ∀ a, (![0, 7, 0, 0] : Fin 4 → Nat) a + S1x1x256x64.size a ≤ S2x8x256x64.size a
  inb_S2x8x256x1_S1x1x256x1_0_7_0_0 : ∀ a, (![0, 7, 0, 0] : Fin 4 → Nat) a + S1x1x256x1.size a ≤ S2x8x256x1.size a
  inb_S2x256x8x64_S1x256x1x64_1_0_0_0 : ∀ a, (![1, 0, 0, 0] : Fin 4 → Nat) a + S1x256x1x64.size a ≤ S2x256x8x64.size a
  inb_S2x8x256x64_S1x1x256x64_1_0_0_0 : ∀ a, (![1, 0, 0, 0] : Fin 4 → Nat) a + S1x1x256x64.size a ≤ S2x8x256x64.size a
  inb_S2x8x256x1_S1x1x256x1_1_0_0_0 : ∀ a, (![1, 0, 0, 0] : Fin 4 → Nat) a + S1x1x256x1.size a ≤ S2x8x256x1.size a
  inb_S2x256x8x64_S1x256x1x64_1_0_1_0 : ∀ a, (![1, 0, 1, 0] : Fin 4 → Nat) a + S1x256x1x64.size a ≤ S2x256x8x64.size a
  inb_S2x8x256x64_S1x1x256x64_1_1_0_0 : ∀ a, (![1, 1, 0, 0] : Fin 4 → Nat) a + S1x1x256x64.size a ≤ S2x8x256x64.size a
  inb_S2x8x256x1_S1x1x256x1_1_1_0_0 : ∀ a, (![1, 1, 0, 0] : Fin 4 → Nat) a + S1x1x256x1.size a ≤ S2x8x256x1.size a
  inb_S2x256x8x64_S1x256x1x64_1_0_2_0 : ∀ a, (![1, 0, 2, 0] : Fin 4 → Nat) a + S1x256x1x64.size a ≤ S2x256x8x64.size a
  inb_S2x8x256x64_S1x1x256x64_1_2_0_0 : ∀ a, (![1, 2, 0, 0] : Fin 4 → Nat) a + S1x1x256x64.size a ≤ S2x8x256x64.size a
  inb_S2x8x256x1_S1x1x256x1_1_2_0_0 : ∀ a, (![1, 2, 0, 0] : Fin 4 → Nat) a + S1x1x256x1.size a ≤ S2x8x256x1.size a
  inb_S2x256x8x64_S1x256x1x64_1_0_3_0 : ∀ a, (![1, 0, 3, 0] : Fin 4 → Nat) a + S1x256x1x64.size a ≤ S2x256x8x64.size a
  inb_S2x8x256x64_S1x1x256x64_1_3_0_0 : ∀ a, (![1, 3, 0, 0] : Fin 4 → Nat) a + S1x1x256x64.size a ≤ S2x8x256x64.size a
  inb_S2x8x256x1_S1x1x256x1_1_3_0_0 : ∀ a, (![1, 3, 0, 0] : Fin 4 → Nat) a + S1x1x256x1.size a ≤ S2x8x256x1.size a
  inb_S2x256x8x64_S1x256x1x64_1_0_4_0 : ∀ a, (![1, 0, 4, 0] : Fin 4 → Nat) a + S1x256x1x64.size a ≤ S2x256x8x64.size a
  inb_S2x8x256x64_S1x1x256x64_1_4_0_0 : ∀ a, (![1, 4, 0, 0] : Fin 4 → Nat) a + S1x1x256x64.size a ≤ S2x8x256x64.size a
  inb_S2x8x256x1_S1x1x256x1_1_4_0_0 : ∀ a, (![1, 4, 0, 0] : Fin 4 → Nat) a + S1x1x256x1.size a ≤ S2x8x256x1.size a
  inb_S2x256x8x64_S1x256x1x64_1_0_5_0 : ∀ a, (![1, 0, 5, 0] : Fin 4 → Nat) a + S1x256x1x64.size a ≤ S2x256x8x64.size a
  inb_S2x8x256x64_S1x1x256x64_1_5_0_0 : ∀ a, (![1, 5, 0, 0] : Fin 4 → Nat) a + S1x1x256x64.size a ≤ S2x8x256x64.size a
  inb_S2x8x256x1_S1x1x256x1_1_5_0_0 : ∀ a, (![1, 5, 0, 0] : Fin 4 → Nat) a + S1x1x256x1.size a ≤ S2x8x256x1.size a
  inb_S2x256x8x64_S1x256x1x64_1_0_6_0 : ∀ a, (![1, 0, 6, 0] : Fin 4 → Nat) a + S1x256x1x64.size a ≤ S2x256x8x64.size a
  inb_S2x8x256x64_S1x1x256x64_1_6_0_0 : ∀ a, (![1, 6, 0, 0] : Fin 4 → Nat) a + S1x1x256x64.size a ≤ S2x8x256x64.size a
  inb_S2x8x256x1_S1x1x256x1_1_6_0_0 : ∀ a, (![1, 6, 0, 0] : Fin 4 → Nat) a + S1x1x256x1.size a ≤ S2x8x256x1.size a
  inb_S2x256x8x64_S1x256x1x64_1_0_7_0 : ∀ a, (![1, 0, 7, 0] : Fin 4 → Nat) a + S1x256x1x64.size a ≤ S2x256x8x64.size a
  inb_S2x8x256x64_S1x1x256x64_1_7_0_0 : ∀ a, (![1, 7, 0, 0] : Fin 4 → Nat) a + S1x1x256x64.size a ≤ S2x8x256x64.size a
  inb_S2x8x256x1_S1x1x256x1_1_7_0_0 : ∀ a, (![1, 7, 0, 0] : Fin 4 → Nat) a + S1x1x256x1.size a ≤ S2x8x256x1.size a
  inb_S2x256x8x64_S1x64x1x64_0_0_0_0 : ∀ a, (![0, 0, 0, 0] : Fin 4 → Nat) a + S1x64x1x64.size a ≤ S2x256x8x64.size a
  h_S1x64x1x64 : 0 < S1x64x1x64.numel
  shapeCasts_S1x64x1x64_S64x64 : S1x64x1x64.ShapeCasts S64x64
  reduces_S256x64_S256 : S256x64.Reduces [1] S256
  inb_S2x256x8x64_S1x64x1x64_0_0_1_0 : ∀ a, (![0, 0, 1, 0] : Fin 4 → Nat) a + S1x64x1x64.size a ≤ S2x256x8x64.size a
  inb_S2x256x8x64_S1x64x1x64_0_0_2_0 : ∀ a, (![0, 0, 2, 0] : Fin 4 → Nat) a + S1x64x1x64.size a ≤ S2x256x8x64.size a
  inb_S2x256x8x64_S1x64x1x64_0_0_3_0 : ∀ a, (![0, 0, 3, 0] : Fin 4 → Nat) a + S1x64x1x64.size a ≤ S2x256x8x64.size a
  inb_S2x256x8x64_S1x64x1x64_0_0_4_0 : ∀ a, (![0, 0, 4, 0] : Fin 4 → Nat) a + S1x64x1x64.size a ≤ S2x256x8x64.size a
  inb_S2x256x8x64_S1x64x1x64_0_0_5_0 : ∀ a, (![0, 0, 5, 0] : Fin 4 → Nat) a + S1x64x1x64.size a ≤ S2x256x8x64.size a
  inb_S2x256x8x64_S1x64x1x64_0_0_6_0 : ∀ a, (![0, 0, 6, 0] : Fin 4 → Nat) a + S1x64x1x64.size a ≤ S2x256x8x64.size a
  inb_S2x256x8x64_S1x64x1x64_0_0_7_0 : ∀ a, (![0, 0, 7, 0] : Fin 4 → Nat) a + S1x64x1x64.size a ≤ S2x256x8x64.size a
  inb_S2x256x8x64_S1x64x1x64_1_0_0_0 : ∀ a, (![1, 0, 0, 0] : Fin 4 → Nat) a + S1x64x1x64.size a ≤ S2x256x8x64.size a
  inb_S2x256x8x64_S1x64x1x64_1_0_1_0 : ∀ a, (![1, 0, 1, 0] : Fin 4 → Nat) a + S1x64x1x64.size a ≤ S2x256x8x64.size a
  inb_S2x256x8x64_S1x64x1x64_1_0_2_0 : ∀ a, (![1, 0, 2, 0] : Fin 4 → Nat) a + S1x64x1x64.size a ≤ S2x256x8x64.size a
  inb_S2x256x8x64_S1x64x1x64_1_0_3_0 : ∀ a, (![1, 0, 3, 0] : Fin 4 → Nat) a + S1x64x1x64.size a ≤ S2x256x8x64.size a
  inb_S2x256x8x64_S1x64x1x64_1_0_4_0 : ∀ a, (![1, 0, 4, 0] : Fin 4 → Nat) a + S1x64x1x64.size a ≤ S2x256x8x64.size a
  inb_S2x256x8x64_S1x64x1x64_1_0_5_0 : ∀ a, (![1, 0, 5, 0] : Fin 4 → Nat) a + S1x64x1x64.size a ≤ S2x256x8x64.size a
  inb_S2x256x8x64_S1x64x1x64_1_0_6_0 : ∀ a, (![1, 0, 6, 0] : Fin 4 → Nat) a + S1x64x1x64.size a ≤ S2x256x8x64.size a
  inb_S2x256x8x64_S1x64x1x64_1_0_7_0 : ∀ a, (![1, 0, 7, 0] : Fin 4 → Nat) a + S1x64x1x64.size a ≤ S2x256x8x64.size a
  inb_S2x256x8x64_S1x64x1x64_0_64_0_0 : ∀ a, (![0, 64, 0, 0] : Fin 4 → Nat) a + S1x64x1x64.size a ≤ S2x256x8x64.size a
  inb_S2x256x8x64_S1x64x1x64_0_64_1_0 : ∀ a, (![0, 64, 1, 0] : Fin 4 → Nat) a + S1x64x1x64.size a ≤ S2x256x8x64.size a
  inb_S2x256x8x64_S1x64x1x64_0_64_2_0 : ∀ a, (![0, 64, 2, 0] : Fin 4 → Nat) a + S1x64x1x64.size a ≤ S2x256x8x64.size a
  inb_S2x256x8x64_S1x64x1x64_0_64_3_0 : ∀ a, (![0, 64, 3, 0] : Fin 4 → Nat) a + S1x64x1x64.size a ≤ S2x256x8x64.size a
  inb_S2x256x8x64_S1x64x1x64_0_64_4_0 : ∀ a, (![0, 64, 4, 0] : Fin 4 → Nat) a + S1x64x1x64.size a ≤ S2x256x8x64.size a
  inb_S2x256x8x64_S1x64x1x64_0_64_5_0 : ∀ a, (![0, 64, 5, 0] : Fin 4 → Nat) a + S1x64x1x64.size a ≤ S2x256x8x64.size a
  inb_S2x256x8x64_S1x64x1x64_0_64_6_0 : ∀ a, (![0, 64, 6, 0] : Fin 4 → Nat) a + S1x64x1x64.size a ≤ S2x256x8x64.size a
  inb_S2x256x8x64_S1x64x1x64_0_64_7_0 : ∀ a, (![0, 64, 7, 0] : Fin 4 → Nat) a + S1x64x1x64.size a ≤ S2x256x8x64.size a
  inb_S2x256x8x64_S1x64x1x64_1_64_0_0 : ∀ a, (![1, 64, 0, 0] : Fin 4 → Nat) a + S1x64x1x64.size a ≤ S2x256x8x64.size a
  inb_S2x256x8x64_S1x64x1x64_1_64_1_0 : ∀ a, (![1, 64, 1, 0] : Fin 4 → Nat) a + S1x64x1x64.size a ≤ S2x256x8x64.size a
  inb_S2x256x8x64_S1x64x1x64_1_64_2_0 : ∀ a, (![1, 64, 2, 0] : Fin 4 → Nat) a + S1x64x1x64.size a ≤ S2x256x8x64.size a
  inb_S2x256x8x64_S1x64x1x64_1_64_3_0 : ∀ a, (![1, 64, 3, 0] : Fin 4 → Nat) a + S1x64x1x64.size a ≤ S2x256x8x64.size a
  inb_S2x256x8x64_S1x64x1x64_1_64_4_0 : ∀ a, (![1, 64, 4, 0] : Fin 4 → Nat) a + S1x64x1x64.size a ≤ S2x256x8x64.size a
  inb_S2x256x8x64_S1x64x1x64_1_64_5_0 : ∀ a, (![1, 64, 5, 0] : Fin 4 → Nat) a + S1x64x1x64.size a ≤ S2x256x8x64.size a
  inb_S2x256x8x64_S1x64x1x64_1_64_6_0 : ∀ a, (![1, 64, 6, 0] : Fin 4 → Nat) a + S1x64x1x64.size a ≤ S2x256x8x64.size a
  inb_S2x256x8x64_S1x64x1x64_1_64_7_0 : ∀ a, (![1, 64, 7, 0] : Fin 4 → Nat) a + S1x64x1x64.size a ≤ S2x256x8x64.size a
  inb_S2x256x8x64_S1x64x1x64_0_128_0_0 : ∀ a, (![0, 128, 0, 0] : Fin 4 → Nat) a + S1x64x1x64.size a ≤ S2x256x8x64.size a
  inb_S2x256x8x64_S1x64x1x64_0_128_1_0 : ∀ a, (![0, 128, 1, 0] : Fin 4 → Nat) a + S1x64x1x64.size a ≤ S2x256x8x64.size a
  inb_S2x256x8x64_S1x64x1x64_0_128_2_0 : ∀ a, (![0, 128, 2, 0] : Fin 4 → Nat) a + S1x64x1x64.size a ≤ S2x256x8x64.size a
  inb_S2x256x8x64_S1x64x1x64_0_128_3_0 : ∀ a, (![0, 128, 3, 0] : Fin 4 → Nat) a + S1x64x1x64.size a ≤ S2x256x8x64.size a
  inb_S2x256x8x64_S1x64x1x64_0_128_4_0 : ∀ a, (![0, 128, 4, 0] : Fin 4 → Nat) a + S1x64x1x64.size a ≤ S2x256x8x64.size a
  inb_S2x256x8x64_S1x64x1x64_0_128_5_0 : ∀ a, (![0, 128, 5, 0] : Fin 4 → Nat) a + S1x64x1x64.size a ≤ S2x256x8x64.size a
  inb_S2x256x8x64_S1x64x1x64_0_128_6_0 : ∀ a, (![0, 128, 6, 0] : Fin 4 → Nat) a + S1x64x1x64.size a ≤ S2x256x8x64.size a
  inb_S2x256x8x64_S1x64x1x64_0_128_7_0 : ∀ a, (![0, 128, 7, 0] : Fin 4 → Nat) a + S1x64x1x64.size a ≤ S2x256x8x64.size a
  inb_S2x256x8x64_S1x64x1x64_1_128_0_0 : ∀ a, (![1, 128, 0, 0] : Fin 4 → Nat) a + S1x64x1x64.size a ≤ S2x256x8x64.size a
  inb_S2x256x8x64_S1x64x1x64_1_128_1_0 : ∀ a, (![1, 128, 1, 0] : Fin 4 → Nat) a + S1x64x1x64.size a ≤ S2x256x8x64.size a
  inb_S2x256x8x64_S1x64x1x64_1_128_2_0 : ∀ a, (![1, 128, 2, 0] : Fin 4 → Nat) a + S1x64x1x64.size a ≤ S2x256x8x64.size a
  inb_S2x256x8x64_S1x64x1x64_1_128_3_0 : ∀ a, (![1, 128, 3, 0] : Fin 4 → Nat) a + S1x64x1x64.size a ≤ S2x256x8x64.size a
  inb_S2x256x8x64_S1x64x1x64_1_128_4_0 : ∀ a, (![1, 128, 4, 0] : Fin 4 → Nat) a + S1x64x1x64.size a ≤ S2x256x8x64.size a
  inb_S2x256x8x64_S1x64x1x64_1_128_5_0 : ∀ a, (![1, 128, 5, 0] : Fin 4 → Nat) a + S1x64x1x64.size a ≤ S2x256x8x64.size a
  inb_S2x256x8x64_S1x64x1x64_1_128_6_0 : ∀ a, (![1, 128, 6, 0] : Fin 4 → Nat) a + S1x64x1x64.size a ≤ S2x256x8x64.size a
  inb_S2x256x8x64_S1x64x1x64_1_128_7_0 : ∀ a, (![1, 128, 7, 0] : Fin 4 → Nat) a + S1x64x1x64.size a ≤ S2x256x8x64.size a
  inb_S2x256x8x64_S1x64x1x64_0_192_0_0 : ∀ a, (![0, 192, 0, 0] : Fin 4 → Nat) a + S1x64x1x64.size a ≤ S2x256x8x64.size a
  inb_S2x256x8x64_S1x64x1x64_0_192_1_0 : ∀ a, (![0, 192, 1, 0] : Fin 4 → Nat) a + S1x64x1x64.size a ≤ S2x256x8x64.size a
  inb_S2x256x8x64_S1x64x1x64_0_192_2_0 : ∀ a, (![0, 192, 2, 0] : Fin 4 → Nat) a + S1x64x1x64.size a ≤ S2x256x8x64.size a
  inb_S2x256x8x64_S1x64x1x64_0_192_3_0 : ∀ a, (![0, 192, 3, 0] : Fin 4 → Nat) a + S1x64x1x64.size a ≤ S2x256x8x64.size a
  inb_S2x256x8x64_S1x64x1x64_0_192_4_0 : ∀ a, (![0, 192, 4, 0] : Fin 4 → Nat) a + S1x64x1x64.size a ≤ S2x256x8x64.size a
  inb_S2x256x8x64_S1x64x1x64_0_192_5_0 : ∀ a, (![0, 192, 5, 0] : Fin 4 → Nat) a + S1x64x1x64.size a ≤ S2x256x8x64.size a
  inb_S2x256x8x64_S1x64x1x64_0_192_6_0 : ∀ a, (![0, 192, 6, 0] : Fin 4 → Nat) a + S1x64x1x64.size a ≤ S2x256x8x64.size a
  inb_S2x256x8x64_S1x64x1x64_0_192_7_0 : ∀ a, (![0, 192, 7, 0] : Fin 4 → Nat) a + S1x64x1x64.size a ≤ S2x256x8x64.size a
  inb_S2x256x8x64_S1x64x1x64_1_192_0_0 : ∀ a, (![1, 192, 0, 0] : Fin 4 → Nat) a + S1x64x1x64.size a ≤ S2x256x8x64.size a
  inb_S2x256x8x64_S1x64x1x64_1_192_1_0 : ∀ a, (![1, 192, 1, 0] : Fin 4 → Nat) a + S1x64x1x64.size a ≤ S2x256x8x64.size a
  inb_S2x256x8x64_S1x64x1x64_1_192_2_0 : ∀ a, (![1, 192, 2, 0] : Fin 4 → Nat) a + S1x64x1x64.size a ≤ S2x256x8x64.size a
  inb_S2x256x8x64_S1x64x1x64_1_192_3_0 : ∀ a, (![1, 192, 3, 0] : Fin 4 → Nat) a + S1x64x1x64.size a ≤ S2x256x8x64.size a
  inb_S2x256x8x64_S1x64x1x64_1_192_4_0 : ∀ a, (![1, 192, 4, 0] : Fin 4 → Nat) a + S1x64x1x64.size a ≤ S2x256x8x64.size a
  inb_S2x256x8x64_S1x64x1x64_1_192_5_0 : ∀ a, (![1, 192, 5, 0] : Fin 4 → Nat) a + S1x64x1x64.size a ≤ S2x256x8x64.size a
  inb_S2x256x8x64_S1x64x1x64_1_192_6_0 : ∀ a, (![1, 192, 6, 0] : Fin 4 → Nat) a + S1x64x1x64.size a ≤ S2x256x8x64.size a
  inb_S2x256x8x64_S1x64x1x64_1_192_7_0 : ∀ a, (![1, 192, 7, 0] : Fin 4 → Nat) a + S1x64x1x64.size a ≤ S2x256x8x64.size a
  broadcasts_S256x1_S256x64 : S256x1.Broadcasts S256x64
  dot_S256x64_S256x64_S256x256_1_1_0_0_n_n_wf : DotDims.WF S256x64 S256x64 S256x256 [1] [1] [0] [0] [] []
  dot_S256x256_S256x64_S256x64_1_0_0_1_n_n_wf : DotDims.WF S256x256 S256x64 S256x64 [1] [0] [0] [1] [] []
  dot_S256x64_S64x64_S256x64_1_1_0_0_n_n_wf : DotDims.WF S256x64 S64x64 S256x64 [1] [1] [0] [0] [] []
  dot_S256x64_S64x64_S256x64_1_0_0_1_n_n_wf : DotDims.WF S256x64 S64x64 S256x64 [1] [0] [0] [1] [] []
  hcc0_scratch5 : 4 + S8.numel ≤ 20
  hcc0_scratch6 : 12 + S8.numel ≤ 20
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

abbrev cc0_scratch5 : DmaSems sig S8 := SemArray.consecutive 4 S8 hcc0_scratch5
abbrev cc0_scratch6 : DmaSems sig S8 := SemArray.consecutive 12 S8 hcc0_scratch6
def dot_S256x64_S256x64_S256x256_1_1_0_0_n_n : DotDims S256x64 S256x64 S256x256 where
  lhsContracting := [1]
  rhsContracting := [1]
  lhsNonContracting := [0]
  rhsNonContracting := [0]
  lhsBatch := []
  rhsBatch := []
  wf := dot_S256x64_S256x64_S256x256_1_1_0_0_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S256x64_S64x64_S256x64_1_1_0_0_n_n : DotDims S256x64 S64x64 S256x64 where
  lhsContracting := [1]
  rhsContracting := [1]
  lhsNonContracting := [0]
  rhsNonContracting := [0]
  lhsBatch := []
  rhsBatch := []
  wf := dot_S256x64_S64x64_S256x64_1_1_0_0_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x512x8x64 : Shape := ⟨4, ![2, 512, 8, 64]⟩
abbrev S2x8x512x512 : Shape := ⟨4, ![2, 8, 512, 512]⟩
abbrev S_ : Shape := ⟨0, ![]⟩
abbrev S2x8x512 : Shape := ⟨3, ![2, 8, 512]⟩
abbrev S2x8x512x1 : Shape := ⟨4, ![2, 8, 512, 1]⟩
abbrev S2x8x64x512 : Shape := ⟨4, ![2, 8, 64, 512]⟩

abbrev nBuf : Space → Nat
  | .hbm => 20
  | .vmem => 0
  | .smem => 0
  | _ => 0

abbrev bufTy : (tb : Table) → Fin (tcTables nBuf tb) → BufTy
  | .hbm, ⟨0, _⟩ => ⟨S2x512x8x64, .f32⟩
  | .hbm, ⟨1, _⟩ => ⟨S2x512x8x64, .f32⟩
  | .hbm, ⟨2, _⟩ => ⟨S2x512x8x64, .f32⟩
  | .hbm, ⟨3, _⟩ => ⟨S2x8x512x512, .f32⟩
  | .hbm, ⟨4, _⟩ => ⟨S_, .f32⟩
  | .hbm, ⟨5, _⟩ => ⟨S2x8x512x512, .f32⟩
  | .hbm, ⟨6, _⟩ => ⟨S2x8x512x512, .f32⟩
  | .hbm, ⟨7, _⟩ => ⟨S_, .f32⟩
  | .hbm, ⟨8, _⟩ => ⟨S2x8x512, .f32⟩
  | .hbm, ⟨9, _⟩ => ⟨S2x8x512x1, .f32⟩
  | .hbm, ⟨10, _⟩ => ⟨S2x8x512x512, .f32⟩
  | .hbm, ⟨11, _⟩ => ⟨S2x8x512x512, .f32⟩
  | .hbm, ⟨12, _⟩ => ⟨S2x8x512x512, .f32⟩
  | .hbm, ⟨13, _⟩ => ⟨S_, .f32⟩
  | .hbm, ⟨14, _⟩ => ⟨S2x8x512, .f32⟩
  | .hbm, ⟨15, _⟩ => ⟨S2x8x512x1, .f32⟩
  | .hbm, ⟨16, _⟩ => ⟨S2x8x512x512, .f32⟩
  | .hbm, ⟨17, _⟩ => ⟨S2x8x512x512, .f32⟩
  | .hbm, ⟨18, _⟩ => ⟨S2x8x64x512, .f32⟩
  | .hbm, ⟨19, _⟩ => ⟨S2x512x8x64, .f32⟩
  | _, _ => ⟨S2x512x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S2x8x512x512 : S_.BroadcastsInDim S2x8x512x512 (![] : Fin 0 → Fin S2x8x512x512.rank)
  reducesTo_S2x8x512x512_S2x8x512_d3 : S2x8x512x512.ReducesTo [3] S2x8x512
  h_S_ : 0 < S_.numel
  bcast_S2x8x512_S2x8x512x1_0_1_2 : S2x8x512.BroadcastsInDim S2x8x512x1 (![0, 1, 2] : Fin 3 → Fin S2x8x512x1.rank)
  bcast_S2x8x512x1_S2x8x512x512_0_1_2_3 : S2x8x512x1.BroadcastsInDim S2x8x512x512 (![0, 1, 2, 3] : Fin 4 → Fin S2x8x512x512.rank)
  transposes_S2x8x64x512_S2x512x8x64_0_3_1_2 : S2x8x64x512.Transposes [0, 3, 1, 2] S2x512x8x64
  dot_S2x512x8x64_S2x512x8x64_S2x8x512x512_3_3_1_1_02_02_wf : DotDims.WF S2x512x8x64 S2x512x8x64 S2x8x512x512 [3] [3] [1] [1] [0, 2] [0, 2]
  dot_S2x512x8x64_S2x8x512x512_S2x8x64x512_1_3_3_2_02_01_wf : DotDims.WF S2x512x8x64 S2x8x512x512 S2x8x64x512 [1] [3] [3] [2] [0, 2] [0, 1]

variable [Facts₀]

def dot_S2x512x8x64_S2x512x8x64_S2x8x512x512_3_3_1_1_02_02 : DotDims S2x512x8x64 S2x512x8x64 S2x8x512x512 where
  lhsContracting := [3]
  rhsContracting := [3]
  lhsNonContracting := [1]
  rhsNonContracting := [1]
  lhsBatch := [0, 2]
  rhsBatch := [0, 2]
  wf := dot_S2x512x8x64_S2x512x8x64_S2x8x512x512_3_3_1_1_02_02_wf
def dot_S2x512x8x64_S2x8x512x512_S2x8x64x512_1_3_3_2_02_01 : DotDims S2x512x8x64 S2x8x512x512 S2x8x64x512 where
  lhsContracting := [1]
  rhsContracting := [3]
  lhsNonContracting := [3]
  rhsNonContracting := [2]
  lhsBatch := [0, 2]
  rhsBatch := [0, 1]
  wf := dot_S2x512x8x64_S2x8x512x512_S2x8x64x512_1_3_3_2_02_01_wf

class Facts : Prop extends Facts₀ where

variable [Facts]
-- ==== Proof.Protocol.lean ====
/-
  The exchange between a device and its partner along the mesh's z axis, as a schedule of rounds.

  Device c and peer c (the device that differs from c in its z coordinate only) each hold 256 rows of K and V.
  Each signals the other's barrier semaphore once and waits for one unit on its own: after that wait the partner
  is inside the kernel and its landing buffers are free. Then eight copies go to the partner, copy 2j carrying
  rows 64j … 64j+63 of K and copy 2j+1 the same rows of V, each with a send cell on the issuer and a receive
  cell on the partner. A device waits for a receive cell before it reads the rows that copy lands, and for its
  eight send cells at the very end. Every cell has one round with one duty.
-/
import proofs.«900412_g7700000000000413_dist_agattn_v7x_xyz2x2x2_z_b2_s256_h8_d64_f32_1_alg».proof.Proof.Gen.KernelIdeal
import proofs.«900412_g7700000000000413_dist_agattn_v7x_xyz2x2x2_z_b2_s256_h8_d64_f32_1_alg».proof.Proof.Gen.KernelIdeal.Skeleton
import proofs.«900412_g7700000000000413_dist_agattn_v7x_xyz2x2x2_z_b2_s256_h8_d64_f32_1_alg».proof.Proof.Gen.KernelIdeal.Launch
import proofs.«900412_g7700000000000413_dist_agattn_v7x_xyz2x2x2_z_b2_s256_h8_d64_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Two copies of the rounds algebra: the staging pipeline's and the exchange's -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## The partner -/

/-- Device 4x + 2y + z exchanges with 4x + 2y + (1 - z). -/
def peer (c : Dev nD) : Dev nD :=
  ⟨(4 * (c.val / 4) + 2 * ((c.val / 2) % 2) + 1) - (c.val % 2), by have := c.isLt; revert this; generalize c.val = v; decide +revert⟩

theorem peer_peer (c : Dev nD) : peer (peer c) = c := by revert c; decide
theorem peer_ne (c : Dev nD) : peer c ≠ c := by revert c; decide

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)
theorem dev6_eq (c : Dev nD) : (⟨k0_dev6 c, k0_dev6_lt c⟩ : Dev nD) = peer c := Fin.ext (k0_dev6_eq c)
theorem dev7_eq (c : Dev nD) : (⟨k0_dev7 c, k0_dev7_lt c⟩ : Dev nD) = peer c := Fin.ext (k0_dev7_eq c)
theorem dev8_eq (c : Dev nD) : (⟨k0_dev8 c, k0_dev8_lt c⟩ : Dev nD) = peer c := Fin.ext (k0_dev8_eq c)
theorem dev9_eq (c : Dev nD) : (⟨k0_dev9 c, k0_dev9_lt c⟩ : Dev nD) = peer c := Fin.ext (k0_dev9_eq c)

def swap : Dev nD ≃ Dev nD := ⟨peer, peer, peer_peer, peer_peer⟩

/-! ## Buffers, the rows of each copy, and the cells -/

abbrev qStg : Memref sig .tc .vmem S2x256x8x64 .f32 := Memref.whole cc0_stg0_0
abbrev kStg : Memref sig .tc .vmem S2x256x8x64 .f32 := Memref.whole cc0_stg1_0
abbrev vStg : Memref sig .tc .vmem S2x256x8x64 .f32 := Memref.whole cc0_stg2_0
abbrev oStg : Memref sig .tc .vmem S2x256x8x64 .f32 := Memref.whole cc0_stg3_0
abbrev kRx : Memref sig .tc .vmem S2x256x8x64 .f32 := Memref.whole cc0_scratch0
abbrev vRx : Memref sig .tc .vmem S2x256x8x64 .f32 := Memref.whole cc0_scratch1

/-- Rows 64j … 64j+63 along axis 1. -/
abbrev rows : Fin 4 → Rect S2x256x8x64
  | 0 => Rect.unit (s := S2x256x8x64) ![0, 0, 0, 0] S2x64x8x64.size inb_S2x256x8x64_S2x64x8x64_0_0_0_0
  | 1 => Rect.unit (s := S2x256x8x64) ![0, 64, 0, 0] S2x64x8x64.size inb_S2x256x8x64_S2x64x8x64_0_64_0_0
  | 2 => Rect.unit (s := S2x256x8x64) ![0, 128, 0, 0] S2x64x8x64.size inb_S2x256x8x64_S2x64x8x64_0_128_0_0
  | 3 => Rect.unit (s := S2x256x8x64) ![0, 192, 0, 0] S2x64x8x64.size inb_S2x256x8x64_S2x64x8x64_0_192_0_0

/-- Copy i = 2j carries rows j of K, copy i = 2j+1 rows j of V: its source in the issuer's input buffer, -/
abbrev srcM0 : Memref sig .tc .vmem S2x64x8x64 .f32 := kStg.slice (rows 0) (fun _ => rfl)
abbrev srcM1 : Memref sig .tc .vmem S2x64x8x64 .f32 := vStg.slice (rows 0) (fun _ => rfl)
abbrev srcM2 : Memref sig .tc .vmem S2x64x8x64 .f32 := kStg.slice (rows 1) (fun _ => rfl)
abbrev srcM3 : Memref sig .tc .vmem S2x64x8x64 .f32 := vStg.slice (rows 1) (fun _ => rfl)
abbrev srcM4 : Memref sig .tc .vmem S2x64x8x64 .f32 := kStg.slice (rows 2) (fun _ => rfl)
abbrev srcM5 : Memref sig .tc .vmem S2x64x8x64 .f32 := vStg.slice (rows 2) (fun _ => rfl)
abbrev srcM6 : Memref sig .tc .vmem S2x64x8x64 .f32 := kStg.slice (rows 3) (fun _ => rfl)
abbrev srcM7 : Memref sig .tc .vmem S2x64x8x64 .f32 := vStg.slice (rows 3) (fun _ => rfl)
/-- its destination in the partner's landing buffer, -/
abbrev dstM0 : Memref sig .tc .vmem S2x64x8x64 .f32 := kRx.slice (rows 0) (fun _ => rfl)
abbrev dstM1 : Memref sig .tc .vmem S2x64x8x64 .f32 := vRx.slice (rows 0) (fun _ => rfl)
abbrev dstM2 : Memref sig .tc .vmem S2x64x8x64 .f32 := kRx.slice (rows 1) (fun _ => rfl)
abbrev dstM3 : Memref sig .tc .vmem S2x64x8x64 .f32 := vRx.slice (rows 1) (fun _ => rfl)
abbrev dstM4 : Memref sig .tc .vmem S2x64x8x64 .f32 := kRx.slice (rows 2) (fun _ => rfl)
abbrev dstM5 : Memref sig .tc .vmem S2x64x8x64 .f32 := vRx.slice (rows 2) (fun _ => rfl)
abbrev dstM6 : Memref sig .tc .vmem S2x64x8x64 .f32 := kRx.slice (rows 3) (fun _ => rfl)
abbrev dstM7 : Memref sig .tc .vmem S2x64x8x64 .f32 := vRx.slice (rows 3) (fun _ => rfl)
/-- its send semaphore (on the issuer) and its receive semaphore (on the partner). -/
abbrev sendS0 : DmaSems sig S_ := (cc0_scratch5.slice (Rect.unit (s := S8) ![0] S1.size inb_S8_S1_0)).squeeze S_ squeezes_S1_S_
abbrev sendS1 : DmaSems sig S_ := (cc0_scratch5.slice (Rect.unit (s := S8) ![1] S1.size inb_S8_S1_1)).squeeze S_ squeezes_S1_S_
abbrev sendS2 : DmaSems sig S_ := (cc0_scratch5.slice (Rect.unit (s := S8) ![2] S1.size inb_S8_S1_2)).squeeze S_ squeezes_S1_S_
abbrev sendS3 : DmaSems sig S_ := (cc0_scratch5.slice (Rect.unit (s := S8) ![3] S1.size inb_S8_S1_3)).squeeze S_ squeezes_S1_S_
abbrev sendS4 : DmaSems sig S_ := (cc0_scratch5.slice (Rect.unit (s := S8) ![4] S1.size inb_S8_S1_4)).squeeze S_ squeezes_S1_S_
abbrev sendS5 : DmaSems sig S_ := (cc0_scratch5.slice (Rect.unit (s := S8) ![5] S1.size inb_S8_S1_5)).squeeze S_ squeezes_S1_S_
abbrev sendS6 : DmaSems sig S_ := (cc0_scratch5.slice (Rect.unit (s := S8) ![6] S1.size inb_S8_S1_6)).squeeze S_ squeezes_S1_S_
abbrev sendS7 : DmaSems sig S_ := (cc0_scratch5.slice (Rect.unit (s := S8) ![7] S1.size inb_S8_S1_7)).squeeze S_ squeezes_S1_S_
abbrev recvS0 : DmaSems sig S_ := (cc0_scratch6.slice (Rect.unit (s := S8) ![0] S1.size inb_S8_S1_0)).squeeze S_ squeezes_S1_S_
abbrev recvS1 : DmaSems sig S_ := (cc0_scratch6.slice (Rect.unit (s := S8) ![1] S1.size inb_S8_S1_1)).squeeze S_ squeezes_S1_S_
abbrev recvS2 : DmaSems sig S_ := (cc0_scratch6.slice (Rect.unit (s := S8) ![2] S1.size inb_S8_S1_2)).squeeze S_ squeezes_S1_S_
abbrev recvS3 : DmaSems sig S_ := (cc0_scratch6.slice (Rect.unit (s := S8) ![3] S1.size inb_S8_S1_3)).squeeze S_ squeezes_S1_S_
abbrev recvS4 : DmaSems sig S_ := (cc0_scratch6.slice (Rect.unit (s := S8) ![4] S1.size inb_S8_S1_4)).squeeze S_ squeezes_S1_S_
abbrev recvS5 : DmaSems sig S_ := (cc0_scratch6.slice (Rect.unit (s := S8) ![5] S1.size inb_S8_S1_5)).squeeze S_ squeezes_S1_S_
abbrev recvS6 : DmaSems sig S_ := (cc0_scratch6.slice (Rect.unit (s := S8) ![6] S1.size inb_S8_S1_6)).squeeze S_ squeezes_S1_S_
abbrev recvS7 : DmaSems sig S_ := (cc0_scratch6.slice (Rect.unit (s := S8) ![7] S1.size inb_S8_S1_7)).squeeze S_ squeezes_S1_S_

/-- The runtime's barrier semaphore of collective id 0: not scoped to the launch. -/
abbrev barS : Sem sig := (SemArray.scalar (sig.barrier 0 rfl) : Sems sig S_).sem

abbrev barCell (c : Dev nD) : GSem nD τ sig := ((c : Thread nD τ), .reg barS)
abbrev sendCell0 (c : Dev nD) : GSem nD τ sig := ((c : Thread nD τ), .dma sendS0.sem)
abbrev sendCell1 (c : Dev nD) : GSem nD τ sig := ((c : Thread nD τ), .dma sendS1.sem)
abbrev sendCell2 (c : Dev nD) : GSem nD τ sig := ((c : Thread nD τ), .dma sendS2.sem)
abbrev sendCell3 (c : Dev nD) : GSem nD τ sig := ((c : Thread nD τ), .dma sendS3.sem)
abbrev sendCell4 (c : Dev nD) : GSem nD τ sig := ((c : Thread nD τ), .dma sendS4.sem)
abbrev sendCell5 (c : Dev nD) : GSem nD τ sig := ((c : Thread nD τ), .dma sendS5.sem)
abbrev sendCell6 (c : Dev nD) : GSem nD τ sig := ((c : Thread nD τ), .dma sendS6.sem)
abbrev sendCell7 (c : Dev nD) : GSem nD τ sig := ((c : Thread nD τ), .dma sendS7.sem)
abbrev recvCell0 (c : Dev nD) : GSem nD τ sig := ((c : Thread nD τ), .dma recvS0.sem)
abbrev recvCell1 (c : Dev nD) : GSem nD τ sig := ((c : Thread nD τ), .dma recvS1.sem)
abbrev recvCell2 (c : Dev nD) : GSem nD τ sig := ((c : Thread nD τ), .dma recvS2.sem)
abbrev recvCell3 (c : Dev nD) : GSem nD τ sig := ((c : Thread nD τ), .dma recvS3.sem)
abbrev recvCell4 (c : Dev nD) : GSem nD τ sig := ((c : Thread nD τ), .dma recvS4.sem)
abbrev recvCell5 (c : Dev nD) : GSem nD τ sig := ((c : Thread nD τ), .dma recvS5.sem)
abbrev recvCell6 (c : Dev nD) : GSem nD τ sig := ((c : Thread nD τ), .dma recvS6.sem)
abbrev recvCell7 (c : Dev nD) : GSem nD τ sig := ((c : Thread nD τ), .dma recvS7.sem)

/-- The kernel's own (scoped) semaphores: eight send, eight receive. -/
abbrev osem : Fin 16 → SemLoc sig := fun
  | 0 => .dma sendS0.sem
  | 1 => .dma sendS1.sem
  | 2 => .dma sendS2.sem
  | 3 => .dma sendS3.sem
  | 4 => .dma sendS4.sem
  | 5 => .dma sendS5.sem
  | 6 => .dma sendS6.sem
  | 7 => .dma sendS7.sem
  | 8 => .dma recvS0.sem
  | 9 => .dma recvS1.sem
  | 10 => .dma recvS2.sem
  | 11 => .dma recvS3.sem
  | 12 => .dma recvS4.sem
  | 13 => .dma recvS5.sem
  | 14 => .dma recvS6.sem
  | 15 => .dma recvS7.sem
  | ⟨_ + 16, h⟩ => absurd h (Nat.not_lt.2 (Nat.le_add_left _ _))
/-- All seventeen cells of a device: the barrier, then its own. -/
abbrev csem : Fin 17 → SemLoc sig := fun
  | 0 => .reg barS
  | 1 => .dma sendS0.sem
  | 2 => .dma sendS1.sem
  | 3 => .dma sendS2.sem
  | 4 => .dma sendS3.sem
  | 5 => .dma sendS4.sem
  | 6 => .dma sendS5.sem
  | 7 => .dma sendS6.sem
  | 8 => .dma sendS7.sem
  | 9 => .dma recvS0.sem
  | 10 => .dma recvS1.sem
  | 11 => .dma recvS2.sem
  | 12 => .dma recvS3.sem
  | 13 => .dma recvS4.sem
  | 14 => .dma recvS5.sem
  | 15 => .dma recvS6.sem
  | 16 => .dma recvS7.sem
  | ⟨_ + 17, h⟩ => absurd h (Nat.not_lt.2 (Nat.le_add_left _ _))
abbrev kcell (ck : Dev nD × Fin 17) : GSem nD τ sig := ((ck.1 : Thread nD τ), csem ck.2)

/-- One copy's credit: the same for all eight (same shape, same element type). -/
abbrev Ncr : ℕ := (dstM0 : Memref sig .tc .vmem S2x64x8x64 .f32).view.dmaCredit
theorem Ncr_pos : 0 < Ncr := View.dmaCredit_pos _ (by decide)
theorem amount_dst0 : (dstM0 : Memref sig .tc .vmem S2x64x8x64 .f32).view.dmaCredit = Ncr := rfl
theorem amount_dst1 : (dstM1 : Memref sig .tc .vmem S2x64x8x64 .f32).view.dmaCredit = Ncr := rfl
theorem amount_dst2 : (dstM2 : Memref sig .tc .vmem S2x64x8x64 .f32).view.dmaCredit = Ncr := rfl
theorem amount_dst3 : (dstM3 : Memref sig .tc .vmem S2x64x8x64 .f32).view.dmaCredit = Ncr := rfl
theorem amount_dst4 : (dstM4 : Memref sig .tc .vmem S2x64x8x64 .f32).view.dmaCredit = Ncr := rfl
theorem amount_dst5 : (dstM5 : Memref sig .tc .vmem S2x64x8x64 .f32).view.dmaCredit = Ncr := rfl
theorem amount_dst6 : (dstM6 : Memref sig .tc .vmem S2x64x8x64 .f32).view.dmaCredit = Ncr := rfl
theorem amount_dst7 : (dstM7 : Memref sig .tc .vmem S2x64x8x64 .f32).view.dmaCredit = Ncr := rfl
theorem amount_src0 : (srcM0 : Memref sig .tc .vmem S2x64x8x64 .f32).view.dmaCredit = Ncr := rfl
theorem amount_src1 : (srcM1 : Memref sig .tc .vmem S2x64x8x64 .f32).view.dmaCredit = Ncr := rfl
theorem amount_src2 : (srcM2 : Memref sig .tc .vmem S2x64x8x64 .f32).view.dmaCredit = Ncr := rfl
theorem amount_src3 : (srcM3 : Memref sig .tc .vmem S2x64x8x64 .f32).view.dmaCredit = Ncr := rfl
theorem amount_src4 : (srcM4 : Memref sig .tc .vmem S2x64x8x64 .f32).view.dmaCredit = Ncr := rfl
theorem amount_src5 : (srcM5 : Memref sig .tc .vmem S2x64x8x64 .f32).view.dmaCredit = Ncr := rfl
theorem amount_src6 : (srcM6 : Memref sig .tc .vmem S2x64x8x64 .f32).view.dmaCredit = Ncr := rfl
theorem amount_src7 : (srcM7 : Memref sig .tc .vmem S2x64x8x64 .f32).view.dmaCredit = Ncr := rfl

/-! ## Contents -/

/-- What the input staging buffers hold during the body: the device's rows of Q, K, V. -/
def qstg (c : Dev nD) : (cc0_stg0_0 : Ref sig .tc).ty.Contents (Elt F) :=
  (win0_0.blk (0 : Fin 1)).view.read (Elt F) ((s₀ m ρ).mem ((c : Thread nD τ).loc main_arg0))
def kstg (c : Dev nD) : (cc0_stg1_0 : Ref sig .tc).ty.Contents (Elt F) :=
  (win0_1.blk (0 : Fin 1)).view.read (Elt F) ((s₀ m ρ).mem ((c : Thread nD τ).loc main_arg1))
def vstg (c : Dev nD) : (cc0_stg2_0 : Ref sig .tc).ty.Contents (Elt F) :=
  (win0_2.blk (0 : Fin 1)).view.read (Elt F) ((s₀ m ρ).mem ((c : Thread nD τ).loc main_arg2))

/-- What the landing buffers hold once every copy has landed: the partner's rows of K and of V. -/
def klanded (c : Dev nD) : Buf (Elt F) ((kRx : Memref sig .tc .vmem S2x256x8x64 .f32).view.loc (c : Thread nD τ)) := kstg m ρ (peer c)
def vlanded (c : Dev nD) : Buf (Elt F) ((vRx : Memref sig .tc .vmem S2x256x8x64 .f32).view.loc (c : Thread nD τ)) := vstg m ρ (peer c)

/-! ## What the signals and copies hand over -/

/-- Rows 0 of the issuer's K buffer at half the share: lent to copy 0 and back with its send cell. -/
def sendPay0 (c : Dev nD) : sProp 𝕄 :=
  (srcM0 : Memref sig .tc .vmem S2x64x8x64 .f32).view.loc (c : Thread nD τ) ↦[(srcM0 : Memref sig .tc .vmem S2x64x8x64 .f32).view.set]{fullShare.left} kstg m ρ c
/-- Rows 0 of the issuer's V buffer at half the share: lent to copy 1 and back with its send cell. -/
def sendPay1 (c : Dev nD) : sProp 𝕄 :=
  (srcM1 : Memref sig .tc .vmem S2x64x8x64 .f32).view.loc (c : Thread nD τ) ↦[(srcM1 : Memref sig .tc .vmem S2x64x8x64 .f32).view.set]{fullShare.left} vstg m ρ c
/-- Rows 1 of the issuer's K buffer at half the share: lent to copy 2 and back with its send cell. -/
def sendPay2 (c : Dev nD) : sProp 𝕄 :=
  (srcM2 : Memref sig .tc .vmem S2x64x8x64 .f32).view.loc (c : Thread nD τ) ↦[(srcM2 : Memref sig .tc .vmem S2x64x8x64 .f32).view.set]{fullShare.left} kstg m ρ c
/-- Rows 1 of the issuer's V buffer at half the share: lent to copy 3 and back with its send cell. -/
def sendPay3 (c : Dev nD) : sProp 𝕄 :=
  (srcM3 : Memref sig .tc .vmem S2x64x8x64 .f32).view.loc (c : Thread nD τ) ↦[(srcM3 : Memref sig .tc .vmem S2x64x8x64 .f32).view.set]{fullShare.left} vstg m ρ c
/-- Rows 2 of the issuer's K buffer at half the share: lent to copy 4 and back with its send cell. -/
def sendPay4 (c : Dev nD) : sProp 𝕄 :=
  (srcM4 : Memref sig .tc .vmem S2x64x8x64 .f32).view.loc (c : Thread nD τ) ↦[(srcM4 : Memref sig .tc .vmem S2x64x8x64 .f32).view.set]{fullShare.left} kstg m ρ c
/-- Rows 2 of the issuer's V buffer at half the share: lent to copy 5 and back with its send cell. -/
def sendPay5 (c : Dev nD) : sProp 𝕄 :=
  (srcM5 : Memref sig .tc .vmem S2x64x8x64 .f32).view.loc (c : Thread nD τ) ↦[(srcM5 : Memref sig .tc .vmem S2x64x8x64 .f32).view.set]{fullShare.left} vstg m ρ c
/-- Rows 3 of the issuer's K buffer at half the share: lent to copy 6 and back with its send cell. -/
def sendPay6 (c : Dev nD) : sProp 𝕄 :=
  (srcM6 : Memref sig .tc .vmem S2x64x8x64 .f32).view.loc (c : Thread nD τ) ↦[(srcM6 : Memref sig .tc .vmem S2x64x8x64 .f32).view.set]{fullShare.left} kstg m ρ c
/-- Rows 3 of the issuer's V buffer at half the share: lent to copy 7 and back with its send cell. -/
def sendPay7 (c : Dev nD) : sProp 𝕄 :=
  (srcM7 : Memref sig .tc .vmem S2x64x8x64 .f32).view.loc (c : Thread nD τ) ↦[(srcM7 : Memref sig .tc .vmem S2x64x8x64 .f32).view.set]{fullShare.left} vstg m ρ c
/-- Rows 0 of the K landing buffer holding the partner's rows: what copy 0's landing hands the receiver. -/
def recvPay0 (c : Dev nD) : sProp 𝕄 :=
  (dstM0 : Memref sig .tc .vmem S2x64x8x64 .f32).view.loc (c : Thread nD τ) ↦[(dstM0 : Memref sig .tc .vmem S2x64x8x64 .f32).view.set]{fullShare} klanded m ρ c
/-- Rows 0 of the V landing buffer holding the partner's rows: what copy 1's landing hands the receiver. -/
def recvPay1 (c : Dev nD) : sProp 𝕄 :=
  (dstM1 : Memref sig .tc .vmem S2x64x8x64 .f32).view.loc (c : Thread nD τ) ↦[(dstM1 : Memref sig .tc .vmem S2x64x8x64 .f32).view.set]{fullShare} vlanded m ρ c
/-- Rows 1 of the K landing buffer holding the partner's rows: what copy 2's landing hands the receiver. -/
def recvPay2 (c : Dev nD) : sProp 𝕄 :=
  (dstM2 : Memref sig .tc .vmem S2x64x8x64 .f32).view.loc (c : Thread nD τ) ↦[(dstM2 : Memref sig .tc .vmem S2x64x8x64 .f32).view.set]{fullShare} klanded m ρ c
/-- Rows 1 of the V landing buffer holding the partner's rows: what copy 3's landing hands the receiver. -/
def recvPay3 (c : Dev nD) : sProp 𝕄 :=
  (dstM3 : Memref sig .tc .vmem S2x64x8x64 .f32).view.loc (c : Thread nD τ) ↦[(dstM3 : Memref sig .tc .vmem S2x64x8x64 .f32).view.set]{fullShare} vlanded m ρ c
/-- Rows 2 of the K landing buffer holding the partner's rows: what copy 4's landing hands the receiver. -/
def recvPay4 (c : Dev nD) : sProp 𝕄 :=
  (dstM4 : Memref sig .tc .vmem S2x64x8x64 .f32).view.loc (c : Thread nD τ) ↦[(dstM4 : Memref sig .tc .vmem S2x64x8x64 .f32).view.set]{fullShare} klanded m ρ c
/-- Rows 2 of the V landing buffer holding the partner's rows: what copy 5's landing hands the receiver. -/
def recvPay5 (c : Dev nD) : sProp 𝕄 :=
  (dstM5 : Memref sig .tc .vmem S2x64x8x64 .f32).view.loc (c : Thread nD τ) ↦[(dstM5 : Memref sig .tc .vmem S2x64x8x64 .f32).view.set]{fullShare} vlanded m ρ c
/-- Rows 3 of the K landing buffer holding the partner's rows: what copy 6's landing hands the receiver. -/
def recvPay6 (c : Dev nD) : sProp 𝕄 :=
  (dstM6 : Memref sig .tc .vmem S2x64x8x64 .f32).view.loc (c : Thread nD τ) ↦[(dstM6 : Memref sig .tc .vmem S2x64x8x64 .f32).view.set]{fullShare} klanded m ρ c
/-- Rows 3 of the V landing buffer holding the partner's rows: what copy 7's landing hands the receiver. -/
def recvPay7 (c : Dev nD) : sProp 𝕄 :=
  (dstM7 : Memref sig .tc .vmem S2x64x8x64 .f32).view.loc (c : Thread nD τ) ↦[(dstM7 : Memref sig .tc .vmem S2x64x8x64 .f32).view.set]{fullShare} vlanded m ρ c
/-- Rows 0 of the K landing buffer at whatever they hold: free to be written. -/
def slot0 (c : Dev nD) : sProp 𝕄 :=
  iprop(∃ f, (dstM0 : Memref sig .tc .vmem S2x64x8x64 .f32).view.loc (c : Thread nD τ) ↦[(dstM0 : Memref sig .tc .vmem S2x64x8x64 .f32).view.set]{fullShare} f)
/-- Rows 0 of the V landing buffer at whatever they hold: free to be written. -/
def slot1 (c : Dev nD) : sProp 𝕄 :=
  iprop(∃ f, (dstM1 : Memref sig .tc .vmem S2x64x8x64 .f32).view.loc (c : Thread nD τ) ↦[(dstM1 : Memref sig .tc .vmem S2x64x8x64 .f32).view.set]{fullShare} f)
/-- Rows 1 of the K landing buffer at whatever they hold: free to be written. -/
def slot2 (c : Dev nD) : sProp 𝕄 :=
  iprop(∃ f, (dstM2 : Memref sig .tc .vmem S2x64x8x64 .f32).view.loc (c : Thread nD τ) ↦[(dstM2 : Memref sig .tc .vmem S2x64x8x64 .f32).view.set]{fullShare} f)
/-- Rows 1 of the V landing buffer at whatever they hold: free to be written. -/
def slot3 (c : Dev nD) : sProp 𝕄 :=
  iprop(∃ f, (dstM3 : Memref sig .tc .vmem S2x64x8x64 .f32).view.loc (c : Thread nD τ) ↦[(dstM3 : Memref sig .tc .vmem S2x64x8x64 .f32).view.set]{fullShare} f)
/-- Rows 2 of the K landing buffer at whatever they hold: free to be written. -/
def slot4 (c : Dev nD) : sProp 𝕄 :=
  iprop(∃ f, (dstM4 : Memref sig .tc .vmem S2x64x8x64 .f32).view.loc (c : Thread nD τ) ↦[(dstM4 : Memref sig .tc .vmem S2x64x8x64 .f32).view.set]{fullShare} f)
/-- Rows 2 of the V landing buffer at whatever they hold: free to be written. -/
def slot5 (c : Dev nD) : sProp 𝕄 :=
  iprop(∃ f, (dstM5 : Memref sig .tc .vmem S2x64x8x64 .f32).view.loc (c : Thread nD τ) ↦[(dstM5 : Memref sig .tc .vmem S2x64x8x64 .f32).view.set]{fullShare} f)
/-- Rows 3 of the K landing buffer at whatever they hold: free to be written. -/
def slot6 (c : Dev nD) : sProp 𝕄 :=
  iprop(∃ f, (dstM6 : Memref sig .tc .vmem S2x64x8x64 .f32).view.loc (c : Thread nD τ) ↦[(dstM6 : Memref sig .tc .vmem S2x64x8x64 .f32).view.set]{fullShare} f)
/-- Rows 3 of the V landing buffer at whatever they hold: free to be written. -/
def slot7 (c : Dev nD) : sProp 𝕄 :=
  iprop(∃ f, (dstM7 : Memref sig .tc .vmem S2x64x8x64 .f32).view.loc (c : Thread nD τ) ↦[(dstM7 : Memref sig .tc .vmem S2x64x8x64 .f32).view.set]{fullShare} f)

/-- What the partner's barrier signal hands c: the partner's eight landing slots, and that the partner is at
    round 0 of its eight receive cells. -/
def barPay (c : Dev nD) : sProp 𝕄 :=
  iprop(slot0 (peer c) ∗ slot1 (peer c) ∗ slot2 (peer c) ∗ slot3 (peer c) ∗ slot4 (peer c) ∗ slot5 (peer c) ∗ slot6 (peer c) ∗ slot7 (peer c)
    ∗ reached ER (recvCell0 (peer c)) 0 ∗ reached ER (recvCell1 (peer c)) 0 ∗ reached ER (recvCell2 (peer c)) 0 ∗ reached ER (recvCell3 (peer c)) 0 ∗ reached ER (recvCell4 (peer c)) 0 ∗ reached ER (recvCell5 (peer c)) 0 ∗ reached ER (recvCell6 (peer c)) 0 ∗ reached ER (recvCell7 (peer c)) 0)

/-! ## The schedule -/

def mySems : List (SemLoc sig) :=
  [.reg barS, .dma sendS0.sem, .dma sendS1.sem, .dma sendS2.sem, .dma sendS3.sem, .dma sendS4.sem, .dma sendS5.sem, .dma sendS6.sem, .dma sendS7.sem, .dma recvS0.sem, .dma recvS1.sem, .dma recvS2.sem, .dma recvS3.sem, .dma recvS4.sem, .dma recvS5.sem, .dma recvS6.sem, .dma recvS7.sem]

abbrev IsMine (g : GSem nD τ sig) : Prop := g.1.2 = .tc ∧ g.2 ∈ mySems

def payloadOf (c : Dev nD) (s : SemLoc sig) : sProp 𝕄 :=
  if s = .reg barS then barPay c
  else if s = .dma sendS0.sem then sendPay0 m ρ c
  else if s = .dma sendS1.sem then sendPay1 m ρ c
  else if s = .dma sendS2.sem then sendPay2 m ρ c
  else if s = .dma sendS3.sem then sendPay3 m ρ c
  else if s = .dma sendS4.sem then sendPay4 m ρ c
  else if s = .dma sendS5.sem then sendPay5 m ρ c
  else if s = .dma sendS6.sem then sendPay6 m ρ c
  else if s = .dma sendS7.sem then sendPay7 m ρ c
  else if s = .dma recvS0.sem then recvPay0 m ρ c
  else if s = .dma recvS1.sem then recvPay1 m ρ c
  else if s = .dma recvS2.sem then recvPay2 m ρ c
  else if s = .dma recvS3.sem then recvPay3 m ρ c
  else if s = .dma recvS4.sem then recvPay4 m ρ c
  else if s = .dma recvS5.sem then recvPay5 m ρ c
  else if s = .dma recvS6.sem then recvPay6 m ρ c
  else if s = .dma recvS7.sem then recvPay7 m ρ c
  else iprop(emp)

/-- One round, round 0, one duty per cell: a barrier cell one unit, a send or receive cell one copy's credit. -/
def rd : Rounds.Schedule (GSem nD τ sig) Unit 𝕄 where
  duties g r := if r = 0 ∧ IsMine g then {()} else ∅
  unitless _ := False
  amount g _ _ := if g.2 = .reg barS then 1 else Ncr
  payload g _ _ := payloadOf m ρ g.1.1 g.2
  amount_pos g _ _ _ := by
    by_cases h : g.2 = .reg barS
    · rw [if_pos h]; exact Nat.one_pos
    · rw [if_neg h]; exact Ncr_pos

set_option synthInstance.maxHeartbeats 1000000 in
set_option maxHeartbeats 1000000 in
instance rd_payload_storable (g : GSem nD τ sig) (r : ℕ) (d : Unit) : BI.Storable (upEmb : UEmb _ 𝕄) ((rd (F := F) m ρ).payload g r d) := by
  show BI.Storable upEmb (payloadOf m ρ g.1.1 g.2)
  unfold payloadOf
  by_cases h0 : g.2 = .reg barS
  · rw [if_pos h0]; unfold barPay slot0 slot1 slot2 slot3 slot4 slot5 slot6 slot7; infer_instance
  rw [if_neg h0]
  by_cases hs0 : g.2 = .dma sendS0.sem
  · rw [if_pos hs0]; unfold sendPay0; infer_instance
  rw [if_neg hs0]
  by_cases hs1 : g.2 = .dma sendS1.sem
  · rw [if_pos hs1]; unfold sendPay1; infer_instance
  rw [if_neg hs1]
  by_cases hs2 : g.2 = .dma sendS2.sem
  · rw [if_pos hs2]; unfold sendPay2; infer_instance
  rw [if_neg hs2]
  by_cases hs3 : g.2 = .dma sendS3.sem
  · rw [if_pos hs3]; unfold sendPay3; infer_instance
  rw [if_neg hs3]
  by_cases hs4 : g.2 = .dma sendS4.sem
  · rw [if_pos hs4]; unfold sendPay4; infer_instance
  rw [if_neg hs4]
  by_cases hs5 : g.2 = .dma sendS5.sem
  · rw [if_pos hs5]; unfold sendPay5; infer_instance
  rw [if_neg hs5]
  by_cases hs6 : g.2 = .dma sendS6.sem
  · rw [if_pos hs6]; unfold sendPay6; infer_instance
  rw [if_neg hs6]
  by_cases hs7 : g.2 = .dma sendS7.sem
  · rw [if_pos hs7]; unfold sendPay7; infer_instance
  rw [if_neg hs7]
  by_cases hr0 : g.2 = .dma recvS0.sem
  · rw [if_pos hr0]; unfold recvPay0; infer_instance
  rw [if_neg hr0]
  by_cases hr1 : g.2 = .dma recvS1.sem
  · rw [if_pos hr1]; unfold recvPay1; infer_instance
  rw [if_neg hr1]
  by_cases hr2 : g.2 = .dma recvS2.sem
  · rw [if_pos hr2]; unfold recvPay2; infer_instance
  rw [if_neg hr2]
  by_cases hr3 : g.2 = .dma recvS3.sem
  · rw [if_pos hr3]; unfold recvPay3; infer_instance
  rw [if_neg hr3]
  by_cases hr4 : g.2 = .dma recvS4.sem
  · rw [if_pos hr4]; unfold recvPay4; infer_instance
  rw [if_neg hr4]
  by_cases hr5 : g.2 = .dma recvS5.sem
  · rw [if_pos hr5]; unfold recvPay5; infer_instance
  rw [if_neg hr5]
  by_cases hr6 : g.2 = .dma recvS6.sem
  · rw [if_pos hr6]; unfold recvPay6; infer_instance
  rw [if_neg hr6]
  by_cases hr7 : g.2 = .dma recvS7.sem
  · rw [if_pos hr7]; unfold recvPay7; infer_instance
  rw [if_neg hr7]
  infer_instance

section Sched
variable (c : Dev nD)

omit [FloatOps F] in
theorem duties_later (g : GSem nD τ sig) : ∀ r, 1 ≤ r → (rd (F := F) m ρ).duties g r = ∅ :=
  fun r hr => by dsimp only [rd]; exact if_neg fun h => by omega

omit [FloatOps F] in
theorem duties_bar : (rd (F := F) m ρ).duties (barCell c) 0 = {()} := by dsimp only [rd]; exact if_pos ⟨rfl, rfl, (show (.reg barS : SemLoc sig) ∈ mySems by decide)⟩
omit [FloatOps F] in
theorem amount_bar (u : Unit) : (rd (F := F) m ρ).amount (barCell c) 0 u = 1 := by dsimp only [rd]; exact if_pos rfl
omit [FloatOps F] in
theorem expect_bar : (rd (F := F) m ρ).expect (barCell c) 0 = 1 := by
  unfold Schedule.expect Schedule.amountOf; rw [duties_bar, Finset.sum_singleton, amount_bar]
omit [FloatOps F] in
theorem payload_bar (u : Unit) : (rd (F := F) m ρ).payload (barCell c) 0 u = barPay c := by
  show payloadOf m ρ c (.reg barS) = _
  unfold payloadOf
  exact if_pos rfl
omit [FloatOps F] in
theorem rest_bar : bigSep ((rd (F := F) m ρ).duties (barCell c) 0 \ ∅) (fun u => (rd (F := F) m ρ).payload (barCell c) 0 u) = barPay c := by
  rw [Finset.sdiff_empty, duties_bar, bigSep_singleton, payload_bar]

omit [FloatOps F] in
theorem duties_send0 : (rd (F := F) m ρ).duties (sendCell0 c) 0 = {()} := by dsimp only [rd]; exact if_pos ⟨rfl, rfl, (show (.dma sendS0.sem : SemLoc sig) ∈ mySems by decide)⟩
omit [FloatOps F] in
theorem amount_send0 (u : Unit) : (rd (F := F) m ρ).amount (sendCell0 c) 0 u = Ncr := by dsimp only [rd]; exact if_neg (show (.dma sendS0.sem : SemLoc sig) ≠ .reg barS by decide)
omit [FloatOps F] in
theorem expect_send0 : (rd (F := F) m ρ).expect (sendCell0 c) 0 = Ncr := by
  unfold Schedule.expect Schedule.amountOf; rw [duties_send0, Finset.sum_singleton, amount_send0]
omit [FloatOps F] in
theorem payload_send0 (u : Unit) : (rd (F := F) m ρ).payload (sendCell0 c) 0 u = sendPay0 m ρ c := by
  show payloadOf m ρ c (.dma sendS0.sem) = _
  unfold payloadOf
  rw [if_neg (show (.dma sendS0.sem : SemLoc sig) ≠ .reg barS by decide)]
  exact if_pos rfl
omit [FloatOps F] in
theorem rest_send0 : bigSep ((rd (F := F) m ρ).duties (sendCell0 c) 0 \ ∅) (fun u => (rd (F := F) m ρ).payload (sendCell0 c) 0 u) = sendPay0 m ρ c := by
  rw [Finset.sdiff_empty, duties_send0, bigSep_singleton, payload_send0]

omit [FloatOps F] in
theorem duties_send1 : (rd (F := F) m ρ).duties (sendCell1 c) 0 = {()} := by dsimp only [rd]; exact if_pos ⟨rfl, rfl, (show (.dma sendS1.sem : SemLoc sig) ∈ mySems by decide)⟩
omit [FloatOps F] in
theorem amount_send1 (u : Unit) : (rd (F := F) m ρ).amount (sendCell1 c) 0 u = Ncr := by dsimp only [rd]; exact if_neg (show (.dma sendS1.sem : SemLoc sig) ≠ .reg barS by decide)
omit [FloatOps F] in
theorem expect_send1 : (rd (F := F) m ρ).expect (sendCell1 c) 0 = Ncr := by
  unfold Schedule.expect Schedule.amountOf; rw [duties_send1, Finset.sum_singleton, amount_send1]
omit [FloatOps F] in
theorem payload_send1 (u : Unit) : (rd (F := F) m ρ).payload (sendCell1 c) 0 u = sendPay1 m ρ c := by
  show payloadOf m ρ c (.dma sendS1.sem) = _
  unfold payloadOf
  rw [if_neg (show (.dma sendS1.sem : SemLoc sig) ≠ .reg barS by decide),
    if_neg (show (.dma sendS1.sem : SemLoc sig) ≠ .dma sendS0.sem by decide)]
  exact if_pos rfl
omit [FloatOps F] in
theorem rest_send1 : bigSep ((rd (F := F) m ρ).duties (sendCell1 c) 0 \ ∅) (fun u => (rd (F := F) m ρ).payload (sendCell1 c) 0 u) = sendPay1 m ρ c := by
  rw [Finset.sdiff_empty, duties_send1, bigSep_singleton, payload_send1]

omit [FloatOps F] in
theorem duties_send2 : (rd (F := F) m ρ).duties (sendCell2 c) 0 = {()} := by dsimp only [rd]; exact if_pos ⟨rfl, rfl, (show (.dma sendS2.sem : SemLoc sig) ∈ mySems by decide)⟩
omit [FloatOps F] in
theorem amount_send2 (u : Unit) : (rd (F := F) m ρ).amount (sendCell2 c) 0 u = Ncr := by dsimp only [rd]; exact if_neg (show (.dma sendS2.sem : SemLoc sig) ≠ .reg barS by decide)
omit [FloatOps F] in
theorem expect_send2 : (rd (F := F) m ρ).expect (sendCell2 c) 0 = Ncr := by
  unfold Schedule.expect Schedule.amountOf; rw [duties_send2, Finset.sum_singleton, amount_send2]
omit [FloatOps F] in
theorem payload_send2 (u : Unit) : (rd (F := F) m ρ).payload (sendCell2 c) 0 u = sendPay2 m ρ c := by
  show payloadOf m ρ c (.dma sendS2.sem) = _
  unfold payloadOf
  rw [if_neg (show (.dma sendS2.sem : SemLoc sig) ≠ .reg barS by decide),
    if_neg (show (.dma sendS2.sem : SemLoc sig) ≠ .dma sendS0.sem by decide),
    if_neg (show (.dma sendS2.sem : SemLoc sig) ≠ .dma sendS1.sem by decide)]
  exact if_pos rfl
omit [FloatOps F] in
theorem rest_send2 : bigSep ((rd (F := F) m ρ).duties (sendCell2 c) 0 \ ∅) (fun u => (rd (F := F) m ρ).payload (sendCell2 c) 0 u) = sendPay2 m ρ c := by
  rw [Finset.sdiff_empty, duties_send2, bigSep_singleton, payload_send2]

omit [FloatOps F] in
theorem duties_send3 : (rd (F := F) m ρ).duties (sendCell3 c) 0 = {()} := by dsimp only [rd]; exact if_pos ⟨rfl, rfl, (show (.dma sendS3.sem : SemLoc sig) ∈ mySems by decide)⟩
omit [FloatOps F] in
theorem amount_send3 (u : Unit) : (rd (F := F) m ρ).amount (sendCell3 c) 0 u = Ncr := by dsimp only [rd]; exact if_neg (show (.dma sendS3.sem : SemLoc sig) ≠ .reg barS by decide)
omit [FloatOps F] in
theorem expect_send3 : (rd (F := F) m ρ).expect (sendCell3 c) 0 = Ncr := by
  unfold Schedule.expect Schedule.amountOf; rw [duties_send3, Finset.sum_singleton, amount_send3]
omit [FloatOps F] in
theorem payload_send3 (u : Unit) : (rd (F := F) m ρ).payload (sendCell3 c) 0 u = sendPay3 m ρ c := by
  show payloadOf m ρ c (.dma sendS3.sem) = _
  unfold payloadOf
  rw [if_neg (show (.dma sendS3.sem : SemLoc sig) ≠ .reg barS by decide),
    if_neg (show (.dma sendS3.sem : SemLoc sig) ≠ .dma sendS0.sem by decide),
    if_neg (show (.dma sendS3.sem : SemLoc sig) ≠ .dma sendS1.sem by decide),
    if_neg (show (.dma sendS3.sem : SemLoc sig) ≠ .dma sendS2.sem by decide)]
  exact if_pos rfl
omit [FloatOps F] in
theorem rest_send3 : bigSep ((rd (F := F) m ρ).duties (sendCell3 c) 0 \ ∅) (fun u => (rd (F := F) m ρ).payload (sendCell3 c) 0 u) = sendPay3 m ρ c := by
  rw [Finset.sdiff_empty, duties_send3, bigSep_singleton, payload_send3]

omit [FloatOps F] in
theorem duties_send4 : (rd (F := F) m ρ).duties (sendCell4 c) 0 = {()} := by dsimp only [rd]; exact if_pos ⟨rfl, rfl, (show (.dma sendS4.sem : SemLoc sig) ∈ mySems by decide)⟩
omit [FloatOps F] in
theorem amount_send4 (u : Unit) : (rd (F := F) m ρ).amount (sendCell4 c) 0 u = Ncr := by dsimp only [rd]; exact if_neg (show (.dma sendS4.sem : SemLoc sig) ≠ .reg barS by decide)
omit [FloatOps F] in
theorem expect_send4 : (rd (F := F) m ρ).expect (sendCell4 c) 0 = Ncr := by
  unfold Schedule.expect Schedule.amountOf; rw [duties_send4, Finset.sum_singleton, amount_send4]
omit [FloatOps F] in
theorem payload_send4 (u : Unit) : (rd (F := F) m ρ).payload (sendCell4 c) 0 u = sendPay4 m ρ c := by
  show payloadOf m ρ c (.dma sendS4.sem) = _
  unfold payloadOf
  rw [if_neg (show (.dma sendS4.sem : SemLoc sig) ≠ .reg barS by decide),
    if_neg (show (.dma sendS4.sem : SemLoc sig) ≠ .dma sendS0.sem by decide),
    if_neg (show (.dma sendS4.sem : SemLoc sig) ≠ .dma sendS1.sem by decide),
    if_neg (show (.dma sendS4.sem : SemLoc sig) ≠ .dma sendS2.sem by decide),
    if_neg (show (.dma sendS4.sem : SemLoc sig) ≠ .dma sendS3.sem by decide)]
  exact if_pos rfl
omit [FloatOps F] in
theorem rest_send4 : bigSep ((rd (F := F) m ρ).duties (sendCell4 c) 0 \ ∅) (fun u => (rd (F := F) m ρ).payload (sendCell4 c) 0 u) = sendPay4 m ρ c := by
  rw [Finset.sdiff_empty, duties_send4, bigSep_singleton, payload_send4]

omit [FloatOps F] in
theorem duties_send5 : (rd (F := F) m ρ).duties (sendCell5 c) 0 = {()} := by dsimp only [rd]; exact if_pos ⟨rfl, rfl, (show (.dma sendS5.sem : SemLoc sig) ∈ mySems by decide)⟩
omit [FloatOps F] in
theorem amount_send5 (u : Unit) : (rd (F := F) m ρ).amount (sendCell5 c) 0 u = Ncr := by dsimp only [rd]; exact if_neg (show (.dma sendS5.sem : SemLoc sig) ≠ .reg barS by decide)
omit [FloatOps F] in
theorem expect_send5 : (rd (F := F) m ρ).expect (sendCell5 c) 0 = Ncr := by
  unfold Schedule.expect Schedule.amountOf; rw [duties_send5, Finset.sum_singleton, amount_send5]
omit [FloatOps F] in
theorem payload_send5 (u : Unit) : (rd (F := F) m ρ).payload (sendCell5 c) 0 u = sendPay5 m ρ c := by
  show payloadOf m ρ c (.dma sendS5.sem) = _
  unfold payloadOf
  rw [if_neg (show (.dma sendS5.sem : SemLoc sig) ≠ .reg barS by decide),
    if_neg (show (.dma sendS5.sem : SemLoc sig) ≠ .dma sendS0.sem by decide),
    if_neg (show (.dma sendS5.sem : SemLoc sig) ≠ .dma sendS1.sem by decide),
    if_neg (show (.dma sendS5.sem : SemLoc sig) ≠ .dma sendS2.sem by decide),
    if_neg (show (.dma sendS5.sem : SemLoc sig) ≠ .dma sendS3.sem by decide),
    if_neg (show (.dma sendS5.sem : SemLoc sig) ≠ .dma sendS4.sem by decide)]
  exact if_pos rfl
omit [FloatOps F] in
theorem rest_send5 : bigSep ((rd (F := F) m ρ).duties (sendCell5 c) 0 \ ∅) (fun u => (rd (F := F) m ρ).payload (sendCell5 c) 0 u) = sendPay5 m ρ c := by
  rw [Finset.sdiff_empty, duties_send5, bigSep_singleton, payload_send5]

omit [FloatOps F] in
theorem duties_send6 : (rd (F := F) m ρ).duties (sendCell6 c) 0 = {()} := by dsimp only [rd]; exact if_pos ⟨rfl, rfl, (show (.dma sendS6.sem : SemLoc sig) ∈ mySems by decide)⟩
omit [FloatOps F] in
theorem amount_send6 (u : Unit) : (rd (F := F) m ρ).amount (sendCell6 c) 0 u = Ncr := by dsimp only [rd]; exact if_neg (show (.dma sendS6.sem : SemLoc sig) ≠ .reg barS by decide)
omit [FloatOps F] in
theorem expect_send6 : (rd (F := F) m ρ).expect (sendCell6 c) 0 = Ncr := by
  unfold Schedule.expect Schedule.amountOf; rw [duties_send6, Finset.sum_singleton, amount_send6]
omit [FloatOps F] in
theorem payload_send6 (u : Unit) : (rd (F := F) m ρ).payload (sendCell6 c) 0 u = sendPay6 m ρ c := by
  show payloadOf m ρ c (.dma sendS6.sem) = _
  unfold payloadOf
  rw [if_neg (show (.dma sendS6.sem : SemLoc sig) ≠ .reg barS by decide),
    if_neg (show (.dma sendS6.sem : SemLoc sig) ≠ .dma sendS0.sem by decide),
    if_neg (show (.dma sendS6.sem : SemLoc sig) ≠ .dma sendS1.sem by decide),
    if_neg (show (.dma sendS6.sem : SemLoc sig) ≠ .dma sendS2.sem by decide),
    if_neg (show (.dma sendS6.sem : SemLoc sig) ≠ .dma sendS3.sem by decide),
    if_neg (show (.dma sendS6.sem : SemLoc sig) ≠ .dma sendS4.sem by decide),
    if_neg (show (.dma sendS6.sem : SemLoc sig) ≠ .dma sendS5.sem by decide)]
  exact if_pos rfl
omit [FloatOps F] in
theorem rest_send6 : bigSep ((rd (F := F) m ρ).duties (sendCell6 c) 0 \ ∅) (fun u => (rd (F := F) m ρ).payload (sendCell6 c) 0 u) = sendPay6 m ρ c := by
  rw [Finset.sdiff_empty, duties_send6, bigSep_singleton, payload_send6]

omit [FloatOps F] in
theorem duties_send7 : (rd (F := F) m ρ).duties (sendCell7 c) 0 = {()} := by dsimp only [rd]; exact if_pos ⟨rfl, rfl, (show (.dma sendS7.sem : SemLoc sig) ∈ mySems by decide)⟩
omit [FloatOps F] in
theorem amount_send7 (u : Unit) : (rd (F := F) m ρ).amount (sendCell7 c) 0 u = Ncr := by dsimp only [rd]; exact if_neg (show (.dma sendS7.sem : SemLoc sig) ≠ .reg barS by decide)
omit [FloatOps F] in
theorem expect_send7 : (rd (F := F) m ρ).expect (sendCell7 c) 0 = Ncr := by
  unfold Schedule.expect Schedule.amountOf; rw [duties_send7, Finset.sum_singleton, amount_send7]
omit [FloatOps F] in
theorem payload_send7 (u : Unit) : (rd (F := F) m ρ).payload (sendCell7 c) 0 u = sendPay7 m ρ c := by
  show payloadOf m ρ c (.dma sendS7.sem) = _
  unfold payloadOf
  rw [if_neg (show (.dma sendS7.sem : SemLoc sig) ≠ .reg barS by decide),
    if_neg (show (.dma sendS7.sem : SemLoc sig) ≠ .dma sendS0.sem by decide),
    if_neg (show (.dma sendS7.sem : SemLoc sig) ≠ .dma sendS1.sem by decide),
    if_neg (show (.dma sendS7.sem : SemLoc sig) ≠ .dma sendS2.sem by decide),
    if_neg (show (.dma sendS7.sem : SemLoc sig) ≠ .dma sendS3.sem by decide),
    if_neg (show (.dma sendS7.sem : SemLoc sig) ≠ .dma sendS4.sem by decide),
    if_neg (show (.dma sendS7.sem : SemLoc sig) ≠ .dma sendS5.sem by decide),
    if_neg (show (.dma sendS7.sem : SemLoc sig) ≠ .dma sendS6.sem by decide)]
  exact if_pos rfl
omit [FloatOps F] in
theorem rest_send7 : bigSep ((rd (F := F) m ρ).duties (sendCell7 c) 0 \ ∅) (fun u => (rd (F := F) m ρ).payload (sendCell7 c) 0 u) = sendPay7 m ρ c := by
  rw [Finset.sdiff_empty, duties_send7, bigSep_singleton, payload_send7]

omit [FloatOps F] in
theorem duties_recv0 : (rd (F := F) m ρ).duties (recvCell0 c) 0 = {()} := by dsimp only [rd]; exact if_pos ⟨rfl, rfl, (show (.dma recvS0.sem : SemLoc sig) ∈ mySems by decide)⟩
omit [FloatOps F] in
theorem amount_recv0 (u : Unit) : (rd (F := F) m ρ).amount (recvCell0 c) 0 u = Ncr := by dsimp only [rd]; exact if_neg (show (.dma recvS0.sem : SemLoc sig) ≠ .reg barS by decide)
omit [FloatOps F] in
theorem expect_recv0 : (rd (F := F) m ρ).expect (recvCell0 c) 0 = Ncr := by
  unfold Schedule.expect Schedule.amountOf; rw [duties_recv0, Finset.sum_singleton, amount_recv0]
omit [FloatOps F] in
theorem payload_recv0 (u : Unit) : (rd (F := F) m ρ).payload (recvCell0 c) 0 u = recvPay0 m ρ c := by
  show payloadOf m ρ c (.dma recvS0.sem) = _
  unfold payloadOf
  rw [if_neg (show (.dma recvS0.sem : SemLoc sig) ≠ .reg barS by decide),
    if_neg (show (.dma recvS0.sem : SemLoc sig) ≠ .dma sendS0.sem by decide),
    if_neg (show (.dma recvS0.sem : SemLoc sig) ≠ .dma sendS1.sem by decide),
    if_neg (show (.dma recvS0.sem : SemLoc sig) ≠ .dma sendS2.sem by decide),
    if_neg (show (.dma recvS0.sem : SemLoc sig) ≠ .dma sendS3.sem by decide),
    if_neg (show (.dma recvS0.sem : SemLoc sig) ≠ .dma sendS4.sem by decide),
    if_neg (show (.dma recvS0.sem : SemLoc sig) ≠ .dma sendS5.sem by decide),
    if_neg (show (.dma recvS0.sem : SemLoc sig) ≠ .dma sendS6.sem by decide),
    if_neg (show (.dma recvS0.sem : SemLoc sig) ≠ .dma sendS7.sem by decide)]
  exact if_pos rfl
omit [FloatOps F] in
theorem rest_recv0 : bigSep ((rd (F := F) m ρ).duties (recvCell0 c) 0 \ ∅) (fun u => (rd (F := F) m ρ).payload (recvCell0 c) 0 u) = recvPay0 m ρ c := by
  rw [Finset.sdiff_empty, duties_recv0, bigSep_singleton, payload_recv0]

omit [FloatOps F] in
theorem duties_recv1 : (rd (F := F) m ρ).duties (recvCell1 c) 0 = {()} := by dsimp only [rd]; exact if_pos ⟨rfl, rfl, (show (.dma recvS1.sem : SemLoc sig) ∈ mySems by decide)⟩
omit [FloatOps F] in
theorem amount_recv1 (u : Unit) : (rd (F := F) m ρ).amount (recvCell1 c) 0 u = Ncr := by dsimp only [rd]; exact if_neg (show (.dma recvS1.sem : SemLoc sig) ≠ .reg barS by decide)
omit [FloatOps F] in
theorem expect_recv1 : (rd (F := F) m ρ).expect (recvCell1 c) 0 = Ncr := by
  unfold Schedule.expect Schedule.amountOf; rw [duties_recv1, Finset.sum_singleton, amount_recv1]
omit [FloatOps F] in
theorem payload_recv1 (u : Unit) : (rd (F := F) m ρ).payload (recvCell1 c) 0 u = recvPay1 m ρ c := by
  show payloadOf m ρ c (.dma recvS1.sem) = _
  unfold payloadOf
  rw [if_neg (show (.dma recvS1.sem : SemLoc sig) ≠ .reg barS by decide),
    if_neg (show (.dma recvS1.sem : SemLoc sig) ≠ .dma sendS0.sem by decide),
    if_neg (show (.dma recvS1.sem : SemLoc sig) ≠ .dma sendS1.sem by decide),
    if_neg (show (.dma recvS1.sem : SemLoc sig) ≠ .dma sendS2.sem by decide),
    if_neg (show (.dma recvS1.sem : SemLoc sig) ≠ .dma sendS3.sem by decide),
    if_neg (show (.dma recvS1.sem : SemLoc sig) ≠ .dma sendS4.sem by decide),
    if_neg (show (.dma recvS1.sem : SemLoc sig) ≠ .dma sendS5.sem by decide),
    if_neg (show (.dma recvS1.sem : SemLoc sig) ≠ .dma sendS6.sem by decide),
    if_neg (show (.dma recvS1.sem : SemLoc sig) ≠ .dma sendS7.sem by decide),
    if_neg (show (.dma recvS1.sem : SemLoc sig) ≠ .dma recvS0.sem by decide)]
  exact if_pos rfl
omit [FloatOps F] in
theorem rest_recv1 : bigSep ((rd (F := F) m ρ).duties (recvCell1 c) 0 \ ∅) (fun u => (rd (F := F) m ρ).payload (recvCell1 c) 0 u) = recvPay1 m ρ c := by
  rw [Finset.sdiff_empty, duties_recv1, bigSep_singleton, payload_recv1]

omit [FloatOps F] in
theorem duties_recv2 : (rd (F := F) m ρ).duties (recvCell2 c) 0 = {()} := by dsimp only [rd]; exact if_pos ⟨rfl, rfl, (show (.dma recvS2.sem : SemLoc sig) ∈ mySems by decide)⟩
omit [FloatOps F] in
theorem amount_recv2 (u : Unit) : (rd (F := F) m ρ).amount (recvCell2 c) 0 u = Ncr := by dsimp only [rd]; exact if_neg (show (.dma recvS2.sem : SemLoc sig) ≠ .reg barS by decide)
omit [FloatOps F] in
theorem expect_recv2 : (rd (F := F) m ρ).expect (recvCell2 c) 0 = Ncr := by
  unfold Schedule.expect Schedule.amountOf; rw [duties_recv2, Finset.sum_singleton, amount_recv2]
omit [FloatOps F] in
theorem payload_recv2 (u : Unit) : (rd (F := F) m ρ).payload (recvCell2 c) 0 u = recvPay2 m ρ c := by
  show payloadOf m ρ c (.dma recvS2.sem) = _
  unfold payloadOf
  rw [if_neg (show (.dma recvS2.sem : SemLoc sig) ≠ .reg barS by decide),
    if_neg (show (.dma recvS2.sem : SemLoc sig) ≠ .dma sendS0.sem by decide),
    if_neg (show (.dma recvS2.sem : SemLoc sig) ≠ .dma sendS1.sem by decide),
    if_neg (show (.dma recvS2.sem : SemLoc sig) ≠ .dma sendS2.sem by decide),
    if_neg (show (.dma recvS2.sem : SemLoc sig) ≠ .dma sendS3.sem by decide),
    if_neg (show (.dma recvS2.sem : SemLoc sig) ≠ .dma sendS4.sem by decide),
    if_neg (show (.dma recvS2.sem : SemLoc sig) ≠ .dma sendS5.sem by decide),
    if_neg (show (.dma recvS2.sem : SemLoc sig) ≠ .dma sendS6.sem by decide),
    if_neg (show (.dma recvS2.sem : SemLoc sig) ≠ .dma sendS7.sem by decide),
    if_neg (show (.dma recvS2.sem : SemLoc sig) ≠ .dma recvS0.sem by decide),
    if_neg (show (.dma recvS2.sem : SemLoc sig) ≠ .dma recvS1.sem by decide)]
  exact if_pos rfl
omit [FloatOps F] in
theorem rest_recv2 : bigSep ((rd (F := F) m ρ).duties (recvCell2 c) 0 \ ∅) (fun u => (rd (F := F) m ρ).payload (recvCell2 c) 0 u) = recvPay2 m ρ c := by
  rw [Finset.sdiff_empty, duties_recv2, bigSep_singleton, payload_recv2]

omit [FloatOps F] in
theorem duties_recv3 : (rd (F := F) m ρ).duties (recvCell3 c) 0 = {()} := by dsimp only [rd]; exact if_pos ⟨rfl, rfl, (show (.dma recvS3.sem : SemLoc sig) ∈ mySems by decide)⟩
omit [FloatOps F] in
theorem amount_recv3 (u : Unit) : (rd (F := F) m ρ).amount (recvCell3 c) 0 u = Ncr := by dsimp only [rd]; exact if_neg (show (.dma recvS3.sem : SemLoc sig) ≠ .reg barS by decide)
omit [FloatOps F] in
theorem expect_recv3 : (rd (F := F) m ρ).expect (recvCell3 c) 0 = Ncr := by
  unfold Schedule.expect Schedule.amountOf; rw [duties_recv3, Finset.sum_singleton, amount_recv3]
omit [FloatOps F] in
theorem payload_recv3 (u : Unit) : (rd (F := F) m ρ).payload (recvCell3 c) 0 u = recvPay3 m ρ c := by
  show payloadOf m ρ c (.dma recvS3.sem) = _
  unfold payloadOf
  rw [if_neg (show (.dma recvS3.sem : SemLoc sig) ≠ .reg barS by decide),
    if_neg (show (.dma recvS3.sem : SemLoc sig) ≠ .dma sendS0.sem by decide),
    if_neg (show (.dma recvS3.sem : SemLoc sig) ≠ .dma sendS1.sem by decide),
    if_neg (show (.dma recvS3.sem : SemLoc sig) ≠ .dma sendS2.sem by decide),
    if_neg (show (.dma recvS3.sem : SemLoc sig) ≠ .dma sendS3.sem by decide),
    if_neg (show (.dma recvS3.sem : SemLoc sig) ≠ .dma sendS4.sem by decide),
    if_neg (show (.dma recvS3.sem : SemLoc sig) ≠ .dma sendS5.sem by decide),
    if_neg (show (.dma recvS3.sem : SemLoc sig) ≠ .dma sendS6.sem by decide),
    if_neg (show (.dma recvS3.sem : SemLoc sig) ≠ .dma sendS7.sem by decide),
    if_neg (show (.dma recvS3.sem : SemLoc sig) ≠ .dma recvS0.sem by decide),
    if_neg (show (.dma recvS3.sem : SemLoc sig) ≠ .dma recvS1.sem by decide),
    if_neg (show (.dma recvS3.sem : SemLoc sig) ≠ .dma recvS2.sem by decide)]
  exact if_pos rfl
omit [FloatOps F] in
theorem rest_recv3 : bigSep ((rd (F := F) m ρ).duties (recvCell3 c) 0 \ ∅) (fun u => (rd (F := F) m ρ).payload (recvCell3 c) 0 u) = recvPay3 m ρ c := by
  rw [Finset.sdiff_empty, duties_recv3, bigSep_singleton, payload_recv3]

omit [FloatOps F] in
theorem duties_recv4 : (rd (F := F) m ρ).duties (recvCell4 c) 0 = {()} := by dsimp only [rd]; exact if_pos ⟨rfl, rfl, (show (.dma recvS4.sem : SemLoc sig) ∈ mySems by decide)⟩
omit [FloatOps F] in
theorem amount_recv4 (u : Unit) : (rd (F := F) m ρ).amount (recvCell4 c) 0 u = Ncr := by dsimp only [rd]; exact if_neg (show (.dma recvS4.sem : SemLoc sig) ≠ .reg barS by decide)
omit [FloatOps F] in
theorem expect_recv4 : (rd (F := F) m ρ).expect (recvCell4 c) 0 = Ncr := by
  unfold Schedule.expect Schedule.amountOf; rw [duties_recv4, Finset.sum_singleton, amount_recv4]
omit [FloatOps F] in
theorem payload_recv4 (u : Unit) : (rd (F := F) m ρ).payload (recvCell4 c) 0 u = recvPay4 m ρ c := by
  show payloadOf m ρ c (.dma recvS4.sem) = _
  unfold payloadOf
  rw [if_neg (show (.dma recvS4.sem : SemLoc sig) ≠ .reg barS by decide),
    if_neg (show (.dma recvS4.sem : SemLoc sig) ≠ .dma sendS0.sem by decide),
    if_neg (show (.dma recvS4.sem : SemLoc sig) ≠ .dma sendS1.sem by decide),
    if_neg (show (.dma recvS4.sem : SemLoc sig) ≠ .dma sendS2.sem by decide),
    if_neg (show (.dma recvS4.sem : SemLoc sig) ≠ .dma sendS3.sem by decide),
    if_neg (show (.dma recvS4.sem : SemLoc sig) ≠ .dma sendS4.sem by decide),
    if_neg (show (.dma recvS4.sem : SemLoc sig) ≠ .dma sendS5.sem by decide),
    if_neg (show (.dma recvS4.sem : SemLoc sig) ≠ .dma sendS6.sem by decide),
    if_neg (show (.dma recvS4.sem : SemLoc sig) ≠ .dma sendS7.sem by decide),
    if_neg (show (.dma recvS4.sem : SemLoc sig) ≠ .dma recvS0.sem by decide),
    if_neg (show (.dma recvS4.sem : SemLoc sig) ≠ .dma recvS1.sem by decide),
    if_neg (show (.dma recvS4.sem : SemLoc sig) ≠ .dma recvS2.sem by decide),
    if_neg (show (.dma recvS4.sem : SemLoc sig) ≠ .dma recvS3.sem by decide)]
  exact if_pos rfl
omit [FloatOps F] in
theorem rest_recv4 : bigSep ((rd (F := F) m ρ).duties (recvCell4 c) 0 \ ∅) (fun u => (rd (F := F) m ρ).payload (recvCell4 c) 0 u) = recvPay4 m ρ c := by
  rw [Finset.sdiff_empty, duties_recv4, bigSep_singleton, payload_recv4]

omit [FloatOps F] in
theorem duties_recv5 : (rd (F := F) m ρ).duties (recvCell5 c) 0 = {()} := by dsimp only [rd]; exact if_pos ⟨rfl, rfl, (show (.dma recvS5.sem : SemLoc sig) ∈ mySems by decide)⟩
omit [FloatOps F] in
theorem amount_recv5 (u : Unit) : (rd (F := F) m ρ).amount (recvCell5 c) 0 u = Ncr := by dsimp only [rd]; exact if_neg (show (.dma recvS5.sem : SemLoc sig) ≠ .reg barS by decide)
omit [FloatOps F] in
theorem expect_recv5 : (rd (F := F) m ρ).expect (recvCell5 c) 0 = Ncr := by
  unfold Schedule.expect Schedule.amountOf; rw [duties_recv5, Finset.sum_singleton, amount_recv5]
omit [FloatOps F] in
theorem payload_recv5 (u : Unit) : (rd (F := F) m ρ).payload (recvCell5 c) 0 u = recvPay5 m ρ c := by
  show payloadOf m ρ c (.dma recvS5.sem) = _
  unfold payloadOf
  rw [if_neg (show (.dma recvS5.sem : SemLoc sig) ≠ .reg barS by decide),
    if_neg (show (.dma recvS5.sem : SemLoc sig) ≠ .dma sendS0.sem by decide),
    if_neg (show (.dma recvS5.sem : SemLoc sig) ≠ .dma sendS1.sem by decide),
    if_neg (show (.dma recvS5.sem : SemLoc sig) ≠ .dma sendS2.sem by decide),
    if_neg (show (.dma recvS5.sem : SemLoc sig) ≠ .dma sendS3.sem by decide),
    if_neg (show (.dma recvS5.sem : SemLoc sig) ≠ .dma sendS4.sem by decide),
    if_neg (show (.dma recvS5.sem : SemLoc sig) ≠ .dma sendS5.sem by decide),
    if_neg (show (.dma recvS5.sem : SemLoc sig) ≠ .dma sendS6.sem by decide),
    if_neg (show (.dma recvS5.sem : SemLoc sig) ≠ .dma sendS7.sem by decide),
    if_neg (show (.dma recvS5.sem : SemLoc sig) ≠ .dma recvS0.sem by decide),
    if_neg (show (.dma recvS5.sem : SemLoc sig) ≠ .dma recvS1.sem by decide),
    if_neg (show (.dma recvS5.sem : SemLoc sig) ≠ .dma recvS2.sem by decide),
    if_neg (show (.dma recvS5.sem : SemLoc sig) ≠ .dma recvS3.sem by decide),
    if_neg (show (.dma recvS5.sem : SemLoc sig) ≠ .dma recvS4.sem by decide)]
  exact if_pos rfl
omit [FloatOps F] in
theorem rest_recv5 : bigSep ((rd (F := F) m ρ).duties (recvCell5 c) 0 \ ∅) (fun u => (rd (F := F) m ρ).payload (recvCell5 c) 0 u) = recvPay5 m ρ c := by
  rw [Finset.sdiff_empty, duties_recv5, bigSep_singleton, payload_recv5]

omit [FloatOps F] in
theorem duties_recv6 : (rd (F := F) m ρ).duties (recvCell6 c) 0 = {()} := by dsimp only [rd]; exact if_pos ⟨rfl, rfl, (show (.dma recvS6.sem : SemLoc sig) ∈ mySems by decide)⟩
omit [FloatOps F] in
theorem amount_recv6 (u : Unit) : (rd (F := F) m ρ).amount (recvCell6 c) 0 u = Ncr := by dsimp only [rd]; exact if_neg (show (.dma recvS6.sem : SemLoc sig) ≠ .reg barS by decide)
omit [FloatOps F] in
theorem expect_recv6 : (rd (F := F) m ρ).expect (recvCell6 c) 0 = Ncr := by
  unfold Schedule.expect Schedule.amountOf; rw [duties_recv6, Finset.sum_singleton, amount_recv6]
omit [FloatOps F] in
theorem payload_recv6 (u : Unit) : (rd (F := F) m ρ).payload (recvCell6 c) 0 u = recvPay6 m ρ c := by
  show payloadOf m ρ c (.dma recvS6.sem) = _
  unfold payloadOf
  rw [if_neg (show (.dma recvS6.sem : SemLoc sig) ≠ .reg barS by decide),
    if_neg (show (.dma recvS6.sem : SemLoc sig) ≠ .dma sendS0.sem by decide),
    if_neg (show (.dma recvS6.sem : SemLoc sig) ≠ .dma sendS1.sem by decide),
    if_neg (show (.dma recvS6.sem : SemLoc sig) ≠ .dma sendS2.sem by decide),
    if_neg (show (.dma recvS6.sem : SemLoc sig) ≠ .dma sendS3.sem by decide),
    if_neg (show (.dma recvS6.sem : SemLoc sig) ≠ .dma sendS4.sem by decide),
    if_neg (show (.dma recvS6.sem : SemLoc sig) ≠ .dma sendS5.sem by decide),
    if_neg (show (.dma recvS6.sem : SemLoc sig) ≠ .dma sendS6.sem by decide),
    if_neg (show (.dma recvS6.sem : SemLoc sig) ≠ .dma sendS7.sem by decide),
    if_neg (show (.dma recvS6.sem : SemLoc sig) ≠ .dma recvS0.sem by decide),
    if_neg (show (.dma recvS6.sem : SemLoc sig) ≠ .dma recvS1.sem by decide),
    if_neg (show (.dma recvS6.sem : SemLoc sig) ≠ .dma recvS2.sem by decide),
    if_neg (show (.dma recvS6.sem : SemLoc sig) ≠ .dma recvS3.sem by decide),
    if_neg (show (.dma recvS6.sem : SemLoc sig) ≠ .dma recvS4.sem by decide),
    if_neg (show (.dma recvS6.sem : SemLoc sig) ≠ .dma recvS5.sem by decide)]
  exact if_pos rfl
omit [FloatOps F] in
theorem rest_recv6 : bigSep ((rd (F := F) m ρ).duties (recvCell6 c) 0 \ ∅) (fun u => (rd (F := F) m ρ).payload (recvCell6 c) 0 u) = recvPay6 m ρ c := by
  rw [Finset.sdiff_empty, duties_recv6, bigSep_singleton, payload_recv6]

omit [FloatOps F] in
theorem duties_recv7 : (rd (F := F) m ρ).duties (recvCell7 c) 0 = {()} := by dsimp only [rd]; exact if_pos ⟨rfl, rfl, (show (.dma recvS7.sem : SemLoc sig) ∈ mySems by decide)⟩
omit [FloatOps F] in
theorem amount_recv7 (u : Unit) : (rd (F := F) m ρ).amount (recvCell7 c) 0 u = Ncr := by dsimp only [rd]; exact if_neg (show (.dma recvS7.sem : SemLoc sig) ≠ .reg barS by decide)
omit [FloatOps F] in
theorem expect_recv7 : (rd (F := F) m ρ).expect (recvCell7 c) 0 = Ncr := by
  unfold Schedule.expect Schedule.amountOf; rw [duties_recv7, Finset.sum_singleton, amount_recv7]
omit [FloatOps F] in
theorem payload_recv7 (u : Unit) : (rd (F := F) m ρ).payload (recvCell7 c) 0 u = recvPay7 m ρ c := by
  show payloadOf m ρ c (.dma recvS7.sem) = _
  unfold payloadOf
  rw [if_neg (show (.dma recvS7.sem : SemLoc sig) ≠ .reg barS by decide),
    if_neg (show (.dma recvS7.sem : SemLoc sig) ≠ .dma sendS0.sem by decide),
    if_neg (show (.dma recvS7.sem : SemLoc sig) ≠ .dma sendS1.sem by decide),
    if_neg (show (.dma recvS7.sem : SemLoc sig) ≠ .dma sendS2.sem by decide),
    if_neg (show (.dma recvS7.sem : SemLoc sig) ≠ .dma sendS3.sem by decide),
    if_neg (show (.dma recvS7.sem : SemLoc sig) ≠ .dma sendS4.sem by decide),
    if_neg (show (.dma recvS7.sem : SemLoc sig) ≠ .dma sendS5.sem by decide),
    if_neg (show (.dma recvS7.sem : SemLoc sig) ≠ .dma sendS6.sem by decide),
    if_neg (show (.dma recvS7.sem : SemLoc sig) ≠ .dma sendS7.sem by decide),
    if_neg (show (.dma recvS7.sem : SemLoc sig) ≠ .dma recvS0.sem by decide),
    if_neg (show (.dma recvS7.sem : SemLoc sig) ≠ .dma recvS1.sem by decide),
    if_neg (show (.dma recvS7.sem : SemLoc sig) ≠ .dma recvS2.sem by decide),
    if_neg (show (.dma recvS7.sem : SemLoc sig) ≠ .dma recvS3.sem by decide),
    if_neg (show (.dma recvS7.sem : SemLoc sig) ≠ .dma recvS4.sem by decide),
    if_neg (show (.dma recvS7.sem : SemLoc sig) ≠ .dma recvS5.sem by decide),
    if_neg (show (.dma recvS7.sem : SemLoc sig) ≠ .dma recvS6.sem by decide)]
  exact if_pos rfl
omit [FloatOps F] in
theorem rest_recv7 : bigSep ((rd (F := F) m ρ).duties (recvCell7 c) 0 \ ∅) (fun u => (rd (F := F) m ρ).payload (recvCell7 c) 0 u) = recvPay7 m ρ c := by
  rw [Finset.sdiff_empty, duties_recv7, bigSep_singleton, payload_recv7]

end Sched

/-! ## What a device owes at launch; the levels -/

def recvSems : List (SemLoc sig) := [.dma recvS0.sem, .dma recvS1.sem, .dma recvS2.sem, .dma recvS3.sem, .dma recvS4.sem, .dma recvS5.sem, .dma recvS6.sem, .dma recvS7.sem]

/-- After its barrier signal a device still owes its partner the eight copies' receive credits, summed so that copy 0
    peels the last summand. -/
def O₁ (c : Dev nD) : CellTallies nD τ sig Unit :=
  0 + tallyAt (recvCell7 (peer c)) () Ncr + tallyAt (recvCell6 (peer c)) () Ncr + tallyAt (recvCell5 (peer c)) () Ncr + tallyAt (recvCell4 (peer c)) () Ncr + tallyAt (recvCell3 (peer c)) () Ncr + tallyAt (recvCell2 (peer c)) () Ncr + tallyAt (recvCell1 (peer c)) () Ncr + tallyAt (recvCell0 (peer c)) () Ncr
/-- At launch it also owes the partner's barrier cell one unit: the first thing it pays. -/
def O₀ (c : Dev nD) : CellTallies nD τ sig Unit := O₁ c + tallyAt (barCell (peer c)) () 1

def L (g : GSem nD τ sig) : Finset Unit := if g.1.2 = .tc then {()} else ∅
/-- Barrier cells at 1, receive cells at 2, everything else (staging, send) at 0: a device waits on its barrier cell
    while it owes receive credits, and on nothing else while it owes anything but staging waits at level 0. -/
def lv (g : GSem nD τ sig) (_ : Unit) : ℕ := if g.2 = .reg barS then 1 else if g.2 ∈ recvSems then 2 else 0

theorem L_of_ne (g : GSem nD τ sig) (h : g.1.2 ≠ .tc) : L g = ∅ := if_neg h
theorem L_tc (c : Dev nD) (sm : SemLoc sig) : L ((c : Thread nD τ), sm) = {()} := if_pos rfl

theorem zero_tally (g : GSem nD τ sig) (u : Unit) : ¬ 0 < (0 : CellTallies nD τ sig Unit) g u := by
  rw [Pi.zero_apply, Finsupp.zero_apply]; exact Nat.lt_irrefl 0

theorem O₁_pos {c : Dev nD} {g : GSem nD τ sig} {u : Unit} (h : 0 < O₁ c g u) : g.1.2 = .tc ∧ g.2 ∈ recvSems := by
  unfold O₁ at h
  rcases Pipeline.add_pos_cases h with h | h
  rotate_left
  · obtain ⟨rfl, -⟩ := Pipeline.tallyAt_pos h; exact ⟨rfl, (show (.dma recvS0.sem : SemLoc sig) ∈ recvSems by decide)⟩
  rcases Pipeline.add_pos_cases h with h | h
  rotate_left
  · obtain ⟨rfl, -⟩ := Pipeline.tallyAt_pos h; exact ⟨rfl, (show (.dma recvS1.sem : SemLoc sig) ∈ recvSems by decide)⟩
  rcases Pipeline.add_pos_cases h with h | h
  rotate_left
  · obtain ⟨rfl, -⟩ := Pipeline.tallyAt_pos h; exact ⟨rfl, (show (.dma recvS2.sem : SemLoc sig) ∈ recvSems by decide)⟩
  rcases Pipeline.add_pos_cases h with h | h
  rotate_left
  · obtain ⟨rfl, -⟩ := Pipeline.tallyAt_pos h; exact ⟨rfl, (show (.dma recvS3.sem : SemLoc sig) ∈ recvSems by decide)⟩
  rcases Pipeline.add_pos_cases h with h | h
  rotate_left
  · obtain ⟨rfl, -⟩ := Pipeline.tallyAt_pos h; exact ⟨rfl, (show (.dma recvS4.sem : SemLoc sig) ∈ recvSems by decide)⟩
  rcases Pipeline.add_pos_cases h with h | h
  rotate_left
  · obtain ⟨rfl, -⟩ := Pipeline.tallyAt_pos h; exact ⟨rfl, (show (.dma recvS5.sem : SemLoc sig) ∈ recvSems by decide)⟩
  rcases Pipeline.add_pos_cases h with h | h
  rotate_left
  · obtain ⟨rfl, -⟩ := Pipeline.tallyAt_pos h; exact ⟨rfl, (show (.dma recvS6.sem : SemLoc sig) ∈ recvSems by decide)⟩
  rcases Pipeline.add_pos_cases h with h | h
  rotate_left
  · obtain ⟨rfl, -⟩ := Pipeline.tallyAt_pos h; exact ⟨rfl, (show (.dma recvS7.sem : SemLoc sig) ∈ recvSems by decide)⟩
  exact absurd h (zero_tally g u)

theorem O₀_pos {c : Dev nD} {g : GSem nD τ sig} {u : Unit} (h : 0 < O₀ c g u) : g.1.2 = .tc ∧ (g.2 ∈ recvSems ∨ g.2 = .reg barS) := by
  unfold O₀ at h
  rcases Pipeline.add_pos_cases h with h | h
  · exact ⟨(O₁_pos h).1, .inl (O₁_pos h).2⟩
  · obtain ⟨rfl, -⟩ := Pipeline.tallyAt_pos h; exact ⟨rfl, .inr rfl⟩

theorem recv_ne_bar {s : SemLoc sig} (h : s ∈ recvSems) : s ≠ .reg barS := fun e => by rw [e] at h; exact absurd h (by decide)

omit [FloatOps F] in
/-- At its barrier wait a device owes receive credits only: receive cells, above its barrier cell. -/
theorem mayWait_bar (c : Dev nD) : (levAts L lv : sProp 𝕄) ⊢ MayWait (c : Thread nD τ) (.reg barS) () (O₁ c) :=
  Pipeline.mayWait_of_levAts (by rw [L_tc]; exact Finset.mem_singleton_self _) fun g i h => by
    obtain ⟨h1, h2⟩ := O₁_pos h
    refine ⟨by unfold L; rw [if_pos h1]; exact Finset.mem_singleton_self _, ?_⟩
    dsimp only [lv]; rw [if_pos rfl, if_neg (recv_ne_bar h2), if_pos h2]; decide

omit [FloatOps F] in
/-- The staging pipeline's waits (on the windows' DMA semaphores, none a receive semaphore) sit below everything owed. -/
theorem mayWait_stage (c : Dev nD) (q : DmaSem sig) (hq : SemLoc.dma q ∉ recvSems) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i h => ?_
    obtain ⟨h1, h2⟩ := O₀_pos h
    refine ⟨by unfold L; rw [if_pos h1]; exact Finset.mem_singleton_self _, ?_⟩
    dsimp only [lv]; rw [if_neg (fun e => by cases e), if_neg hq]
    rcases h2 with h2 | h2
    · rw [if_neg (recv_ne_bar h2), if_pos h2]; decide
    · rw [if_pos h2]; decide
  · rw [MayWait_zero]; iintro -; iempintro

end Cert.KernelIdeal.Hand

end
-- ==== Proof.Sends.lean ====
/-
  The eight copies, one rule each: copy i lends rows ⌊i/2⌋ of the issuer's K (i even) or V (i odd) buffer at half the
  share, overwrites the same rows of the partner's landing buffer, and what lands there is, row for row, what the
  issuer's buffer holds: source and destination are the same rows of two buffers of one shape.
-/
import proofs.«900412_g7700000000000413_dist_agattn_v7x_xyz2x2x2_z_b2_s256_h8_d64_f32_1_alg».proof.Proof.Protocol
import Idealize.ShloMosaic.Lib.Pipeline.Value

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

omit [FloatOps F] in
/-- On the rows copy 0 writes, the landing buffer ends holding the source buffer's entries. -/
theorem landed_eq0 (c' : Dev nD) (fd : Buf (Elt F) ((dstM0 : Memref sig .tc .vmem S2x64x8x64 .f32).view.loc (c' : Thread nD τ))) (fs : (cc0_stg1_0 : Ref sig .tc).ty.Contents (Elt F)) :
    ∀ j ∈ (dstM0 : Memref sig .tc .vmem S2x64x8x64 .f32).view.set, (dstM0 : Memref sig .tc .vmem S2x64x8x64 .f32).view.write (Elt F) fd ((srcM0 : Memref sig .tc .vmem S2x64x8x64 .f32).view.read (Elt F) fs) Finset.univ j = fs j := by
  intro j hj
  obtain ⟨y, rfl⟩ := View.exists_emb_of_mem_set _ hj
  rw [View.write_emb_of_mem _ _ (Finset.mem_univ y)]
  rfl

omit [FloatOps F] in
/-- On the rows copy 1 writes, the landing buffer ends holding the source buffer's entries. -/
theorem landed_eq1 (c' : Dev nD) (fd : Buf (Elt F) ((dstM1 : Memref sig .tc .vmem S2x64x8x64 .f32).view.loc (c' : Thread nD τ))) (fs : (cc0_stg2_0 : Ref sig .tc).ty.Contents (Elt F)) :
    ∀ j ∈ (dstM1 : Memref sig .tc .vmem S2x64x8x64 .f32).view.set, (dstM1 : Memref sig .tc .vmem S2x64x8x64 .f32).view.write (Elt F) fd ((srcM1 : Memref sig .tc .vmem S2x64x8x64 .f32).view.read (Elt F) fs) Finset.univ j = fs j := by
  intro j hj
  obtain ⟨y, rfl⟩ := View.exists_emb_of_mem_set _ hj
  rw [View.write_emb_of_mem _ _ (Finset.mem_univ y)]
  rfl

omit [FloatOps F] in
/-- On the rows copy 2 writes, the landing buffer ends holding the source buffer's entries. -/
theorem landed_eq2 (c' : Dev nD) (fd : Buf (Elt F) ((dstM2 : Memref sig .tc .vmem S2x64x8x64 .f32).view.loc (c' : Thread nD τ))) (fs : (cc0_stg1_0 : Ref sig .tc).ty.Contents (Elt F)) :
    ∀ j ∈ (dstM2 : Memref sig .tc .vmem S2x64x8x64 .f32).view.set, (dstM2 : Memref sig .tc .vmem S2x64x8x64 .f32).view.write (Elt F) fd ((srcM2 : Memref sig .tc .vmem S2x64x8x64 .f32).view.read (Elt F) fs) Finset.univ j = fs j := by
  intro j hj
  obtain ⟨y, rfl⟩ := View.exists_emb_of_mem_set _ hj
  rw [View.write_emb_of_mem _ _ (Finset.mem_univ y)]
  rfl

omit [FloatOps F] in
/-- On the rows copy 3 writes, the landing buffer ends holding the source buffer's entries. -/
theorem landed_eq3 (c' : Dev nD) (fd : Buf (Elt F) ((dstM3 : Memref sig .tc .vmem S2x64x8x64 .f32).view.loc (c' : Thread nD τ))) (fs : (cc0_stg2_0 : Ref sig .tc).ty.Contents (Elt F)) :
    ∀ j ∈ (dstM3 : Memref sig .tc .vmem S2x64x8x64 .f32).view.set, (dstM3 : Memref sig .tc .vmem S2x64x8x64 .f32).view.write (Elt F) fd ((srcM3 : Memref sig .tc .vmem S2x64x8x64 .f32).view.read (Elt F) fs) Finset.univ j = fs j := by
  intro j hj
  obtain ⟨y, rfl⟩ := View.exists_emb_of_mem_set _ hj
  rw [View.write_emb_of_mem _ _ (Finset.mem_univ y)]
  rfl

omit [FloatOps F] in
/-- On the rows copy 4 writes, the landing buffer ends holding the source buffer's entries. -/
theorem landed_eq4 (c' : Dev nD) (fd : Buf (Elt F) ((dstM4 : Memref sig .tc .vmem S2x64x8x64 .f32).view.loc (c' : Thread nD τ))) (fs : (cc0_stg1_0 : Ref sig .tc).ty.Contents (Elt F)) :
    ∀ j ∈ (dstM4 : Memref sig .tc .vmem S2x64x8x64 .f32).view.set, (dstM4 : Memref sig .tc .vmem S2x64x8x64 .f32).view.write (Elt F) fd ((srcM4 : Memref sig .tc .vmem S2x64x8x64 .f32).view.read (Elt F) fs) Finset.univ j = fs j := by
  intro j hj
  obtain ⟨y, rfl⟩ := View.exists_emb_of_mem_set _ hj
  rw [View.write_emb_of_mem _ _ (Finset.mem_univ y)]
  rfl

omit [FloatOps F] in
/-- On the rows copy 5 writes, the landing buffer ends holding the source buffer's entries. -/
theorem landed_eq5 (c' : Dev nD) (fd : Buf (Elt F) ((dstM5 : Memref sig .tc .vmem S2x64x8x64 .f32).view.loc (c' : Thread nD τ))) (fs : (cc0_stg2_0 : Ref sig .tc).ty.Contents (Elt F)) :
    ∀ j ∈ (dstM5 : Memref sig .tc .vmem S2x64x8x64 .f32).view.set, (dstM5 : Memref sig .tc .vmem S2x64x8x64 .f32).view.write (Elt F) fd ((srcM5 : Memref sig .tc .vmem S2x64x8x64 .f32).view.read (Elt F) fs) Finset.univ j = fs j := by
  intro j hj
  obtain ⟨y, rfl⟩ := View.exists_emb_of_mem_set _ hj
  rw [View.write_emb_of_mem _ _ (Finset.mem_univ y)]
  rfl

omit [FloatOps F] in
/-- On the rows copy 6 writes, the landing buffer ends holding the source buffer's entries. -/
theorem landed_eq6 (c' : Dev nD) (fd : Buf (Elt F) ((dstM6 : Memref sig .tc .vmem S2x64x8x64 .f32).view.loc (c' : Thread nD τ))) (fs : (cc0_stg1_0 : Ref sig .tc).ty.Contents (Elt F)) :
    ∀ j ∈ (dstM6 : Memref sig .tc .vmem S2x64x8x64 .f32).view.set, (dstM6 : Memref sig .tc .vmem S2x64x8x64 .f32).view.write (Elt F) fd ((srcM6 : Memref sig .tc .vmem S2x64x8x64 .f32).view.read (Elt F) fs) Finset.univ j = fs j := by
  intro j hj
  obtain ⟨y, rfl⟩ := View.exists_emb_of_mem_set _ hj
  rw [View.write_emb_of_mem _ _ (Finset.mem_univ y)]
  rfl

omit [FloatOps F] in
/-- On the rows copy 7 writes, the landing buffer ends holding the source buffer's entries. -/
theorem landed_eq7 (c' : Dev nD) (fd : Buf (Elt F) ((dstM7 : Memref sig .tc .vmem S2x64x8x64 .f32).view.loc (c' : Thread nD τ))) (fs : (cc0_stg2_0 : Ref sig .tc).ty.Contents (Elt F)) :
    ∀ j ∈ (dstM7 : Memref sig .tc .vmem S2x64x8x64 .f32).view.set, (dstM7 : Memref sig .tc .vmem S2x64x8x64 .f32).view.write (Elt F) fd ((srcM7 : Memref sig .tc .vmem S2x64x8x64 .f32).view.read (Elt F) fs) Finset.univ j = fs j := by
  intro j hj
  obtain ⟨y, rfl⟩ := View.exists_emb_of_mem_set _ hj
  rw [View.write_emb_of_mem _ _ (Finset.mem_univ y)]
  rfl

/-- Copy 0, addressed to n = peer c. -/
theorem wp_send0 (K : Dev nD × Fin 17 → ℕ) (c n : Dev nD) (hn : n = peer c)
    {hsc : (dstM0 : Memref sig (Dev.tc n : Thread nD τ).2.kind .vmem S2x64x8x64 .f32).view.ref.isScScratch = false}
    {hsrc : (srcM0 : Memref sig .tc .vmem S2x64x8x64 .f32).view.WordExact} {hdst : (dstM0 : Memref sig .tc .vmem S2x64x8x64 .f32).view.WordExact}
    {hsem : DmaTarget.Typed .vmem (.dma recvS0.sem) (.remote (Dev.tc n : Thread nD τ) (dstM0 : Memref sig .tc .vmem S2x64x8x64 .f32) (.dma sendS0.sem) hsc)}
    {α : Type} {Q : α → sProp 𝕄} {k : PUnit → Prog (TpuEff nD τ sig (Elt F) Λ₀ .tc) α}
    (fd : Buf (Elt F) ((dstM0 : Memref sig .tc .vmem S2x64x8x64 .f32).view.loc (peer c : Thread nD τ))) (O : CellTallies nD τ sig Unit) (W : Waits sig Unit) :
    iprop(cellInv ER (rd m ρ) (K (c, 1)) (sendCell0 c) ∗ cellInv ER (rd m ρ) (K (peer c, 9)) (recvCell0 (peer c))
        ∗ ((srcM0 : Memref sig .tc .vmem S2x64x8x64 .f32).view.loc (c : Thread nD τ) ↦[(srcM0 : Memref sig .tc .vmem S2x64x8x64 .f32).view.set]{fullShare.left} kstg m ρ c) ∗ ((dstM0 : Memref sig .tc .vmem S2x64x8x64 .f32).view.loc (peer c : Thread nD τ) ↦[(dstM0 : Memref sig .tc .vmem S2x64x8x64 .f32).view.set]{fullShare} fd)
        ∗ owes (c : Thread nD τ) (O + tallyAt (recvCell0 (peer c)) () Ncr) W
        ∗ dutyTok ER (sendCell0 c) 0 () ∗ reached ER (sendCell0 c) 0
        ∗ dutyTok ER (recvCell0 (peer c)) 0 () ∗ reached ER (recvCell0 (peer c)) 0)
      ⊢ iprop(((cred (tallyAt (sendCell0 c) () Ncr) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma srcM0 (.remote (Dev.tc n : Thread nD τ) dstM0 (.dma sendS0.sem) hsc) (.dma recvS0.sem) hsrc hdst hsem) k) Q) := by
  subst hn
  exact Rounds.wp_send_pointsTo Variants.none ER (rd m ρ) (c : Thread nD τ) none (κ₁ := K (c, 1)) (κ₂ := K (peer c, 9))
    (r₁ := 0) (r₂ := 0) (d₁ := ()) (d₂ := ()) (fd := fd)
    (by rw [duties_send0]; exact Finset.mem_singleton_self _) (by rw [duties_recv0]; exact Finset.mem_singleton_self _)
    () () Ncr rfl (amount_send0 m ρ c ()) (amount_recv0 m ρ (peer c) ()) O rfl (W := W)
    (by rw [payload_send0]; exact BI.Entails.refl _)
    (by rw [payload_recv0]; unfold recvPay0 klanded; rw [peer_peer]; exact Entails.of_eq (pointsTo_congr (landed_eq0 (peer c) fd (kstg m ρ c))))

/-- Copy 1, addressed to n = peer c. -/
theorem wp_send1 (K : Dev nD × Fin 17 → ℕ) (c n : Dev nD) (hn : n = peer c)
    {hsc : (dstM1 : Memref sig (Dev.tc n : Thread nD τ).2.kind .vmem S2x64x8x64 .f32).view.ref.isScScratch = false}
    {hsrc : (srcM1 : Memref sig .tc .vmem S2x64x8x64 .f32).view.WordExact} {hdst : (dstM1 : Memref sig .tc .vmem S2x64x8x64 .f32).view.WordExact}
    {hsem : DmaTarget.Typed .vmem (.dma recvS1.sem) (.remote (Dev.tc n : Thread nD τ) (dstM1 : Memref sig .tc .vmem S2x64x8x64 .f32) (.dma sendS1.sem) hsc)}
    {α : Type} {Q : α → sProp 𝕄} {k : PUnit → Prog (TpuEff nD τ sig (Elt F) Λ₀ .tc) α}
    (fd : Buf (Elt F) ((dstM1 : Memref sig .tc .vmem S2x64x8x64 .f32).view.loc (peer c : Thread nD τ))) (O : CellTallies nD τ sig Unit) (W : Waits sig Unit) :
    iprop(cellInv ER (rd m ρ) (K (c, 2)) (sendCell1 c) ∗ cellInv ER (rd m ρ) (K (peer c, 10)) (recvCell1 (peer c))
        ∗ ((srcM1 : Memref sig .tc .vmem S2x64x8x64 .f32).view.loc (c : Thread nD τ) ↦[(srcM1 : Memref sig .tc .vmem S2x64x8x64 .f32).view.set]{fullShare.left} vstg m ρ c) ∗ ((dstM1 : Memref sig .tc .vmem S2x64x8x64 .f32).view.loc (peer c : Thread nD τ) ↦[(dstM1 : Memref sig .tc .vmem S2x64x8x64 .f32).view.set]{fullShare} fd)
        ∗ owes (c : Thread nD τ) (O + tallyAt (recvCell1 (peer c)) () Ncr) W
        ∗ dutyTok ER (sendCell1 c) 0 () ∗ reached ER (sendCell1 c) 0
        ∗ dutyTok ER (recvCell1 (peer c)) 0 () ∗ reached ER (recvCell1 (peer c)) 0)
      ⊢ iprop(((cred (tallyAt (sendCell1 c) () Ncr) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma srcM1 (.remote (Dev.tc n : Thread nD τ) dstM1 (.dma sendS1.sem) hsc) (.dma recvS1.sem) hsrc hdst hsem) k) Q) := by
  subst hn
  exact Rounds.wp_send_pointsTo Variants.none ER (rd m ρ) (c : Thread nD τ) none (κ₁ := K (c, 2)) (κ₂ := K (peer c, 10))
    (r₁ := 0) (r₂ := 0) (d₁ := ()) (d₂ := ()) (fd := fd)
    (by rw [duties_send1]; exact Finset.mem_singleton_self _) (by rw [duties_recv1]; exact Finset.mem_singleton_self _)
    () () Ncr rfl (amount_send1 m ρ c ()) (amount_recv1 m ρ (peer c) ()) O rfl (W := W)
    (by rw [payload_send1]; exact BI.Entails.refl _)
    (by rw [payload_recv1]; unfold recvPay1 vlanded; rw [peer_peer]; exact Entails.of_eq (pointsTo_congr (landed_eq1 (peer c) fd (vstg m ρ c))))

/-- Copy 2, addressed to n = peer c. -/
theorem wp_send2 (K : Dev nD × Fin 17 → ℕ) (c n : Dev nD) (hn : n = peer c)
    {hsc : (dstM2 : Memref sig (Dev.tc n : Thread nD τ).2.kind .vmem S2x64x8x64 .f32).view.ref.isScScratch = false}
    {hsrc : (srcM2 : Memref sig .tc .vmem S2x64x8x64 .f32).view.WordExact} {hdst : (dstM2 : Memref sig .tc .vmem S2x64x8x64 .f32).view.WordExact}
    {hsem : DmaTarget.Typed .vmem (.dma recvS2.sem) (.remote (Dev.tc n : Thread nD τ) (dstM2 : Memref sig .tc .vmem S2x64x8x64 .f32) (.dma sendS2.sem) hsc)}
    {α : Type} {Q : α → sProp 𝕄} {k : PUnit → Prog (TpuEff nD τ sig (Elt F) Λ₀ .tc) α}
    (fd : Buf (Elt F) ((dstM2 : Memref sig .tc .vmem S2x64x8x64 .f32).view.loc (peer c : Thread nD τ))) (O : CellTallies nD τ sig Unit) (W : Waits sig Unit) :
    iprop(cellInv ER (rd m ρ) (K (c, 3)) (sendCell2 c) ∗ cellInv ER (rd m ρ) (K (peer c, 11)) (recvCell2 (peer c))
        ∗ ((srcM2 : Memref sig .tc .vmem S2x64x8x64 .f32).view.loc (c : Thread nD τ) ↦[(srcM2 : Memref sig .tc .vmem S2x64x8x64 .f32).view.set]{fullShare.left} kstg m ρ c) ∗ ((dstM2 : Memref sig .tc .vmem S2x64x8x64 .f32).view.loc (peer c : Thread nD τ) ↦[(dstM2 : Memref sig .tc .vmem S2x64x8x64 .f32).view.set]{fullShare} fd)
        ∗ owes (c : Thread nD τ) (O + tallyAt (recvCell2 (peer c)) () Ncr) W
        ∗ dutyTok ER (sendCell2 c) 0 () ∗ reached ER (sendCell2 c) 0
        ∗ dutyTok ER (recvCell2 (peer c)) 0 () ∗ reached ER (recvCell2 (peer c)) 0)
      ⊢ iprop(((cred (tallyAt (sendCell2 c) () Ncr) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma srcM2 (.remote (Dev.tc n : Thread nD τ) dstM2 (.dma sendS2.sem) hsc) (.dma recvS2.sem) hsrc hdst hsem) k) Q) := by
  subst hn
  exact Rounds.wp_send_pointsTo Variants.none ER (rd m ρ) (c : Thread nD τ) none (κ₁ := K (c, 3)) (κ₂ := K (peer c, 11))
    (r₁ := 0) (r₂ := 0) (d₁ := ()) (d₂ := ()) (fd := fd)
    (by rw [duties_send2]; exact Finset.mem_singleton_self _) (by rw [duties_recv2]; exact Finset.mem_singleton_self _)
    () () Ncr rfl (amount_send2 m ρ c ()) (amount_recv2 m ρ (peer c) ()) O rfl (W := W)
    (by rw [payload_send2]; exact BI.Entails.refl _)
    (by rw [payload_recv2]; unfold recvPay2 klanded; rw [peer_peer]; exact Entails.of_eq (pointsTo_congr (landed_eq2 (peer c) fd (kstg m ρ c))))

/-- Copy 3, addressed to n = peer c. -/
theorem wp_send3 (K : Dev nD × Fin 17 → ℕ) (c n : Dev nD) (hn : n = peer c)
    {hsc : (dstM3 : Memref sig (Dev.tc n : Thread nD τ).2.kind .vmem S2x64x8x64 .f32).view.ref.isScScratch = false}
    {hsrc : (srcM3 : Memref sig .tc .vmem S2x64x8x64 .f32).view.WordExact} {hdst : (dstM3 : Memref sig .tc .vmem S2x64x8x64 .f32).view.WordExact}
    {hsem : DmaTarget.Typed .vmem (.dma recvS3.sem) (.remote (Dev.tc n : Thread nD τ) (dstM3 : Memref sig .tc .vmem S2x64x8x64 .f32) (.dma sendS3.sem) hsc)}
    {α : Type} {Q : α → sProp 𝕄} {k : PUnit → Prog (TpuEff nD τ sig (Elt F) Λ₀ .tc) α}
    (fd : Buf (Elt F) ((dstM3 : Memref sig .tc .vmem S2x64x8x64 .f32).view.loc (peer c : Thread nD τ))) (O : CellTallies nD τ sig Unit) (W : Waits sig Unit) :
    iprop(cellInv ER (rd m ρ) (K (c, 4)) (sendCell3 c) ∗ cellInv ER (rd m ρ) (K (peer c, 12)) (recvCell3 (peer c))
        ∗ ((srcM3 : Memref sig .tc .vmem S2x64x8x64 .f32).view.loc (c : Thread nD τ) ↦[(srcM3 : Memref sig .tc .vmem S2x64x8x64 .f32).view.set]{fullShare.left} vstg m ρ c) ∗ ((dstM3 : Memref sig .tc .vmem S2x64x8x64 .f32).view.loc (peer c : Thread nD τ) ↦[(dstM3 : Memref sig .tc .vmem S2x64x8x64 .f32).view.set]{fullShare} fd)
        ∗ owes (c : Thread nD τ) (O + tallyAt (recvCell3 (peer c)) () Ncr) W
        ∗ dutyTok ER (sendCell3 c) 0 () ∗ reached ER (sendCell3 c) 0
        ∗ dutyTok ER (recvCell3 (peer c)) 0 () ∗ reached ER (recvCell3 (peer c)) 0)
      ⊢ iprop(((cred (tallyAt (sendCell3 c) () Ncr) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma srcM3 (.remote (Dev.tc n : Thread nD τ) dstM3 (.dma sendS3.sem) hsc) (.dma recvS3.sem) hsrc hdst hsem) k) Q) := by
  subst hn
  exact Rounds.wp_send_pointsTo Variants.none ER (rd m ρ) (c : Thread nD τ) none (κ₁ := K (c, 4)) (κ₂ := K (peer c, 12))
    (r₁ := 0) (r₂ := 0) (d₁ := ()) (d₂ := ()) (fd := fd)
    (by rw [duties_send3]; exact Finset.mem_singleton_self _) (by rw [duties_recv3]; exact Finset.mem_singleton_self _)
    () () Ncr rfl (amount_send3 m ρ c ()) (amount_recv3 m ρ (peer c) ()) O rfl (W := W)
    (by rw [payload_send3]; exact BI.Entails.refl _)
    (by rw [payload_recv3]; unfold recvPay3 vlanded; rw [peer_peer]; exact Entails.of_eq (pointsTo_congr (landed_eq3 (peer c) fd (vstg m ρ c))))

/-- Copy 4, addressed to n = peer c. -/
theorem wp_send4 (K : Dev nD × Fin 17 → ℕ) (c n : Dev nD) (hn : n = peer c)
    {hsc : (dstM4 : Memref sig (Dev.tc n : Thread nD τ).2.kind .vmem S2x64x8x64 .f32).view.ref.isScScratch = false}
    {hsrc : (srcM4 : Memref sig .tc .vmem S2x64x8x64 .f32).view.WordExact} {hdst : (dstM4 : Memref sig .tc .vmem S2x64x8x64 .f32).view.WordExact}
    {hsem : DmaTarget.Typed .vmem (.dma recvS4.sem) (.remote (Dev.tc n : Thread nD τ) (dstM4 : Memref sig .tc .vmem S2x64x8x64 .f32) (.dma sendS4.sem) hsc)}
    {α : Type} {Q : α → sProp 𝕄} {k : PUnit → Prog (TpuEff nD τ sig (Elt F) Λ₀ .tc) α}
    (fd : Buf (Elt F) ((dstM4 : Memref sig .tc .vmem S2x64x8x64 .f32).view.loc (peer c : Thread nD τ))) (O : CellTallies nD τ sig Unit) (W : Waits sig Unit) :
    iprop(cellInv ER (rd m ρ) (K (c, 5)) (sendCell4 c) ∗ cellInv ER (rd m ρ) (K (peer c, 13)) (recvCell4 (peer c))
        ∗ ((srcM4 : Memref sig .tc .vmem S2x64x8x64 .f32).view.loc (c : Thread nD τ) ↦[(srcM4 : Memref sig .tc .vmem S2x64x8x64 .f32).view.set]{fullShare.left} kstg m ρ c) ∗ ((dstM4 : Memref sig .tc .vmem S2x64x8x64 .f32).view.loc (peer c : Thread nD τ) ↦[(dstM4 : Memref sig .tc .vmem S2x64x8x64 .f32).view.set]{fullShare} fd)
        ∗ owes (c : Thread nD τ) (O + tallyAt (recvCell4 (peer c)) () Ncr) W
        ∗ dutyTok ER (sendCell4 c) 0 () ∗ reached ER (sendCell4 c) 0
        ∗ dutyTok ER (recvCell4 (peer c)) 0 () ∗ reached ER (recvCell4 (peer c)) 0)
      ⊢ iprop(((cred (tallyAt (sendCell4 c) () Ncr) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma srcM4 (.remote (Dev.tc n : Thread nD τ) dstM4 (.dma sendS4.sem) hsc) (.dma recvS4.sem) hsrc hdst hsem) k) Q) := by
  subst hn
  exact Rounds.wp_send_pointsTo Variants.none ER (rd m ρ) (c : Thread nD τ) none (κ₁ := K (c, 5)) (κ₂ := K (peer c, 13))
    (r₁ := 0) (r₂ := 0) (d₁ := ()) (d₂ := ()) (fd := fd)
    (by rw [duties_send4]; exact Finset.mem_singleton_self _) (by rw [duties_recv4]; exact Finset.mem_singleton_self _)
    () () Ncr rfl (amount_send4 m ρ c ()) (amount_recv4 m ρ (peer c) ()) O rfl (W := W)
    (by rw [payload_send4]; exact BI.Entails.refl _)
    (by rw [payload_recv4]; unfold recvPay4 klanded; rw [peer_peer]; exact Entails.of_eq (pointsTo_congr (landed_eq4 (peer c) fd (kstg m ρ c))))

/-- Copy 5, addressed to n = peer c. -/
theorem wp_send5 (K : Dev nD × Fin 17 → ℕ) (c n : Dev nD) (hn : n = peer c)
    {hsc : (dstM5 : Memref sig (Dev.tc n : Thread nD τ).2.kind .vmem S2x64x8x64 .f32).view.ref.isScScratch = false}
    {hsrc : (srcM5 : Memref sig .tc .vmem S2x64x8x64 .f32).view.WordExact} {hdst : (dstM5 : Memref sig .tc .vmem S2x64x8x64 .f32).view.WordExact}
    {hsem : DmaTarget.Typed .vmem (.dma recvS5.sem) (.remote (Dev.tc n : Thread nD τ) (dstM5 : Memref sig .tc .vmem S2x64x8x64 .f32) (.dma sendS5.sem) hsc)}
    {α : Type} {Q : α → sProp 𝕄} {k : PUnit → Prog (TpuEff nD τ sig (Elt F) Λ₀ .tc) α}
    (fd : Buf (Elt F) ((dstM5 : Memref sig .tc .vmem S2x64x8x64 .f32).view.loc (peer c : Thread nD τ))) (O : CellTallies nD τ sig Unit) (W : Waits sig Unit) :
    iprop(cellInv ER (rd m ρ) (K (c, 6)) (sendCell5 c) ∗ cellInv ER (rd m ρ) (K (peer c, 14)) (recvCell5 (peer c))
        ∗ ((srcM5 : Memref sig .tc .vmem S2x64x8x64 .f32).view.loc (c : Thread nD τ) ↦[(srcM5 : Memref sig .tc .vmem S2x64x8x64 .f32).view.set]{fullShare.left} vstg m ρ c) ∗ ((dstM5 : Memref sig .tc .vmem S2x64x8x64 .f32).view.loc (peer c : Thread nD τ) ↦[(dstM5 : Memref sig .tc .vmem S2x64x8x64 .f32).view.set]{fullShare} fd)
        ∗ owes (c : Thread nD τ) (O + tallyAt (recvCell5 (peer c)) () Ncr) W
        ∗ dutyTok ER (sendCell5 c) 0 () ∗ reached ER (sendCell5 c) 0
        ∗ dutyTok ER (recvCell5 (peer c)) 0 () ∗ reached ER (recvCell5 (peer c)) 0)
      ⊢ iprop(((cred (tallyAt (sendCell5 c) () Ncr) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma srcM5 (.remote (Dev.tc n : Thread nD τ) dstM5 (.dma sendS5.sem) hsc) (.dma recvS5.sem) hsrc hdst hsem) k) Q) := by
  subst hn
  exact Rounds.wp_send_pointsTo Variants.none ER (rd m ρ) (c : Thread nD τ) none (κ₁ := K (c, 6)) (κ₂ := K (peer c, 14))
    (r₁ := 0) (r₂ := 0) (d₁ := ()) (d₂ := ()) (fd := fd)
    (by rw [duties_send5]; exact Finset.mem_singleton_self _) (by rw [duties_recv5]; exact Finset.mem_singleton_self _)
    () () Ncr rfl (amount_send5 m ρ c ()) (amount_recv5 m ρ (peer c) ()) O rfl (W := W)
    (by rw [payload_send5]; exact BI.Entails.refl _)
    (by rw [payload_recv5]; unfold recvPay5 vlanded; rw [peer_peer]; exact Entails.of_eq (pointsTo_congr (landed_eq5 (peer c) fd (vstg m ρ c))))

/-- Copy 6, addressed to n = peer c. -/
theorem wp_send6 (K : Dev nD × Fin 17 → ℕ) (c n : Dev nD) (hn : n = peer c)
    {hsc : (dstM6 : Memref sig (Dev.tc n : Thread nD τ).2.kind .vmem S2x64x8x64 .f32).view.ref.isScScratch = false}
    {hsrc : (srcM6 : Memref sig .tc .vmem S2x64x8x64 .f32).view.WordExact} {hdst : (dstM6 : Memref sig .tc .vmem S2x64x8x64 .f32).view.WordExact}
    {hsem : DmaTarget.Typed .vmem (.dma recvS6.sem) (.remote (Dev.tc n : Thread nD τ) (dstM6 : Memref sig .tc .vmem S2x64x8x64 .f32) (.dma sendS6.sem) hsc)}
    {α : Type} {Q : α → sProp 𝕄} {k : PUnit → Prog (TpuEff nD τ sig (Elt F) Λ₀ .tc) α}
    (fd : Buf (Elt F) ((dstM6 : Memref sig .tc .vmem S2x64x8x64 .f32).view.loc (peer c : Thread nD τ))) (O : CellTallies nD τ sig Unit) (W : Waits sig Unit) :
    iprop(cellInv ER (rd m ρ) (K (c, 7)) (sendCell6 c) ∗ cellInv ER (rd m ρ) (K (peer c, 15)) (recvCell6 (peer c))
        ∗ ((srcM6 : Memref sig .tc .vmem S2x64x8x64 .f32).view.loc (c : Thread nD τ) ↦[(srcM6 : Memref sig .tc .vmem S2x64x8x64 .f32).view.set]{fullShare.left} kstg m ρ c) ∗ ((dstM6 : Memref sig .tc .vmem S2x64x8x64 .f32).view.loc (peer c : Thread nD τ) ↦[(dstM6 : Memref sig .tc .vmem S2x64x8x64 .f32).view.set]{fullShare} fd)
        ∗ owes (c : Thread nD τ) (O + tallyAt (recvCell6 (peer c)) () Ncr) W
        ∗ dutyTok ER (sendCell6 c) 0 () ∗ reached ER (sendCell6 c) 0
        ∗ dutyTok ER (recvCell6 (peer c)) 0 () ∗ reached ER (recvCell6 (peer c)) 0)
      ⊢ iprop(((cred (tallyAt (sendCell6 c) () Ncr) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma srcM6 (.remote (Dev.tc n : Thread nD τ) dstM6 (.dma sendS6.sem) hsc) (.dma recvS6.sem) hsrc hdst hsem) k) Q) := by
  subst hn
  exact Rounds.wp_send_pointsTo Variants.none ER (rd m ρ) (c : Thread nD τ) none (κ₁ := K (c, 7)) (κ₂ := K (peer c, 15))
    (r₁ := 0) (r₂ := 0) (d₁ := ()) (d₂ := ()) (fd := fd)
    (by rw [duties_send6]; exact Finset.mem_singleton_self _) (by rw [duties_recv6]; exact Finset.mem_singleton_self _)
    () () Ncr rfl (amount_send6 m ρ c ()) (amount_recv6 m ρ (peer c) ()) O rfl (W := W)
    (by rw [payload_send6]; exact BI.Entails.refl _)
    (by rw [payload_recv6]; unfold recvPay6 klanded; rw [peer_peer]; exact Entails.of_eq (pointsTo_congr (landed_eq6 (peer c) fd (kstg m ρ c))))

/-- Copy 7, addressed to n = peer c. -/
theorem wp_send7 (K : Dev nD × Fin 17 → ℕ) (c n : Dev nD) (hn : n = peer c)
    {hsc : (dstM7 : Memref sig (Dev.tc n : Thread nD τ).2.kind .vmem S2x64x8x64 .f32).view.ref.isScScratch = false}
    {hsrc : (srcM7 : Memref sig .tc .vmem S2x64x8x64 .f32).view.WordExact} {hdst : (dstM7 : Memref sig .tc .vmem S2x64x8x64 .f32).view.WordExact}
    {hsem : DmaTarget.Typed .vmem (.dma recvS7.sem) (.remote (Dev.tc n : Thread nD τ) (dstM7 : Memref sig .tc .vmem S2x64x8x64 .f32) (.dma sendS7.sem) hsc)}
    {α : Type} {Q : α → sProp 𝕄} {k : PUnit → Prog (TpuEff nD τ sig (Elt F) Λ₀ .tc) α}
    (fd : Buf (Elt F) ((dstM7 : Memref sig .tc .vmem S2x64x8x64 .f32).view.loc (peer c : Thread nD τ))) (O : CellTallies nD τ sig Unit) (W : Waits sig Unit) :
    iprop(cellInv ER (rd m ρ) (K (c, 8)) (sendCell7 c) ∗ cellInv ER (rd m ρ) (K (peer c, 16)) (recvCell7 (peer c))
        ∗ ((srcM7 : Memref sig .tc .vmem S2x64x8x64 .f32).view.loc (c : Thread nD τ) ↦[(srcM7 : Memref sig .tc .vmem S2x64x8x64 .f32).view.set]{fullShare.left} vstg m ρ c) ∗ ((dstM7 : Memref sig .tc .vmem S2x64x8x64 .f32).view.loc (peer c : Thread nD τ) ↦[(dstM7 : Memref sig .tc .vmem S2x64x8x64 .f32).view.set]{fullShare} fd)
        ∗ owes (c : Thread nD τ) (O + tallyAt (recvCell7 (peer c)) () Ncr) W
        ∗ dutyTok ER (sendCell7 c) 0 () ∗ reached ER (sendCell7 c) 0
        ∗ dutyTok ER (recvCell7 (peer c)) 0 () ∗ reached ER (recvCell7 (peer c)) 0)
      ⊢ iprop(((cred (tallyAt (sendCell7 c) () Ncr) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma srcM7 (.remote (Dev.tc n : Thread nD τ) dstM7 (.dma sendS7.sem) hsc) (.dma recvS7.sem) hsrc hdst hsem) k) Q) := by
  subst hn
  exact Rounds.wp_send_pointsTo Variants.none ER (rd m ρ) (c : Thread nD τ) none (κ₁ := K (c, 8)) (κ₂ := K (peer c, 16))
    (r₁ := 0) (r₂ := 0) (d₁ := ()) (d₂ := ()) (fd := fd)
    (by rw [duties_send7]; exact Finset.mem_singleton_self _) (by rw [duties_recv7]; exact Finset.mem_singleton_self _)
    () () Ncr rfl (amount_send7 m ρ c ()) (amount_recv7 m ρ (peer c) ()) O rfl (W := W)
    (by rw [payload_send7]; exact BI.Entails.refl _)
    (by rw [payload_recv7]; unfold recvPay7 vlanded; rw [peer_peer]; exact Entails.of_eq (pointsTo_congr (landed_eq7 (peer c) fd (vstg m ρ c))))

end Cert.KernelIdeal.Hand

end
-- ==== Proof.BodyRun.lean ====
/-
  One device's body, run once at a symbolic device: the barrier signal and wait, the eight copies to the partner, the
  attention arithmetic over the device's own keys and then over each landed block of the partner's, the sixteen
  waits. What the result's staging buffer ends holding is found by the run, as a term over the contents of the
  device's own and its partner's input buffers.
-/
import proofs.«900412_g7700000000000413_dist_agattn_v7x_xyz2x2x2_z_b2_s256_h8_d64_f32_1_alg».proof.Proof.Sends
import Idealize.ShloMosaic.Lib.Tactic

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The schedule's tables as rewrites, payloads spelt as the points-tos themselves -/

omit [FloatOps F] in
theorem payload_barP' (c : Dev nD) (u : Unit) : (rd (F := F) m ρ).payload (barCell (peer c)) 0 u =
    iprop((∃ f, (dstM0 : Memref sig .tc .vmem S2x64x8x64 .f32).view.loc (c : Thread nD τ) ↦[(dstM0 : Memref sig .tc .vmem S2x64x8x64 .f32).view.set]{fullShare} f) ∗ (∃ f, (dstM1 : Memref sig .tc .vmem S2x64x8x64 .f32).view.loc (c : Thread nD τ) ↦[(dstM1 : Memref sig .tc .vmem S2x64x8x64 .f32).view.set]{fullShare} f) ∗ (∃ f, (dstM2 : Memref sig .tc .vmem S2x64x8x64 .f32).view.loc (c : Thread nD τ) ↦[(dstM2 : Memref sig .tc .vmem S2x64x8x64 .f32).view.set]{fullShare} f) ∗ (∃ f, (dstM3 : Memref sig .tc .vmem S2x64x8x64 .f32).view.loc (c : Thread nD τ) ↦[(dstM3 : Memref sig .tc .vmem S2x64x8x64 .f32).view.set]{fullShare} f) ∗ (∃ f, (dstM4 : Memref sig .tc .vmem S2x64x8x64 .f32).view.loc (c : Thread nD τ) ↦[(dstM4 : Memref sig .tc .vmem S2x64x8x64 .f32).view.set]{fullShare} f) ∗ (∃ f, (dstM5 : Memref sig .tc .vmem S2x64x8x64 .f32).view.loc (c : Thread nD τ) ↦[(dstM5 : Memref sig .tc .vmem S2x64x8x64 .f32).view.set]{fullShare} f) ∗ (∃ f, (dstM6 : Memref sig .tc .vmem S2x64x8x64 .f32).view.loc (c : Thread nD τ) ↦[(dstM6 : Memref sig .tc .vmem S2x64x8x64 .f32).view.set]{fullShare} f) ∗ (∃ f, (dstM7 : Memref sig .tc .vmem S2x64x8x64 .f32).view.loc (c : Thread nD τ) ↦[(dstM7 : Memref sig .tc .vmem S2x64x8x64 .f32).view.set]{fullShare} f)
      ∗ reached ER (recvCell0 c) 0 ∗ reached ER (recvCell1 c) 0 ∗ reached ER (recvCell2 c) 0 ∗ reached ER (recvCell3 c) 0 ∗ reached ER (recvCell4 c) 0 ∗ reached ER (recvCell5 c) 0 ∗ reached ER (recvCell6 c) 0 ∗ reached ER (recvCell7 c) 0) := by
  rw [payload_bar]; unfold barPay slot0 slot1 slot2 slot3 slot4 slot5 slot6 slot7; rw [peer_peer]
omit [FloatOps F] in
theorem payload_bar' (c : Dev nD) (u : Unit) : (rd (F := F) m ρ).payload (barCell c) 0 u =
    iprop((∃ f, (dstM0 : Memref sig .tc .vmem S2x64x8x64 .f32).view.loc (peer c : Thread nD τ) ↦[(dstM0 : Memref sig .tc .vmem S2x64x8x64 .f32).view.set]{fullShare} f) ∗ (∃ f, (dstM1 : Memref sig .tc .vmem S2x64x8x64 .f32).view.loc (peer c : Thread nD τ) ↦[(dstM1 : Memref sig .tc .vmem S2x64x8x64 .f32).view.set]{fullShare} f) ∗ (∃ f, (dstM2 : Memref sig .tc .vmem S2x64x8x64 .f32).view.loc (peer c : Thread nD τ) ↦[(dstM2 : Memref sig .tc .vmem S2x64x8x64 .f32).view.set]{fullShare} f) ∗ (∃ f, (dstM3 : Memref sig .tc .vmem S2x64x8x64 .f32).view.loc (peer c : Thread nD τ) ↦[(dstM3 : Memref sig .tc .vmem S2x64x8x64 .f32).view.set]{fullShare} f) ∗ (∃ f, (dstM4 : Memref sig .tc .vmem S2x64x8x64 .f32).view.loc (peer c : Thread nD τ) ↦[(dstM4 : Memref sig .tc .vmem S2x64x8x64 .f32).view.set]{fullShare} f) ∗ (∃ f, (dstM5 : Memref sig .tc .vmem S2x64x8x64 .f32).view.loc (peer c : Thread nD τ) ↦[(dstM5 : Memref sig .tc .vmem S2x64x8x64 .f32).view.set]{fullShare} f) ∗ (∃ f, (dstM6 : Memref sig .tc .vmem S2x64x8x64 .f32).view.loc (peer c : Thread nD τ) ↦[(dstM6 : Memref sig .tc .vmem S2x64x8x64 .f32).view.set]{fullShare} f) ∗ (∃ f, (dstM7 : Memref sig .tc .vmem S2x64x8x64 .f32).view.loc (peer c : Thread nD τ) ↦[(dstM7 : Memref sig .tc .vmem S2x64x8x64 .f32).view.set]{fullShare} f)
      ∗ reached ER (recvCell0 (peer c)) 0 ∗ reached ER (recvCell1 (peer c)) 0 ∗ reached ER (recvCell2 (peer c)) 0 ∗ reached ER (recvCell3 (peer c)) 0 ∗ reached ER (recvCell4 (peer c)) 0 ∗ reached ER (recvCell5 (peer c)) 0 ∗ reached ER (recvCell6 (peer c)) 0 ∗ reached ER (recvCell7 (peer c)) 0) := by
  rw [payload_bar]; unfold barPay slot0 slot1 slot2 slot3 slot4 slot5 slot6 slot7; rfl
omit [FloatOps F] in
theorem payload_send0' (c : Dev nD) (u : Unit) : (rd (F := F) m ρ).payload (sendCell0 c) 0 u = ((srcM0 : Memref sig .tc .vmem S2x64x8x64 .f32).view.loc (c : Thread nD τ) ↦[(srcM0 : Memref sig .tc .vmem S2x64x8x64 .f32).view.set]{fullShare.left} kstg m ρ c) := by
  rw [payload_send0]; rfl
omit [FloatOps F] in
theorem payload_recv0' (c : Dev nD) (u : Unit) : (rd (F := F) m ρ).payload (recvCell0 c) 0 u = ((dstM0 : Memref sig .tc .vmem S2x64x8x64 .f32).view.loc (c : Thread nD τ) ↦[(dstM0 : Memref sig .tc .vmem S2x64x8x64 .f32).view.set]{fullShare} klanded m ρ c) := by
  rw [payload_recv0]; rfl
omit [FloatOps F] in
theorem payload_recvP0' (c : Dev nD) (u : Unit) : (rd (F := F) m ρ).payload (recvCell0 (peer c)) 0 u = ((dstM0 : Memref sig .tc .vmem S2x64x8x64 .f32).view.loc (peer c : Thread nD τ) ↦[(dstM0 : Memref sig .tc .vmem S2x64x8x64 .f32).view.set]{fullShare} kstg m ρ c) := by
  rw [payload_recv0]; unfold recvPay0 klanded; rw [peer_peer]
omit [FloatOps F] in
theorem payload_send1' (c : Dev nD) (u : Unit) : (rd (F := F) m ρ).payload (sendCell1 c) 0 u = ((srcM1 : Memref sig .tc .vmem S2x64x8x64 .f32).view.loc (c : Thread nD τ) ↦[(srcM1 : Memref sig .tc .vmem S2x64x8x64 .f32).view.set]{fullShare.left} vstg m ρ c) := by
  rw [payload_send1]; rfl
omit [FloatOps F] in
theorem payload_recv1' (c : Dev nD) (u : Unit) : (rd (F := F) m ρ).payload (recvCell1 c) 0 u = ((dstM1 : Memref sig .tc .vmem S2x64x8x64 .f32).view.loc (c : Thread nD τ) ↦[(dstM1 : Memref sig .tc .vmem S2x64x8x64 .f32).view.set]{fullShare} vlanded m ρ c) := by
  rw [payload_recv1]; rfl
omit [FloatOps F] in
theorem payload_recvP1' (c : Dev nD) (u : Unit) : (rd (F := F) m ρ).payload (recvCell1 (peer c)) 0 u = ((dstM1 : Memref sig .tc .vmem S2x64x8x64 .f32).view.loc (peer c : Thread nD τ) ↦[(dstM1 : Memref sig .tc .vmem S2x64x8x64 .f32).view.set]{fullShare} vstg m ρ c) := by
  rw [payload_recv1]; unfold recvPay1 vlanded; rw [peer_peer]
omit [FloatOps F] in
theorem payload_send2' (c : Dev nD) (u : Unit) : (rd (F := F) m ρ).payload (sendCell2 c) 0 u = ((srcM2 : Memref sig .tc .vmem S2x64x8x64 .f32).view.loc (c : Thread nD τ) ↦[(srcM2 : Memref sig .tc .vmem S2x64x8x64 .f32).view.set]{fullShare.left} kstg m ρ c) := by
  rw [payload_send2]; rfl
omit [FloatOps F] in
theorem payload_recv2' (c : Dev nD) (u : Unit) : (rd (F := F) m ρ).payload (recvCell2 c) 0 u = ((dstM2 : Memref sig .tc .vmem S2x64x8x64 .f32).view.loc (c : Thread nD τ) ↦[(dstM2 : Memref sig .tc .vmem S2x64x8x64 .f32).view.set]{fullShare} klanded m ρ c) := by
  rw [payload_recv2]; rfl
omit [FloatOps F] in
theorem payload_recvP2' (c : Dev nD) (u : Unit) : (rd (F := F) m ρ).payload (recvCell2 (peer c)) 0 u = ((dstM2 : Memref sig .tc .vmem S2x64x8x64 .f32).view.loc (peer c : Thread nD τ) ↦[(dstM2 : Memref sig .tc .vmem S2x64x8x64 .f32).view.set]{fullShare} kstg m ρ c) := by
  rw [payload_recv2]; unfold recvPay2 klanded; rw [peer_peer]
omit [FloatOps F] in
theorem payload_send3' (c : Dev nD) (u : Unit) : (rd (F := F) m ρ).payload (sendCell3 c) 0 u = ((srcM3 : Memref sig .tc .vmem S2x64x8x64 .f32).view.loc (c : Thread nD τ) ↦[(srcM3 : Memref sig .tc .vmem S2x64x8x64 .f32).view.set]{fullShare.left} vstg m ρ c) := by
  rw [payload_send3]; rfl
omit [FloatOps F] in
theorem payload_recv3' (c : Dev nD) (u : Unit) : (rd (F := F) m ρ).payload (recvCell3 c) 0 u = ((dstM3 : Memref sig .tc .vmem S2x64x8x64 .f32).view.loc (c : Thread nD τ) ↦[(dstM3 : Memref sig .tc .vmem S2x64x8x64 .f32).view.set]{fullShare} vlanded m ρ c) := by
  rw [payload_recv3]; rfl
omit [FloatOps F] in
theorem payload_recvP3' (c : Dev nD) (u : Unit) : (rd (F := F) m ρ).payload (recvCell3 (peer c)) 0 u = ((dstM3 : Memref sig .tc .vmem S2x64x8x64 .f32).view.loc (peer c : Thread nD τ) ↦[(dstM3 : Memref sig .tc .vmem S2x64x8x64 .f32).view.set]{fullShare} vstg m ρ c) := by
  rw [payload_recv3]; unfold recvPay3 vlanded; rw [peer_peer]
omit [FloatOps F] in
theorem payload_send4' (c : Dev nD) (u : Unit) : (rd (F := F) m ρ).payload (sendCell4 c) 0 u = ((srcM4 : Memref sig .tc .vmem S2x64x8x64 .f32).view.loc (c : Thread nD τ) ↦[(srcM4 : Memref sig .tc .vmem S2x64x8x64 .f32).view.set]{fullShare.left} kstg m ρ c) := by
  rw [payload_send4]; rfl
omit [FloatOps F] in
theorem payload_recv4' (c : Dev nD) (u : Unit) : (rd (F := F) m ρ).payload (recvCell4 c) 0 u = ((dstM4 : Memref sig .tc .vmem S2x64x8x64 .f32).view.loc (c : Thread nD τ) ↦[(dstM4 : Memref sig .tc .vmem S2x64x8x64 .f32).view.set]{fullShare} klanded m ρ c) := by
  rw [payload_recv4]; rfl
omit [FloatOps F] in
theorem payload_recvP4' (c : Dev nD) (u : Unit) : (rd (F := F) m ρ).payload (recvCell4 (peer c)) 0 u = ((dstM4 : Memref sig .tc .vmem S2x64x8x64 .f32).view.loc (peer c : Thread nD τ) ↦[(dstM4 : Memref sig .tc .vmem S2x64x8x64 .f32).view.set]{fullShare} kstg m ρ c) := by
  rw [payload_recv4]; unfold recvPay4 klanded; rw [peer_peer]
omit [FloatOps F] in
theorem payload_send5' (c : Dev nD) (u : Unit) : (rd (F := F) m ρ).payload (sendCell5 c) 0 u = ((srcM5 : Memref sig .tc .vmem S2x64x8x64 .f32).view.loc (c : Thread nD τ) ↦[(srcM5 : Memref sig .tc .vmem S2x64x8x64 .f32).view.set]{fullShare.left} vstg m ρ c) := by
  rw [payload_send5]; rfl
omit [FloatOps F] in
theorem payload_recv5' (c : Dev nD) (u : Unit) : (rd (F := F) m ρ).payload (recvCell5 c) 0 u = ((dstM5 : Memref sig .tc .vmem S2x64x8x64 .f32).view.loc (c : Thread nD τ) ↦[(dstM5 : Memref sig .tc .vmem S2x64x8x64 .f32).view.set]{fullShare} vlanded m ρ c) := by
  rw [payload_recv5]; rfl
omit [FloatOps F] in
theorem payload_recvP5' (c : Dev nD) (u : Unit) : (rd (F := F) m ρ).payload (recvCell5 (peer c)) 0 u = ((dstM5 : Memref sig .tc .vmem S2x64x8x64 .f32).view.loc (peer c : Thread nD τ) ↦[(dstM5 : Memref sig .tc .vmem S2x64x8x64 .f32).view.set]{fullShare} vstg m ρ c) := by
  rw [payload_recv5]; unfold recvPay5 vlanded; rw [peer_peer]
omit [FloatOps F] in
theorem payload_send6' (c : Dev nD) (u : Unit) : (rd (F := F) m ρ).payload (sendCell6 c) 0 u = ((srcM6 : Memref sig .tc .vmem S2x64x8x64 .f32).view.loc (c : Thread nD τ) ↦[(srcM6 : Memref sig .tc .vmem S2x64x8x64 .f32).view.set]{fullShare.left} kstg m ρ c) := by
  rw [payload_send6]; rfl
omit [FloatOps F] in
theorem payload_recv6' (c : Dev nD) (u : Unit) : (rd (F := F) m ρ).payload (recvCell6 c) 0 u = ((dstM6 : Memref sig .tc .vmem S2x64x8x64 .f32).view.loc (c : Thread nD τ) ↦[(dstM6 : Memref sig .tc .vmem S2x64x8x64 .f32).view.set]{fullShare} klanded m ρ c) := by
  rw [payload_recv6]; rfl
omit [FloatOps F] in
theorem payload_recvP6' (c : Dev nD) (u : Unit) : (rd (F := F) m ρ).payload (recvCell6 (peer c)) 0 u = ((dstM6 : Memref sig .tc .vmem S2x64x8x64 .f32).view.loc (peer c : Thread nD τ) ↦[(dstM6 : Memref sig .tc .vmem S2x64x8x64 .f32).view.set]{fullShare} kstg m ρ c) := by
  rw [payload_recv6]; unfold recvPay6 klanded; rw [peer_peer]
omit [FloatOps F] in
theorem payload_send7' (c : Dev nD) (u : Unit) : (rd (F := F) m ρ).payload (sendCell7 c) 0 u = ((srcM7 : Memref sig .tc .vmem S2x64x8x64 .f32).view.loc (c : Thread nD τ) ↦[(srcM7 : Memref sig .tc .vmem S2x64x8x64 .f32).view.set]{fullShare.left} vstg m ρ c) := by
  rw [payload_send7]; rfl
omit [FloatOps F] in
theorem payload_recv7' (c : Dev nD) (u : Unit) : (rd (F := F) m ρ).payload (recvCell7 c) 0 u = ((dstM7 : Memref sig .tc .vmem S2x64x8x64 .f32).view.loc (c : Thread nD τ) ↦[(dstM7 : Memref sig .tc .vmem S2x64x8x64 .f32).view.set]{fullShare} vlanded m ρ c) := by
  rw [payload_recv7]; rfl
omit [FloatOps F] in
theorem payload_recvP7' (c : Dev nD) (u : Unit) : (rd (F := F) m ρ).payload (recvCell7 (peer c)) 0 u = ((dstM7 : Memref sig .tc .vmem S2x64x8x64 .f32).view.loc (peer c : Thread nD τ) ↦[(dstM7 : Memref sig .tc .vmem S2x64x8x64 .f32).view.set]{fullShare} vstg m ρ c) := by
  rw [payload_recv7]; unfold recvPay7 vlanded; rw [peer_peer]

attribute [local sl_rounds] duties_bar amount_bar expect_bar duties_send0 amount_send0 expect_send0 duties_send1 amount_send1 expect_send1 duties_send2 amount_send2 expect_send2 duties_send3 amount_send3 expect_send3 duties_send4 amount_send4 expect_send4 duties_send5 amount_send5 expect_send5 duties_send6 amount_send6 expect_send6 duties_send7 amount_send7 expect_send7 duties_recv0 amount_recv0 expect_recv0 duties_recv1 amount_recv1 expect_recv1 duties_recv2 amount_recv2 expect_recv2 duties_recv3 amount_recv3 expect_recv3 duties_recv4 amount_recv4 expect_recv4 duties_recv5 amount_recv5 expect_recv5 duties_recv6 amount_recv6 expect_recv6 duties_recv7 amount_recv7 expect_recv7 payload_bar' payload_send0' payload_recv0' payload_send1' payload_recv1' payload_send2' payload_recv2' payload_send3' payload_recv3' payload_send4' payload_recv4' payload_send5' payload_recv5' payload_send6' payload_recv6' payload_send7' payload_recv7'
attribute [local sl_rounds 5000] payload_barP' payload_recvP0' payload_recvP1' payload_recvP2' payload_recvP3' payload_recvP4' payload_recvP5' payload_recvP6' payload_recvP7'
attribute [local sl_canon] dev1_eq dev2_eq dev3_eq dev4_eq dev5_eq dev6_eq dev7_eq dev8_eq dev9_eq

/-- What the body starts from, at the cells' names K: the invariants, positions, reached-marks and duty tokens; the
    launch credit; what the device owes, the barrier unit to be paid first and copy 0's credit next; the input
    buffers (K and V as one half whole and the other half by blocks of rows, one block per copy), the result's
    buffer, the device's own landing slots and the three other scratch buffers. -/
def runPre (K : Dev nD × Fin 17 → ℕ) (c : Dev nD) (W : Waits sig Unit)
    (g3 : (cc0_stg3_0 : Ref sig .tc).ty.Contents (Elt F)) (f2 : (cc0_scratch2 : Ref sig .tc).ty.Contents (Elt F))
    (f3 : (cc0_scratch3 : Ref sig .tc).ty.Contents (Elt F)) (f4 : (cc0_scratch4 : Ref sig .tc).ty.Contents (Elt F)) : sProp 𝕄 :=
  iprop((cellInv ER (rd m ρ) (K (c, 0)) (barCell c))
          ∗ (cellInv ER (rd m ρ) (K (c, 1)) (sendCell0 c))
          ∗ (cellInv ER (rd m ρ) (K (c, 2)) (sendCell1 c))
          ∗ (cellInv ER (rd m ρ) (K (c, 3)) (sendCell2 c))
          ∗ (cellInv ER (rd m ρ) (K (c, 4)) (sendCell3 c))
          ∗ (cellInv ER (rd m ρ) (K (c, 5)) (sendCell4 c))
          ∗ (cellInv ER (rd m ρ) (K (c, 6)) (sendCell5 c))
          ∗ (cellInv ER (rd m ρ) (K (c, 7)) (sendCell6 c))
          ∗ (cellInv ER (rd m ρ) (K (c, 8)) (sendCell7 c))
          ∗ (cellInv ER (rd m ρ) (K (c, 9)) (recvCell0 c))
          ∗ (cellInv ER (rd m ρ) (K (c, 10)) (recvCell1 c))
          ∗ (cellInv ER (rd m ρ) (K (c, 11)) (recvCell2 c))
          ∗ (cellInv ER (rd m ρ) (K (c, 12)) (recvCell3 c))
          ∗ (cellInv ER (rd m ρ) (K (c, 13)) (recvCell4 c))
          ∗ (cellInv ER (rd m ρ) (K (c, 14)) (recvCell5 c))
          ∗ (cellInv ER (rd m ρ) (K (c, 15)) (recvCell6 c))
          ∗ (cellInv ER (rd m ρ) (K (c, 16)) (recvCell7 c))
          ∗ (cellInv ER (rd m ρ) (K (peer c, 0)) (barCell (peer c)))
          ∗ (cellInv ER (rd m ρ) (K (peer c, 9)) (recvCell0 (peer c)))
          ∗ (cellInv ER (rd m ρ) (K (peer c, 10)) (recvCell1 (peer c)))
          ∗ (cellInv ER (rd m ρ) (K (peer c, 11)) (recvCell2 (peer c)))
          ∗ (cellInv ER (rd m ρ) (K (peer c, 12)) (recvCell3 (peer c)))
          ∗ (cellInv ER (rd m ρ) (K (peer c, 13)) (recvCell4 (peer c)))
          ∗ (cellInv ER (rd m ρ) (K (peer c, 14)) (recvCell5 (peer c)))
          ∗ (cellInv ER (rd m ρ) (K (peer c, 15)) (recvCell6 (peer c)))
          ∗ (cellInv ER (rd m ρ) (K (peer c, 16)) (recvCell7 (peer c)))
          ∗ (atPos ER (barCell c) 0 ∅ 0)
          ∗ (atPos ER (sendCell0 c) 0 ∅ 0)
          ∗ (atPos ER (sendCell1 c) 0 ∅ 0)
          ∗ (atPos ER (sendCell2 c) 0 ∅ 0)
          ∗ (atPos ER (sendCell3 c) 0 ∅ 0)
          ∗ (atPos ER (sendCell4 c) 0 ∅ 0)
          ∗ (atPos ER (sendCell5 c) 0 ∅ 0)
          ∗ (atPos ER (sendCell6 c) 0 ∅ 0)
          ∗ (atPos ER (sendCell7 c) 0 ∅ 0)
          ∗ (atPos ER (recvCell0 c) 0 ∅ 0)
          ∗ (atPos ER (recvCell1 c) 0 ∅ 0)
          ∗ (atPos ER (recvCell2 c) 0 ∅ 0)
          ∗ (atPos ER (recvCell3 c) 0 ∅ 0)
          ∗ (atPos ER (recvCell4 c) 0 ∅ 0)
          ∗ (atPos ER (recvCell5 c) 0 ∅ 0)
          ∗ (atPos ER (recvCell6 c) 0 ∅ 0)
          ∗ (atPos ER (recvCell7 c) 0 ∅ 0)
          ∗ (reached ER (barCell (peer c)) 0)
          ∗ (reached ER (sendCell0 c) 0)
          ∗ (reached ER (sendCell1 c) 0)
          ∗ (reached ER (sendCell2 c) 0)
          ∗ (reached ER (sendCell3 c) 0)
          ∗ (reached ER (sendCell4 c) 0)
          ∗ (reached ER (sendCell5 c) 0)
          ∗ (reached ER (sendCell6 c) 0)
          ∗ (reached ER (sendCell7 c) 0)
          ∗ (reached ER (recvCell0 c) 0)
          ∗ (reached ER (recvCell1 c) 0)
          ∗ (reached ER (recvCell2 c) 0)
          ∗ (reached ER (recvCell3 c) 0)
          ∗ (reached ER (recvCell4 c) 0)
          ∗ (reached ER (recvCell5 c) 0)
          ∗ (reached ER (recvCell6 c) 0)
          ∗ (reached ER (recvCell7 c) 0)
          ∗ (dutyTok ER (barCell (peer c)) 0 ())
          ∗ (dutyTok ER (recvCell0 (peer c)) 0 ())
          ∗ (dutyTok ER (recvCell1 (peer c)) 0 ())
          ∗ (dutyTok ER (recvCell2 (peer c)) 0 ())
          ∗ (dutyTok ER (recvCell3 (peer c)) 0 ())
          ∗ (dutyTok ER (recvCell4 (peer c)) 0 ())
          ∗ (dutyTok ER (recvCell5 (peer c)) 0 ())
          ∗ (dutyTok ER (recvCell6 (peer c)) 0 ())
          ∗ (dutyTok ER (recvCell7 (peer c)) 0 ())
          ∗ (dutyTok ER (sendCell0 c) 0 ())
          ∗ (dutyTok ER (sendCell1 c) 0 ())
          ∗ (dutyTok ER (sendCell2 c) 0 ())
          ∗ (dutyTok ER (sendCell3 c) 0 ())
          ∗ (dutyTok ER (sendCell4 c) 0 ())
          ∗ (dutyTok ER (sendCell5 c) 0 ())
          ∗ (dutyTok ER (sendCell6 c) 0 ())
          ∗ (dutyTok ER (sendCell7 c) 0 ())
          ∗ (cred (tallyAt (barCell c) () 1))
          ∗ (cred (tallyAt (recvCell0 c) () Ncr))
          ∗ (cred (tallyAt (recvCell1 c) () Ncr))
          ∗ (cred (tallyAt (recvCell2 c) () Ncr))
          ∗ (cred (tallyAt (recvCell3 c) () Ncr))
          ∗ (cred (tallyAt (recvCell4 c) () Ncr))
          ∗ (cred (tallyAt (recvCell5 c) () Ncr))
          ∗ (cred (tallyAt (recvCell6 c) () Ncr))
          ∗ (cred (tallyAt (recvCell7 c) () Ncr))
          ∗ (owes (c : Thread nD τ) (0 + tallyAt (recvCell7 (peer c)) () Ncr + tallyAt (recvCell6 (peer c)) () Ncr + tallyAt (recvCell5 (peer c)) () Ncr + tallyAt (recvCell4 (peer c)) () Ncr + tallyAt (recvCell3 (peer c)) () Ncr + tallyAt (recvCell2 (peer c)) () Ncr + tallyAt (recvCell1 (peer c)) () Ncr + tallyAt (recvCell0 (peer c)) () Ncr + tallyAt (barCell (peer c)) () 1) W)
          ∗ (levAts L lv)
          ∗ ((qStg : Memref sig .tc .vmem S2x256x8x64 .f32).view.loc (c : Thread nD τ) ↦{fullShare} qstg m ρ c)
          ∗ ((kStg : Memref sig .tc .vmem S2x256x8x64 .f32).view.loc (c : Thread nD τ) ↦{fullShare.right} kstg m ρ c)
          ∗ ((vStg : Memref sig .tc .vmem S2x256x8x64 .f32).view.loc (c : Thread nD τ) ↦{fullShare.right} vstg m ρ c)
          ∗ (sendPay0 m ρ c)
          ∗ (sendPay1 m ρ c)
          ∗ (sendPay2 m ρ c)
          ∗ (sendPay3 m ρ c)
          ∗ (sendPay4 m ρ c)
          ∗ (sendPay5 m ρ c)
          ∗ (sendPay6 m ρ c)
          ∗ (sendPay7 m ρ c)
          ∗ ((oStg : Memref sig .tc .vmem S2x256x8x64 .f32).view.loc (c : Thread nD τ) ↦{fullShare} g3)
          ∗ (slot0 c)
          ∗ (slot1 c)
          ∗ (slot2 c)
          ∗ (slot3 c)
          ∗ (slot4 c)
          ∗ (slot5 c)
          ∗ (slot6 c)
          ∗ (slot7 c)
          ∗ ((Memref.whole cc0_scratch2 : Memref sig .tc .vmem S2x8x256x64 .f32).view.loc (c : Thread nD τ) ↦{fullShare} f2)
          ∗ ((Memref.whole cc0_scratch3 : Memref sig .tc .vmem S2x8x256x64 .f32).view.loc (c : Thread nD τ) ↦{fullShare} f3)
          ∗ ((Memref.whole cc0_scratch4 : Memref sig .tc .vmem S2x8x256x1 .f32).view.loc (c : Thread nD τ) ↦{fullShare} f4))

/-- What it ends with, the result's buffer at out: the input buffers as they were (still in their pieces), the landing
    buffers' blocks holding the partner's rows, the scratch buffers at something, the sixteen own semaphores at zero. -/
def runPost (c : Dev nD) (out : (cc0_stg3_0 : Ref sig .tc).ty.Contents (Elt F)) : sProp 𝕄 :=
  iprop(((qStg : Memref sig .tc .vmem S2x256x8x64 .f32).view.loc (c : Thread nD τ) ↦{fullShare} qstg m ρ c)
    ∗ ((kStg : Memref sig .tc .vmem S2x256x8x64 .f32).view.loc (c : Thread nD τ) ↦{fullShare.right} kstg m ρ c)
    ∗ ((vStg : Memref sig .tc .vmem S2x256x8x64 .f32).view.loc (c : Thread nD τ) ↦{fullShare.right} vstg m ρ c)
    ∗ (sendPay0 m ρ c)
    ∗ (sendPay1 m ρ c)
    ∗ (sendPay2 m ρ c)
    ∗ (sendPay3 m ρ c)
    ∗ (sendPay4 m ρ c)
    ∗ (sendPay5 m ρ c)
    ∗ (sendPay6 m ρ c)
    ∗ (sendPay7 m ρ c)
    ∗ (recvPay0 m ρ c)
    ∗ (recvPay1 m ρ c)
    ∗ (recvPay2 m ρ c)
    ∗ (recvPay3 m ρ c)
    ∗ (recvPay4 m ρ c)
    ∗ (recvPay5 m ρ c)
    ∗ (recvPay6 m ρ c)
    ∗ (recvPay7 m ρ c)
    ∗ ((oStg : Memref sig .tc .vmem S2x256x8x64 .f32).view.loc (c : Thread nD τ) ↦{fullShare} out)
    ∗ (∃ f, (Memref.whole cc0_scratch2 : Memref sig .tc .vmem S2x8x256x64 .f32).view.loc (c : Thread nD τ) ↦{fullShare} f)
    ∗ (∃ f, (Memref.whole cc0_scratch3 : Memref sig .tc .vmem S2x8x256x64 .f32).view.loc (c : Thread nD τ) ↦{fullShare} f)
    ∗ (∃ f, (Memref.whole cc0_scratch4 : Memref sig .tc .vmem S2x8x256x1 .f32).view.loc (c : Thread nD τ) ↦{fullShare} f)
    ∗ (semVal (sendCell0 c) 0 ∗ semVal (sendCell1 c) 0 ∗ semVal (sendCell2 c) 0 ∗ semVal (sendCell3 c) 0 ∗ semVal (sendCell4 c) 0 ∗ semVal (sendCell5 c) 0 ∗ semVal (sendCell6 c) 0 ∗ semVal (sendCell7 c) 0 ∗ semVal (recvCell0 c) 0 ∗ semVal (recvCell1 c) 0 ∗ semVal (recvCell2 c) 0 ∗ semVal (recvCell3 c) 0 ∗ semVal (recvCell4 c) 0 ∗ semVal (recvCell5 c) 0 ∗ semVal (recvCell6 c) 0 ∗ semVal (recvCell7 c) 0)
    ∗ ∃ W', owes (c : Thread nD τ) 0 W')

set_option maxHeartbeats 8000000 in
set_option sl_exec.stepHeartbeats 3000000 in
/-- The body's run: the result's contents, with the proof that from runPre the body runs to its return with runPost. -/
noncomputable def kernelRun (c : Dev nD) :
    { out : (cc0_stg3_0 : Ref sig .tc).ty.Contents (Elt F) //
      ∀ (K : Dev nD × Fin 17 → ℕ) (W : Waits sig Unit)
        (g3 : (cc0_stg3_0 : Ref sig .tc).ty.Contents (Elt F)) (f2 : (cc0_scratch2 : Ref sig .tc).ty.Contents (Elt F))
        (f3 : (cc0_scratch3 : Ref sig .tc).ty.Contents (Elt F)) (f4 : (cc0_scratch4 : Ref sig .tc).ty.Contents (Elt F))
        (Q : PUnit → sProp 𝕄),
        iprop(runPre m ρ K c W g3 f2 f3 f4 ∗ (runPost m ρ c out -∗ Q ⟨⟩))
          ⊢ wp frame (wpE (defs₀ (F := F)) Variants.none c none) Set.univ
              (cc0_body (Memref.whole cc0_stg0_0) (Memref.isWhole_whole _) (Memref.whole cc0_stg1_0) (Memref.isWhole_whole _) (Memref.whole cc0_stg2_0) (Memref.isWhole_whole _)
                (Memref.whole cc0_stg3_0) (Memref.isWhole_whole _) (Memref.whole cc0_scratch0) (Memref.isWhole_whole _) (Memref.whole cc0_scratch1) (Memref.isWhole_whole _)
                (Memref.whole cc0_scratch2) (Memref.isWhole_whole _) (Memref.whole cc0_scratch3) (Memref.isWhole_whole _) (Memref.whole cc0_scratch4) (Memref.isWhole_whole _)
                cc0_scratch5 cc0_scratch6) Q } := by
  refine ⟨?_, fun K W g3 f2 f3 f4 Q => ?run⟩
  case run =>
    unfold runPre runPost
    iintro ⟨⟨#HIbar, #HIs0, #HIs1, #HIs2, #HIs3, #HIs4, #HIs5, #HIs6, #HIs7, #HIr0, #HIr1, #HIr2, #HIr3, #HIr4, #HIr5, #HIr6, #HIr7, #HIbarP, #HIrP0, #HIrP1, #HIrP2, #HIrP3, #HIrP4, #HIrP5, #HIrP6, #HIrP7, HatB, HatS0, HatS1, HatS2, HatS3, HatS4, HatS5, HatS6, HatS7, HatR0, HatR1, HatR2, HatR3, HatR4, HatR5, HatR6, HatR7, #HrBP, #HrS0, #HrS1, #HrS2, #HrS3, #HrS4, #HrS5, #HrS6, #HrS7, #HrR0, #HrR1, #HrR2, #HrR3, #HrR4, #HrR5, #HrR6, #HrR7, HtBP, HtRP0, HtRP1, HtRP2, HtRP3, HtRP4, HtRP5, HtRP6, HtRP7, HtS0, HtS1, HtS2, HtS3, HtS4, HtS5, HtS6, HtS7, HcB, HcR0, HcR1, HcR2, HcR3, HcR4, HcR5, HcR6, HcR7, HO, #Hlev, Hq, Hk, Hv, Hsrc0, Hsrc1, Hsrc2, Hsrc3, Hsrc4, Hsrc5, Hsrc6, Hsrc7, Hout, Hslot0, Hslot1, Hslot2, Hslot3, Hslot4, Hslot5, Hslot6, Hslot7, Hs2, Hs3, Hs4⟩, Hkont⟩
    have hmw := mayWait_bar (F := F) c
    unfold sendPay0 slot0 sendPay1 slot1 sendPay2 slot2 sendPay3 slot3 sendPay4 slot4 sendPay5 slot5 sendPay6 slot6 sendPay7 slot7 recvPay0 recvPay1 recvPay2 recvPay3 recvPay4 recvPay5 recvPay6 recvPay7
    sl_exec (disch := first | exact dev1_eq c | exact dev2_eq c | exact dev3_eq c | exact dev4_eq c | exact dev5_eq c | exact dev6_eq c | exact dev7_eq c | exact dev8_eq c | exact dev9_eq c | simp only [dev1_eq, dev2_eq, dev3_eq, dev4_eq, dev5_eq, dev6_eq, dev7_eq, dev8_eq, dev9_eq])
    iapply (wp_send0 m ρ K c (peer c) rfl HatB_pay1_v _ _) $$ [Hsrc0 HatB_pay1 HO HtS0 HtRP0 HatB_pay9]
    · isplitr; · iexact HIs0
      isplitr; · iexact HIrP0
      isplitl [Hsrc0]; · iexact Hsrc0
      isplitl [HatB_pay1]; · iexact HatB_pay1
      isplitl [HO]; · iexact HO
      isplitl [HtS0]; · iexact HtS0
      isplitr; · iexact HrS0
      isplitl [HtRP0]; · iexact HtRP0
      iexact HatB_pay9
    iintro ⟨HcS0, HO⟩
    sl_exec (disch := first | exact dev1_eq c | exact dev2_eq c | exact dev3_eq c | exact dev4_eq c | exact dev5_eq c | exact dev6_eq c | exact dev7_eq c | exact dev8_eq c | exact dev9_eq c | simp only [dev1_eq, dev2_eq, dev3_eq, dev4_eq, dev5_eq, dev6_eq, dev7_eq, dev8_eq, dev9_eq])
    iapply (wp_send1 m ρ K c (peer c) rfl HatB_pay2_v _ _) $$ [Hsrc1 HatB_pay2 HO HtS1 HtRP1 HatB_pay10]
    · isplitr; · iexact HIs1
      isplitr; · iexact HIrP1
      isplitl [Hsrc1]; · iexact Hsrc1
      isplitl [HatB_pay2]; · iexact HatB_pay2
      isplitl [HO]; · iexact HO
      isplitl [HtS1]; · iexact HtS1
      isplitr; · iexact HrS1
      isplitl [HtRP1]; · iexact HtRP1
      iexact HatB_pay10
    iintro ⟨HcS1, HO⟩
    sl_exec (disch := first | exact dev1_eq c | exact dev2_eq c | exact dev3_eq c | exact dev4_eq c | exact dev5_eq c | exact dev6_eq c | exact dev7_eq c | exact dev8_eq c | exact dev9_eq c | simp only [dev1_eq, dev2_eq, dev3_eq, dev4_eq, dev5_eq, dev6_eq, dev7_eq, dev8_eq, dev9_eq])
    iapply (wp_send2 m ρ K c (peer c) rfl HatB_pay3_v _ _) $$ [Hsrc2 HatB_pay3 HO HtS2 HtRP2 HatB_pay11]
    · isplitr; · iexact HIs2
      isplitr; · iexact HIrP2
      isplitl [Hsrc2]; · iexact Hsrc2
      isplitl [HatB_pay3]; · iexact HatB_pay3
      isplitl [HO]; · iexact HO
      isplitl [HtS2]; · iexact HtS2
      isplitr; · iexact HrS2
      isplitl [HtRP2]; · iexact HtRP2
      iexact HatB_pay11
    iintro ⟨HcS2, HO⟩
    sl_exec (disch := first | exact dev1_eq c | exact dev2_eq c | exact dev3_eq c | exact dev4_eq c | exact dev5_eq c | exact dev6_eq c | exact dev7_eq c | exact dev8_eq c | exact dev9_eq c | simp only [dev1_eq, dev2_eq, dev3_eq, dev4_eq, dev5_eq, dev6_eq, dev7_eq, dev8_eq, dev9_eq])
    iapply (wp_send3 m ρ K c (peer c) rfl HatB_pay4_v _ _) $$ [Hsrc3 HatB_pay4 HO HtS3 HtRP3 HatB_pay12]
    · isplitr; · iexact HIs3
      isplitr; · iexact HIrP3
      isplitl [Hsrc3]; · iexact Hsrc3
      isplitl [HatB_pay4]; · iexact HatB_pay4
      isplitl [HO]; · iexact HO
      isplitl [HtS3]; · iexact HtS3
      isplitr; · iexact HrS3
      isplitl [HtRP3]; · iexact HtRP3
      iexact HatB_pay12
    iintro ⟨HcS3, HO⟩
    sl_exec (disch := first | exact dev1_eq c | exact dev2_eq c | exact dev3_eq c | exact dev4_eq c | exact dev5_eq c | exact dev6_eq c | exact dev7_eq c | exact dev8_eq c | exact dev9_eq c | simp only [dev1_eq, dev2_eq, dev3_eq, dev4_eq, dev5_eq, dev6_eq, dev7_eq, dev8_eq, dev9_eq])
    iapply (wp_send4 m ρ K c (peer c) rfl HatB_pay5_v _ _) $$ [Hsrc4 HatB_pay5 HO HtS4 HtRP4 HatB_pay13]
    · isplitr; · iexact HIs4
      isplitr; · iexact HIrP4
      isplitl [Hsrc4]; · iexact Hsrc4
      isplitl [HatB_pay5]; · iexact HatB_pay5
      isplitl [HO]; · iexact HO
      isplitl [HtS4]; · iexact HtS4
      isplitr; · iexact HrS4
      isplitl [HtRP4]; · iexact HtRP4
      iexact HatB_pay13
    iintro ⟨HcS4, HO⟩
    sl_exec (disch := first | exact dev1_eq c | exact dev2_eq c | exact dev3_eq c | exact dev4_eq c | exact dev5_eq c | exact dev6_eq c | exact dev7_eq c | exact dev8_eq c | exact dev9_eq c | simp only [dev1_eq, dev2_eq, dev3_eq, dev4_eq, dev5_eq, dev6_eq, dev7_eq, dev8_eq, dev9_eq])
    iapply (wp_send5 m ρ K c (peer c) rfl HatB_pay6_v _ _) $$ [Hsrc5 HatB_pay6 HO HtS5 HtRP5 HatB_pay14]
    · isplitr; · iexact HIs5
      isplitr; · iexact HIrP5
      isplitl [Hsrc5]; · iexact Hsrc5
      isplitl [HatB_pay6]; · iexact HatB_pay6
      isplitl [HO]; · iexact HO
      isplitl [HtS5]; · iexact HtS5
      isplitr; · iexact HrS5
      isplitl [HtRP5]; · iexact HtRP5
      iexact HatB_pay14
    iintro ⟨HcS5, HO⟩
    sl_exec (disch := first | exact dev1_eq c | exact dev2_eq c | exact dev3_eq c | exact dev4_eq c | exact dev5_eq c | exact dev6_eq c | exact dev7_eq c | exact dev8_eq c | exact dev9_eq c | simp only [dev1_eq, dev2_eq, dev3_eq, dev4_eq, dev5_eq, dev6_eq, dev7_eq, dev8_eq, dev9_eq])
    iapply (wp_send6 m ρ K c (peer c) rfl HatB_pay7_v _ _) $$ [Hsrc6 HatB_pay7 HO HtS6 HtRP6 HatB_pay15]
    · isplitr; · iexact HIs6
      isplitr; · iexact HIrP6
      isplitl [Hsrc6]; · iexact Hsrc6
      isplitl [HatB_pay7]; · iexact HatB_pay7
      isplitl [HO]; · iexact HO
      isplitl [HtS6]; · iexact HtS6
      isplitr; · iexact HrS6
      isplitl [HtRP6]; · iexact HtRP6
      iexact HatB_pay15
    iintro ⟨HcS6, HO⟩
    sl_exec (disch := first | exact dev1_eq c | exact dev2_eq c | exact dev3_eq c | exact dev4_eq c | exact dev5_eq c | exact dev6_eq c | exact dev7_eq c | exact dev8_eq c | exact dev9_eq c | simp only [dev1_eq, dev2_eq, dev3_eq, dev4_eq, dev5_eq, dev6_eq, dev7_eq, dev8_eq, dev9_eq])
    iapply (wp_send7 m ρ K c (peer c) rfl HatB_pay8_v _ _) $$ [Hsrc7 HatB_pay8 HO HtS7 HtRP7 HatB_pay16]
    · isplitr; · iexact HIs7
      isplitr; · iexact HIrP7
      isplitl [Hsrc7]; · iexact Hsrc7
      isplitl [HatB_pay8]; · iexact HatB_pay8
      isplitl [HO]; · iexact HO
      isplitl [HtS7]; · iexact HtS7
      isplitr; · iexact HrS7
      isplitl [HtRP7]; · iexact HtRP7
      iexact HatB_pay16
    iintro ⟨HcS7, HO⟩
    sl_exec! (disch := first | exact dev1_eq c | exact dev2_eq c | exact dev3_eq c | exact dev4_eq c | exact dev5_eq c | exact dev6_eq c | exact dev7_eq c | exact dev8_eq c | exact dev9_eq c | simp only [dev1_eq, dev2_eq, dev3_eq, dev4_eq, dev5_eq, dev6_eq, dev7_eq, dev8_eq, dev9_eq])
    imod (Rounds.cell_close ER (rd m ρ) (Set.mem_univ (K (c, 1))) (fun h => h) (R := 1) (duties_later m ρ (sendCell0 c))) $$ [HatS0] with HzS0
    · isplitr; · iexact HIs0
      iexact HatS0
    imod (Rounds.cell_close ER (rd m ρ) (Set.mem_univ (K (c, 2))) (fun h => h) (R := 1) (duties_later m ρ (sendCell1 c))) $$ [HatS1] with HzS1
    · isplitr; · iexact HIs1
      iexact HatS1
    imod (Rounds.cell_close ER (rd m ρ) (Set.mem_univ (K (c, 3))) (fun h => h) (R := 1) (duties_later m ρ (sendCell2 c))) $$ [HatS2] with HzS2
    · isplitr; · iexact HIs2
      iexact HatS2
    imod (Rounds.cell_close ER (rd m ρ) (Set.mem_univ (K (c, 4))) (fun h => h) (R := 1) (duties_later m ρ (sendCell3 c))) $$ [HatS3] with HzS3
    · isplitr; · iexact HIs3
      iexact HatS3
    imod (Rounds.cell_close ER (rd m ρ) (Set.mem_univ (K (c, 5))) (fun h => h) (R := 1) (duties_later m ρ (sendCell4 c))) $$ [HatS4] with HzS4
    · isplitr; · iexact HIs4
      iexact HatS4
    imod (Rounds.cell_close ER (rd m ρ) (Set.mem_univ (K (c, 6))) (fun h => h) (R := 1) (duties_later m ρ (sendCell5 c))) $$ [HatS5] with HzS5
    · isplitr; · iexact HIs5
      iexact HatS5
    imod (Rounds.cell_close ER (rd m ρ) (Set.mem_univ (K (c, 7))) (fun h => h) (R := 1) (duties_later m ρ (sendCell6 c))) $$ [HatS6] with HzS6
    · isplitr; · iexact HIs6
      iexact HatS6
    imod (Rounds.cell_close ER (rd m ρ) (Set.mem_univ (K (c, 8))) (fun h => h) (R := 1) (duties_later m ρ (sendCell7 c))) $$ [HatS7] with HzS7
    · isplitr; · iexact HIs7
      iexact HatS7
    imod (Rounds.cell_close ER (rd m ρ) (Set.mem_univ (K (c, 9))) (fun h => h) (R := 1) (duties_later m ρ (recvCell0 c))) $$ [HatR0] with HzR0
    · isplitr; · iexact HIr0
      iexact HatR0
    imod (Rounds.cell_close ER (rd m ρ) (Set.mem_univ (K (c, 10))) (fun h => h) (R := 1) (duties_later m ρ (recvCell1 c))) $$ [HatR1] with HzR1
    · isplitr; · iexact HIr1
      iexact HatR1
    imod (Rounds.cell_close ER (rd m ρ) (Set.mem_univ (K (c, 11))) (fun h => h) (R := 1) (duties_later m ρ (recvCell2 c))) $$ [HatR2] with HzR2
    · isplitr; · iexact HIr2
      iexact HatR2
    imod (Rounds.cell_close ER (rd m ρ) (Set.mem_univ (K (c, 12))) (fun h => h) (R := 1) (duties_later m ρ (recvCell3 c))) $$ [HatR3] with HzR3
    · isplitr; · iexact HIr3
      iexact HatR3
    imod (Rounds.cell_close ER (rd m ρ) (Set.mem_univ (K (c, 13))) (fun h => h) (R := 1) (duties_later m ρ (recvCell4 c))) $$ [HatR4] with HzR4
    · isplitr; · iexact HIr4
      iexact HatR4
    imod (Rounds.cell_close ER (rd m ρ) (Set.mem_univ (K (c, 14))) (fun h => h) (R := 1) (duties_later m ρ (recvCell5 c))) $$ [HatR5] with HzR5
    · isplitr; · iexact HIr5
      iexact HatR5
    imod (Rounds.cell_close ER (rd m ρ) (Set.mem_univ (K (c, 15))) (fun h => h) (R := 1) (duties_later m ρ (recvCell6 c))) $$ [HatR6] with HzR6
    · isplitr; · iexact HIr6
      iexact HatR6
    imod (Rounds.cell_close ER (rd m ρ) (Set.mem_univ (K (c, 16))) (fun h => h) (R := 1) (duties_later m ρ (recvCell7 c))) $$ [HatR7] with HzR7
    · isplitr; · iexact HIr7
      iexact HatR7
    sl_step
    iapply Hkont
    isplitl [Hq]; · iexact Hq
    isplitl [Hk]; · iexact Hk
    isplitl [Hv]; · iexact Hv
    isplitl [HatS0_pay1]; · iexact HatS0_pay1
    isplitl [HatS1_pay1]; · iexact HatS1_pay1
    isplitl [HatS2_pay1]; · iexact HatS2_pay1
    isplitl [HatS3_pay1]; · iexact HatS3_pay1
    isplitl [HatS4_pay1]; · iexact HatS4_pay1
    isplitl [HatS5_pay1]; · iexact HatS5_pay1
    isplitl [HatS6_pay1]; · iexact HatS6_pay1
    isplitl [HatS7_pay1]; · iexact HatS7_pay1
    isplitl [HatR0_pay1]; · iexact HatR0_pay1
    isplitl [HatR1_pay1]; · iexact HatR1_pay1
    isplitl [HatR2_pay1]; · iexact HatR2_pay1
    isplitl [HatR3_pay1]; · iexact HatR3_pay1
    isplitl [HatR4_pay1]; · iexact HatR4_pay1
    isplitl [HatR5_pay1]; · iexact HatR5_pay1
    isplitl [HatR6_pay1]; · iexact HatR6_pay1
    isplitl [HatR7_pay1]; · iexact HatR7_pay1
    isplitl [Hout]; · iexact Hout
    isplitl [Hs2]; · iexists _; iexact Hs2
    isplitl [Hs3]; · iexists _; iexact Hs3
    isplitl [Hs4]; · iexists _; iexact Hs4
    isplitl [HzS0 HzS1 HzS2 HzS3 HzS4 HzS5 HzS6 HzS7 HzR0 HzR1 HzR2 HzR3 HzR4 HzR5 HzR6 HzR7]
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      isplitl [HzS6]; · iexact HzS6
      isplitl [HzS7]; · iexact HzS7
      isplitl [HzR0]; · iexact HzR0
      isplitl [HzR1]; · iexact HzR1
      isplitl [HzR2]; · iexact HzR2
      isplitl [HzR3]; · iexact HzR3
      isplitl [HzR4]; · iexact HzR4
      isplitl [HzR5]; · iexact HzR5
      isplitl [HzR6]; · iexact HzR6
      iexact HzR7
    iexists _; iexact HO

end Cert.KernelIdeal.Hand

end
-- ==== Proof.Data.lean ====
/-
  The proof data of the one grid point: what each staging buffer holds after the body, what a device holds between
  launch and body (its share of the exchange's ghost state, its launch credit, its scratch buffers) and after it
  (the scratch buffers and its sixteen semaphores back at zero), and what it owes.
-/
import proofs.«900412_g7700000000000413_dist_agattn_v7x_xyz2x2x2_z_b2_s256_h8_d64_f32_1_alg».proof.Proof.Protocol

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The invariants of the cells device c's body opens: its own seventeen, the partner's barrier cell (its signal) and
    the partner's eight receive cells (its copies). -/
def invs (K : Dev nD × Fin 17 → ℕ) (c : Dev nD) : sProp 𝕄 :=
  iprop(cellInv ER (rd m ρ) (K (c, 0)) (barCell c)
    ∗ cellInv ER (rd m ρ) (K (c, 1)) (sendCell0 c)
    ∗ cellInv ER (rd m ρ) (K (c, 2)) (sendCell1 c)
    ∗ cellInv ER (rd m ρ) (K (c, 3)) (sendCell2 c)
    ∗ cellInv ER (rd m ρ) (K (c, 4)) (sendCell3 c)
    ∗ cellInv ER (rd m ρ) (K (c, 5)) (sendCell4 c)
    ∗ cellInv ER (rd m ρ) (K (c, 6)) (sendCell5 c)
    ∗ cellInv ER (rd m ρ) (K (c, 7)) (sendCell6 c)
    ∗ cellInv ER (rd m ρ) (K (c, 8)) (sendCell7 c)
    ∗ cellInv ER (rd m ρ) (K (c, 9)) (recvCell0 c)
    ∗ cellInv ER (rd m ρ) (K (c, 10)) (recvCell1 c)
    ∗ cellInv ER (rd m ρ) (K (c, 11)) (recvCell2 c)
    ∗ cellInv ER (rd m ρ) (K (c, 12)) (recvCell3 c)
    ∗ cellInv ER (rd m ρ) (K (c, 13)) (recvCell4 c)
    ∗ cellInv ER (rd m ρ) (K (c, 14)) (recvCell5 c)
    ∗ cellInv ER (rd m ρ) (K (c, 15)) (recvCell6 c)
    ∗ cellInv ER (rd m ρ) (K (c, 16)) (recvCell7 c)
    ∗ cellInv ER (rd m ρ) (K (peer c, 0)) (barCell (peer c))
    ∗ cellInv ER (rd m ρ) (K (peer c, 9)) (recvCell0 (peer c))
    ∗ cellInv ER (rd m ρ) (K (peer c, 10)) (recvCell1 (peer c))
    ∗ cellInv ER (rd m ρ) (K (peer c, 11)) (recvCell2 (peer c))
    ∗ cellInv ER (rd m ρ) (K (peer c, 12)) (recvCell3 (peer c))
    ∗ cellInv ER (rd m ρ) (K (peer c, 13)) (recvCell4 (peer c))
    ∗ cellInv ER (rd m ρ) (K (peer c, 14)) (recvCell5 (peer c))
    ∗ cellInv ER (rd m ρ) (K (peer c, 15)) (recvCell6 (peer c))
    ∗ cellInv ER (rd m ρ) (K (peer c, 16)) (recvCell7 (peer c)))

instance invs_persistent (K : Dev nD × Fin 17 → ℕ) (c : Dev nD) : BI.Persistent (invs m ρ K c) := by unfold invs; infer_instance

/-- The exchange's ghost state device c starts from: the invariants; its positions at round 0 of its seventeen cells;
    the reached-marks of the cells it pays and of its own receive cells (which its signal hands the partner); the
    seventeen duty tokens it pays with. -/
def ghost (K : Dev nD × Fin 17 → ℕ) (c : Dev nD) : sProp 𝕄 :=
  iprop(invs m ρ K c
    ∗ atPos ER (barCell c) 0 ∅ 0
    ∗ atPos ER (sendCell0 c) 0 ∅ 0
    ∗ atPos ER (sendCell1 c) 0 ∅ 0
    ∗ atPos ER (sendCell2 c) 0 ∅ 0
    ∗ atPos ER (sendCell3 c) 0 ∅ 0
    ∗ atPos ER (sendCell4 c) 0 ∅ 0
    ∗ atPos ER (sendCell5 c) 0 ∅ 0
    ∗ atPos ER (sendCell6 c) 0 ∅ 0
    ∗ atPos ER (sendCell7 c) 0 ∅ 0
    ∗ atPos ER (recvCell0 c) 0 ∅ 0
    ∗ atPos ER (recvCell1 c) 0 ∅ 0
    ∗ atPos ER (recvCell2 c) 0 ∅ 0
    ∗ atPos ER (recvCell3 c) 0 ∅ 0
    ∗ atPos ER (recvCell4 c) 0 ∅ 0
    ∗ atPos ER (recvCell5 c) 0 ∅ 0
    ∗ atPos ER (recvCell6 c) 0 ∅ 0
    ∗ atPos ER (recvCell7 c) 0 ∅ 0
    ∗ reached ER (barCell (peer c)) 0
    ∗ reached ER (sendCell0 c) 0
    ∗ reached ER (sendCell1 c) 0
    ∗ reached ER (sendCell2 c) 0
    ∗ reached ER (sendCell3 c) 0
    ∗ reached ER (sendCell4 c) 0
    ∗ reached ER (sendCell5 c) 0
    ∗ reached ER (sendCell6 c) 0
    ∗ reached ER (sendCell7 c) 0
    ∗ reached ER (recvCell0 c) 0
    ∗ reached ER (recvCell1 c) 0
    ∗ reached ER (recvCell2 c) 0
    ∗ reached ER (recvCell3 c) 0
    ∗ reached ER (recvCell4 c) 0
    ∗ reached ER (recvCell5 c) 0
    ∗ reached ER (recvCell6 c) 0
    ∗ reached ER (recvCell7 c) 0
    ∗ dutyTok ER (barCell (peer c)) 0 ()
    ∗ dutyTok ER (recvCell0 (peer c)) 0 ()
    ∗ dutyTok ER (recvCell1 (peer c)) 0 ()
    ∗ dutyTok ER (recvCell2 (peer c)) 0 ()
    ∗ dutyTok ER (recvCell3 (peer c)) 0 ()
    ∗ dutyTok ER (recvCell4 (peer c)) 0 ()
    ∗ dutyTok ER (recvCell5 (peer c)) 0 ()
    ∗ dutyTok ER (recvCell6 (peer c)) 0 ()
    ∗ dutyTok ER (recvCell7 (peer c)) 0 ()
    ∗ dutyTok ER (sendCell0 c) 0 ()
    ∗ dutyTok ER (sendCell1 c) 0 ()
    ∗ dutyTok ER (sendCell2 c) 0 ()
    ∗ dutyTok ER (sendCell3 c) 0 ()
    ∗ dutyTok ER (sendCell4 c) 0 ()
    ∗ dutyTok ER (sendCell5 c) 0 ()
    ∗ dutyTok ER (sendCell6 c) 0 ()
    ∗ dutyTok ER (sendCell7 c) 0 ())

/-- Its launch credit: one unit on its barrier cell, one copy's credit on each receive cell. -/
def creds (c : Dev nD) : sProp 𝕄 :=
  iprop(cred (tallyAt (barCell c) () 1) ∗ cred (tallyAt (recvCell0 c) () Ncr) ∗ cred (tallyAt (recvCell1 c) () Ncr) ∗ cred (tallyAt (recvCell2 c) () Ncr) ∗ cred (tallyAt (recvCell3 c) () Ncr) ∗ cred (tallyAt (recvCell4 c) () Ncr) ∗ cred (tallyAt (recvCell5 c) () Ncr) ∗ cred (tallyAt (recvCell6 c) () Ncr) ∗ cred (tallyAt (recvCell7 c) () Ncr))

def start (c : Dev nD) : sProp 𝕄 := iprop((∃ K, ghost m ρ K c) ∗ creds c ∗ levAts L lv)

/-- The five scratch buffers, each whole at some contents. -/
def scratch (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f))

/-- The sixteen own semaphores at zero. -/
def semsZero (c : Dev nD) : sProp 𝕄 :=
  iprop(semVal (sendCell0 c) 0 ∗ semVal (sendCell1 c) 0 ∗ semVal (sendCell2 c) 0 ∗ semVal (sendCell3 c) 0 ∗ semVal (sendCell4 c) 0 ∗ semVal (sendCell5 c) 0 ∗ semVal (sendCell6 c) 0 ∗ semVal (sendCell7 c) 0 ∗ semVal (recvCell0 c) 0 ∗ semVal (recvCell1 c) 0 ∗ semVal (recvCell2 c) 0 ∗ semVal (recvCell3 c) 0 ∗ semVal (recvCell4 c) 0 ∗ semVal (recvCell5 c) 0 ∗ semVal (recvCell6 c) 0 ∗ semVal (recvCell7 c) 0)

def Φ₀ (c : Dev nD) : sProp 𝕄 := iprop(start m ρ c ∗ scratch c)
def Φ₁ (c : Dev nD) : sProp 𝕄 := iprop(scratch c ∗ semsZero c)

/-- The proof data, for any contents `out c` of the result's staging buffer after the body. -/
def dats (out : (c : Dev nD) → (cc0_stg3_0 : Ref sig .tc).ty.Contents (Elt F)) (_ : Fin 1) (c : Dev nD) : Dat τ (Elt F) Unit ℕ UU ℕ cfg0 c where
  A w := (s₀ m ρ).mem ((cfg0.win w).arr.view.loc (c : Thread nD τ))
  after w _ := match w with
    | ⟨0, _⟩ => qstg m ρ c
    | ⟨1, _⟩ => kstg m ρ c
    | ⟨2, _⟩ => vstg m ρ c
    | ⟨3, _⟩ => out c
  Φ t := match t with
    | ⟨0, _⟩ => Φ₀ m ρ c
    | ⟨_ + 1, _⟩ => Φ₁ c
  q _ := fullShare
  owed t := match t with
    | ⟨0, _⟩ => O₀ c
    | ⟨_ + 1, _⟩ => 0

end Cert.KernelIdeal.Hand

end
-- ==== Proof.Rows.lean ====
/-
  A buffer of 256 rows (axis 1) is its four blocks of 64 rows: the points-to of the whole buffer, at any share, is
  the four blocks' points-tos, and back.
-/
import proofs.«900412_g7700000000000413_dist_agattn_v7x_xyz2x2x2_z_b2_s256_h8_d64_f32_1_alg».proof.Proof.Protocol

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

/-- Block 0 is the indices whose row lies in [0, 64). -/
theorem mem_rows0 (i : S2x256x8x64.Idx) : i ∈ (rows 0).set ↔ 0 ≤ (i 1 : ℕ) ∧ (i 1 : ℕ) < 64 := by
  rw [Rect.mem_set_unit]
  constructor
  · intro h
    have h1 := h 1
    change 0 ≤ (i 1 : ℕ) ∧ (i 1 : ℕ) < 0 + 64 at h1
    omega
  · intro h a
    have h0 := (i 0).isLt; have h2 := (i 2).isLt; have h3 := (i 3).isLt
    change (i 0 : ℕ) < 2 at h0; change (i 2 : ℕ) < 8 at h2; change (i 3 : ℕ) < 64 at h3
    fin_cases a
    · change 0 ≤ (i 0 : ℕ) ∧ (i 0 : ℕ) < 0 + 2; omega
    · change 0 ≤ (i 1 : ℕ) ∧ (i 1 : ℕ) < 0 + 64; omega
    · change 0 ≤ (i 2 : ℕ) ∧ (i 2 : ℕ) < 0 + 8; omega
    · change 0 ≤ (i 3 : ℕ) ∧ (i 3 : ℕ) < 0 + 64; omega

/-- Block 1 is the indices whose row lies in [64, 128). -/
theorem mem_rows1 (i : S2x256x8x64.Idx) : i ∈ (rows 1).set ↔ 64 ≤ (i 1 : ℕ) ∧ (i 1 : ℕ) < 128 := by
  rw [Rect.mem_set_unit]
  constructor
  · intro h
    have h1 := h 1
    change 64 ≤ (i 1 : ℕ) ∧ (i 1 : ℕ) < 64 + 64 at h1
    omega
  · intro h a
    have h0 := (i 0).isLt; have h2 := (i 2).isLt; have h3 := (i 3).isLt
    change (i 0 : ℕ) < 2 at h0; change (i 2 : ℕ) < 8 at h2; change (i 3 : ℕ) < 64 at h3
    fin_cases a
    · change 0 ≤ (i 0 : ℕ) ∧ (i 0 : ℕ) < 0 + 2; omega
    · change 64 ≤ (i 1 : ℕ) ∧ (i 1 : ℕ) < 64 + 64; omega
    · change 0 ≤ (i 2 : ℕ) ∧ (i 2 : ℕ) < 0 + 8; omega
    · change 0 ≤ (i 3 : ℕ) ∧ (i 3 : ℕ) < 0 + 64; omega

/-- Block 2 is the indices whose row lies in [128, 192). -/
theorem mem_rows2 (i : S2x256x8x64.Idx) : i ∈ (rows 2).set ↔ 128 ≤ (i 1 : ℕ) ∧ (i 1 : ℕ) < 192 := by
  rw [Rect.mem_set_unit]
  constructor
  · intro h
    have h1 := h 1
    change 128 ≤ (i 1 : ℕ) ∧ (i 1 : ℕ) < 128 + 64 at h1
    omega
  · intro h a
    have h0 := (i 0).isLt; have h2 := (i 2).isLt; have h3 := (i 3).isLt
    change (i 0 : ℕ) < 2 at h0; change (i 2 : ℕ) < 8 at h2; change (i 3 : ℕ) < 64 at h3
    fin_cases a
    · change 0 ≤ (i 0 : ℕ) ∧ (i 0 : ℕ) < 0 + 2; omega
    · change 128 ≤ (i 1 : ℕ) ∧ (i 1 : ℕ) < 128 + 64; omega
    · change 0 ≤ (i 2 : ℕ) ∧ (i 2 : ℕ) < 0 + 8; omega
    · change 0 ≤ (i 3 : ℕ) ∧ (i 3 : ℕ) < 0 + 64; omega

/-- Block 3 is the indices whose row lies in [192, 256). -/
theorem mem_rows3 (i : S2x256x8x64.Idx) : i ∈ (rows 3).set ↔ 192 ≤ (i 1 : ℕ) ∧ (i 1 : ℕ) < 256 := by
  rw [Rect.mem_set_unit]
  constructor
  · intro h
    have h1 := h 1
    change 192 ≤ (i 1 : ℕ) ∧ (i 1 : ℕ) < 192 + 64 at h1
    omega
  · intro h a
    have h0 := (i 0).isLt; have h2 := (i 2).isLt; have h3 := (i 3).isLt
    change (i 0 : ℕ) < 2 at h0; change (i 2 : ℕ) < 8 at h2; change (i 3 : ℕ) < 64 at h3
    fin_cases a
    · change 0 ≤ (i 0 : ℕ) ∧ (i 0 : ℕ) < 0 + 2; omega
    · change 192 ≤ (i 1 : ℕ) ∧ (i 1 : ℕ) < 192 + 64; omega
    · change 0 ≤ (i 2 : ℕ) ∧ (i 2 : ℕ) < 0 + 8; omega
    · change 0 ≤ (i 3 : ℕ) ∧ (i 3 : ℕ) < 0 + 64; omega

theorem rows1_sub : (rows 1).set ⊆ Finset.univ \ (rows 0).set := fun i hi => by
  rw [Finset.mem_sdiff, mem_rows0]; rw [mem_rows1] at hi; exact ⟨Finset.mem_univ _, by omega⟩
theorem rows2_sub : (rows 2).set ⊆ (Finset.univ \ (rows 0).set) \ (rows 1).set := fun i hi => by
  rw [Finset.mem_sdiff, Finset.mem_sdiff, mem_rows0, mem_rows1]; rw [mem_rows2] at hi; exact ⟨⟨Finset.mem_univ _, by omega⟩, by omega⟩
theorem rows3_eq : ((Finset.univ \ (rows 0).set) \ (rows 1).set) \ (rows 2).set = (rows 3).set := by
  ext i
  rw [Finset.mem_sdiff, Finset.mem_sdiff, Finset.mem_sdiff, mem_rows0, mem_rows1, mem_rows2, mem_rows3]
  have := (i 1).isLt; change (i 1 : ℕ) < 256 at this
  constructor
  · rintro ⟨⟨⟨-, h0⟩, h1⟩, h2⟩; omega
  · intro h; exact ⟨⟨⟨Finset.mem_univ _, by omega⟩, by omega⟩, by omega⟩

omit [FloatOps F] in
/-- The whole buffer b (256 rows) at share q and contents f is its four blocks of rows at q and f. -/
theorem rows_split (b : Ref sig .tc) (hb : b.ty.shape = S2x256x8x64) (c : Dev nD) (q : PosShare TreeShare)
    (R0 R1 R2 R3 : Finset (Idx ((c : Thread nD τ).loc b))) (h1 : R1 ⊆ Finset.univ \ R0) (h2 : R2 ⊆ (Finset.univ \ R0) \ R1)
    (h3 : ((Finset.univ \ R0) \ R1) \ R2 = R3) (f : Buf (Elt F) ((c : Thread nD τ).loc b)) :
    ((((c : Thread nD τ).loc b) ↦{q} f : sProp 𝕄))
      ⊣⊢ iprop((((c : Thread nD τ).loc b) ↦[R0]{q} f) ∗ (((c : Thread nD τ).loc b) ↦[R1]{q} f) ∗ (((c : Thread nD τ).loc b) ↦[R2]{q} f) ∗ (((c : Thread nD τ).loc b) ↦[R3]{q} f)) := by
  subst h3
  refine (pointsTo_split_subset (Finset.subset_univ R0)).trans ?_
  refine sep_congr_right ?_
  refine (pointsTo_split_subset h1).trans ?_
  refine sep_congr_right ?_
  exact pointsTo_split_subset h2

end Cert.KernelIdeal.Hand

end
-- ==== Proof.Obligation.lean ====
/-
  The body's run as the staging pipeline's obligation at the one grid point: K and V are split in two halves by share,
  one half cut into the four blocks of rows the copies read, and the landing buffers cut into the four blocks the
  partner writes, before the body; all are put back together after it.
-/
import proofs.«900412_g7700000000000413_dist_agattn_v7x_xyz2x2x2_z_b2_s256_h8_d64_f32_1_alg».proof.Proof.BodyRun
import proofs.«900412_g7700000000000413_dist_agattn_v7x_xyz2x2x2_z_b2_s256_h8_d64_f32_1_alg».proof.Proof.Data
import proofs.«900412_g7700000000000413_dist_agattn_v7x_xyz2x2x2_z_b2_s256_h8_d64_f32_1_alg».proof.Proof.Rows

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- What the result's staging buffer holds after the body on device c. -/
def outAt (c : Dev nD) : (cc0_stg3_0 : Ref sig .tc).ty.Contents (Elt F) := (kernelRun m ρ c).1

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The copies' views' element sets are the blocks of rows. -/
theorem set_src0 : (srcM0 : Memref sig .tc .vmem S2x64x8x64 .f32).view.set = (rows 0).set := View.set_slice_whole _ _
theorem set_dst0 : (dstM0 : Memref sig .tc .vmem S2x64x8x64 .f32).view.set = (rows 0).set := View.set_slice_whole _ _
theorem set_src1 : (srcM1 : Memref sig .tc .vmem S2x64x8x64 .f32).view.set = (rows 0).set := View.set_slice_whole _ _
theorem set_dst1 : (dstM1 : Memref sig .tc .vmem S2x64x8x64 .f32).view.set = (rows 0).set := View.set_slice_whole _ _
theorem set_src2 : (srcM2 : Memref sig .tc .vmem S2x64x8x64 .f32).view.set = (rows 1).set := View.set_slice_whole _ _
theorem set_dst2 : (dstM2 : Memref sig .tc .vmem S2x64x8x64 .f32).view.set = (rows 1).set := View.set_slice_whole _ _
theorem set_src3 : (srcM3 : Memref sig .tc .vmem S2x64x8x64 .f32).view.set = (rows 1).set := View.set_slice_whole _ _
theorem set_dst3 : (dstM3 : Memref sig .tc .vmem S2x64x8x64 .f32).view.set = (rows 1).set := View.set_slice_whole _ _
theorem set_src4 : (srcM4 : Memref sig .tc .vmem S2x64x8x64 .f32).view.set = (rows 2).set := View.set_slice_whole _ _
theorem set_dst4 : (dstM4 : Memref sig .tc .vmem S2x64x8x64 .f32).view.set = (rows 2).set := View.set_slice_whole _ _
theorem set_src5 : (srcM5 : Memref sig .tc .vmem S2x64x8x64 .f32).view.set = (rows 2).set := View.set_slice_whole _ _
theorem set_dst5 : (dstM5 : Memref sig .tc .vmem S2x64x8x64 .f32).view.set = (rows 2).set := View.set_slice_whole _ _
theorem set_src6 : (srcM6 : Memref sig .tc .vmem S2x64x8x64 .f32).view.set = (rows 3).set := View.set_slice_whole _ _
theorem set_dst6 : (dstM6 : Memref sig .tc .vmem S2x64x8x64 .f32).view.set = (rows 3).set := View.set_slice_whole _ _
theorem set_src7 : (srcM7 : Memref sig .tc .vmem S2x64x8x64 .f32).view.set = (rows 3).set := View.set_slice_whole _ _
theorem set_dst7 : (dstM7 : Memref sig .tc .vmem S2x64x8x64 .f32).view.set = (rows 3).set := View.set_slice_whole _ _

def bodyPre' (c : Dev nD) : sProp 𝕄 :=
  iprop(Φ₀ m ρ c ∗ (dats m ρ (outAt m ρ) 0 c).owesAt () t₀.castSucc
    ∗ (∃ d, stg c cc0_stg0_0 ((dats m ρ (outAt m ρ) 0 c).before (0 : Fin 4) t₀ d))
    ∗ (∃ d, stg c cc0_stg1_0 ((dats m ρ (outAt m ρ) 0 c).before (1 : Fin 4) t₀ d))
    ∗ (∃ d, stg c cc0_stg2_0 ((dats m ρ (outAt m ρ) 0 c).before (2 : Fin 4) t₀ d))
    ∗ (∃ d, stg c cc0_stg3_0 ((dats m ρ (outAt m ρ) 0 c).before (3 : Fin 4) t₀ d)))

def bodyPost (c : Dev nD) : sProp 𝕄 :=
  iprop(Φ₁ c ∗ (dats m ρ (outAt m ρ) 0 c).owesAt () t₀.succ
    ∗ stg c cc0_stg0_0 (qstg m ρ c) ∗ stg c cc0_stg1_0 (kstg m ρ c) ∗ stg c cc0_stg2_0 (vstg m ρ c) ∗ stg c cc0_stg3_0 (outAt m ρ c))

theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl
theorem fetch_2 (t : Fin cfg0.N) : (cfg0.win (2 : Fin 4)).fetch t = true := by rw [fin_N t]; rfl

set_option maxHeartbeats 4000000 in
set_option maxRecDepth 65536 in
/-- The pipeline's body obligation on device c. -/
theorem body_obligation (c : Dev nD) : BodyObligation (dats (F := F) m ρ (outAt m ρ) 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _)
      cc0_scratch5 cc0_scratch6) (fun _ => bodyPost m ρ c)
  unfold bodyPre' Φ₀ start creds scratch
  iintro ⟨⟨⟨⟨%K, Hg⟩, ⟨HcB, HcR0, HcR1, HcR2, HcR3, HcR4, HcR5, HcR6, HcR7⟩, #Hlev⟩, ⟨%f0, Hs0⟩, ⟨%f1, Hs1⟩, ⟨%f2, Hs2⟩, ⟨%f3, Hs3⟩, ⟨%f4, Hs4⟩⟩, Ho, ⟨%d0, %g0, %hg0, Hq⟩, ⟨%d1, %g1, %hg1, Hkf⟩, ⟨%d2, %g2, %hg2, Hvf⟩, ⟨%d3, %g3, %hg3, Hout⟩⟩
  have hq : g0 = qstg m ρ c := by rw [hg0]; unfold Dat.before; rw [if_pos (fetch_0 t₀)]; rfl
  have hk : g1 = kstg m ρ c := by rw [hg1]; unfold Dat.before; rw [if_pos (fetch_1 t₀)]; rfl
  have hv : g2 = vstg m ρ c := by rw [hg2]; unfold Dat.before; rw [if_pos (fetch_2 t₀)]; rfl
  subst hq hk hv
  unfold Dat.owesAt Pipeline.owesWithin
  icases Ho with ⟨%W, %hW, HO⟩
  rw [show (dats m ρ (outAt m ρ) 0 c).owed t₀.castSucc = O₀ c from rfl]
  unfold O₀ O₁ ghost invs
  icases Hg with ⟨⟨#HIbar, #HIs0, #HIs1, #HIs2, #HIs3, #HIs4, #HIs5, #HIs6, #HIs7, #HIr0, #HIr1, #HIr2, #HIr3, #HIr4, #HIr5, #HIr6, #HIr7, #HIbarP, #HIrP0, #HIrP1, #HIrP2, #HIrP3, #HIrP4, #HIrP5, #HIrP6, #HIrP7⟩, HatB, HatS0, HatS1, HatS2, HatS3, HatS4, HatS5, HatS6, HatS7, HatR0, HatR1, HatR2, HatR3, HatR4, HatR5, HatR6, HatR7, #HrBP, #HrS0, #HrS1, #HrS2, #HrS3, #HrS4, #HrS5, #HrS6, #HrS7, #HrR0, #HrR1, #HrR2, #HrR3, #HrR4, #HrR5, #HrR6, #HrR7, HtBP, HtRP0, HtRP1, HtRP2, HtRP3, HtRP4, HtRP5, HtRP6, HtRP7, HtS0, HtS1, HtS2, HtS3, HtS4, HtS5, HtS6, HtS7⟩
  -- K and V: half the share stays whole for the loads, the other half goes by blocks of rows to the copies
  ihave Hk2 := (pointsTo_share (PosShare.mem_left_op_right fullShare)).1 $$ Hkf
  icases Hk2 with ⟨HkL, Hk⟩
  ihave Hv2 := (pointsTo_share (PosShare.mem_left_op_right fullShare)).1 $$ Hvf
  icases Hv2 with ⟨HvL, Hv⟩
  ihave HkR := (rows_split cc0_stg1_0 rfl c fullShare.left (rows 0).set (rows 1).set (rows 2).set (rows 3).set rows1_sub rows2_sub rows3_eq _).1 $$ HkL
  icases HkR with ⟨Hsrc0, Hsrc2, Hsrc4, Hsrc6⟩
  ihave HvR := (rows_split cc0_stg2_0 rfl c fullShare.left (rows 0).set (rows 1).set (rows 2).set (rows 3).set rows1_sub rows2_sub rows3_eq _).1 $$ HvL
  icases HvR with ⟨Hsrc1, Hsrc3, Hsrc5, Hsrc7⟩
  ihave Hs0R := (rows_split cc0_scratch0 rfl c fullShare (rows 0).set (rows 1).set (rows 2).set (rows 3).set rows1_sub rows2_sub rows3_eq f0).1 $$ Hs0
  icases Hs0R with ⟨Hslot0, Hslot2, Hslot4, Hslot6⟩
  ihave Hs1R := (rows_split cc0_scratch1 rfl c fullShare (rows 0).set (rows 1).set (rows 2).set (rows 3).set rows1_sub rows2_sub rows3_eq f1).1 $$ Hs1
  icases Hs1R with ⟨Hslot1, Hslot3, Hslot5, Hslot7⟩
  iapply ((kernelRun m ρ c).2 K W g3 f2 f3 f4 (fun _ => bodyPost m ρ c))
  isplitr []
  · unfold runPre sendPay0 slot0 sendPay1 slot1 sendPay2 slot2 sendPay3 slot3 sendPay4 slot4 sendPay5 slot5 sendPay6 slot6 sendPay7 slot7
    rw [set_src0, set_dst0, set_src1, set_dst1, set_src2, set_dst2, set_src3, set_dst3, set_src4, set_dst4, set_src5, set_dst5, set_src6, set_dst6, set_src7, set_dst7]
    isplitr; · iexact HIbar
    isplitr; · iexact HIs0
    isplitr; · iexact HIs1
    isplitr; · iexact HIs2
    isplitr; · iexact HIs3
    isplitr; · iexact HIs4
    isplitr; · iexact HIs5
    isplitr; · iexact HIs6
    isplitr; · iexact HIs7
    isplitr; · iexact HIr0
    isplitr; · iexact HIr1
    isplitr; · iexact HIr2
    isplitr; · iexact HIr3
    isplitr; · iexact HIr4
    isplitr; · iexact HIr5
    isplitr; · iexact HIr6
    isplitr; · iexact HIr7
    isplitr; · iexact HIbarP
    isplitr; · iexact HIrP0
    isplitr; · iexact HIrP1
    isplitr; · iexact HIrP2
    isplitr; · iexact HIrP3
    isplitr; · iexact HIrP4
    isplitr; · iexact HIrP5
    isplitr; · iexact HIrP6
    isplitr; · iexact HIrP7
    isplitl [HatB]; · iexact HatB
    isplitl [HatS0]; · iexact HatS0
    isplitl [HatS1]; · iexact HatS1
    isplitl [HatS2]; · iexact HatS2
    isplitl [HatS3]; · iexact HatS3
    isplitl [HatS4]; · iexact HatS4
    isplitl [HatS5]; · iexact HatS5
    isplitl [HatS6]; · iexact HatS6
    isplitl [HatS7]; · iexact HatS7
    isplitl [HatR0]; · iexact HatR0
    isplitl [HatR1]; · iexact HatR1
    isplitl [HatR2]; · iexact HatR2
    isplitl [HatR3]; · iexact HatR3
    isplitl [HatR4]; · iexact HatR4
    isplitl [HatR5]; · iexact HatR5
    isplitl [HatR6]; · iexact HatR6
    isplitl [HatR7]; · iexact HatR7
    isplitr; · iexact HrBP
    isplitr; · iexact HrS0
    isplitr; · iexact HrS1
    isplitr; · iexact HrS2
    isplitr; · iexact HrS3
    isplitr; · iexact HrS4
    isplitr; · iexact HrS5
    isplitr; · iexact HrS6
    isplitr; · iexact HrS7
    isplitr; · iexact HrR0
    isplitr; · iexact HrR1
    isplitr; · iexact HrR2
    isplitr; · iexact HrR3
    isplitr; · iexact HrR4
    isplitr; · iexact HrR5
    isplitr; · iexact HrR6
    isplitr; · iexact HrR7
    isplitl [HtBP]; · iexact HtBP
    isplitl [HtRP0]; · iexact HtRP0
    isplitl [HtRP1]; · iexact HtRP1
    isplitl [HtRP2]; · iexact HtRP2
    isplitl [HtRP3]; · iexact HtRP3
    isplitl [HtRP4]; · iexact HtRP4
    isplitl [HtRP5]; · iexact HtRP5
    isplitl [HtRP6]; · iexact HtRP6
    isplitl [HtRP7]; · iexact HtRP7
    isplitl [HtS0]; · iexact HtS0
    isplitl [HtS1]; · iexact HtS1
    isplitl [HtS2]; · iexact HtS2
    isplitl [HtS3]; · iexact HtS3
    isplitl [HtS4]; · iexact HtS4
    isplitl [HtS5]; · iexact HtS5
    isplitl [HtS6]; · iexact HtS6
    isplitl [HtS7]; · iexact HtS7
    isplitl [HcB]; · iexact HcB
    isplitl [HcR0]; · iexact HcR0
    isplitl [HcR1]; · iexact HcR1
    isplitl [HcR2]; · iexact HcR2
    isplitl [HcR3]; · iexact HcR3
    isplitl [HcR4]; · iexact HcR4
    isplitl [HcR5]; · iexact HcR5
    isplitl [HcR6]; · iexact HcR6
    isplitl [HcR7]; · iexact HcR7
    isplitl [HO]; · iexact HO
    isplitr; · iexact Hlev
    isplitl [Hq]; · iexact Hq
    isplitl [Hk]; · iexact Hk
    isplitl [Hv]; · iexact Hv
    isplitl [Hsrc0]; · iexact Hsrc0
    isplitl [Hsrc1]; · iexact Hsrc1
    isplitl [Hsrc2]; · iexact Hsrc2
    isplitl [Hsrc3]; · iexact Hsrc3
    isplitl [Hsrc4]; · iexact Hsrc4
    isplitl [Hsrc5]; · iexact Hsrc5
    isplitl [Hsrc6]; · iexact Hsrc6
    isplitl [Hsrc7]; · iexact Hsrc7
    isplitl [Hout]; · iexact Hout
    isplitl [Hslot0]; · (iexists _; iexact Hslot0)
    isplitl [Hslot1]; · (iexists _; iexact Hslot1)
    isplitl [Hslot2]; · (iexists _; iexact Hslot2)
    isplitl [Hslot3]; · (iexists _; iexact Hslot3)
    isplitl [Hslot4]; · (iexists _; iexact Hslot4)
    isplitl [Hslot5]; · (iexists _; iexact Hslot5)
    isplitl [Hslot6]; · (iexists _; iexact Hslot6)
    isplitl [Hslot7]; · (iexists _; iexact Hslot7)
    isplitl [Hs2]; · iexact Hs2
    isplitl [Hs3]; · iexact Hs3
    iexact Hs4
  · unfold bodyPost
    generalize hout : (kernelRun m ρ c).1 = out
    have e : outAt m ρ c = out := hout
    rw [e]
    unfold runPost sendPay0 recvPay0 sendPay1 recvPay1 sendPay2 recvPay2 sendPay3 recvPay3 sendPay4 recvPay4 sendPay5 recvPay5 sendPay6 recvPay6 sendPay7 recvPay7 klanded vlanded
    rw [set_src0, set_dst0, set_src1, set_dst1, set_src2, set_dst2, set_src3, set_dst3, set_src4, set_dst4, set_src5, set_dst5, set_src6, set_dst6, set_src7, set_dst7]
    iintro ⟨Hq, Hk, Hv, HS0, HS1, HS2, HS3, HS4, HS5, HS6, HS7, HR0, HR1, HR2, HR3, HR4, HR5, HR6, HR7, Hout, ⟨%e2, Hs2⟩, ⟨%e3, Hs3⟩, ⟨%e4, Hs4⟩, Hz, ⟨%W', HO⟩⟩
    ihave HkL := (rows_split cc0_stg1_0 rfl c fullShare.left (rows 0).set (rows 1).set (rows 2).set (rows 3).set rows1_sub rows2_sub rows3_eq (kstg m ρ c)).2 $$ [HS0 HS2 HS4 HS6]
    · isplitl [HS0]; · iexact HS0
      isplitl [HS2]; · iexact HS2
      isplitl [HS4]; · iexact HS4
      iexact HS6
    ihave Hkf := (pointsTo_share (PosShare.mem_left_op_right fullShare)).2 $$ [HkL Hk]
    · isplitl [HkL]; · iexact HkL
      iexact Hk
    ihave HvL := (rows_split cc0_stg2_0 rfl c fullShare.left (rows 0).set (rows 1).set (rows 2).set (rows 3).set rows1_sub rows2_sub rows3_eq (vstg m ρ c)).2 $$ [HS1 HS3 HS5 HS7]
    · isplitl [HS1]; · iexact HS1
      isplitl [HS3]; · iexact HS3
      isplitl [HS5]; · iexact HS5
      iexact HS7
    ihave Hvf := (pointsTo_share (PosShare.mem_left_op_right fullShare)).2 $$ [HvL Hv]
    · isplitl [HvL]; · iexact HvL
      iexact Hv
    ihave Hs0 := (rows_split cc0_scratch0 rfl c fullShare (rows 0).set (rows 1).set (rows 2).set (rows 3).set rows1_sub rows2_sub rows3_eq (kstg m ρ (peer c))).2 $$ [HR0 HR2 HR4 HR6]
    · isplitl [HR0]; · iexact HR0
      isplitl [HR2]; · iexact HR2
      isplitl [HR4]; · iexact HR4
      iexact HR6
    ihave Hs1 := (rows_split cc0_scratch1 rfl c fullShare (rows 0).set (rows 1).set (rows 2).set (rows 3).set rows1_sub rows2_sub rows3_eq (vstg m ρ (peer c))).2 $$ [HR1 HR3 HR5 HR7]
    · isplitl [HR1]; · iexact HR1
      isplitl [HR3]; · iexact HR3
      isplitl [HR5]; · iexact HR5
      iexact HR7
    unfold Φ₁ scratch semsZero Dat.owesAt Pipeline.owesWithin
    rw [show (dats m ρ (outAt m ρ) 0 c).owed t₀.succ = 0 from rfl]
    isplitl [Hs0 Hs1 Hs2 Hs3 Hs4 Hz]
    · isplitl [Hs0 Hs1 Hs2 Hs3 Hs4]
      · isplitl [Hs0]; · (iexists _; iexact Hs0)
        isplitl [Hs1]; · (iexists _; iexact Hs1)
        isplitl [Hs2]; · (iexists _; iexact Hs2)
        isplitl [Hs3]; · (iexists _; iexact Hs3)
        iexists _; iexact Hs4
      · iexact Hz
    isplitl [HO]
    · iexists W'
      isplitr; · (ipureintro; exact fun _ _ => Or.inl trivial)
      iexact HO
    isplitl [Hq]
    · iexists _; isplitr; · (ipureintro; rfl)
      iexact Hq
    isplitl [Hkf]
    · iexists _; isplitr; · (ipureintro; rfl)
      iexact Hkf
    isplitl [Hvf]
    · iexists _; isplitr; · (ipureintro; rfl)
      iexact Hvf
    iexists _; isplitr; · (ipureintro; rfl)
    iexact Hout

end Cert.KernelIdeal.Hand

end
-- ==== Proof.BitsProtocol.lean ====
/-
  The exchange between a device and its partner along the mesh's z axis, as a schedule of rounds.

  Device c and peer c (the device that differs from c in its z coordinate only) each hold 256 rows of K and V.
  Each signals the other's barrier semaphore once and waits for one unit on its own: after that wait the partner
  is inside the kernel and its landing buffers are free. Then eight copies go to the partner, copy 2j carrying
  rows 64j … 64j+63 of K and copy 2j+1 the same rows of V, each with a send cell on the issuer and a receive
  cell on the partner. A device waits for a receive cell before it reads the rows that copy lands, and for its
  eight send cells at the very end. Every cell has one round with one duty.
-/
import proofs.«900412_g7700000000000413_dist_agattn_v7x_xyz2x2x2_z_b2_s256_h8_d64_f32_1_alg».proof.Proof.Gen.Kernel
import proofs.«900412_g7700000000000413_dist_agattn_v7x_xyz2x2x2_z_b2_s256_h8_d64_f32_1_alg».proof.Proof.Gen.Kernel.Skeleton
import proofs.«900412_g7700000000000413_dist_agattn_v7x_xyz2x2x2_z_b2_s256_h8_d64_f32_1_alg».proof.Proof.Gen.Kernel.Launch
import proofs.«900412_g7700000000000413_dist_agattn_v7x_xyz2x2x2_z_b2_s256_h8_d64_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Two copies of the rounds algebra: the staging pipeline's and the exchange's -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## The partner -/

/-- Device 4x + 2y + z exchanges with 4x + 2y + (1 - z). -/
def peer (c : Dev nD) : Dev nD :=
  ⟨(4 * (c.val / 4) + 2 * ((c.val / 2) % 2) + 1) - (c.val % 2), by have := c.isLt; revert this; generalize c.val = v; decide +revert⟩

theorem peer_peer (c : Dev nD) : peer (peer c) = c := by revert c; decide
theorem peer_ne (c : Dev nD) : peer c ≠ c := by revert c; decide

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)
theorem dev6_eq (c : Dev nD) : (⟨k0_dev6 c, k0_dev6_lt c⟩ : Dev nD) = peer c := Fin.ext (k0_dev6_eq c)
theorem dev7_eq (c : Dev nD) : (⟨k0_dev7 c, k0_dev7_lt c⟩ : Dev nD) = peer c := Fin.ext (k0_dev7_eq c)
theorem dev8_eq (c : Dev nD) : (⟨k0_dev8 c, k0_dev8_lt c⟩ : Dev nD) = peer c := Fin.ext (k0_dev8_eq c)
theorem dev9_eq (c : Dev nD) : (⟨k0_dev9 c, k0_dev9_lt c⟩ : Dev nD) = peer c := Fin.ext (k0_dev9_eq c)

def swap : Dev nD ≃ Dev nD := ⟨peer, peer, peer_peer, peer_peer⟩

/-! ## Buffers, the rows of each copy, and the cells -/

abbrev qStg : Memref sig .tc .vmem S2x256x8x64 .f32 := Memref.whole cc0_stg0_0
abbrev kStg : Memref sig .tc .vmem S2x256x8x64 .f32 := Memref.whole cc0_stg1_0
abbrev vStg : Memref sig .tc .vmem S2x256x8x64 .f32 := Memref.whole cc0_stg2_0
abbrev oStg : Memref sig .tc .vmem S2x256x8x64 .f32 := Memref.whole cc0_stg3_0
abbrev kRx : Memref sig .tc .vmem S2x256x8x64 .f32 := Memref.whole cc0_scratch0
abbrev vRx : Memref sig .tc .vmem S2x256x8x64 .f32 := Memref.whole cc0_scratch1

/-- Rows 64j … 64j+63 along axis 1. -/
abbrev rows : Fin 4 → Rect S2x256x8x64
  | 0 => Rect.unit (s := S2x256x8x64) ![0, 0, 0, 0] S2x64x8x64.size inb_S2x256x8x64_S2x64x8x64_0_0_0_0
  | 1 => Rect.unit (s := S2x256x8x64) ![0, 64, 0, 0] S2x64x8x64.size inb_S2x256x8x64_S2x64x8x64_0_64_0_0
  | 2 => Rect.unit (s := S2x256x8x64) ![0, 128, 0, 0] S2x64x8x64.size inb_S2x256x8x64_S2x64x8x64_0_128_0_0
  | 3 => Rect.unit (s := S2x256x8x64) ![0, 192, 0, 0] S2x64x8x64.size inb_S2x256x8x64_S2x64x8x64_0_192_0_0

/-- Copy i = 2j carries rows j of K, copy i = 2j+1 rows j of V: its source in the issuer's input buffer, -/
abbrev srcM0 : Memref sig .tc .vmem S2x64x8x64 .f32 := kStg.slice (rows 0) (fun _ => rfl)
abbrev srcM1 : Memref sig .tc .vmem S2x64x8x64 .f32 := vStg.slice (rows 0) (fun _ => rfl)
abbrev srcM2 : Memref sig .tc .vmem S2x64x8x64 .f32 := kStg.slice (rows 1) (fun _ => rfl)
abbrev srcM3 : Memref sig .tc .vmem S2x64x8x64 .f32 := vStg.slice (rows 1) (fun _ => rfl)
abbrev srcM4 : Memref sig .tc .vmem S2x64x8x64 .f32 := kStg.slice (rows 2) (fun _ => rfl)
abbrev srcM5 : Memref sig .tc .vmem S2x64x8x64 .f32 := vStg.slice (rows 2) (fun _ => rfl)
abbrev srcM6 : Memref sig .tc .vmem S2x64x8x64 .f32 := kStg.slice (rows 3) (fun _ => rfl)
abbrev srcM7 : Memref sig .tc .vmem S2x64x8x64 .f32 := vStg.slice (rows 3) (fun _ => rfl)
/-- its destination in the partner's landing buffer, -/
abbrev dstM0 : Memref sig .tc .vmem S2x64x8x64 .f32 := kRx.slice (rows 0) (fun _ => rfl)
abbrev dstM1 : Memref sig .tc .vmem S2x64x8x64 .f32 := vRx.slice (rows 0) (fun _ => rfl)
abbrev dstM2 : Memref sig .tc .vmem S2x64x8x64 .f32 := kRx.slice (rows 1) (fun _ => rfl)
abbrev dstM3 : Memref sig .tc .vmem S2x64x8x64 .f32 := vRx.slice (rows 1) (fun _ => rfl)
abbrev dstM4 : Memref sig .tc .vmem S2x64x8x64 .f32 := kRx.slice (rows 2) (fun _ => rfl)
abbrev dstM5 : Memref sig .tc .vmem S2x64x8x64 .f32 := vRx.slice (rows 2) (fun _ => rfl)
abbrev dstM6 : Memref sig .tc .vmem S2x64x8x64 .f32 := kRx.slice (rows 3) (fun _ => rfl)
abbrev dstM7 : Memref sig .tc .vmem S2x64x8x64 .f32 := vRx.slice (rows 3) (fun _ => rfl)
/-- its send semaphore (on the issuer) and its receive semaphore (on the partner). -/
abbrev sendS0 : DmaSems sig S_ := (cc0_scratch5.slice (Rect.unit (s := S8) ![0] S1.size inb_S8_S1_0)).squeeze S_ squeezes_S1_S_
abbrev sendS1 : DmaSems sig S_ := (cc0_scratch5.slice (Rect.unit (s := S8) ![1] S1.size inb_S8_S1_1)).squeeze S_ squeezes_S1_S_
abbrev sendS2 : DmaSems sig S_ := (cc0_scratch5.slice (Rect.unit (s := S8) ![2] S1.size inb_S8_S1_2)).squeeze S_ squeezes_S1_S_
abbrev sendS3 : DmaSems sig S_ := (cc0_scratch5.slice (Rect.unit (s := S8) ![3] S1.size inb_S8_S1_3)).squeeze S_ squeezes_S1_S_
abbrev sendS4 : DmaSems sig S_ := (cc0_scratch5.slice (Rect.unit (s := S8) ![4] S1.size inb_S8_S1_4)).squeeze S_ squeezes_S1_S_
abbrev sendS5 : DmaSems sig S_ := (cc0_scratch5.slice (Rect.unit (s := S8) ![5] S1.size inb_S8_S1_5)).squeeze S_ squeezes_S1_S_
abbrev sendS6 : DmaSems sig S_ := (cc0_scratch5.slice (Rect.unit (s := S8) ![6] S1.size inb_S8_S1_6)).squeeze S_ squeezes_S1_S_
abbrev sendS7 : DmaSems sig S_ := (cc0_scratch5.slice (Rect.unit (s := S8) ![7] S1.size inb_S8_S1_7)).squeeze S_ squeezes_S1_S_
abbrev recvS0 : DmaSems sig S_ := (cc0_scratch6.slice (Rect.unit (s := S8) ![0] S1.size inb_S8_S1_0)).squeeze S_ squeezes_S1_S_
abbrev recvS1 : DmaSems sig S_ := (cc0_scratch6.slice (Rect.unit (s := S8) ![1] S1.size inb_S8_S1_1)).squeeze S_ squeezes_S1_S_
abbrev recvS2 : DmaSems sig S_ := (cc0_scratch6.slice (Rect.unit (s := S8) ![2] S1.size inb_S8_S1_2)).squeeze S_ squeezes_S1_S_
abbrev recvS3 : DmaSems sig S_ := (cc0_scratch6.slice (Rect.unit (s := S8) ![3] S1.size inb_S8_S1_3)).squeeze S_ squeezes_S1_S_
abbrev recvS4 : DmaSems sig S_ := (cc0_scratch6.slice (Rect.unit (s := S8) ![4] S1.size inb_S8_S1_4)).squeeze S_ squeezes_S1_S_
abbrev recvS5 : DmaSems sig S_ := (cc0_scratch6.slice (Rect.unit (s := S8) ![5] S1.size inb_S8_S1_5)).squeeze S_ squeezes_S1_S_
abbrev recvS6 : DmaSems sig S_ := (cc0_scratch6.slice (Rect.unit (s := S8) ![6] S1.size inb_S8_S1_6)).squeeze S_ squeezes_S1_S_
abbrev recvS7 : DmaSems sig S_ := (cc0_scratch6.slice (Rect.unit (s := S8) ![7] S1.size inb_S8_S1_7)).squeeze S_ squeezes_S1_S_

/-- The runtime's barrier semaphore of collective id 0: not scoped to the launch. -/
abbrev barS : Sem sig := (SemArray.scalar (sig.barrier 0 rfl) : Sems sig S_).sem

abbrev barCell (c : Dev nD) : GSem nD τ sig := ((c : Thread nD τ), .reg barS)
abbrev sendCell0 (c : Dev nD) : GSem nD τ sig := ((c : Thread nD τ), .dma sendS0.sem)
abbrev sendCell1 (c : Dev nD) : GSem nD τ sig := ((c : Thread nD τ), .dma sendS1.sem)
abbrev sendCell2 (c : Dev nD) : GSem nD τ sig := ((c : Thread nD τ), .dma sendS2.sem)
abbrev sendCell3 (c : Dev nD) : GSem nD τ sig := ((c : Thread nD τ), .dma sendS3.sem)
abbrev sendCell4 (c : Dev nD) : GSem nD τ sig := ((c : Thread nD τ), .dma sendS4.sem)
abbrev sendCell5 (c : Dev nD) : GSem nD τ sig := ((c : Thread nD τ), .dma sendS5.sem)
abbrev sendCell6 (c : Dev nD) : GSem nD τ sig := ((c : Thread nD τ), .dma sendS6.sem)
abbrev sendCell7 (c : Dev nD) : GSem nD τ sig := ((c : Thread nD τ), .dma sendS7.sem)
abbrev recvCell0 (c : Dev nD) : GSem nD τ sig := ((c : Thread nD τ), .dma recvS0.sem)
abbrev recvCell1 (c : Dev nD) : GSem nD τ sig := ((c : Thread nD τ), .dma recvS1.sem)
abbrev recvCell2 (c : Dev nD) : GSem nD τ sig := ((c : Thread nD τ), .dma recvS2.sem)
abbrev recvCell3 (c : Dev nD) : GSem nD τ sig := ((c : Thread nD τ), .dma recvS3.sem)
abbrev recvCell4 (c : Dev nD) : GSem nD τ sig := ((c : Thread nD τ), .dma recvS4.sem)
abbrev recvCell5 (c : Dev nD) : GSem nD τ sig := ((c : Thread nD τ), .dma recvS5.sem)
abbrev recvCell6 (c : Dev nD) : GSem nD τ sig := ((c : Thread nD τ), .dma recvS6.sem)
abbrev recvCell7 (c : Dev nD) : GSem nD τ sig := ((c : Thread nD τ), .dma recvS7.sem)

/-- The kernel's own (scoped) semaphores: eight send, eight receive. -/
abbrev osem : Fin 16 → SemLoc sig := fun
  | 0 => .dma sendS0.sem
  | 1 => .dma sendS1.sem
  | 2 => .dma sendS2.sem
  | 3 => .dma sendS3.sem
  | 4 => .dma sendS4.sem
  | 5 => .dma sendS5.sem
  | 6 => .dma sendS6.sem
  | 7 => .dma sendS7.sem
  | 8 => .dma recvS0.sem
  | 9 => .dma recvS1.sem
  | 10 => .dma recvS2.sem
  | 11 => .dma recvS3.sem
  | 12 => .dma recvS4.sem
  | 13 => .dma recvS5.sem
  | 14 => .dma recvS6.sem
  | 15 => .dma recvS7.sem
  | ⟨_ + 16, h⟩ => absurd h (Nat.not_lt.2 (Nat.le_add_left _ _))
/-- All seventeen cells of a device: the barrier, then its own. -/
abbrev csem : Fin 17 → SemLoc sig := fun
  | 0 => .reg barS
  | 1 => .dma sendS0.sem
  | 2 => .dma sendS1.sem
  | 3 => .dma sendS2.sem
  | 4 => .dma sendS3.sem
  | 5 => .dma sendS4.sem
  | 6 => .dma sendS5.sem
  | 7 => .dma sendS6.sem
  | 8 => .dma sendS7.sem
  | 9 => .dma recvS0.sem
  | 10 => .dma recvS1.sem
  | 11 => .dma recvS2.sem
  | 12 => .dma recvS3.sem
  | 13 => .dma recvS4.sem
  | 14 => .dma recvS5.sem
  | 15 => .dma recvS6.sem
  | 16 => .dma recvS7.sem
  | ⟨_ + 17, h⟩ => absurd h (Nat.not_lt.2 (Nat.le_add_left _ _))
abbrev kcell (ck : Dev nD × Fin 17) : GSem nD τ sig := ((ck.1 : Thread nD τ), csem ck.2)

/-- One copy's credit: the same for all eight (same shape, same element type). -/
abbrev Ncr : ℕ := (dstM0 : Memref sig .tc .vmem S2x64x8x64 .f32).view.dmaCredit
theorem Ncr_pos : 0 < Ncr := View.dmaCredit_pos _ (by decide)
theorem amount_dst0 : (dstM0 : Memref sig .tc .vmem S2x64x8x64 .f32).view.dmaCredit = Ncr := rfl
theorem amount_dst1 : (dstM1 : Memref sig .tc .vmem S2x64x8x64 .f32).view.dmaCredit = Ncr := rfl
theorem amount_dst2 : (dstM2 : Memref sig .tc .vmem S2x64x8x64 .f32).view.dmaCredit = Ncr := rfl
theorem amount_dst3 : (dstM3 : Memref sig .tc .vmem S2x64x8x64 .f32).view.dmaCredit = Ncr := rfl
theorem amount_dst4 : (dstM4 : Memref sig .tc .vmem S2x64x8x64 .f32).view.dmaCredit = Ncr := rfl
theorem amount_dst5 : (dstM5 : Memref sig .tc .vmem S2x64x8x64 .f32).view.dmaCredit = Ncr := rfl
theorem amount_dst6 : (dstM6 : Memref sig .tc .vmem S2x64x8x64 .f32).view.dmaCredit = Ncr := rfl
theorem amount_dst7 : (dstM7 : Memref sig .tc .vmem S2x64x8x64 .f32).view.dmaCredit = Ncr := rfl
theorem amount_src0 : (srcM0 : Memref sig .tc .vmem S2x64x8x64 .f32).view.dmaCredit = Ncr := rfl
theorem amount_src1 : (srcM1 : Memref sig .tc .vmem S2x64x8x64 .f32).view.dmaCredit = Ncr := rfl
theorem amount_src2 : (srcM2 : Memref sig .tc .vmem S2x64x8x64 .f32).view.dmaCredit = Ncr := rfl
theorem amount_src3 : (srcM3 : Memref sig .tc .vmem S2x64x8x64 .f32).view.dmaCredit = Ncr := rfl
theorem amount_src4 : (srcM4 : Memref sig .tc .vmem S2x64x8x64 .f32).view.dmaCredit = Ncr := rfl
theorem amount_src5 : (srcM5 : Memref sig .tc .vmem S2x64x8x64 .f32).view.dmaCredit = Ncr := rfl
theorem amount_src6 : (srcM6 : Memref sig .tc .vmem S2x64x8x64 .f32).view.dmaCredit = Ncr := rfl
theorem amount_src7 : (srcM7 : Memref sig .tc .vmem S2x64x8x64 .f32).view.dmaCredit = Ncr := rfl

/-! ## Contents -/

/-- What the input staging buffers hold during the body: the device's rows of Q, K, V. -/
def qstg (c : Dev nD) : (cc0_stg0_0 : Ref sig .tc).ty.Contents (Elt F) :=
  (win0_0.blk (0 : Fin 1)).view.read (Elt F) ((s₀ m ρ).mem ((c : Thread nD τ).loc main_arg0))
def kstg (c : Dev nD) : (cc0_stg1_0 : Ref sig .tc).ty.Contents (Elt F) :=
  (win0_1.blk (0 : Fin 1)).view.read (Elt F) ((s₀ m ρ).mem ((c : Thread nD τ).loc main_arg1))
def vstg (c : Dev nD) : (cc0_stg2_0 : Ref sig .tc).ty.Contents (Elt F) :=
  (win0_2.blk (0 : Fin 1)).view.read (Elt F) ((s₀ m ρ).mem ((c : Thread nD τ).loc main_arg2))

/-- What the landing buffers hold once every copy has landed: the partner's rows of K and of V. -/
def klanded (c : Dev nD) : Buf (Elt F) ((kRx : Memref sig .tc .vmem S2x256x8x64 .f32).view.loc (c : Thread nD τ)) := kstg m ρ (peer c)
def vlanded (c : Dev nD) : Buf (Elt F) ((vRx : Memref sig .tc .vmem S2x256x8x64 .f32).view.loc (c : Thread nD τ)) := vstg m ρ (peer c)

/-! ## What the signals and copies hand over -/

/-- Rows 0 of the issuer's K buffer at half the share: lent to copy 0 and back with its send cell. -/
def sendPay0 (c : Dev nD) : sProp 𝕄 :=
  (srcM0 : Memref sig .tc .vmem S2x64x8x64 .f32).view.loc (c : Thread nD τ) ↦[(srcM0 : Memref sig .tc .vmem S2x64x8x64 .f32).view.set]{fullShare.left} kstg m ρ c
/-- Rows 0 of the issuer's V buffer at half the share: lent to copy 1 and back with its send cell. -/
def sendPay1 (c : Dev nD) : sProp 𝕄 :=
  (srcM1 : Memref sig .tc .vmem S2x64x8x64 .f32).view.loc (c : Thread nD τ) ↦[(srcM1 : Memref sig .tc .vmem S2x64x8x64 .f32).view.set]{fullShare.left} vstg m ρ c
/-- Rows 1 of the issuer's K buffer at half the share: lent to copy 2 and back with its send cell. -/
def sendPay2 (c : Dev nD) : sProp 𝕄 :=
  (srcM2 : Memref sig .tc .vmem S2x64x8x64 .f32).view.loc (c : Thread nD τ) ↦[(srcM2 : Memref sig .tc .vmem S2x64x8x64 .f32).view.set]{fullShare.left} kstg m ρ c
/-- Rows 1 of the issuer's V buffer at half the share: lent to copy 3 and back with its send cell. -/
def sendPay3 (c : Dev nD) : sProp 𝕄 :=
  (srcM3 : Memref sig .tc .vmem S2x64x8x64 .f32).view.loc (c : Thread nD τ) ↦[(srcM3 : Memref sig .tc .vmem S2x64x8x64 .f32).view.set]{fullShare.left} vstg m ρ c
/-- Rows 2 of the issuer's K buffer at half the share: lent to copy 4 and back with its send cell. -/
def sendPay4 (c : Dev nD) : sProp 𝕄 :=
  (srcM4 : Memref sig .tc .vmem S2x64x8x64 .f32).view.loc (c : Thread nD τ) ↦[(srcM4 : Memref sig .tc .vmem S2x64x8x64 .f32).view.set]{fullShare.left} kstg m ρ c
/-- Rows 2 of the issuer's V buffer at half the share: lent to copy 5 and back with its send cell. -/
def sendPay5 (c : Dev nD) : sProp 𝕄 :=
  (srcM5 : Memref sig .tc .vmem S2x64x8x64 .f32).view.loc (c : Thread nD τ) ↦[(srcM5 : Memref sig .tc .vmem S2x64x8x64 .f32).view.set]{fullShare.left} vstg m ρ c
/-- Rows 3 of the issuer's K buffer at half the share: lent to copy 6 and back with its send cell. -/
def sendPay6 (c : Dev nD) : sProp 𝕄 :=
  (srcM6 : Memref sig .tc .vmem S2x64x8x64 .f32).view.loc (c : Thread nD τ) ↦[(srcM6 : Memref sig .tc .vmem S2x64x8x64 .f32).view.set]{fullShare.left} kstg m ρ c
/-- Rows 3 of the issuer's V buffer at half the share: lent to copy 7 and back with its send cell. -/
def sendPay7 (c : Dev nD) : sProp 𝕄 :=
  (srcM7 : Memref sig .tc .vmem S2x64x8x64 .f32).view.loc (c : Thread nD τ) ↦[(srcM7 : Memref sig .tc .vmem S2x64x8x64 .f32).view.set]{fullShare.left} vstg m ρ c
/-- Rows 0 of the K landing buffer holding the partner's rows: what copy 0's landing hands the receiver. -/
def recvPay0 (c : Dev nD) : sProp 𝕄 :=
  (dstM0 : Memref sig .tc .vmem S2x64x8x64 .f32).view.loc (c : Thread nD τ) ↦[(dstM0 : Memref sig .tc .vmem S2x64x8x64 .f32).view.set]{fullShare} klanded m ρ c
/-- Rows 0 of the V landing buffer holding the partner's rows: what copy 1's landing hands the receiver. -/
def recvPay1 (c : Dev nD) : sProp 𝕄 :=
  (dstM1 : Memref sig .tc .vmem S2x64x8x64 .f32).view.loc (c : Thread nD τ) ↦[(dstM1 : Memref sig .tc .vmem S2x64x8x64 .f32).view.set]{fullShare} vlanded m ρ c
/-- Rows 1 of the K landing buffer holding the partner's rows: what copy 2's landing hands the receiver. -/
def recvPay2 (c : Dev nD) : sProp 𝕄 :=
  (dstM2 : Memref sig .tc .vmem S2x64x8x64 .f32).view.loc (c : Thread nD τ) ↦[(dstM2 : Memref sig .tc .vmem S2x64x8x64 .f32).view.set]{fullShare} klanded m ρ c
/-- Rows 1 of the V landing buffer holding the partner's rows: what copy 3's landing hands the receiver. -/
def recvPay3 (c : Dev nD) : sProp 𝕄 :=
  (dstM3 : Memref sig .tc .vmem S2x64x8x64 .f32).view.loc (c : Thread nD τ) ↦[(dstM3 : Memref sig .tc .vmem S2x64x8x64 .f32).view.set]{fullShare} vlanded m ρ c
/-- Rows 2 of the K landing buffer holding the partner's rows: what copy 4's landing hands the receiver. -/
def recvPay4 (c : Dev nD) : sProp 𝕄 :=
  (dstM4 : Memref sig .tc .vmem S2x64x8x64 .f32).view.loc (c : Thread nD τ) ↦[(dstM4 : Memref sig .tc .vmem S2x64x8x64 .f32).view.set]{fullShare} klanded m ρ c
/-- Rows 2 of the V landing buffer holding the partner's rows: what copy 5's landing hands the receiver. -/
def recvPay5 (c : Dev nD) : sProp 𝕄 :=
  (dstM5 : Memref sig .tc .vmem S2x64x8x64 .f32).view.loc (c : Thread nD τ) ↦[(dstM5 : Memref sig .tc .vmem S2x64x8x64 .f32).view.set]{fullShare} vlanded m ρ c
/-- Rows 3 of the K landing buffer holding the partner's rows: what copy 6's landing hands the receiver. -/
def recvPay6 (c : Dev nD) : sProp 𝕄 :=
  (dstM6 : Memref sig .tc .vmem S2x64x8x64 .f32).view.loc (c : Thread nD τ) ↦[(dstM6 : Memref sig .tc .vmem S2x64x8x64 .f32).view.set]{fullShare} klanded m ρ c
/-- Rows 3 of the V landing buffer holding the partner's rows: what copy 7's landing hands the receiver. -/
def recvPay7 (c : Dev nD) : sProp 𝕄 :=
  (dstM7 : Memref sig .tc .vmem S2x64x8x64 .f32).view.loc (c : Thread nD τ) ↦[(dstM7 : Memref sig .tc .vmem S2x64x8x64 .f32).view.set]{fullShare} vlanded m ρ c
/-- Rows 0 of the K landing buffer at whatever they hold: free to be written. -/
def slot0 (c : Dev nD) : sProp 𝕄 :=
  iprop(∃ f, (dstM0 : Memref sig .tc .vmem S2x64x8x64 .f32).view.loc (c : Thread nD τ) ↦[(dstM0 : Memref sig .tc .vmem S2x64x8x64 .f32).view.set]{fullShare} f)
/-- Rows 0 of the V landing buffer at whatever they hold: free to be written. -/
def slot1 (c : Dev nD) : sProp 𝕄 :=
  iprop(∃ f, (dstM1 : Memref sig .tc .vmem S2x64x8x64 .f32).view.loc (c : Thread nD τ) ↦[(dstM1 : Memref sig .tc .vmem S2x64x8x64 .f32).view.set]{fullShare} f)
/-- Rows 1 of the K landing buffer at whatever they hold: free to be written. -/
def slot2 (c : Dev nD) : sProp 𝕄 :=
  iprop(∃ f, (dstM2 : Memref sig .tc .vmem S2x64x8x64 .f32).view.loc (c : Thread nD τ) ↦[(dstM2 : Memref sig .tc .vmem S2x64x8x64 .f32).view.set]{fullShare} f)
/-- Rows 1 of the V landing buffer at whatever they hold: free to be written. -/
def slot3 (c : Dev nD) : sProp 𝕄 :=
  iprop(∃ f, (dstM3 : Memref sig .tc .vmem S2x64x8x64 .f32).view.loc (c : Thread nD τ) ↦[(dstM3 : Memref sig .tc .vmem S2x64x8x64 .f32).view.set]{fullShare} f)
/-- Rows 2 of the K landing buffer at whatever they hold: free to be written. -/
def slot4 (c : Dev nD) : sProp 𝕄 :=
  iprop(∃ f, (dstM4 : Memref sig .tc .vmem S2x64x8x64 .f32).view.loc (c : Thread nD τ) ↦[(dstM4 : Memref sig .tc .vmem S2x64x8x64 .f32).view.set]{fullShare} f)
/-- Rows 2 of the V landing buffer at whatever they hold: free to be written. -/
def slot5 (c : Dev nD) : sProp 𝕄 :=
  iprop(∃ f, (dstM5 : Memref sig .tc .vmem S2x64x8x64 .f32).view.loc (c : Thread nD τ) ↦[(dstM5 : Memref sig .tc .vmem S2x64x8x64 .f32).view.set]{fullShare} f)
/-- Rows 3 of the K landing buffer at whatever they hold: free to be written. -/
def slot6 (c : Dev nD) : sProp 𝕄 :=
  iprop(∃ f, (dstM6 : Memref sig .tc .vmem S2x64x8x64 .f32).view.loc (c : Thread nD τ) ↦[(dstM6 : Memref sig .tc .vmem S2x64x8x64 .f32).view.set]{fullShare} f)
/-- Rows 3 of the V landing buffer at whatever they hold: free to be written. -/
def slot7 (c : Dev nD) : sProp 𝕄 :=
  iprop(∃ f, (dstM7 : Memref sig .tc .vmem S2x64x8x64 .f32).view.loc (c : Thread nD τ) ↦[(dstM7 : Memref sig .tc .vmem S2x64x8x64 .f32).view.set]{fullShare} f)

/-- What the partner's barrier signal hands c: the partner's eight landing slots, and that the partner is at
    round 0 of its eight receive cells. -/
def barPay (c : Dev nD) : sProp 𝕄 :=
  iprop(slot0 (peer c) ∗ slot1 (peer c) ∗ slot2 (peer c) ∗ slot3 (peer c) ∗ slot4 (peer c) ∗ slot5 (peer c) ∗ slot6 (peer c) ∗ slot7 (peer c)
    ∗ reached ER (recvCell0 (peer c)) 0 ∗ reached ER (recvCell1 (peer c)) 0 ∗ reached ER (recvCell2 (peer c)) 0 ∗ reached ER (recvCell3 (peer c)) 0 ∗ reached ER (recvCell4 (peer c)) 0 ∗ reached ER (recvCell5 (peer c)) 0 ∗ reached ER (recvCell6 (peer c)) 0 ∗ reached ER (recvCell7 (peer c)) 0)

/-! ## The schedule -/

def mySems : List (SemLoc sig) :=
  [.reg barS, .dma sendS0.sem, .dma sendS1.sem, .dma sendS2.sem, .dma sendS3.sem, .dma sendS4.sem, .dma sendS5.sem, .dma sendS6.sem, .dma sendS7.sem, .dma recvS0.sem, .dma recvS1.sem, .dma recvS2.sem, .dma recvS3.sem, .dma recvS4.sem, .dma recvS5.sem, .dma recvS6.sem, .dma recvS7.sem]

abbrev IsMine (g : GSem nD τ sig) : Prop := g.1.2 = .tc ∧ g.2 ∈ mySems

def payloadOf (c : Dev nD) (s : SemLoc sig) : sProp 𝕄 :=
  if s = .reg barS then barPay c
  else if s = .dma sendS0.sem then sendPay0 m ρ c
  else if s = .dma sendS1.sem then sendPay1 m ρ c
  else if s = .dma sendS2.sem then sendPay2 m ρ c
  else if s = .dma sendS3.sem then sendPay3 m ρ c
  else if s = .dma sendS4.sem then sendPay4 m ρ c
  else if s = .dma sendS5.sem then sendPay5 m ρ c
  else if s = .dma sendS6.sem then sendPay6 m ρ c
  else if s = .dma sendS7.sem then sendPay7 m ρ c
  else if s = .dma recvS0.sem then recvPay0 m ρ c
  else if s = .dma recvS1.sem then recvPay1 m ρ c
  else if s = .dma recvS2.sem then recvPay2 m ρ c
  else if s = .dma recvS3.sem then recvPay3 m ρ c
  else if s = .dma recvS4.sem then recvPay4 m ρ c
  else if s = .dma recvS5.sem then recvPay5 m ρ c
  else if s = .dma recvS6.sem then recvPay6 m ρ c
  else if s = .dma recvS7.sem then recvPay7 m ρ c
  else iprop(emp)

/-- One round, round 0, one duty per cell: a barrier cell one unit, a send or receive cell one copy's credit. -/
def rd : Rounds.Schedule (GSem nD τ sig) Unit 𝕄 where
  duties g r := if r = 0 ∧ IsMine g then {()} else ∅
  unitless _ := False
  amount g _ _ := if g.2 = .reg barS then 1 else Ncr
  payload g _ _ := payloadOf m ρ g.1.1 g.2
  amount_pos g _ _ _ := by
    by_cases h : g.2 = .reg barS
    · rw [if_pos h]; exact Nat.one_pos
    · rw [if_neg h]; exact Ncr_pos

set_option synthInstance.maxHeartbeats 1000000 in
set_option maxHeartbeats 1000000 in
instance rd_payload_storable (g : GSem nD τ sig) (r : ℕ) (d : Unit) : BI.Storable (upEmb : UEmb _ 𝕄) ((rd (F := F) m ρ).payload g r d) := by
  show BI.Storable upEmb (payloadOf m ρ g.1.1 g.2)
  unfold payloadOf
  by_cases h0 : g.2 = .reg barS
  · rw [if_pos h0]; unfold barPay slot0 slot1 slot2 slot3 slot4 slot5 slot6 slot7; infer_instance
  rw [if_neg h0]
  by_cases hs0 : g.2 = .dma sendS0.sem
  · rw [if_pos hs0]; unfold sendPay0; infer_instance
  rw [if_neg hs0]
  by_cases hs1 : g.2 = .dma sendS1.sem
  · rw [if_pos hs1]; unfold sendPay1; infer_instance
  rw [if_neg hs1]
  by_cases hs2 : g.2 = .dma sendS2.sem
  · rw [if_pos hs2]; unfold sendPay2; infer_instance
  rw [if_neg hs2]
  by_cases hs3 : g.2 = .dma sendS3.sem
  · rw [if_pos hs3]; unfold sendPay3; infer_instance
  rw [if_neg hs3]
  by_cases hs4 : g.2 = .dma sendS4.sem
  · rw [if_pos hs4]; unfold sendPay4; infer_instance
  rw [if_neg hs4]
  by_cases hs5 : g.2 = .dma sendS5.sem
  · rw [if_pos hs5]; unfold sendPay5; infer_instance
  rw [if_neg hs5]
  by_cases hs6 : g.2 = .dma sendS6.sem
  · rw [if_pos hs6]; unfold sendPay6; infer_instance
  rw [if_neg hs6]
  by_cases hs7 : g.2 = .dma sendS7.sem
  · rw [if_pos hs7]; unfold sendPay7; infer_instance
  rw [if_neg hs7]
  by_cases hr0 : g.2 = .dma recvS0.sem
  · rw [if_pos hr0]; unfold recvPay0; infer_instance
  rw [if_neg hr0]
  by_cases hr1 : g.2 = .dma recvS1.sem
  · rw [if_pos hr1]; unfold recvPay1; infer_instance
  rw [if_neg hr1]
  by_cases hr2 : g.2 = .dma recvS2.sem
  · rw [if_pos hr2]; unfold recvPay2; infer_instance
  rw [if_neg hr2]
  by_cases hr3 : g.2 = .dma recvS3.sem
  · rw [if_pos hr3]; unfold recvPay3; infer_instance
  rw [if_neg hr3]
  by_cases hr4 : g.2 = .dma recvS4.sem
  · rw [if_pos hr4]; unfold recvPay4; infer_instance
  rw [if_neg hr4]
  by_cases hr5 : g.2 = .dma recvS5.sem
  · rw [if_pos hr5]; unfold recvPay5; infer_instance
  rw [if_neg hr5]
  by_cases hr6 : g.2 = .dma recvS6.sem
  · rw [if_pos hr6]; unfold recvPay6; infer_instance
  rw [if_neg hr6]
  by_cases hr7 : g.2 = .dma recvS7.sem
  · rw [if_pos hr7]; unfold recvPay7; infer_instance
  rw [if_neg hr7]
  infer_instance

section Sched
variable (c : Dev nD)

omit [FloatOps F] in
theorem duties_later (g : GSem nD τ sig) : ∀ r, 1 ≤ r → (rd (F := F) m ρ).duties g r = ∅ :=
  fun r hr => by dsimp only [rd]; exact if_neg fun h => by omega

omit [FloatOps F] in
theorem duties_bar : (rd (F := F) m ρ).duties (barCell c) 0 = {()} := by dsimp only [rd]; exact if_pos ⟨rfl, rfl, (show (.reg barS : SemLoc sig) ∈ mySems by decide)⟩
omit [FloatOps F] in
theorem amount_bar (u : Unit) : (rd (F := F) m ρ).amount (barCell c) 0 u = 1 := by dsimp only [rd]; exact if_pos rfl
omit [FloatOps F] in
theorem expect_bar : (rd (F := F) m ρ).expect (barCell c) 0 = 1 := by
  unfold Schedule.expect Schedule.amountOf; rw [duties_bar, Finset.sum_singleton, amount_bar]
omit [FloatOps F] in
theorem payload_bar (u : Unit) : (rd (F := F) m ρ).payload (barCell c) 0 u = barPay c := by
  show payloadOf m ρ c (.reg barS) = _
  unfold payloadOf
  exact if_pos rfl
omit [FloatOps F] in
theorem rest_bar : bigSep ((rd (F := F) m ρ).duties (barCell c) 0 \ ∅) (fun u => (rd (F := F) m ρ).payload (barCell c) 0 u) = barPay c := by
  rw [Finset.sdiff_empty, duties_bar, bigSep_singleton, payload_bar]

omit [FloatOps F] in
theorem duties_send0 : (rd (F := F) m ρ).duties (sendCell0 c) 0 = {()} := by dsimp only [rd]; exact if_pos ⟨rfl, rfl, (show (.dma sendS0.sem : SemLoc sig) ∈ mySems by decide)⟩
omit [FloatOps F] in
theorem amount_send0 (u : Unit) : (rd (F := F) m ρ).amount (sendCell0 c) 0 u = Ncr := by dsimp only [rd]; exact if_neg (show (.dma sendS0.sem : SemLoc sig) ≠ .reg barS by decide)
omit [FloatOps F] in
theorem expect_send0 : (rd (F := F) m ρ).expect (sendCell0 c) 0 = Ncr := by
  unfold Schedule.expect Schedule.amountOf; rw [duties_send0, Finset.sum_singleton, amount_send0]
omit [FloatOps F] in
theorem payload_send0 (u : Unit) : (rd (F := F) m ρ).payload (sendCell0 c) 0 u = sendPay0 m ρ c := by
  show payloadOf m ρ c (.dma sendS0.sem) = _
  unfold payloadOf
  rw [if_neg (show (.dma sendS0.sem : SemLoc sig) ≠ .reg barS by decide)]
  exact if_pos rfl
omit [FloatOps F] in
theorem rest_send0 : bigSep ((rd (F := F) m ρ).duties (sendCell0 c) 0 \ ∅) (fun u => (rd (F := F) m ρ).payload (sendCell0 c) 0 u) = sendPay0 m ρ c := by
  rw [Finset.sdiff_empty, duties_send0, bigSep_singleton, payload_send0]

omit [FloatOps F] in
theorem duties_send1 : (rd (F := F) m ρ).duties (sendCell1 c) 0 = {()} := by dsimp only [rd]; exact if_pos ⟨rfl, rfl, (show (.dma sendS1.sem : SemLoc sig) ∈ mySems by decide)⟩
omit [FloatOps F] in
theorem amount_send1 (u : Unit) : (rd (F := F) m ρ).amount (sendCell1 c) 0 u = Ncr := by dsimp only [rd]; exact if_neg (show (.dma sendS1.sem : SemLoc sig) ≠ .reg barS by decide)
omit [FloatOps F] in
theorem expect_send1 : (rd (F := F) m ρ).expect (sendCell1 c) 0 = Ncr := by
  unfold Schedule.expect Schedule.amountOf; rw [duties_send1, Finset.sum_singleton, amount_send1]
omit [FloatOps F] in
theorem payload_send1 (u : Unit) : (rd (F := F) m ρ).payload (sendCell1 c) 0 u = sendPay1 m ρ c := by
  show payloadOf m ρ c (.dma sendS1.sem) = _
  unfold payloadOf
  rw [if_neg (show (.dma sendS1.sem : SemLoc sig) ≠ .reg barS by decide),
    if_neg (show (.dma sendS1.sem : SemLoc sig) ≠ .dma sendS0.sem by decide)]
  exact if_pos rfl
omit [FloatOps F] in
theorem rest_send1 : bigSep ((rd (F := F) m ρ).duties (sendCell1 c) 0 \ ∅) (fun u => (rd (F := F) m ρ).payload (sendCell1 c) 0 u) = sendPay1 m ρ c := by
  rw [Finset.sdiff_empty, duties_send1, bigSep_singleton, payload_send1]

omit [FloatOps F] in
theorem duties_send2 : (rd (F := F) m ρ).duties (sendCell2 c) 0 = {()} := by dsimp only [rd]; exact if_pos ⟨rfl, rfl, (show (.dma sendS2.sem : SemLoc sig) ∈ mySems by decide)⟩
omit [FloatOps F] in
theorem amount_send2 (u : Unit) : (rd (F := F) m ρ).amount (sendCell2 c) 0 u = Ncr := by dsimp only [rd]; exact if_neg (show (.dma sendS2.sem : SemLoc sig) ≠ .reg barS by decide)
omit [FloatOps F] in
theorem expect_send2 : (rd (F := F) m ρ).expect (sendCell2 c) 0 = Ncr := by
  unfold Schedule.expect Schedule.amountOf; rw [duties_send2, Finset.sum_singleton, amount_send2]
omit [FloatOps F] in
theorem payload_send2 (u : Unit) : (rd (F := F) m ρ).payload (sendCell2 c) 0 u = sendPay2 m ρ c := by
  show payloadOf m ρ c (.dma sendS2.sem) = _
  unfold payloadOf
  rw [if_neg (show (.dma sendS2.sem : SemLoc sig) ≠ .reg barS by decide),
    if_neg (show (.dma sendS2.sem : SemLoc sig) ≠ .dma sendS0.sem by decide),
    if_neg (show (.dma sendS2.sem : SemLoc sig) ≠ .dma sendS1.sem by decide)]
  exact if_pos rfl
omit [FloatOps F] in
theorem rest_send2 : bigSep ((rd (F := F) m ρ).duties (sendCell2 c) 0 \ ∅) (fun u => (rd (F := F) m ρ).payload (sendCell2 c) 0 u) = sendPay2 m ρ c := by
  rw [Finset.sdiff_empty, duties_send2, bigSep_singleton, payload_send2]

omit [FloatOps F] in
theorem duties_send3 : (rd (F := F) m ρ).duties (sendCell3 c) 0 = {()} := by dsimp only [rd]; exact if_pos ⟨rfl, rfl, (show (.dma sendS3.sem : SemLoc sig) ∈ mySems by decide)⟩
omit [FloatOps F] in
theorem amount_send3 (u : Unit) : (rd (F := F) m ρ).amount (sendCell3 c) 0 u = Ncr := by dsimp only [rd]; exact if_neg (show (.dma sendS3.sem : SemLoc sig) ≠ .reg barS by decide)
omit [FloatOps F] in
theorem expect_send3 : (rd (F := F) m ρ).expect (sendCell3 c) 0 = Ncr := by
  unfold Schedule.expect Schedule.amountOf; rw [duties_send3, Finset.sum_singleton, amount_send3]
omit [FloatOps F] in
theorem payload_send3 (u : Unit) : (rd (F := F) m ρ).payload (sendCell3 c) 0 u = sendPay3 m ρ c := by
  show payloadOf m ρ c (.dma sendS3.sem) = _
  unfold payloadOf
  rw [if_neg (show (.dma sendS3.sem : SemLoc sig) ≠ .reg barS by decide),
    if_neg (show (.dma sendS3.sem : SemLoc sig) ≠ .dma sendS0.sem by decide),
    if_neg (show (.dma sendS3.sem : SemLoc sig) ≠ .dma sendS1.sem by decide),
    if_neg (show (.dma sendS3.sem : SemLoc sig) ≠ .dma sendS2.sem by decide)]
  exact if_pos rfl
omit [FloatOps F] in
theorem rest_send3 : bigSep ((rd (F := F) m ρ).duties (sendCell3 c) 0 \ ∅) (fun u => (rd (F := F) m ρ).payload (sendCell3 c) 0 u) = sendPay3 m ρ c := by
  rw [Finset.sdiff_empty, duties_send3, bigSep_singleton, payload_send3]

omit [FloatOps F] in
theorem duties_send4 : (rd (F := F) m ρ).duties (sendCell4 c) 0 = {()} := by dsimp only [rd]; exact if_pos ⟨rfl, rfl, (show (.dma sendS4.sem : SemLoc sig) ∈ mySems by decide)⟩
omit [FloatOps F] in
theorem amount_send4 (u : Unit) : (rd (F := F) m ρ).amount (sendCell4 c) 0 u = Ncr := by dsimp only [rd]; exact if_neg (show (.dma sendS4.sem : SemLoc sig) ≠ .reg barS by decide)
omit [FloatOps F] in
theorem expect_send4 : (rd (F := F) m ρ).expect (sendCell4 c) 0 = Ncr := by
  unfold Schedule.expect Schedule.amountOf; rw [duties_send4, Finset.sum_singleton, amount_send4]
omit [FloatOps F] in
theorem payload_send4 (u : Unit) : (rd (F := F) m ρ).payload (sendCell4 c) 0 u = sendPay4 m ρ c := by
  show payloadOf m ρ c (.dma sendS4.sem) = _
  unfold payloadOf
  rw [if_neg (show (.dma sendS4.sem : SemLoc sig) ≠ .reg barS by decide),
    if_neg (show (.dma sendS4.sem : SemLoc sig) ≠ .dma sendS0.sem by decide),
    if_neg (show (.dma sendS4.sem : SemLoc sig) ≠ .dma sendS1.sem by decide),
    if_neg (show (.dma sendS4.sem : SemLoc sig) ≠ .dma sendS2.sem by decide),
    if_neg (show (.dma sendS4.sem : SemLoc sig) ≠ .dma sendS3.sem by decide)]
  exact if_pos rfl
omit [FloatOps F] in
theorem rest_send4 : bigSep ((rd (F := F) m ρ).duties (sendCell4 c) 0 \ ∅) (fun u => (rd (F := F) m ρ).payload (sendCell4 c) 0 u) = sendPay4 m ρ c := by
  rw [Finset.sdiff_empty, duties_send4, bigSep_singleton, payload_send4]

omit [FloatOps F] in
theorem duties_send5 : (rd (F := F) m ρ).duties (sendCell5 c) 0 = {()} := by dsimp only [rd]; exact if_pos ⟨rfl, rfl, (show (.dma sendS5.sem : SemLoc sig) ∈ mySems by decide)⟩
omit [FloatOps F] in
theorem amount_send5 (u : Unit) : (rd (F := F) m ρ).amount (sendCell5 c) 0 u = Ncr := by dsimp only [rd]; exact if_neg (show (.dma sendS5.sem : SemLoc sig) ≠ .reg barS by decide)
omit [FloatOps F] in
theorem expect_send5 : (rd (F := F) m ρ).expect (sendCell5 c) 0 = Ncr := by
  unfold Schedule.expect Schedule.amountOf; rw [duties_send5, Finset.sum_singleton, amount_send5]
omit [FloatOps F] in
theorem payload_send5 (u : Unit) : (rd (F := F) m ρ).payload (sendCell5 c) 0 u = sendPay5 m ρ c := by
  show payloadOf m ρ c (.dma sendS5.sem) = _
  unfold payloadOf
  rw [if_neg (show (.dma sendS5.sem : SemLoc sig) ≠ .reg barS by decide),
    if_neg (show (.dma sendS5.sem : SemLoc sig) ≠ .dma sendS0.sem by decide),
    if_neg (show (.dma sendS5.sem : SemLoc sig) ≠ .dma sendS1.sem by decide),
    if_neg (show (.dma sendS5.sem : SemLoc sig) ≠ .dma sendS2.sem by decide),
    if_neg (show (.dma sendS5.sem : SemLoc sig) ≠ .dma sendS3.sem by decide),
    if_neg (show (.dma sendS5.sem : SemLoc sig) ≠ .dma sendS4.sem by decide)]
  exact if_pos rfl
omit [FloatOps F] in
theorem rest_send5 : bigSep ((rd (F := F) m ρ).duties (sendCell5 c) 0 \ ∅) (fun u => (rd (F := F) m ρ).payload (sendCell5 c) 0 u) = sendPay5 m ρ c := by
  rw [Finset.sdiff_empty, duties_send5, bigSep_singleton, payload_send5]

omit [FloatOps F] in
theorem duties_send6 : (rd (F := F) m ρ).duties (sendCell6 c) 0 = {()} := by dsimp only [rd]; exact if_pos ⟨rfl, rfl, (show (.dma sendS6.sem : SemLoc sig) ∈ mySems by decide)⟩
omit [FloatOps F] in
theorem amount_send6 (u : Unit) : (rd (F := F) m ρ).amount (sendCell6 c) 0 u = Ncr := by dsimp only [rd]; exact if_neg (show (.dma sendS6.sem : SemLoc sig) ≠ .reg barS by decide)
omit [FloatOps F] in
theorem expect_send6 : (rd (F := F) m ρ).expect (sendCell6 c) 0 = Ncr := by
  unfold Schedule.expect Schedule.amountOf; rw [duties_send6, Finset.sum_singleton, amount_send6]
omit [FloatOps F] in
theorem payload_send6 (u : Unit) : (rd (F := F) m ρ).payload (sendCell6 c) 0 u = sendPay6 m ρ c := by
  show payloadOf m ρ c (.dma sendS6.sem) = _
  unfold payloadOf
  rw [if_neg (show (.dma sendS6.sem : SemLoc sig) ≠ .reg barS by decide),
    if_neg (show (.dma sendS6.sem : SemLoc sig) ≠ .dma sendS0.sem by decide),
    if_neg (show (.dma sendS6.sem : SemLoc sig) ≠ .dma sendS1.sem by decide),
    if_neg (show (.dma sendS6.sem : SemLoc sig) ≠ .dma sendS2.sem by decide),
    if_neg (show (.dma sendS6.sem : SemLoc sig) ≠ .dma sendS3.sem by decide),
    if_neg (show (.dma sendS6.sem : SemLoc sig) ≠ .dma sendS4.sem by decide),
    if_neg (show (.dma sendS6.sem : SemLoc sig) ≠ .dma sendS5.sem by decide)]
  exact if_pos rfl
omit [FloatOps F] in
theorem rest_send6 : bigSep ((rd (F := F) m ρ).duties (sendCell6 c) 0 \ ∅) (fun u => (rd (F := F) m ρ).payload (sendCell6 c) 0 u) = sendPay6 m ρ c := by
  rw [Finset.sdiff_empty, duties_send6, bigSep_singleton, payload_send6]

omit [FloatOps F] in
theorem duties_send7 : (rd (F := F) m ρ).duties (sendCell7 c) 0 = {()} := by dsimp only [rd]; exact if_pos ⟨rfl, rfl, (show (.dma sendS7.sem : SemLoc sig) ∈ mySems by decide)⟩
omit [FloatOps F] in
theorem amount_send7 (u : Unit) : (rd (F := F) m ρ).amount (sendCell7 c) 0 u = Ncr := by dsimp only [rd]; exact if_neg (show (.dma sendS7.sem : SemLoc sig) ≠ .reg barS by decide)
omit [FloatOps F] in
theorem expect_send7 : (rd (F := F) m ρ).expect (sendCell7 c) 0 = Ncr := by
  unfold Schedule.expect Schedule.amountOf; rw [duties_send7, Finset.sum_singleton, amount_send7]
omit [FloatOps F] in
theorem payload_send7 (u : Unit) : (rd (F := F) m ρ).payload (sendCell7 c) 0 u = sendPay7 m ρ c := by
  show payloadOf m ρ c (.dma sendS7.sem) = _
  unfold payloadOf
  rw [if_neg (show (.dma sendS7.sem : SemLoc sig) ≠ .reg barS by decide),
    if_neg (show (.dma sendS7.sem : SemLoc sig) ≠ .dma sendS0.sem by decide),
    if_neg (show (.dma sendS7.sem : SemLoc sig) ≠ .dma sendS1.sem by decide),
    if_neg (show (.dma sendS7.sem : SemLoc sig) ≠ .dma sendS2.sem by decide),
    if_neg (show (.dma sendS7.sem : SemLoc sig) ≠ .dma sendS3.sem by decide),
    if_neg (show (.dma sendS7.sem : SemLoc sig) ≠ .dma sendS4.sem by decide),
    if_neg (show (.dma sendS7.sem : SemLoc sig) ≠ .dma sendS5.sem by decide),
    if_neg (show (.dma sendS7.sem : SemLoc sig) ≠ .dma sendS6.sem by decide)]
  exact if_pos rfl
omit [FloatOps F] in
theorem rest_send7 : bigSep ((rd (F := F) m ρ).duties (sendCell7 c) 0 \ ∅) (fun u => (rd (F := F) m ρ).payload (sendCell7 c) 0 u) = sendPay7 m ρ c := by
  rw [Finset.sdiff_empty, duties_send7, bigSep_singleton, payload_send7]

omit [FloatOps F] in
theorem duties_recv0 : (rd (F := F) m ρ).duties (recvCell0 c) 0 = {()} := by dsimp only [rd]; exact if_pos ⟨rfl, rfl, (show (.dma recvS0.sem : SemLoc sig) ∈ mySems by decide)⟩
omit [FloatOps F] in
theorem amount_recv0 (u : Unit) : (rd (F := F) m ρ).amount (recvCell0 c) 0 u = Ncr := by dsimp only [rd]; exact if_neg (show (.dma recvS0.sem : SemLoc sig) ≠ .reg barS by decide)
omit [FloatOps F] in
theorem expect_recv0 : (rd (F := F) m ρ).expect (recvCell0 c) 0 = Ncr := by
  unfold Schedule.expect Schedule.amountOf; rw [duties_recv0, Finset.sum_singleton, amount_recv0]
omit [FloatOps F] in
theorem payload_recv0 (u : Unit) : (rd (F := F) m ρ).payload (recvCell0 c) 0 u = recvPay0 m ρ c := by
  show payloadOf m ρ c (.dma recvS0.sem) = _
  unfold payloadOf
  rw [if_neg (show (.dma recvS0.sem : SemLoc sig) ≠ .reg barS by decide),
    if_neg (show (.dma recvS0.sem : SemLoc sig) ≠ .dma sendS0.sem by decide),
    if_neg (show (.dma recvS0.sem : SemLoc sig) ≠ .dma sendS1.sem by decide),
    if_neg (show (.dma recvS0.sem : SemLoc sig) ≠ .dma sendS2.sem by decide),
    if_neg (show (.dma recvS0.sem : SemLoc sig) ≠ .dma sendS3.sem by decide),
    if_neg (show (.dma recvS0.sem : SemLoc sig) ≠ .dma sendS4.sem by decide),
    if_neg (show (.dma recvS0.sem : SemLoc sig) ≠ .dma sendS5.sem by decide),
    if_neg (show (.dma recvS0.sem : SemLoc sig) ≠ .dma sendS6.sem by decide),
    if_neg (show (.dma recvS0.sem : SemLoc sig) ≠ .dma sendS7.sem by decide)]
  exact if_pos rfl
omit [FloatOps F] in
theorem rest_recv0 : bigSep ((rd (F := F) m ρ).duties (recvCell0 c) 0 \ ∅) (fun u => (rd (F := F) m ρ).payload (recvCell0 c) 0 u) = recvPay0 m ρ c := by
  rw [Finset.sdiff_empty, duties_recv0, bigSep_singleton, payload_recv0]

omit [FloatOps F] in
theorem duties_recv1 : (rd (F := F) m ρ).duties (recvCell1 c) 0 = {()} := by dsimp only [rd]; exact if_pos ⟨rfl, rfl, (show (.dma recvS1.sem : SemLoc sig) ∈ mySems by decide)⟩
omit [FloatOps F] in
theorem amount_recv1 (u : Unit) : (rd (F := F) m ρ).amount (recvCell1 c) 0 u = Ncr := by dsimp only [rd]; exact if_neg (show (.dma recvS1.sem : SemLoc sig) ≠ .reg barS by decide)
omit [FloatOps F] in
theorem expect_recv1 : (rd (F := F) m ρ).expect (recvCell1 c) 0 = Ncr := by
  unfold Schedule.expect Schedule.amountOf; rw [duties_recv1, Finset.sum_singleton, amount_recv1]
omit [FloatOps F] in
theorem payload_recv1 (u : Unit) : (rd (F := F) m ρ).payload (recvCell1 c) 0 u = recvPay1 m ρ c := by
  show payloadOf m ρ c (.dma recvS1.sem) = _
  unfold payloadOf
  rw [if_neg (show (.dma recvS1.sem : SemLoc sig) ≠ .reg barS by decide),
    if_neg (show (.dma recvS1.sem : SemLoc sig) ≠ .dma sendS0.sem by decide),
    if_neg (show (.dma recvS1.sem : SemLoc sig) ≠ .dma sendS1.sem by decide),
    if_neg (show (.dma recvS1.sem : SemLoc sig) ≠ .dma sendS2.sem by decide),
    if_neg (show (.dma recvS1.sem : SemLoc sig) ≠ .dma sendS3.sem by decide),
    if_neg (show (.dma recvS1.sem : SemLoc sig) ≠ .dma sendS4.sem by decide),
    if_neg (show (.dma recvS1.sem : SemLoc sig) ≠ .dma sendS5.sem by decide),
    if_neg (show (.dma recvS1.sem : SemLoc sig) ≠ .dma sendS6.sem by decide),
    if_neg (show (.dma recvS1.sem : SemLoc sig) ≠ .dma sendS7.sem by decide),
    if_neg (show (.dma recvS1.sem : SemLoc sig) ≠ .dma recvS0.sem by decide)]
  exact if_pos rfl
omit [FloatOps F] in
theorem rest_recv1 : bigSep ((rd (F := F) m ρ).duties (recvCell1 c) 0 \ ∅) (fun u => (rd (F := F) m ρ).payload (recvCell1 c) 0 u) = recvPay1 m ρ c := by
  rw [Finset.sdiff_empty, duties_recv1, bigSep_singleton, payload_recv1]

omit [FloatOps F] in
theorem duties_recv2 : (rd (F := F) m ρ).duties (recvCell2 c) 0 = {()} := by dsimp only [rd]; exact if_pos ⟨rfl, rfl, (show (.dma recvS2.sem : SemLoc sig) ∈ mySems by decide)⟩
omit [FloatOps F] in
theorem amount_recv2 (u : Unit) : (rd (F := F) m ρ).amount (recvCell2 c) 0 u = Ncr := by dsimp only [rd]; exact if_neg (show (.dma recvS2.sem : SemLoc sig) ≠ .reg barS by decide)
omit [FloatOps F] in
theorem expect_recv2 : (rd (F := F) m ρ).expect (recvCell2 c) 0 = Ncr := by
  unfold Schedule.expect Schedule.amountOf; rw [duties_recv2, Finset.sum_singleton, amount_recv2]
omit [FloatOps F] in
theorem payload_recv2 (u : Unit) : (rd (F := F) m ρ).payload (recvCell2 c) 0 u = recvPay2 m ρ c := by
  show payloadOf m ρ c (.dma recvS2.sem) = _
  unfold payloadOf
  rw [if_neg (show (.dma recvS2.sem : SemLoc sig) ≠ .reg barS by decide),
    if_neg (show (.dma recvS2.sem : SemLoc sig) ≠ .dma sendS0.sem by decide),
    if_neg (show (.dma recvS2.sem : SemLoc sig) ≠ .dma sendS1.sem by decide),
    if_neg (show (.dma recvS2.sem : SemLoc sig) ≠ .dma sendS2.sem by decide),
    if_neg (show (.dma recvS2.sem : SemLoc sig) ≠ .dma sendS3.sem by decide),
    if_neg (show (.dma recvS2.sem : SemLoc sig) ≠ .dma sendS4.sem by decide),
    if_neg (show (.dma recvS2.sem : SemLoc sig) ≠ .dma sendS5.sem by decide),
    if_neg (show (.dma recvS2.sem : SemLoc sig) ≠ .dma sendS6.sem by decide),
    if_neg (show (.dma recvS2.sem : SemLoc sig) ≠ .dma sendS7.sem by decide),
    if_neg (show (.dma recvS2.sem : SemLoc sig) ≠ .dma recvS0.sem by decide),
    if_neg (show (.dma recvS2.sem : SemLoc sig) ≠ .dma recvS1.sem by decide)]
  exact if_pos rfl
omit [FloatOps F] in
theorem rest_recv2 : bigSep ((rd (F := F) m ρ).duties (recvCell2 c) 0 \ ∅) (fun u => (rd (F := F) m ρ).payload (recvCell2 c) 0 u) = recvPay2 m ρ c := by
  rw [Finset.sdiff_empty, duties_recv2, bigSep_singleton, payload_recv2]

omit [FloatOps F] in
theorem duties_recv3 : (rd (F := F) m ρ).duties (recvCell3 c) 0 = {()} := by dsimp only [rd]; exact if_pos ⟨rfl, rfl, (show (.dma recvS3.sem : SemLoc sig) ∈ mySems by decide)⟩
omit [FloatOps F] in
theorem amount_recv3 (u : Unit) : (rd (F := F) m ρ).amount (recvCell3 c) 0 u = Ncr := by dsimp only [rd]; exact if_neg (show (.dma recvS3.sem : SemLoc sig) ≠ .reg barS by decide)
omit [FloatOps F] in
theorem expect_recv3 : (rd (F := F) m ρ).expect (recvCell3 c) 0 = Ncr := by
  unfold Schedule.expect Schedule.amountOf; rw [duties_recv3, Finset.sum_singleton, amount_recv3]
omit [FloatOps F] in
theorem payload_recv3 (u : Unit) : (rd (F := F) m ρ).payload (recvCell3 c) 0 u = recvPay3 m ρ c := by
  show payloadOf m ρ c (.dma recvS3.sem) = _
  unfold payloadOf
  rw [if_neg (show (.dma recvS3.sem : SemLoc sig) ≠ .reg barS by decide),
    if_neg (show (.dma recvS3.sem : SemLoc sig) ≠ .dma sendS0.sem by decide),
    if_neg (show (.dma recvS3.sem : SemLoc sig) ≠ .dma sendS1.sem by decide),
    if_neg (show (.dma recvS3.sem : SemLoc sig) ≠ .dma sendS2.sem by decide),
    if_neg (show (.dma recvS3.sem : SemLoc sig) ≠ .dma sendS3.sem by decide),
    if_neg (show (.dma recvS3.sem : SemLoc sig) ≠ .dma sendS4.sem by decide),
    if_neg (show (.dma recvS3.sem : SemLoc sig) ≠ .dma sendS5.sem by decide),
    if_neg (show (.dma recvS3.sem : SemLoc sig) ≠ .dma sendS6.sem by decide),
    if_neg (show (.dma recvS3.sem : SemLoc sig) ≠ .dma sendS7.sem by decide),
    if_neg (show (.dma recvS3.sem : SemLoc sig) ≠ .dma recvS0.sem by decide),
    if_neg (show (.dma recvS3.sem : SemLoc sig) ≠ .dma recvS1.sem by decide),
    if_neg (show (.dma recvS3.sem : SemLoc sig) ≠ .dma recvS2.sem by decide)]
  exact if_pos rfl
omit [FloatOps F] in
theorem rest_recv3 : bigSep ((rd (F := F) m ρ).duties (recvCell3 c) 0 \ ∅) (fun u => (rd (F := F) m ρ).payload (recvCell3 c) 0 u) = recvPay3 m ρ c := by
  rw [Finset.sdiff_empty, duties_recv3, bigSep_singleton, payload_recv3]

omit [FloatOps F] in
theorem duties_recv4 : (rd (F := F) m ρ).duties (recvCell4 c) 0 = {()} := by dsimp only [rd]; exact if_pos ⟨rfl, rfl, (show (.dma recvS4.sem : SemLoc sig) ∈ mySems by decide)⟩
omit [FloatOps F] in
theorem amount_recv4 (u : Unit) : (rd (F := F) m ρ).amount (recvCell4 c) 0 u = Ncr := by dsimp only [rd]; exact if_neg (show (.dma recvS4.sem : SemLoc sig) ≠ .reg barS by decide)
omit [FloatOps F] in
theorem expect_recv4 : (rd (F := F) m ρ).expect (recvCell4 c) 0 = Ncr := by
  unfold Schedule.expect Schedule.amountOf; rw [duties_recv4, Finset.sum_singleton, amount_recv4]
omit [FloatOps F] in
theorem payload_recv4 (u : Unit) : (rd (F := F) m ρ).payload (recvCell4 c) 0 u = recvPay4 m ρ c := by
  show payloadOf m ρ c (.dma recvS4.sem) = _
  unfold payloadOf
  rw [if_neg (show (.dma recvS4.sem : SemLoc sig) ≠ .reg barS by decide),
    if_neg (show (.dma recvS4.sem : SemLoc sig) ≠ .dma sendS0.sem by decide),
    if_neg (show (.dma recvS4.sem : SemLoc sig) ≠ .dma sendS1.sem by decide),
    if_neg (show (.dma recvS4.sem : SemLoc sig) ≠ .dma sendS2.sem by decide),
    if_neg (show (.dma recvS4.sem : SemLoc sig) ≠ .dma sendS3.sem by decide),
    if_neg (show (.dma recvS4.sem : SemLoc sig) ≠ .dma sendS4.sem by decide),
    if_neg (show (.dma recvS4.sem : SemLoc sig) ≠ .dma sendS5.sem by decide),
    if_neg (show (.dma recvS4.sem : SemLoc sig) ≠ .dma sendS6.sem by decide),
    if_neg (show (.dma recvS4.sem : SemLoc sig) ≠ .dma sendS7.sem by decide),
    if_neg (show (.dma recvS4.sem : SemLoc sig) ≠ .dma recvS0.sem by decide),
    if_neg (show (.dma recvS4.sem : SemLoc sig) ≠ .dma recvS1.sem by decide),
    if_neg (show (.dma recvS4.sem : SemLoc sig) ≠ .dma recvS2.sem by decide),
    if_neg (show (.dma recvS4.sem : SemLoc sig) ≠ .dma recvS3.sem by decide)]
  exact if_pos rfl
omit [FloatOps F] in
theorem rest_recv4 : bigSep ((rd (F := F) m ρ).duties (recvCell4 c) 0 \ ∅) (fun u => (rd (F := F) m ρ).payload (recvCell4 c) 0 u) = recvPay4 m ρ c := by
  rw [Finset.sdiff_empty, duties_recv4, bigSep_singleton, payload_recv4]

omit [FloatOps F] in
theorem duties_recv5 : (rd (F := F) m ρ).duties (recvCell5 c) 0 = {()} := by dsimp only [rd]; exact if_pos ⟨rfl, rfl, (show (.dma recvS5.sem : SemLoc sig) ∈ mySems by decide)⟩
omit [FloatOps F] in
theorem amount_recv5 (u : Unit) : (rd (F := F) m ρ).amount (recvCell5 c) 0 u = Ncr := by dsimp only [rd]; exact if_neg (show (.dma recvS5.sem : SemLoc sig) ≠ .reg barS by decide)
omit [FloatOps F] in
theorem expect_recv5 : (rd (F := F) m ρ).expect (recvCell5 c) 0 = Ncr := by
  unfold Schedule.expect Schedule.amountOf; rw [duties_recv5, Finset.sum_singleton, amount_recv5]
omit [FloatOps F] in
theorem payload_recv5 (u : Unit) : (rd (F := F) m ρ).payload (recvCell5 c) 0 u = recvPay5 m ρ c := by
  show payloadOf m ρ c (.dma recvS5.sem) = _
  unfold payloadOf
  rw [if_neg (show (.dma recvS5.sem : SemLoc sig) ≠ .reg barS by decide),
    if_neg (show (.dma recvS5.sem : SemLoc sig) ≠ .dma sendS0.sem by decide),
    if_neg (show (.dma recvS5.sem : SemLoc sig) ≠ .dma sendS1.sem by decide),
    if_neg (show (.dma recvS5.sem : SemLoc sig) ≠ .dma sendS2.sem by decide),
    if_neg (show (.dma recvS5.sem : SemLoc sig) ≠ .dma sendS3.sem by decide),
    if_neg (show (.dma recvS5.sem : SemLoc sig) ≠ .dma sendS4.sem by decide),
    if_neg (show (.dma recvS5.sem : SemLoc sig) ≠ .dma sendS5.sem by decide),
    if_neg (show (.dma recvS5.sem : SemLoc sig) ≠ .dma sendS6.sem by decide),
    if_neg (show (.dma recvS5.sem : SemLoc sig) ≠ .dma sendS7.sem by decide),
    if_neg (show (.dma recvS5.sem : SemLoc sig) ≠ .dma recvS0.sem by decide),
    if_neg (show (.dma recvS5.sem : SemLoc sig) ≠ .dma recvS1.sem by decide),
    if_neg (show (.dma recvS5.sem : SemLoc sig) ≠ .dma recvS2.sem by decide),
    if_neg (show (.dma recvS5.sem : SemLoc sig) ≠ .dma recvS3.sem by decide),
    if_neg (show (.dma recvS5.sem : SemLoc sig) ≠ .dma recvS4.sem by decide)]
  exact if_pos rfl
omit [FloatOps F] in
theorem rest_recv5 : bigSep ((rd (F := F) m ρ).duties (recvCell5 c) 0 \ ∅) (fun u => (rd (F := F) m ρ).payload (recvCell5 c) 0 u) = recvPay5 m ρ c := by
  rw [Finset.sdiff_empty, duties_recv5, bigSep_singleton, payload_recv5]

omit [FloatOps F] in
theorem duties_recv6 : (rd (F := F) m ρ).duties (recvCell6 c) 0 = {()} := by dsimp only [rd]; exact if_pos ⟨rfl, rfl, (show (.dma recvS6.sem : SemLoc sig) ∈ mySems by decide)⟩
omit [FloatOps F] in
theorem amount_recv6 (u : Unit) : (rd (F := F) m ρ).amount (recvCell6 c) 0 u = Ncr := by dsimp only [rd]; exact if_neg (show (.dma recvS6.sem : SemLoc sig) ≠ .reg barS by decide)
omit [FloatOps F] in
theorem expect_recv6 : (rd (F := F) m ρ).expect (recvCell6 c) 0 = Ncr := by
  unfold Schedule.expect Schedule.amountOf; rw [duties_recv6, Finset.sum_singleton, amount_recv6]
omit [FloatOps F] in
theorem payload_recv6 (u : Unit) : (rd (F := F) m ρ).payload (recvCell6 c) 0 u = recvPay6 m ρ c := by
  show payloadOf m ρ c (.dma recvS6.sem) = _
  unfold payloadOf
  rw [if_neg (show (.dma recvS6.sem : SemLoc sig) ≠ .reg barS by decide),
    if_neg (show (.dma recvS6.sem : SemLoc sig) ≠ .dma sendS0.sem by decide),
    if_neg (show (.dma recvS6.sem : SemLoc sig) ≠ .dma sendS1.sem by decide),
    if_neg (show (.dma recvS6.sem : SemLoc sig) ≠ .dma sendS2.sem by decide),
    if_neg (show (.dma recvS6.sem : SemLoc sig) ≠ .dma sendS3.sem by decide),
    if_neg (show (.dma recvS6.sem : SemLoc sig) ≠ .dma sendS4.sem by decide),
    if_neg (show (.dma recvS6.sem : SemLoc sig) ≠ .dma sendS5.sem by decide),
    if_neg (show (.dma recvS6.sem : SemLoc sig) ≠ .dma sendS6.sem by decide),
    if_neg (show (.dma recvS6.sem : SemLoc sig) ≠ .dma sendS7.sem by decide),
    if_neg (show (.dma recvS6.sem : SemLoc sig) ≠ .dma recvS0.sem by decide),
    if_neg (show (.dma recvS6.sem : SemLoc sig) ≠ .dma recvS1.sem by decide),
    if_neg (show (.dma recvS6.sem : SemLoc sig) ≠ .dma recvS2.sem by decide),
    if_neg (show (.dma recvS6.sem : SemLoc sig) ≠ .dma recvS3.sem by decide),
    if_neg (show (.dma recvS6.sem : SemLoc sig) ≠ .dma recvS4.sem by decide),
    if_neg (show (.dma recvS6.sem : SemLoc sig) ≠ .dma recvS5.sem by decide)]
  exact if_pos rfl
omit [FloatOps F] in
theorem rest_recv6 : bigSep ((rd (F := F) m ρ).duties (recvCell6 c) 0 \ ∅) (fun u => (rd (F := F) m ρ).payload (recvCell6 c) 0 u) = recvPay6 m ρ c := by
  rw [Finset.sdiff_empty, duties_recv6, bigSep_singleton, payload_recv6]

omit [FloatOps F] in
theorem duties_recv7 : (rd (F := F) m ρ).duties (recvCell7 c) 0 = {()} := by dsimp only [rd]; exact if_pos ⟨rfl, rfl, (show (.dma recvS7.sem : SemLoc sig) ∈ mySems by decide)⟩
omit [FloatOps F] in
theorem amount_recv7 (u : Unit) : (rd (F := F) m ρ).amount (recvCell7 c) 0 u = Ncr := by dsimp only [rd]; exact if_neg (show (.dma recvS7.sem : SemLoc sig) ≠ .reg barS by decide)
omit [FloatOps F] in
theorem expect_recv7 : (rd (F := F) m ρ).expect (recvCell7 c) 0 = Ncr := by
  unfold Schedule.expect Schedule.amountOf; rw [duties_recv7, Finset.sum_singleton, amount_recv7]
omit [FloatOps F] in
theorem payload_recv7 (u : Unit) : (rd (F := F) m ρ).payload (recvCell7 c) 0 u = recvPay7 m ρ c := by
  show payloadOf m ρ c (.dma recvS7.sem) = _
  unfold payloadOf
  rw [if_neg (show (.dma recvS7.sem : SemLoc sig) ≠ .reg barS by decide),
    if_neg (show (.dma recvS7.sem : SemLoc sig) ≠ .dma sendS0.sem by decide),
    if_neg (show (.dma recvS7.sem : SemLoc sig) ≠ .dma sendS1.sem by decide),
    if_neg (show (.dma recvS7.sem : SemLoc sig) ≠ .dma sendS2.sem by decide),
    if_neg (show (.dma recvS7.sem : SemLoc sig) ≠ .dma sendS3.sem by decide),
    if_neg (show (.dma recvS7.sem : SemLoc sig) ≠ .dma sendS4.sem by decide),
    if_neg (show (.dma recvS7.sem : SemLoc sig) ≠ .dma sendS5.sem by decide),
    if_neg (show (.dma recvS7.sem : SemLoc sig) ≠ .dma sendS6.sem by decide),
    if_neg (show (.dma recvS7.sem : SemLoc sig) ≠ .dma sendS7.sem by decide),
    if_neg (show (.dma recvS7.sem : SemLoc sig) ≠ .dma recvS0.sem by decide),
    if_neg (show (.dma recvS7.sem : SemLoc sig) ≠ .dma recvS1.sem by decide),
    if_neg (show (.dma recvS7.sem : SemLoc sig) ≠ .dma recvS2.sem by decide),
    if_neg (show (.dma recvS7.sem : SemLoc sig) ≠ .dma recvS3.sem by decide),
    if_neg (show (.dma recvS7.sem : SemLoc sig) ≠ .dma recvS4.sem by decide),
    if_neg (show (.dma recvS7.sem : SemLoc sig) ≠ .dma recvS5.sem by decide),
    if_neg (show (.dma recvS7.sem : SemLoc sig) ≠ .dma recvS6.sem by decide)]
  exact if_pos rfl
omit [FloatOps F] in
theorem rest_recv7 : bigSep ((rd (F := F) m ρ).duties (recvCell7 c) 0 \ ∅) (fun u => (rd (F := F) m ρ).payload (recvCell7 c) 0 u) = recvPay7 m ρ c := by
  rw [Finset.sdiff_empty, duties_recv7, bigSep_singleton, payload_recv7]

end Sched

/-! ## What a device owes at launch; the levels -/

def recvSems : List (SemLoc sig) := [.dma recvS0.sem, .dma recvS1.sem, .dma recvS2.sem, .dma recvS3.sem, .dma recvS4.sem, .dma recvS5.sem, .dma recvS6.sem, .dma recvS7.sem]

/-- After its barrier signal a device still owes its partner the eight copies' receive credits, summed so that copy 0
    peels the last summand. -/
def O₁ (c : Dev nD) : CellTallies nD τ sig Unit :=
  0 + tallyAt (recvCell7 (peer c)) () Ncr + tallyAt (recvCell6 (peer c)) () Ncr + tallyAt (recvCell5 (peer c)) () Ncr + tallyAt (recvCell4 (peer c)) () Ncr + tallyAt (recvCell3 (peer c)) () Ncr + tallyAt (recvCell2 (peer c)) () Ncr + tallyAt (recvCell1 (peer c)) () Ncr + tallyAt (recvCell0 (peer c)) () Ncr
/-- At launch it also owes the partner's barrier cell one unit: the first thing it pays. -/
def O₀ (c : Dev nD) : CellTallies nD τ sig Unit := O₁ c + tallyAt (barCell (peer c)) () 1

def L (g : GSem nD τ sig) : Finset Unit := if g.1.2 = .tc then {()} else ∅
/-- Barrier cells at 1, receive cells at 2, everything else (staging, send) at 0: a device waits on its barrier cell
    while it owes receive credits, and on nothing else while it owes anything but staging waits at level 0. -/
def lv (g : GSem nD τ sig) (_ : Unit) : ℕ := if g.2 = .reg barS then 1 else if g.2 ∈ recvSems then 2 else 0

theorem L_of_ne (g : GSem nD τ sig) (h : g.1.2 ≠ .tc) : L g = ∅ := if_neg h
theorem L_tc (c : Dev nD) (sm : SemLoc sig) : L ((c : Thread nD τ), sm) = {()} := if_pos rfl

theorem zero_tally (g : GSem nD τ sig) (u : Unit) : ¬ 0 < (0 : CellTallies nD τ sig Unit) g u := by
  rw [Pi.zero_apply, Finsupp.zero_apply]; exact Nat.lt_irrefl 0

theorem O₁_pos {c : Dev nD} {g : GSem nD τ sig} {u : Unit} (h : 0 < O₁ c g u) : g.1.2 = .tc ∧ g.2 ∈ recvSems := by
  unfold O₁ at h
  rcases Pipeline.add_pos_cases h with h | h
  rotate_left
  · obtain ⟨rfl, -⟩ := Pipeline.tallyAt_pos h; exact ⟨rfl, (show (.dma recvS0.sem : SemLoc sig) ∈ recvSems by decide)⟩
  rcases Pipeline.add_pos_cases h with h | h
  rotate_left
  · obtain ⟨rfl, -⟩ := Pipeline.tallyAt_pos h; exact ⟨rfl, (show (.dma recvS1.sem : SemLoc sig) ∈ recvSems by decide)⟩
  rcases Pipeline.add_pos_cases h with h | h
  rotate_left
  · obtain ⟨rfl, -⟩ := Pipeline.tallyAt_pos h; exact ⟨rfl, (show (.dma recvS2.sem : SemLoc sig) ∈ recvSems by decide)⟩
  rcases Pipeline.add_pos_cases h with h | h
  rotate_left
  · obtain ⟨rfl, -⟩ := Pipeline.tallyAt_pos h; exact ⟨rfl, (show (.dma recvS3.sem : SemLoc sig) ∈ recvSems by decide)⟩
  rcases Pipeline.add_pos_cases h with h | h
  rotate_left
  · obtain ⟨rfl, -⟩ := Pipeline.tallyAt_pos h; exact ⟨rfl, (show (.dma recvS4.sem : SemLoc sig) ∈ recvSems by decide)⟩
  rcases Pipeline.add_pos_cases h with h | h
  rotate_left
  · obtain ⟨rfl, -⟩ := Pipeline.tallyAt_pos h; exact ⟨rfl, (show (.dma recvS5.sem : SemLoc sig) ∈ recvSems by decide)⟩
  rcases Pipeline.add_pos_cases h with h | h
  rotate_left
  · obtain ⟨rfl, -⟩ := Pipeline.tallyAt_pos h; exact ⟨rfl, (show (.dma recvS6.sem : SemLoc sig) ∈ recvSems by decide)⟩
  rcases Pipeline.add_pos_cases h with h | h
  rotate_left
  · obtain ⟨rfl, -⟩ := Pipeline.tallyAt_pos h; exact ⟨rfl, (show (.dma recvS7.sem : SemLoc sig) ∈ recvSems by decide)⟩
  exact absurd h (zero_tally g u)

theorem O₀_pos {c : Dev nD} {g : GSem nD τ sig} {u : Unit} (h : 0 < O₀ c g u) : g.1.2 = .tc ∧ (g.2 ∈ recvSems ∨ g.2 = .reg barS) := by
  unfold O₀ at h
  rcases Pipeline.add_pos_cases h with h | h
  · exact ⟨(O₁_pos h).1, .inl (O₁_pos h).2⟩
  · obtain ⟨rfl, -⟩ := Pipeline.tallyAt_pos h; exact ⟨rfl, .inr rfl⟩

theorem recv_ne_bar {s : SemLoc sig} (h : s ∈ recvSems) : s ≠ .reg barS := fun e => by rw [e] at h; exact absurd h (by decide)

omit [FloatOps F] in
/-- At its barrier wait a device owes receive credits only: receive cells, above its barrier cell. -/
theorem mayWait_bar (c : Dev nD) : (levAts L lv : sProp 𝕄) ⊢ MayWait (c : Thread nD τ) (.reg barS) () (O₁ c) :=
  Pipeline.mayWait_of_levAts (by rw [L_tc]; exact Finset.mem_singleton_self _) fun g i h => by
    obtain ⟨h1, h2⟩ := O₁_pos h
    refine ⟨by unfold L; rw [if_pos h1]; exact Finset.mem_singleton_self _, ?_⟩
    dsimp only [lv]; rw [if_pos rfl, if_neg (recv_ne_bar h2), if_pos h2]; decide

omit [FloatOps F] in
/-- The staging pipeline's waits (on the windows' DMA semaphores, none a receive semaphore) sit below everything owed. -/
theorem mayWait_stage (c : Dev nD) (q : DmaSem sig) (hq : SemLoc.dma q ∉ recvSems) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g i h => ?_
    obtain ⟨h1, h2⟩ := O₀_pos h
    refine ⟨by unfold L; rw [if_pos h1]; exact Finset.mem_singleton_self _, ?_⟩
    dsimp only [lv]; rw [if_neg (fun e => by cases e), if_neg hq]
    rcases h2 with h2 | h2
    · rw [if_neg (recv_ne_bar h2), if_pos h2]; decide
    · rw [if_pos h2]; decide
  · rw [MayWait_zero]; iintro -; iempintro

end Cert.Kernel.Hand

end
-- ==== Proof.BitsSends.lean ====
/-
  The eight copies, one rule each: copy i lends rows ⌊i/2⌋ of the issuer's K (i even) or V (i odd) buffer at half the
  share, overwrites the same rows of the partner's landing buffer, and what lands there is, row for row, what the
  issuer's buffer holds: source and destination are the same rows of two buffers of one shape.
-/
import proofs.«900412_g7700000000000413_dist_agattn_v7x_xyz2x2x2_z_b2_s256_h8_d64_f32_1_alg».proof.Proof.BitsProtocol
import Idealize.ShloMosaic.Lib.Pipeline.Value

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

omit [FloatOps F] in
/-- On the rows copy 0 writes, the landing buffer ends holding the source buffer's entries. -/
theorem landed_eq0 (c' : Dev nD) (fd : Buf (Elt F) ((dstM0 : Memref sig .tc .vmem S2x64x8x64 .f32).view.loc (c' : Thread nD τ))) (fs : (cc0_stg1_0 : Ref sig .tc).ty.Contents (Elt F)) :
    ∀ j ∈ (dstM0 : Memref sig .tc .vmem S2x64x8x64 .f32).view.set, (dstM0 : Memref sig .tc .vmem S2x64x8x64 .f32).view.write (Elt F) fd ((srcM0 : Memref sig .tc .vmem S2x64x8x64 .f32).view.read (Elt F) fs) Finset.univ j = fs j := by
  intro j hj
  obtain ⟨y, rfl⟩ := View.exists_emb_of_mem_set _ hj
  rw [View.write_emb_of_mem _ _ (Finset.mem_univ y)]
  rfl

omit [FloatOps F] in
/-- On the rows copy 1 writes, the landing buffer ends holding the source buffer's entries. -/
theorem landed_eq1 (c' : Dev nD) (fd : Buf (Elt F) ((dstM1 : Memref sig .tc .vmem S2x64x8x64 .f32).view.loc (c' : Thread nD τ))) (fs : (cc0_stg2_0 : Ref sig .tc).ty.Contents (Elt F)) :
    ∀ j ∈ (dstM1 : Memref sig .tc .vmem S2x64x8x64 .f32).view.set, (dstM1 : Memref sig .tc .vmem S2x64x8x64 .f32).view.write (Elt F) fd ((srcM1 : Memref sig .tc .vmem S2x64x8x64 .f32).view.read (Elt F) fs) Finset.univ j = fs j := by
  intro j hj
  obtain ⟨y, rfl⟩ := View.exists_emb_of_mem_set _ hj
  rw [View.write_emb_of_mem _ _ (Finset.mem_univ y)]
  rfl

omit [FloatOps F] in
/-- On the rows copy 2 writes, the landing buffer ends holding the source buffer's entries. -/
theorem landed_eq2 (c' : Dev nD) (fd : Buf (Elt F) ((dstM2 : Memref sig .tc .vmem S2x64x8x64 .f32).view.loc (c' : Thread nD τ))) (fs : (cc0_stg1_0 : Ref sig .tc).ty.Contents (Elt F)) :
    ∀ j ∈ (dstM2 : Memref sig .tc .vmem S2x64x8x64 .f32).view.set, (dstM2 : Memref sig .tc .vmem S2x64x8x64 .f32).view.write (Elt F) fd ((srcM2 : Memref sig .tc .vmem S2x64x8x64 .f32).view.read (Elt F) fs) Finset.univ j = fs j := by
  intro j hj
  obtain ⟨y, rfl⟩ := View.exists_emb_of_mem_set _ hj
  rw [View.write_emb_of_mem _ _ (Finset.mem_univ y)]
  rfl

omit [FloatOps F] in
/-- On the rows copy 3 writes, the landing buffer ends holding the source buffer's entries. -/
theorem landed_eq3 (c' : Dev nD) (fd : Buf (Elt F) ((dstM3 : Memref sig .tc .vmem S2x64x8x64 .f32).view.loc (c' : Thread nD τ))) (fs : (cc0_stg2_0 : Ref sig .tc).ty.Contents (Elt F)) :
    ∀ j ∈ (dstM3 : Memref sig .tc .vmem S2x64x8x64 .f32).view.set, (dstM3 : Memref sig .tc .vmem S2x64x8x64 .f32).view.write (Elt F) fd ((srcM3 : Memref sig .tc .vmem S2x64x8x64 .f32).view.read (Elt F) fs) Finset.univ j = fs j := by
  intro j hj
  obtain ⟨y, rfl⟩ := View.exists_emb_of_mem_set _ hj
  rw [View.write_emb_of_mem _ _ (Finset.mem_univ y)]
  rfl

omit [FloatOps F] in
/-- On the rows copy 4 writes, the landing buffer ends holding the source buffer's entries. -/
theorem landed_eq4 (c' : Dev nD) (fd : Buf (Elt F) ((dstM4 : Memref sig .tc .vmem S2x64x8x64 .f32).view.loc (c' : Thread nD τ))) (fs : (cc0_stg1_0 : Ref sig .tc).ty.Contents (Elt F)) :
    ∀ j ∈ (dstM4 : Memref sig .tc .vmem S2x64x8x64 .f32).view.set, (dstM4 : Memref sig .tc .vmem S2x64x8x64 .f32).view.write (Elt F) fd ((srcM4 : Memref sig .tc .vmem S2x64x8x64 .f32).view.read (Elt F) fs) Finset.univ j = fs j := by
  intro j hj
  obtain ⟨y, rfl⟩ := View.exists_emb_of_mem_set _ hj
  rw [View.write_emb_of_mem _ _ (Finset.mem_univ y)]
  rfl

omit [FloatOps F] in
/-- On the rows copy 5 writes, the landing buffer ends holding the source buffer's entries. -/
theorem landed_eq5 (c' : Dev nD) (fd : Buf (Elt F) ((dstM5 : Memref sig .tc .vmem S2x64x8x64 .f32).view.loc (c' : Thread nD τ))) (fs : (cc0_stg2_0 : Ref sig .tc).ty.Contents (Elt F)) :
    ∀ j ∈ (dstM5 : Memref sig .tc .vmem S2x64x8x64 .f32).view.set, (dstM5 : Memref sig .tc .vmem S2x64x8x64 .f32).view.write (Elt F) fd ((srcM5 : Memref sig .tc .vmem S2x64x8x64 .f32).view.read (Elt F) fs) Finset.univ j = fs j := by
  intro j hj
  obtain ⟨y, rfl⟩ := View.exists_emb_of_mem_set _ hj
  rw [View.write_emb_of_mem _ _ (Finset.mem_univ y)]
  rfl

omit [FloatOps F] in
/-- On the rows copy 6 writes, the landing buffer ends holding the source buffer's entries. -/
theorem landed_eq6 (c' : Dev nD) (fd : Buf (Elt F) ((dstM6 : Memref sig .tc .vmem S2x64x8x64 .f32).view.loc (c' : Thread nD τ))) (fs : (cc0_stg1_0 : Ref sig .tc).ty.Contents (Elt F)) :
    ∀ j ∈ (dstM6 : Memref sig .tc .vmem S2x64x8x64 .f32).view.set, (dstM6 : Memref sig .tc .vmem S2x64x8x64 .f32).view.write (Elt F) fd ((srcM6 : Memref sig .tc .vmem S2x64x8x64 .f32).view.read (Elt F) fs) Finset.univ j = fs j := by
  intro j hj
  obtain ⟨y, rfl⟩ := View.exists_emb_of_mem_set _ hj
  rw [View.write_emb_of_mem _ _ (Finset.mem_univ y)]
  rfl

omit [FloatOps F] in
/-- On the rows copy 7 writes, the landing buffer ends holding the source buffer's entries. -/
theorem landed_eq7 (c' : Dev nD) (fd : Buf (Elt F) ((dstM7 : Memref sig .tc .vmem S2x64x8x64 .f32).view.loc (c' : Thread nD τ))) (fs : (cc0_stg2_0 : Ref sig .tc).ty.Contents (Elt F)) :
    ∀ j ∈ (dstM7 : Memref sig .tc .vmem S2x64x8x64 .f32).view.set, (dstM7 : Memref sig .tc .vmem S2x64x8x64 .f32).view.write (Elt F) fd ((srcM7 : Memref sig .tc .vmem S2x64x8x64 .f32).view.read (Elt F) fs) Finset.univ j = fs j := by
  intro j hj
  obtain ⟨y, rfl⟩ := View.exists_emb_of_mem_set _ hj
  rw [View.write_emb_of_mem _ _ (Finset.mem_univ y)]
  rfl

/-- Copy 0, addressed to n = peer c. -/
theorem wp_send0 (K : Dev nD × Fin 17 → ℕ) (c n : Dev nD) (hn : n = peer c)
    {hsc : (dstM0 : Memref sig (Dev.tc n : Thread nD τ).2.kind .vmem S2x64x8x64 .f32).view.ref.isScScratch = false}
    {hsrc : (srcM0 : Memref sig .tc .vmem S2x64x8x64 .f32).view.WordExact} {hdst : (dstM0 : Memref sig .tc .vmem S2x64x8x64 .f32).view.WordExact}
    {hsem : DmaTarget.Typed .vmem (.dma recvS0.sem) (.remote (Dev.tc n : Thread nD τ) (dstM0 : Memref sig .tc .vmem S2x64x8x64 .f32) (.dma sendS0.sem) hsc)}
    {α : Type} {Q : α → sProp 𝕄} {k : PUnit → Prog (TpuEff nD τ sig (Elt F) Λ₀ .tc) α}
    (fd : Buf (Elt F) ((dstM0 : Memref sig .tc .vmem S2x64x8x64 .f32).view.loc (peer c : Thread nD τ))) (O : CellTallies nD τ sig Unit) (W : Waits sig Unit) :
    iprop(cellInv ER (rd m ρ) (K (c, 1)) (sendCell0 c) ∗ cellInv ER (rd m ρ) (K (peer c, 9)) (recvCell0 (peer c))
        ∗ ((srcM0 : Memref sig .tc .vmem S2x64x8x64 .f32).view.loc (c : Thread nD τ) ↦[(srcM0 : Memref sig .tc .vmem S2x64x8x64 .f32).view.set]{fullShare.left} kstg m ρ c) ∗ ((dstM0 : Memref sig .tc .vmem S2x64x8x64 .f32).view.loc (peer c : Thread nD τ) ↦[(dstM0 : Memref sig .tc .vmem S2x64x8x64 .f32).view.set]{fullShare} fd)
        ∗ owes (c : Thread nD τ) (O + tallyAt (recvCell0 (peer c)) () Ncr) W
        ∗ dutyTok ER (sendCell0 c) 0 () ∗ reached ER (sendCell0 c) 0
        ∗ dutyTok ER (recvCell0 (peer c)) 0 () ∗ reached ER (recvCell0 (peer c)) 0)
      ⊢ iprop(((cred (tallyAt (sendCell0 c) () Ncr) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma srcM0 (.remote (Dev.tc n : Thread nD τ) dstM0 (.dma sendS0.sem) hsc) (.dma recvS0.sem) hsrc hdst hsem) k) Q) := by
  subst hn
  exact Rounds.wp_send_pointsTo Variants.none ER (rd m ρ) (c : Thread nD τ) none (κ₁ := K (c, 1)) (κ₂ := K (peer c, 9))
    (r₁ := 0) (r₂ := 0) (d₁ := ()) (d₂ := ()) (fd := fd)
    (by rw [duties_send0]; exact Finset.mem_singleton_self _) (by rw [duties_recv0]; exact Finset.mem_singleton_self _)
    () () Ncr rfl (amount_send0 m ρ c ()) (amount_recv0 m ρ (peer c) ()) O rfl (W := W)
    (by rw [payload_send0]; exact BI.Entails.refl _)
    (by rw [payload_recv0]; unfold recvPay0 klanded; rw [peer_peer]; exact Entails.of_eq (pointsTo_congr (landed_eq0 (peer c) fd (kstg m ρ c))))

/-- Copy 1, addressed to n = peer c. -/
theorem wp_send1 (K : Dev nD × Fin 17 → ℕ) (c n : Dev nD) (hn : n = peer c)
    {hsc : (dstM1 : Memref sig (Dev.tc n : Thread nD τ).2.kind .vmem S2x64x8x64 .f32).view.ref.isScScratch = false}
    {hsrc : (srcM1 : Memref sig .tc .vmem S2x64x8x64 .f32).view.WordExact} {hdst : (dstM1 : Memref sig .tc .vmem S2x64x8x64 .f32).view.WordExact}
    {hsem : DmaTarget.Typed .vmem (.dma recvS1.sem) (.remote (Dev.tc n : Thread nD τ) (dstM1 : Memref sig .tc .vmem S2x64x8x64 .f32) (.dma sendS1.sem) hsc)}
    {α : Type} {Q : α → sProp 𝕄} {k : PUnit → Prog (TpuEff nD τ sig (Elt F) Λ₀ .tc) α}
    (fd : Buf (Elt F) ((dstM1 : Memref sig .tc .vmem S2x64x8x64 .f32).view.loc (peer c : Thread nD τ))) (O : CellTallies nD τ sig Unit) (W : Waits sig Unit) :
    iprop(cellInv ER (rd m ρ) (K (c, 2)) (sendCell1 c) ∗ cellInv ER (rd m ρ) (K (peer c, 10)) (recvCell1 (peer c))
        ∗ ((srcM1 : Memref sig .tc .vmem S2x64x8x64 .f32).view.loc (c : Thread nD τ) ↦[(srcM1 : Memref sig .tc .vmem S2x64x8x64 .f32).view.set]{fullShare.left} vstg m ρ c) ∗ ((dstM1 : Memref sig .tc .vmem S2x64x8x64 .f32).view.loc (peer c : Thread nD τ) ↦[(dstM1 : Memref sig .tc .vmem S2x64x8x64 .f32).view.set]{fullShare} fd)
        ∗ owes (c : Thread nD τ) (O + tallyAt (recvCell1 (peer c)) () Ncr) W
        ∗ dutyTok ER (sendCell1 c) 0 () ∗ reached ER (sendCell1 c) 0
        ∗ dutyTok ER (recvCell1 (peer c)) 0 () ∗ reached ER (recvCell1 (peer c)) 0)
      ⊢ iprop(((cred (tallyAt (sendCell1 c) () Ncr) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma srcM1 (.remote (Dev.tc n : Thread nD τ) dstM1 (.dma sendS1.sem) hsc) (.dma recvS1.sem) hsrc hdst hsem) k) Q) := by
  subst hn
  exact Rounds.wp_send_pointsTo Variants.none ER (rd m ρ) (c : Thread nD τ) none (κ₁ := K (c, 2)) (κ₂ := K (peer c, 10))
    (r₁ := 0) (r₂ := 0) (d₁ := ()) (d₂ := ()) (fd := fd)
    (by rw [duties_send1]; exact Finset.mem_singleton_self _) (by rw [duties_recv1]; exact Finset.mem_singleton_self _)
    () () Ncr rfl (amount_send1 m ρ c ()) (amount_recv1 m ρ (peer c) ()) O rfl (W := W)
    (by rw [payload_send1]; exact BI.Entails.refl _)
    (by rw [payload_recv1]; unfold recvPay1 vlanded; rw [peer_peer]; exact Entails.of_eq (pointsTo_congr (landed_eq1 (peer c) fd (vstg m ρ c))))

/-- Copy 2, addressed to n = peer c. -/
theorem wp_send2 (K : Dev nD × Fin 17 → ℕ) (c n : Dev nD) (hn : n = peer c)
    {hsc : (dstM2 : Memref sig (Dev.tc n : Thread nD τ).2.kind .vmem S2x64x8x64 .f32).view.ref.isScScratch = false}
    {hsrc : (srcM2 : Memref sig .tc .vmem S2x64x8x64 .f32).view.WordExact} {hdst : (dstM2 : Memref sig .tc .vmem S2x64x8x64 .f32).view.WordExact}
    {hsem : DmaTarget.Typed .vmem (.dma recvS2.sem) (.remote (Dev.tc n : Thread nD τ) (dstM2 : Memref sig .tc .vmem S2x64x8x64 .f32) (.dma sendS2.sem) hsc)}
    {α : Type} {Q : α → sProp 𝕄} {k : PUnit → Prog (TpuEff nD τ sig (Elt F) Λ₀ .tc) α}
    (fd : Buf (Elt F) ((dstM2 : Memref sig .tc .vmem S2x64x8x64 .f32).view.loc (peer c : Thread nD τ))) (O : CellTallies nD τ sig Unit) (W : Waits sig Unit) :
    iprop(cellInv ER (rd m ρ) (K (c, 3)) (sendCell2 c) ∗ cellInv ER (rd m ρ) (K (peer c, 11)) (recvCell2 (peer c))
        ∗ ((srcM2 : Memref sig .tc .vmem S2x64x8x64 .f32).view.loc (c : Thread nD τ) ↦[(srcM2 : Memref sig .tc .vmem S2x64x8x64 .f32).view.set]{fullShare.left} kstg m ρ c) ∗ ((dstM2 : Memref sig .tc .vmem S2x64x8x64 .f32).view.loc (peer c : Thread nD τ) ↦[(dstM2 : Memref sig .tc .vmem S2x64x8x64 .f32).view.set]{fullShare} fd)
        ∗ owes (c : Thread nD τ) (O + tallyAt (recvCell2 (peer c)) () Ncr) W
        ∗ dutyTok ER (sendCell2 c) 0 () ∗ reached ER (sendCell2 c) 0
        ∗ dutyTok ER (recvCell2 (peer c)) 0 () ∗ reached ER (recvCell2 (peer c)) 0)
      ⊢ iprop(((cred (tallyAt (sendCell2 c) () Ncr) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma srcM2 (.remote (Dev.tc n : Thread nD τ) dstM2 (.dma sendS2.sem) hsc) (.dma recvS2.sem) hsrc hdst hsem) k) Q) := by
  subst hn
  exact Rounds.wp_send_pointsTo Variants.none ER (rd m ρ) (c : Thread nD τ) none (κ₁ := K (c, 3)) (κ₂ := K (peer c, 11))
    (r₁ := 0) (r₂ := 0) (d₁ := ()) (d₂ := ()) (fd := fd)
    (by rw [duties_send2]; exact Finset.mem_singleton_self _) (by rw [duties_recv2]; exact Finset.mem_singleton_self _)
    () () Ncr rfl (amount_send2 m ρ c ()) (amount_recv2 m ρ (peer c) ()) O rfl (W := W)
    (by rw [payload_send2]; exact BI.Entails.refl _)
    (by rw [payload_recv2]; unfold recvPay2 klanded; rw [peer_peer]; exact Entails.of_eq (pointsTo_congr (landed_eq2 (peer c) fd (kstg m ρ c))))

/-- Copy 3, addressed to n = peer c. -/
theorem wp_send3 (K : Dev nD × Fin 17 → ℕ) (c n : Dev nD) (hn : n = peer c)
    {hsc : (dstM3 : Memref sig (Dev.tc n : Thread nD τ).2.kind .vmem S2x64x8x64 .f32).view.ref.isScScratch = false}
    {hsrc : (srcM3 : Memref sig .tc .vmem S2x64x8x64 .f32).view.WordExact} {hdst : (dstM3 : Memref sig .tc .vmem S2x64x8x64 .f32).view.WordExact}
    {hsem : DmaTarget.Typed .vmem (.dma recvS3.sem) (.remote (Dev.tc n : Thread nD τ) (dstM3 : Memref sig .tc .vmem S2x64x8x64 .f32) (.dma sendS3.sem) hsc)}
    {α : Type} {Q : α → sProp 𝕄} {k : PUnit → Prog (TpuEff nD τ sig (Elt F) Λ₀ .tc) α}
    (fd : Buf (Elt F) ((dstM3 : Memref sig .tc .vmem S2x64x8x64 .f32).view.loc (peer c : Thread nD τ))) (O : CellTallies nD τ sig Unit) (W : Waits sig Unit) :
    iprop(cellInv ER (rd m ρ) (K (c, 4)) (sendCell3 c) ∗ cellInv ER (rd m ρ) (K (peer c, 12)) (recvCell3 (peer c))
        ∗ ((srcM3 : Memref sig .tc .vmem S2x64x8x64 .f32).view.loc (c : Thread nD τ) ↦[(srcM3 : Memref sig .tc .vmem S2x64x8x64 .f32).view.set]{fullShare.left} vstg m ρ c) ∗ ((dstM3 : Memref sig .tc .vmem S2x64x8x64 .f32).view.loc (peer c : Thread nD τ) ↦[(dstM3 : Memref sig .tc .vmem S2x64x8x64 .f32).view.set]{fullShare} fd)
        ∗ owes (c : Thread nD τ) (O + tallyAt (recvCell3 (peer c)) () Ncr) W
        ∗ dutyTok ER (sendCell3 c) 0 () ∗ reached ER (sendCell3 c) 0
        ∗ dutyTok ER (recvCell3 (peer c)) 0 () ∗ reached ER (recvCell3 (peer c)) 0)
      ⊢ iprop(((cred (tallyAt (sendCell3 c) () Ncr) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma srcM3 (.remote (Dev.tc n : Thread nD τ) dstM3 (.dma sendS3.sem) hsc) (.dma recvS3.sem) hsrc hdst hsem) k) Q) := by
  subst hn
  exact Rounds.wp_send_pointsTo Variants.none ER (rd m ρ) (c : Thread nD τ) none (κ₁ := K (c, 4)) (κ₂ := K (peer c, 12))
    (r₁ := 0) (r₂ := 0) (d₁ := ()) (d₂ := ()) (fd := fd)
    (by rw [duties_send3]; exact Finset.mem_singleton_self _) (by rw [duties_recv3]; exact Finset.mem_singleton_self _)
    () () Ncr rfl (amount_send3 m ρ c ()) (amount_recv3 m ρ (peer c) ()) O rfl (W := W)
    (by rw [payload_send3]; exact BI.Entails.refl _)
    (by rw [payload_recv3]; unfold recvPay3 vlanded; rw [peer_peer]; exact Entails.of_eq (pointsTo_congr (landed_eq3 (peer c) fd (vstg m ρ c))))

/-- Copy 4, addressed to n = peer c. -/
theorem wp_send4 (K : Dev nD × Fin 17 → ℕ) (c n : Dev nD) (hn : n = peer c)
    {hsc : (dstM4 : Memref sig (Dev.tc n : Thread nD τ).2.kind .vmem S2x64x8x64 .f32).view.ref.isScScratch = false}
    {hsrc : (srcM4 : Memref sig .tc .vmem S2x64x8x64 .f32).view.WordExact} {hdst : (dstM4 : Memref sig .tc .vmem S2x64x8x64 .f32).view.WordExact}
    {hsem : DmaTarget.Typed .vmem (.dma recvS4.sem) (.remote (Dev.tc n : Thread nD τ) (dstM4 : Memref sig .tc .vmem S2x64x8x64 .f32) (.dma sendS4.sem) hsc)}
    {α : Type} {Q : α → sProp 𝕄} {k : PUnit → Prog (TpuEff nD τ sig (Elt F) Λ₀ .tc) α}
    (fd : Buf (Elt F) ((dstM4 : Memref sig .tc .vmem S2x64x8x64 .f32).view.loc (peer c : Thread nD τ))) (O : CellTallies nD τ sig Unit) (W : Waits sig Unit) :
    iprop(cellInv ER (rd m ρ) (K (c, 5)) (sendCell4 c) ∗ cellInv ER (rd m ρ) (K (peer c, 13)) (recvCell4 (peer c))
        ∗ ((srcM4 : Memref sig .tc .vmem S2x64x8x64 .f32).view.loc (c : Thread nD τ) ↦[(srcM4 : Memref sig .tc .vmem S2x64x8x64 .f32).view.set]{fullShare.left} kstg m ρ c) ∗ ((dstM4 : Memref sig .tc .vmem S2x64x8x64 .f32).view.loc (peer c : Thread nD τ) ↦[(dstM4 : Memref sig .tc .vmem S2x64x8x64 .f32).view.set]{fullShare} fd)
        ∗ owes (c : Thread nD τ) (O + tallyAt (recvCell4 (peer c)) () Ncr) W
        ∗ dutyTok ER (sendCell4 c) 0 () ∗ reached ER (sendCell4 c) 0
        ∗ dutyTok ER (recvCell4 (peer c)) 0 () ∗ reached ER (recvCell4 (peer c)) 0)
      ⊢ iprop(((cred (tallyAt (sendCell4 c) () Ncr) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma srcM4 (.remote (Dev.tc n : Thread nD τ) dstM4 (.dma sendS4.sem) hsc) (.dma recvS4.sem) hsrc hdst hsem) k) Q) := by
  subst hn
  exact Rounds.wp_send_pointsTo Variants.none ER (rd m ρ) (c : Thread nD τ) none (κ₁ := K (c, 5)) (κ₂ := K (peer c, 13))
    (r₁ := 0) (r₂ := 0) (d₁ := ()) (d₂ := ()) (fd := fd)
    (by rw [duties_send4]; exact Finset.mem_singleton_self _) (by rw [duties_recv4]; exact Finset.mem_singleton_self _)
    () () Ncr rfl (amount_send4 m ρ c ()) (amount_recv4 m ρ (peer c) ()) O rfl (W := W)
    (by rw [payload_send4]; exact BI.Entails.refl _)
    (by rw [payload_recv4]; unfold recvPay4 klanded; rw [peer_peer]; exact Entails.of_eq (pointsTo_congr (landed_eq4 (peer c) fd (kstg m ρ c))))

/-- Copy 5, addressed to n = peer c. -/
theorem wp_send5 (K : Dev nD × Fin 17 → ℕ) (c n : Dev nD) (hn : n = peer c)
    {hsc : (dstM5 : Memref sig (Dev.tc n : Thread nD τ).2.kind .vmem S2x64x8x64 .f32).view.ref.isScScratch = false}
    {hsrc : (srcM5 : Memref sig .tc .vmem S2x64x8x64 .f32).view.WordExact} {hdst : (dstM5 : Memref sig .tc .vmem S2x64x8x64 .f32).view.WordExact}
    {hsem : DmaTarget.Typed .vmem (.dma recvS5.sem) (.remote (Dev.tc n : Thread nD τ) (dstM5 : Memref sig .tc .vmem S2x64x8x64 .f32) (.dma sendS5.sem) hsc)}
    {α : Type} {Q : α → sProp 𝕄} {k : PUnit → Prog (TpuEff nD τ sig (Elt F) Λ₀ .tc) α}
    (fd : Buf (Elt F) ((dstM5 : Memref sig .tc .vmem S2x64x8x64 .f32).view.loc (peer c : Thread nD τ))) (O : CellTallies nD τ sig Unit) (W : Waits sig Unit) :
    iprop(cellInv ER (rd m ρ) (K (c, 6)) (sendCell5 c) ∗ cellInv ER (rd m ρ) (K (peer c, 14)) (recvCell5 (peer c))
        ∗ ((srcM5 : Memref sig .tc .vmem S2x64x8x64 .f32).view.loc (c : Thread nD τ) ↦[(srcM5 : Memref sig .tc .vmem S2x64x8x64 .f32).view.set]{fullShare.left} vstg m ρ c) ∗ ((dstM5 : Memref sig .tc .vmem S2x64x8x64 .f32).view.loc (peer c : Thread nD τ) ↦[(dstM5 : Memref sig .tc .vmem S2x64x8x64 .f32).view.set]{fullShare} fd)
        ∗ owes (c : Thread nD τ) (O + tallyAt (recvCell5 (peer c)) () Ncr) W
        ∗ dutyTok ER (sendCell5 c) 0 () ∗ reached ER (sendCell5 c) 0
        ∗ dutyTok ER (recvCell5 (peer c)) 0 () ∗ reached ER (recvCell5 (peer c)) 0)
      ⊢ iprop(((cred (tallyAt (sendCell5 c) () Ncr) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma srcM5 (.remote (Dev.tc n : Thread nD τ) dstM5 (.dma sendS5.sem) hsc) (.dma recvS5.sem) hsrc hdst hsem) k) Q) := by
  subst hn
  exact Rounds.wp_send_pointsTo Variants.none ER (rd m ρ) (c : Thread nD τ) none (κ₁ := K (c, 6)) (κ₂ := K (peer c, 14))
    (r₁ := 0) (r₂ := 0) (d₁ := ()) (d₂ := ()) (fd := fd)
    (by rw [duties_send5]; exact Finset.mem_singleton_self _) (by rw [duties_recv5]; exact Finset.mem_singleton_self _)
    () () Ncr rfl (amount_send5 m ρ c ()) (amount_recv5 m ρ (peer c) ()) O rfl (W := W)
    (by rw [payload_send5]; exact BI.Entails.refl _)
    (by rw [payload_recv5]; unfold recvPay5 vlanded; rw [peer_peer]; exact Entails.of_eq (pointsTo_congr (landed_eq5 (peer c) fd (vstg m ρ c))))

/-- Copy 6, addressed to n = peer c. -/
theorem wp_send6 (K : Dev nD × Fin 17 → ℕ) (c n : Dev nD) (hn : n = peer c)
    {hsc : (dstM6 : Memref sig (Dev.tc n : Thread nD τ).2.kind .vmem S2x64x8x64 .f32).view.ref.isScScratch = false}
    {hsrc : (srcM6 : Memref sig .tc .vmem S2x64x8x64 .f32).view.WordExact} {hdst : (dstM6 : Memref sig .tc .vmem S2x64x8x64 .f32).view.WordExact}
    {hsem : DmaTarget.Typed .vmem (.dma recvS6.sem) (.remote (Dev.tc n : Thread nD τ) (dstM6 : Memref sig .tc .vmem S2x64x8x64 .f32) (.dma sendS6.sem) hsc)}
    {α : Type} {Q : α → sProp 𝕄} {k : PUnit → Prog (TpuEff nD τ sig (Elt F) Λ₀ .tc) α}
    (fd : Buf (Elt F) ((dstM6 : Memref sig .tc .vmem S2x64x8x64 .f32).view.loc (peer c : Thread nD τ))) (O : CellTallies nD τ sig Unit) (W : Waits sig Unit) :
    iprop(cellInv ER (rd m ρ) (K (c, 7)) (sendCell6 c) ∗ cellInv ER (rd m ρ) (K (peer c, 15)) (recvCell6 (peer c))
        ∗ ((srcM6 : Memref sig .tc .vmem S2x64x8x64 .f32).view.loc (c : Thread nD τ) ↦[(srcM6 : Memref sig .tc .vmem S2x64x8x64 .f32).view.set]{fullShare.left} kstg m ρ c) ∗ ((dstM6 : Memref sig .tc .vmem S2x64x8x64 .f32).view.loc (peer c : Thread nD τ) ↦[(dstM6 : Memref sig .tc .vmem S2x64x8x64 .f32).view.set]{fullShare} fd)
        ∗ owes (c : Thread nD τ) (O + tallyAt (recvCell6 (peer c)) () Ncr) W
        ∗ dutyTok ER (sendCell6 c) 0 () ∗ reached ER (sendCell6 c) 0
        ∗ dutyTok ER (recvCell6 (peer c)) 0 () ∗ reached ER (recvCell6 (peer c)) 0)
      ⊢ iprop(((cred (tallyAt (sendCell6 c) () Ncr) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma srcM6 (.remote (Dev.tc n : Thread nD τ) dstM6 (.dma sendS6.sem) hsc) (.dma recvS6.sem) hsrc hdst hsem) k) Q) := by
  subst hn
  exact Rounds.wp_send_pointsTo Variants.none ER (rd m ρ) (c : Thread nD τ) none (κ₁ := K (c, 7)) (κ₂ := K (peer c, 15))
    (r₁ := 0) (r₂ := 0) (d₁ := ()) (d₂ := ()) (fd := fd)
    (by rw [duties_send6]; exact Finset.mem_singleton_self _) (by rw [duties_recv6]; exact Finset.mem_singleton_self _)
    () () Ncr rfl (amount_send6 m ρ c ()) (amount_recv6 m ρ (peer c) ()) O rfl (W := W)
    (by rw [payload_send6]; exact BI.Entails.refl _)
    (by rw [payload_recv6]; unfold recvPay6 klanded; rw [peer_peer]; exact Entails.of_eq (pointsTo_congr (landed_eq6 (peer c) fd (kstg m ρ c))))

/-- Copy 7, addressed to n = peer c. -/
theorem wp_send7 (K : Dev nD × Fin 17 → ℕ) (c n : Dev nD) (hn : n = peer c)
    {hsc : (dstM7 : Memref sig (Dev.tc n : Thread nD τ).2.kind .vmem S2x64x8x64 .f32).view.ref.isScScratch = false}
    {hsrc : (srcM7 : Memref sig .tc .vmem S2x64x8x64 .f32).view.WordExact} {hdst : (dstM7 : Memref sig .tc .vmem S2x64x8x64 .f32).view.WordExact}
    {hsem : DmaTarget.Typed .vmem (.dma recvS7.sem) (.remote (Dev.tc n : Thread nD τ) (dstM7 : Memref sig .tc .vmem S2x64x8x64 .f32) (.dma sendS7.sem) hsc)}
    {α : Type} {Q : α → sProp 𝕄} {k : PUnit → Prog (TpuEff nD τ sig (Elt F) Λ₀ .tc) α}
    (fd : Buf (Elt F) ((dstM7 : Memref sig .tc .vmem S2x64x8x64 .f32).view.loc (peer c : Thread nD τ))) (O : CellTallies nD τ sig Unit) (W : Waits sig Unit) :
    iprop(cellInv ER (rd m ρ) (K (c, 8)) (sendCell7 c) ∗ cellInv ER (rd m ρ) (K (peer c, 16)) (recvCell7 (peer c))
        ∗ ((srcM7 : Memref sig .tc .vmem S2x64x8x64 .f32).view.loc (c : Thread nD τ) ↦[(srcM7 : Memref sig .tc .vmem S2x64x8x64 .f32).view.set]{fullShare.left} vstg m ρ c) ∗ ((dstM7 : Memref sig .tc .vmem S2x64x8x64 .f32).view.loc (peer c : Thread nD τ) ↦[(dstM7 : Memref sig .tc .vmem S2x64x8x64 .f32).view.set]{fullShare} fd)
        ∗ owes (c : Thread nD τ) (O + tallyAt (recvCell7 (peer c)) () Ncr) W
        ∗ dutyTok ER (sendCell7 c) 0 () ∗ reached ER (sendCell7 c) 0
        ∗ dutyTok ER (recvCell7 (peer c)) 0 () ∗ reached ER (recvCell7 (peer c)) 0)
      ⊢ iprop(((cred (tallyAt (sendCell7 c) () Ncr) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma srcM7 (.remote (Dev.tc n : Thread nD τ) dstM7 (.dma sendS7.sem) hsc) (.dma recvS7.sem) hsrc hdst hsem) k) Q) := by
  subst hn
  exact Rounds.wp_send_pointsTo Variants.none ER (rd m ρ) (c : Thread nD τ) none (κ₁ := K (c, 8)) (κ₂ := K (peer c, 16))
    (r₁ := 0) (r₂ := 0) (d₁ := ()) (d₂ := ()) (fd := fd)
    (by rw [duties_send7]; exact Finset.mem_singleton_self _) (by rw [duties_recv7]; exact Finset.mem_singleton_self _)
    () () Ncr rfl (amount_send7 m ρ c ()) (amount_recv7 m ρ (peer c) ()) O rfl (W := W)
    (by rw [payload_send7]; exact BI.Entails.refl _)
    (by rw [payload_recv7]; unfold recvPay7 vlanded; rw [peer_peer]; exact Entails.of_eq (pointsTo_congr (landed_eq7 (peer c) fd (vstg m ρ c))))

end Cert.Kernel.Hand

end
-- ==== Proof.BitsBodyRun.lean ====
/-
  One device's body, run once at a symbolic device: the barrier signal and wait, the eight copies to the partner, the
  attention arithmetic over the device's own keys and then over each landed block of the partner's, the sixteen
  waits. What the result's staging buffer ends holding is found by the run, as a term over the contents of the
  device's own and its partner's input buffers.
-/
import proofs.«900412_g7700000000000413_dist_agattn_v7x_xyz2x2x2_z_b2_s256_h8_d64_f32_1_alg».proof.Proof.BitsSends
import Idealize.ShloMosaic.Lib.Tactic

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The schedule's tables as rewrites, payloads spelt as the points-tos themselves -/

omit [FloatOps F] in
theorem payload_barP' (c : Dev nD) (u : Unit) : (rd (F := F) m ρ).payload (barCell (peer c)) 0 u =
    iprop((∃ f, (dstM0 : Memref sig .tc .vmem S2x64x8x64 .f32).view.loc (c : Thread nD τ) ↦[(dstM0 : Memref sig .tc .vmem S2x64x8x64 .f32).view.set]{fullShare} f) ∗ (∃ f, (dstM1 : Memref sig .tc .vmem S2x64x8x64 .f32).view.loc (c : Thread nD τ) ↦[(dstM1 : Memref sig .tc .vmem S2x64x8x64 .f32).view.set]{fullShare} f) ∗ (∃ f, (dstM2 : Memref sig .tc .vmem S2x64x8x64 .f32).view.loc (c : Thread nD τ) ↦[(dstM2 : Memref sig .tc .vmem S2x64x8x64 .f32).view.set]{fullShare} f) ∗ (∃ f, (dstM3 : Memref sig .tc .vmem S2x64x8x64 .f32).view.loc (c : Thread nD τ) ↦[(dstM3 : Memref sig .tc .vmem S2x64x8x64 .f32).view.set]{fullShare} f) ∗ (∃ f, (dstM4 : Memref sig .tc .vmem S2x64x8x64 .f32).view.loc (c : Thread nD τ) ↦[(dstM4 : Memref sig .tc .vmem S2x64x8x64 .f32).view.set]{fullShare} f) ∗ (∃ f, (dstM5 : Memref sig .tc .vmem S2x64x8x64 .f32).view.loc (c : Thread nD τ) ↦[(dstM5 : Memref sig .tc .vmem S2x64x8x64 .f32).view.set]{fullShare} f) ∗ (∃ f, (dstM6 : Memref sig .tc .vmem S2x64x8x64 .f32).view.loc (c : Thread nD τ) ↦[(dstM6 : Memref sig .tc .vmem S2x64x8x64 .f32).view.set]{fullShare} f) ∗ (∃ f, (dstM7 : Memref sig .tc .vmem S2x64x8x64 .f32).view.loc (c : Thread nD τ) ↦[(dstM7 : Memref sig .tc .vmem S2x64x8x64 .f32).view.set]{fullShare} f)
      ∗ reached ER (recvCell0 c) 0 ∗ reached ER (recvCell1 c) 0 ∗ reached ER (recvCell2 c) 0 ∗ reached ER (recvCell3 c) 0 ∗ reached ER (recvCell4 c) 0 ∗ reached ER (recvCell5 c) 0 ∗ reached ER (recvCell6 c) 0 ∗ reached ER (recvCell7 c) 0) := by
  rw [payload_bar]; unfold barPay slot0 slot1 slot2 slot3 slot4 slot5 slot6 slot7; rw [peer_peer]
omit [FloatOps F] in
theorem payload_bar' (c : Dev nD) (u : Unit) : (rd (F := F) m ρ).payload (barCell c) 0 u =
    iprop((∃ f, (dstM0 : Memref sig .tc .vmem S2x64x8x64 .f32).view.loc (peer c : Thread nD τ) ↦[(dstM0 : Memref sig .tc .vmem S2x64x8x64 .f32).view.set]{fullShare} f) ∗ (∃ f, (dstM1 : Memref sig .tc .vmem S2x64x8x64 .f32).view.loc (peer c : Thread nD τ) ↦[(dstM1 : Memref sig .tc .vmem S2x64x8x64 .f32).view.set]{fullShare} f) ∗ (∃ f, (dstM2 : Memref sig .tc .vmem S2x64x8x64 .f32).view.loc (peer c : Thread nD τ) ↦[(dstM2 : Memref sig .tc .vmem S2x64x8x64 .f32).view.set]{fullShare} f) ∗ (∃ f, (dstM3 : Memref sig .tc .vmem S2x64x8x64 .f32).view.loc (peer c : Thread nD τ) ↦[(dstM3 : Memref sig .tc .vmem S2x64x8x64 .f32).view.set]{fullShare} f) ∗ (∃ f, (dstM4 : Memref sig .tc .vmem S2x64x8x64 .f32).view.loc (peer c : Thread nD τ) ↦[(dstM4 : Memref sig .tc .vmem S2x64x8x64 .f32).view.set]{fullShare} f) ∗ (∃ f, (dstM5 : Memref sig .tc .vmem S2x64x8x64 .f32).view.loc (peer c : Thread nD τ) ↦[(dstM5 : Memref sig .tc .vmem S2x64x8x64 .f32).view.set]{fullShare} f) ∗ (∃ f, (dstM6 : Memref sig .tc .vmem S2x64x8x64 .f32).view.loc (peer c : Thread nD τ) ↦[(dstM6 : Memref sig .tc .vmem S2x64x8x64 .f32).view.set]{fullShare} f) ∗ (∃ f, (dstM7 : Memref sig .tc .vmem S2x64x8x64 .f32).view.loc (peer c : Thread nD τ) ↦[(dstM7 : Memref sig .tc .vmem S2x64x8x64 .f32).view.set]{fullShare} f)
      ∗ reached ER (recvCell0 (peer c)) 0 ∗ reached ER (recvCell1 (peer c)) 0 ∗ reached ER (recvCell2 (peer c)) 0 ∗ reached ER (recvCell3 (peer c)) 0 ∗ reached ER (recvCell4 (peer c)) 0 ∗ reached ER (recvCell5 (peer c)) 0 ∗ reached ER (recvCell6 (peer c)) 0 ∗ reached ER (recvCell7 (peer c)) 0) := by
  rw [payload_bar]; unfold barPay slot0 slot1 slot2 slot3 slot4 slot5 slot6 slot7; rfl
omit [FloatOps F] in
theorem payload_send0' (c : Dev nD) (u : Unit) : (rd (F := F) m ρ).payload (sendCell0 c) 0 u = ((srcM0 : Memref sig .tc .vmem S2x64x8x64 .f32).view.loc (c : Thread nD τ) ↦[(srcM0 : Memref sig .tc .vmem S2x64x8x64 .f32).view.set]{fullShare.left} kstg m ρ c) := by
  rw [payload_send0]; rfl
omit [FloatOps F] in
theorem payload_recv0' (c : Dev nD) (u : Unit) : (rd (F := F) m ρ).payload (recvCell0 c) 0 u = ((dstM0 : Memref sig .tc .vmem S2x64x8x64 .f32).view.loc (c : Thread nD τ) ↦[(dstM0 : Memref sig .tc .vmem S2x64x8x64 .f32).view.set]{fullShare} klanded m ρ c) := by
  rw [payload_recv0]; rfl
omit [FloatOps F] in
theorem payload_recvP0' (c : Dev nD) (u : Unit) : (rd (F := F) m ρ).payload (recvCell0 (peer c)) 0 u = ((dstM0 : Memref sig .tc .vmem S2x64x8x64 .f32).view.loc (peer c : Thread nD τ) ↦[(dstM0 : Memref sig .tc .vmem S2x64x8x64 .f32).view.set]{fullShare} kstg m ρ c) := by
  rw [payload_recv0]; unfold recvPay0 klanded; rw [peer_peer]
omit [FloatOps F] in
theorem payload_send1' (c : Dev nD) (u : Unit) : (rd (F := F) m ρ).payload (sendCell1 c) 0 u = ((srcM1 : Memref sig .tc .vmem S2x64x8x64 .f32).view.loc (c : Thread nD τ) ↦[(srcM1 : Memref sig .tc .vmem S2x64x8x64 .f32).view.set]{fullShare.left} vstg m ρ c) := by
  rw [payload_send1]; rfl
omit [FloatOps F] in
theorem payload_recv1' (c : Dev nD) (u : Unit) : (rd (F := F) m ρ).payload (recvCell1 c) 0 u = ((dstM1 : Memref sig .tc .vmem S2x64x8x64 .f32).view.loc (c : Thread nD τ) ↦[(dstM1 : Memref sig .tc .vmem S2x64x8x64 .f32).view.set]{fullShare} vlanded m ρ c) := by
  rw [payload_recv1]; rfl
omit [FloatOps F] in
theorem payload_recvP1' (c : Dev nD) (u : Unit) : (rd (F := F) m ρ).payload (recvCell1 (peer c)) 0 u = ((dstM1 : Memref sig .tc .vmem S2x64x8x64 .f32).view.loc (peer c : Thread nD τ) ↦[(dstM1 : Memref sig .tc .vmem S2x64x8x64 .f32).view.set]{fullShare} vstg m ρ c) := by
  rw [payload_recv1]; unfold recvPay1 vlanded; rw [peer_peer]
omit [FloatOps F] in
theorem payload_send2' (c : Dev nD) (u : Unit) : (rd (F := F) m ρ).payload (sendCell2 c) 0 u = ((srcM2 : Memref sig .tc .vmem S2x64x8x64 .f32).view.loc (c : Thread nD τ) ↦[(srcM2 : Memref sig .tc .vmem S2x64x8x64 .f32).view.set]{fullShare.left} kstg m ρ c) := by
  rw [payload_send2]; rfl
omit [FloatOps F] in
theorem payload_recv2' (c : Dev nD) (u : Unit) : (rd (F := F) m ρ).payload (recvCell2 c) 0 u = ((dstM2 : Memref sig .tc .vmem S2x64x8x64 .f32).view.loc (c : Thread nD τ) ↦[(dstM2 : Memref sig .tc .vmem S2x64x8x64 .f32).view.set]{fullShare} klanded m ρ c) := by
  rw [payload_recv2]; rfl
omit [FloatOps F] in
theorem payload_recvP2' (c : Dev nD) (u : Unit) : (rd (F := F) m ρ).payload (recvCell2 (peer c)) 0 u = ((dstM2 : Memref sig .tc .vmem S2x64x8x64 .f32).view.loc (peer c : Thread nD τ) ↦[(dstM2 : Memref sig .tc .vmem S2x64x8x64 .f32).view.set]{fullShare} kstg m ρ c) := by
  rw [payload_recv2]; unfold recvPay2 klanded; rw [peer_peer]
omit [FloatOps F] in
theorem payload_send3' (c : Dev nD) (u : Unit) : (rd (F := F) m ρ).payload (sendCell3 c) 0 u = ((srcM3 : Memref sig .tc .vmem S2x64x8x64 .f32).view.loc (c : Thread nD τ) ↦[(srcM3 : Memref sig .tc .vmem S2x64x8x64 .f32).view.set]{fullShare.left} vstg m ρ c) := by
  rw [payload_send3]; rfl
omit [FloatOps F] in
theorem payload_recv3' (c : Dev nD) (u : Unit) : (rd (F := F) m ρ).payload (recvCell3 c) 0 u = ((dstM3 : Memref sig .tc .vmem S2x64x8x64 .f32).view.loc (c : Thread nD τ) ↦[(dstM3 : Memref sig .tc .vmem S2x64x8x64 .f32).view.set]{fullShare} vlanded m ρ c) := by
  rw [payload_recv3]; rfl
omit [FloatOps F] in
theorem payload_recvP3' (c : Dev nD) (u : Unit) : (rd (F := F) m ρ).payload (recvCell3 (peer c)) 0 u = ((dstM3 : Memref sig .tc .vmem S2x64x8x64 .f32).view.loc (peer c : Thread nD τ) ↦[(dstM3 : Memref sig .tc .vmem S2x64x8x64 .f32).view.set]{fullShare} vstg m ρ c) := by
  rw [payload_recv3]; unfold recvPay3 vlanded; rw [peer_peer]
omit [FloatOps F] in
theorem payload_send4' (c : Dev nD) (u : Unit) : (rd (F := F) m ρ).payload (sendCell4 c) 0 u = ((srcM4 : Memref sig .tc .vmem S2x64x8x64 .f32).view.loc (c : Thread nD τ) ↦[(srcM4 : Memref sig .tc .vmem S2x64x8x64 .f32).view.set]{fullShare.left} kstg m ρ c) := by
  rw [payload_send4]; rfl
omit [FloatOps F] in
theorem payload_recv4' (c : Dev nD) (u : Unit) : (rd (F := F) m ρ).payload (recvCell4 c) 0 u = ((dstM4 : Memref sig .tc .vmem S2x64x8x64 .f32).view.loc (c : Thread nD τ) ↦[(dstM4 : Memref sig .tc .vmem S2x64x8x64 .f32).view.set]{fullShare} klanded m ρ c) := by
  rw [payload_recv4]; rfl
omit [FloatOps F] in
theorem payload_recvP4' (c : Dev nD) (u : Unit) : (rd (F := F) m ρ).payload (recvCell4 (peer c)) 0 u = ((dstM4 : Memref sig .tc .vmem S2x64x8x64 .f32).view.loc (peer c : Thread nD τ) ↦[(dstM4 : Memref sig .tc .vmem S2x64x8x64 .f32).view.set]{fullShare} kstg m ρ c) := by
  rw [payload_recv4]; unfold recvPay4 klanded; rw [peer_peer]
omit [FloatOps F] in
theorem payload_send5' (c : Dev nD) (u : Unit) : (rd (F := F) m ρ).payload (sendCell5 c) 0 u = ((srcM5 : Memref sig .tc .vmem S2x64x8x64 .f32).view.loc (c : Thread nD τ) ↦[(srcM5 : Memref sig .tc .vmem S2x64x8x64 .f32).view.set]{fullShare.left} vstg m ρ c) := by
  rw [payload_send5]; rfl
omit [FloatOps F] in
theorem payload_recv5' (c : Dev nD) (u : Unit) : (rd (F := F) m ρ).payload (recvCell5 c) 0 u = ((dstM5 : Memref sig .tc .vmem S2x64x8x64 .f32).view.loc (c : Thread nD τ) ↦[(dstM5 : Memref sig .tc .vmem S2x64x8x64 .f32).view.set]{fullShare} vlanded m ρ c) := by
  rw [payload_recv5]; rfl
omit [FloatOps F] in
theorem payload_recvP5' (c : Dev nD) (u : Unit) : (rd (F := F) m ρ).payload (recvCell5 (peer c)) 0 u = ((dstM5 : Memref sig .tc .vmem S2x64x8x64 .f32).view.loc (peer c : Thread nD τ) ↦[(dstM5 : Memref sig .tc .vmem S2x64x8x64 .f32).view.set]{fullShare} vstg m ρ c) := by
  rw [payload_recv5]; unfold recvPay5 vlanded; rw [peer_peer]
omit [FloatOps F] in
theorem payload_send6' (c : Dev nD) (u : Unit) : (rd (F := F) m ρ).payload (sendCell6 c) 0 u = ((srcM6 : Memref sig .tc .vmem S2x64x8x64 .f32).view.loc (c : Thread nD τ) ↦[(srcM6 : Memref sig .tc .vmem S2x64x8x64 .f32).view.set]{fullShare.left} kstg m ρ c) := by
  rw [payload_send6]; rfl
omit [FloatOps F] in
theorem payload_recv6' (c : Dev nD) (u : Unit) : (rd (F := F) m ρ).payload (recvCell6 c) 0 u = ((dstM6 : Memref sig .tc .vmem S2x64x8x64 .f32).view.loc (c : Thread nD τ) ↦[(dstM6 : Memref sig .tc .vmem S2x64x8x64 .f32).view.set]{fullShare} klanded m ρ c) := by
  rw [payload_recv6]; rfl
omit [FloatOps F] in
theorem payload_recvP6' (c : Dev nD) (u : Unit) : (rd (F := F) m ρ).payload (recvCell6 (peer c)) 0 u = ((dstM6 : Memref sig .tc .vmem S2x64x8x64 .f32).view.loc (peer c : Thread nD τ) ↦[(dstM6 : Memref sig .tc .vmem S2x64x8x64 .f32).view.set]{fullShare} kstg m ρ c) := by
  rw [payload_recv6]; unfold recvPay6 klanded; rw [peer_peer]
omit [FloatOps F] in
theorem payload_send7' (c : Dev nD) (u : Unit) : (rd (F := F) m ρ).payload (sendCell7 c) 0 u = ((srcM7 : Memref sig .tc .vmem S2x64x8x64 .f32).view.loc (c : Thread nD τ) ↦[(srcM7 : Memref sig .tc .vmem S2x64x8x64 .f32).view.set]{fullShare.left} vstg m ρ c) := by
  rw [payload_send7]; rfl
omit [FloatOps F] in
theorem payload_recv7' (c : Dev nD) (u : Unit) : (rd (F := F) m ρ).payload (recvCell7 c) 0 u = ((dstM7 : Memref sig .tc .vmem S2x64x8x64 .f32).view.loc (c : Thread nD τ) ↦[(dstM7 : Memref sig .tc .vmem S2x64x8x64 .f32).view.set]{fullShare} vlanded m ρ c) := by
  rw [payload_recv7]; rfl
omit [FloatOps F] in
theorem payload_recvP7' (c : Dev nD) (u : Unit) : (rd (F := F) m ρ).payload (recvCell7 (peer c)) 0 u = ((dstM7 : Memref sig .tc .vmem S2x64x8x64 .f32).view.loc (peer c : Thread nD τ) ↦[(dstM7 : Memref sig .tc .vmem S2x64x8x64 .f32).view.set]{fullShare} vstg m ρ c) := by
  rw [payload_recv7]; unfold recvPay7 vlanded; rw [peer_peer]

attribute [local sl_rounds] duties_bar amount_bar expect_bar duties_send0 amount_send0 expect_send0 duties_send1 amount_send1 expect_send1 duties_send2 amount_send2 expect_send2 duties_send3 amount_send3 expect_send3 duties_send4 amount_send4 expect_send4 duties_send5 amount_send5 expect_send5 duties_send6 amount_send6 expect_send6 duties_send7 amount_send7 expect_send7 duties_recv0 amount_recv0 expect_recv0 duties_recv1 amount_recv1 expect_recv1 duties_recv2 amount_recv2 expect_recv2 duties_recv3 amount_recv3 expect_recv3 duties_recv4 amount_recv4 expect_recv4 duties_recv5 amount_recv5 expect_recv5 duties_recv6 amount_recv6 expect_recv6 duties_recv7 amount_recv7 expect_recv7 payload_bar' payload_send0' payload_recv0' payload_send1' payload_recv1' payload_send2' payload_recv2' payload_send3' payload_recv3' payload_send4' payload_recv4' payload_send5' payload_recv5' payload_send6' payload_recv6' payload_send7' payload_recv7'
attribute [local sl_rounds 5000] payload_barP' payload_recvP0' payload_recvP1' payload_recvP2' payload_recvP3' payload_recvP4' payload_recvP5' payload_recvP6' payload_recvP7'
attribute [local sl_canon] dev1_eq dev2_eq dev3_eq dev4_eq dev5_eq dev6_eq dev7_eq dev8_eq dev9_eq

/-- What the body starts from, at the cells' names K: the invariants, positions, reached-marks and duty tokens; the
    launch credit; what the device owes, the barrier unit to be paid first and copy 0's credit next; the input
    buffers (K and V as one half whole and the other half by blocks of rows, one block per copy), the result's
    buffer, the device's own landing slots and the three other scratch buffers. -/
def runPre (K : Dev nD × Fin 17 → ℕ) (c : Dev nD) (W : Waits sig Unit)
    (g3 : (cc0_stg3_0 : Ref sig .tc).ty.Contents (Elt F)) (f2 : (cc0_scratch2 : Ref sig .tc).ty.Contents (Elt F))
    (f3 : (cc0_scratch3 : Ref sig .tc).ty.Contents (Elt F)) (f4 : (cc0_scratch4 : Ref sig .tc).ty.Contents (Elt F)) : sProp 𝕄 :=
  iprop((cellInv ER (rd m ρ) (K (c, 0)) (barCell c))
          ∗ (cellInv ER (rd m ρ) (K (c, 1)) (sendCell0 c))
          ∗ (cellInv ER (rd m ρ) (K (c, 2)) (sendCell1 c))
          ∗ (cellInv ER (rd m ρ) (K (c, 3)) (sendCell2 c))
          ∗ (cellInv ER (rd m ρ) (K (c, 4)) (sendCell3 c))
          ∗ (cellInv ER (rd m ρ) (K (c, 5)) (sendCell4 c))
          ∗ (cellInv ER (rd m ρ) (K (c, 6)) (sendCell5 c))
          ∗ (cellInv ER (rd m ρ) (K (c, 7)) (sendCell6 c))
          ∗ (cellInv ER (rd m ρ) (K (c, 8)) (sendCell7 c))
          ∗ (cellInv ER (rd m ρ) (K (c, 9)) (recvCell0 c))
          ∗ (cellInv ER (rd m ρ) (K (c, 10)) (recvCell1 c))
          ∗ (cellInv ER (rd m ρ) (K (c, 11)) (recvCell2 c))
          ∗ (cellInv ER (rd m ρ) (K (c, 12)) (recvCell3 c))
          ∗ (cellInv ER (rd m ρ) (K (c, 13)) (recvCell4 c))
          ∗ (cellInv ER (rd m ρ) (K (c, 14)) (recvCell5 c))
          ∗ (cellInv ER (rd m ρ) (K (c, 15)) (recvCell6 c))
          ∗ (cellInv ER (rd m ρ) (K (c, 16)) (recvCell7 c))
          ∗ (cellInv ER (rd m ρ) (K (peer c, 0)) (barCell (peer c)))
          ∗ (cellInv ER (rd m ρ) (K (peer c, 9)) (recvCell0 (peer c)))
          ∗ (cellInv ER (rd m ρ) (K (peer c, 10)) (recvCell1 (peer c)))
          ∗ (cellInv ER (rd m ρ) (K (peer c, 11)) (recvCell2 (peer c)))
          ∗ (cellInv ER (rd m ρ) (K (peer c, 12)) (recvCell3 (peer c)))
          ∗ (cellInv ER (rd m ρ) (K (peer c, 13)) (recvCell4 (peer c)))
          ∗ (cellInv ER (rd m ρ) (K (peer c, 14)) (recvCell5 (peer c)))
          ∗ (cellInv ER (rd m ρ) (K (peer c, 15)) (recvCell6 (peer c)))
          ∗ (cellInv ER (rd m ρ) (K (peer c, 16)) (recvCell7 (peer c)))
          ∗ (atPos ER (barCell c) 0 ∅ 0)
          ∗ (atPos ER (sendCell0 c) 0 ∅ 0)
          ∗ (atPos ER (sendCell1 c) 0 ∅ 0)
          ∗ (atPos ER (sendCell2 c) 0 ∅ 0)
          ∗ (atPos ER (sendCell3 c) 0 ∅ 0)
          ∗ (atPos ER (sendCell4 c) 0 ∅ 0)
          ∗ (atPos ER (sendCell5 c) 0 ∅ 0)
          ∗ (atPos ER (sendCell6 c) 0 ∅ 0)
          ∗ (atPos ER (sendCell7 c) 0 ∅ 0)
          ∗ (atPos ER (recvCell0 c) 0 ∅ 0)
          ∗ (atPos ER (recvCell1 c) 0 ∅ 0)
          ∗ (atPos ER (recvCell2 c) 0 ∅ 0)
          ∗ (atPos ER (recvCell3 c) 0 ∅ 0)
          ∗ (atPos ER (recvCell4 c) 0 ∅ 0)
          ∗ (atPos ER (recvCell5 c) 0 ∅ 0)
          ∗ (atPos ER (recvCell6 c) 0 ∅ 0)
          ∗ (atPos ER (recvCell7 c) 0 ∅ 0)
          ∗ (reached ER (barCell (peer c)) 0)
          ∗ (reached ER (sendCell0 c) 0)
          ∗ (reached ER (sendCell1 c) 0)
          ∗ (reached ER (sendCell2 c) 0)
          ∗ (reached ER (sendCell3 c) 0)
          ∗ (reached ER (sendCell4 c) 0)
          ∗ (reached ER (sendCell5 c) 0)
          ∗ (reached ER (sendCell6 c) 0)
          ∗ (reached ER (sendCell7 c) 0)
          ∗ (reached ER (recvCell0 c) 0)
          ∗ (reached ER (recvCell1 c) 0)
          ∗ (reached ER (recvCell2 c) 0)
          ∗ (reached ER (recvCell3 c) 0)
          ∗ (reached ER (recvCell4 c) 0)
          ∗ (reached ER (recvCell5 c) 0)
          ∗ (reached ER (recvCell6 c) 0)
          ∗ (reached ER (recvCell7 c) 0)
          ∗ (dutyTok ER (barCell (peer c)) 0 ())
          ∗ (dutyTok ER (recvCell0 (peer c)) 0 ())
          ∗ (dutyTok ER (recvCell1 (peer c)) 0 ())
          ∗ (dutyTok ER (recvCell2 (peer c)) 0 ())
          ∗ (dutyTok ER (recvCell3 (peer c)) 0 ())
          ∗ (dutyTok ER (recvCell4 (peer c)) 0 ())
          ∗ (dutyTok ER (recvCell5 (peer c)) 0 ())
          ∗ (dutyTok ER (recvCell6 (peer c)) 0 ())
          ∗ (dutyTok ER (recvCell7 (peer c)) 0 ())
          ∗ (dutyTok ER (sendCell0 c) 0 ())
          ∗ (dutyTok ER (sendCell1 c) 0 ())
          ∗ (dutyTok ER (sendCell2 c) 0 ())
          ∗ (dutyTok ER (sendCell3 c) 0 ())
          ∗ (dutyTok ER (sendCell4 c) 0 ())
          ∗ (dutyTok ER (sendCell5 c) 0 ())
          ∗ (dutyTok ER (sendCell6 c) 0 ())
          ∗ (dutyTok ER (sendCell7 c) 0 ())
          ∗ (cred (tallyAt (barCell c) () 1))
          ∗ (cred (tallyAt (recvCell0 c) () Ncr))
          ∗ (cred (tallyAt (recvCell1 c) () Ncr))
          ∗ (cred (tallyAt (recvCell2 c) () Ncr))
          ∗ (cred (tallyAt (recvCell3 c) () Ncr))
          ∗ (cred (tallyAt (recvCell4 c) () Ncr))
          ∗ (cred (tallyAt (recvCell5 c) () Ncr))
          ∗ (cred (tallyAt (recvCell6 c) () Ncr))
          ∗ (cred (tallyAt (recvCell7 c) () Ncr))
          ∗ (owes (c : Thread nD τ) (0 + tallyAt (recvCell7 (peer c)) () Ncr + tallyAt (recvCell6 (peer c)) () Ncr + tallyAt (recvCell5 (peer c)) () Ncr + tallyAt (recvCell4 (peer c)) () Ncr + tallyAt (recvCell3 (peer c)) () Ncr + tallyAt (recvCell2 (peer c)) () Ncr + tallyAt (recvCell1 (peer c)) () Ncr + tallyAt (recvCell0 (peer c)) () Ncr + tallyAt (barCell (peer c)) () 1) W)
          ∗ (levAts L lv)
          ∗ ((qStg : Memref sig .tc .vmem S2x256x8x64 .f32).view.loc (c : Thread nD τ) ↦{fullShare} qstg m ρ c)
          ∗ ((kStg : Memref sig .tc .vmem S2x256x8x64 .f32).view.loc (c : Thread nD τ) ↦{fullShare.right} kstg m ρ c)
          ∗ ((vStg : Memref sig .tc .vmem S2x256x8x64 .f32).view.loc (c : Thread nD τ) ↦{fullShare.right} vstg m ρ c)
          ∗ (sendPay0 m ρ c)
          ∗ (sendPay1 m ρ c)
          ∗ (sendPay2 m ρ c)
          ∗ (sendPay3 m ρ c)
          ∗ (sendPay4 m ρ c)
          ∗ (sendPay5 m ρ c)
          ∗ (sendPay6 m ρ c)
          ∗ (sendPay7 m ρ c)
          ∗ ((oStg : Memref sig .tc .vmem S2x256x8x64 .f32).view.loc (c : Thread nD τ) ↦{fullShare} g3)
          ∗ (slot0 c)
          ∗ (slot1 c)
          ∗ (slot2 c)
          ∗ (slot3 c)
          ∗ (slot4 c)
          ∗ (slot5 c)
          ∗ (slot6 c)
          ∗ (slot7 c)
          ∗ ((Memref.whole cc0_scratch2 : Memref sig .tc .vmem S2x8x256x64 .f32).view.loc (c : Thread nD τ) ↦{fullShare} f2)
          ∗ ((Memref.whole cc0_scratch3 : Memref sig .tc .vmem S2x8x256x64 .f32).view.loc (c : Thread nD τ) ↦{fullShare} f3)
          ∗ ((Memref.whole cc0_scratch4 : Memref sig .tc .vmem S2x8x256x1 .f32).view.loc (c : Thread nD τ) ↦{fullShare} f4))

/-- What it ends with, the result's buffer at out: the input buffers as they were (still in their pieces), the landing
    buffers' blocks holding the partner's rows, the scratch buffers at something, the sixteen own semaphores at zero. -/
def runPost (c : Dev nD) (out : (cc0_stg3_0 : Ref sig .tc).ty.Contents (Elt F)) : sProp 𝕄 :=
  iprop(((qStg : Memref sig .tc .vmem S2x256x8x64 .f32).view.loc (c : Thread nD τ) ↦{fullShare} qstg m ρ c)
    ∗ ((kStg : Memref sig .tc .vmem S2x256x8x64 .f32).view.loc (c : Thread nD τ) ↦{fullShare.right} kstg m ρ c)
    ∗ ((vStg : Memref sig .tc .vmem S2x256x8x64 .f32).view.loc (c : Thread nD τ) ↦{fullShare.right} vstg m ρ c)
    ∗ (sendPay0 m ρ c)
    ∗ (sendPay1 m ρ c)
    ∗ (sendPay2 m ρ c)
    ∗ (sendPay3 m ρ c)
    ∗ (sendPay4 m ρ c)
    ∗ (sendPay5 m ρ c)
    ∗ (sendPay6 m ρ c)
    ∗ (sendPay7 m ρ c)
    ∗ (recvPay0 m ρ c)
    ∗ (recvPay1 m ρ c)
    ∗ (recvPay2 m ρ c)
    ∗ (recvPay3 m ρ c)
    ∗ (recvPay4 m ρ c)
    ∗ (recvPay5 m ρ c)
    ∗ (recvPay6 m ρ c)
    ∗ (recvPay7 m ρ c)
    ∗ ((oStg : Memref sig .tc .vmem S2x256x8x64 .f32).view.loc (c : Thread nD τ) ↦{fullShare} out)
    ∗ (∃ f, (Memref.whole cc0_scratch2 : Memref sig .tc .vmem S2x8x256x64 .f32).view.loc (c : Thread nD τ) ↦{fullShare} f)
    ∗ (∃ f, (Memref.whole cc0_scratch3 : Memref sig .tc .vmem S2x8x256x64 .f32).view.loc (c : Thread nD τ) ↦{fullShare} f)
    ∗ (∃ f, (Memref.whole cc0_scratch4 : Memref sig .tc .vmem S2x8x256x1 .f32).view.loc (c : Thread nD τ) ↦{fullShare} f)
    ∗ (semVal (sendCell0 c) 0 ∗ semVal (sendCell1 c) 0 ∗ semVal (sendCell2 c) 0 ∗ semVal (sendCell3 c) 0 ∗ semVal (sendCell4 c) 0 ∗ semVal (sendCell5 c) 0 ∗ semVal (sendCell6 c) 0 ∗ semVal (sendCell7 c) 0 ∗ semVal (recvCell0 c) 0 ∗ semVal (recvCell1 c) 0 ∗ semVal (recvCell2 c) 0 ∗ semVal (recvCell3 c) 0 ∗ semVal (recvCell4 c) 0 ∗ semVal (recvCell5 c) 0 ∗ semVal (recvCell6 c) 0 ∗ semVal (recvCell7 c) 0)
    ∗ ∃ W', owes (c : Thread nD τ) 0 W')

set_option maxHeartbeats 8000000 in
set_option sl_exec.stepHeartbeats 3000000 in
/-- The body's run: the result's contents, with the proof that from runPre the body runs to its return with runPost. -/
noncomputable def kernelRun (c : Dev nD) :
    { out : (cc0_stg3_0 : Ref sig .tc).ty.Contents (Elt F) //
      ∀ (K : Dev nD × Fin 17 → ℕ) (W : Waits sig Unit)
        (g3 : (cc0_stg3_0 : Ref sig .tc).ty.Contents (Elt F)) (f2 : (cc0_scratch2 : Ref sig .tc).ty.Contents (Elt F))
        (f3 : (cc0_scratch3 : Ref sig .tc).ty.Contents (Elt F)) (f4 : (cc0_scratch4 : Ref sig .tc).ty.Contents (Elt F))
        (Q : PUnit → sProp 𝕄),
        iprop(runPre m ρ K c W g3 f2 f3 f4 ∗ (runPost m ρ c out -∗ Q ⟨⟩))
          ⊢ wp frame (wpE (defs₀ (F := F)) Variants.none c none) Set.univ
              (cc0_body (Memref.whole cc0_stg0_0) (Memref.isWhole_whole _) (Memref.whole cc0_stg1_0) (Memref.isWhole_whole _) (Memref.whole cc0_stg2_0) (Memref.isWhole_whole _)
                (Memref.whole cc0_stg3_0) (Memref.isWhole_whole _) (Memref.whole cc0_scratch0) (Memref.isWhole_whole _) (Memref.whole cc0_scratch1) (Memref.isWhole_whole _)
                (Memref.whole cc0_scratch2) (Memref.isWhole_whole _) (Memref.whole cc0_scratch3) (Memref.isWhole_whole _) (Memref.whole cc0_scratch4) (Memref.isWhole_whole _)
                cc0_scratch5 cc0_scratch6) Q } := by
  refine ⟨?_, fun K W g3 f2 f3 f4 Q => ?run⟩
  case run =>
    unfold runPre runPost
    iintro ⟨⟨#HIbar, #HIs0, #HIs1, #HIs2, #HIs3, #HIs4, #HIs5, #HIs6, #HIs7, #HIr0, #HIr1, #HIr2, #HIr3, #HIr4, #HIr5, #HIr6, #HIr7, #HIbarP, #HIrP0, #HIrP1, #HIrP2, #HIrP3, #HIrP4, #HIrP5, #HIrP6, #HIrP7, HatB, HatS0, HatS1, HatS2, HatS3, HatS4, HatS5, HatS6, HatS7, HatR0, HatR1, HatR2, HatR3, HatR4, HatR5, HatR6, HatR7, #HrBP, #HrS0, #HrS1, #HrS2, #HrS3, #HrS4, #HrS5, #HrS6, #HrS7, #HrR0, #HrR1, #HrR2, #HrR3, #HrR4, #HrR5, #HrR6, #HrR7, HtBP, HtRP0, HtRP1, HtRP2, HtRP3, HtRP4, HtRP5, HtRP6, HtRP7, HtS0, HtS1, HtS2, HtS3, HtS4, HtS5, HtS6, HtS7, HcB, HcR0, HcR1, HcR2, HcR3, HcR4, HcR5, HcR6, HcR7, HO, #Hlev, Hq, Hk, Hv, Hsrc0, Hsrc1, Hsrc2, Hsrc3, Hsrc4, Hsrc5, Hsrc6, Hsrc7, Hout, Hslot0, Hslot1, Hslot2, Hslot3, Hslot4, Hslot5, Hslot6, Hslot7, Hs2, Hs3, Hs4⟩, Hkont⟩
    have hmw := mayWait_bar (F := F) c
    unfold sendPay0 slot0 sendPay1 slot1 sendPay2 slot2 sendPay3 slot3 sendPay4 slot4 sendPay5 slot5 sendPay6 slot6 sendPay7 slot7 recvPay0 recvPay1 recvPay2 recvPay3 recvPay4 recvPay5 recvPay6 recvPay7
    sl_exec (disch := first | exact dev1_eq c | exact dev2_eq c | exact dev3_eq c | exact dev4_eq c | exact dev5_eq c | exact dev6_eq c | exact dev7_eq c | exact dev8_eq c | exact dev9_eq c | simp only [dev1_eq, dev2_eq, dev3_eq, dev4_eq, dev5_eq, dev6_eq, dev7_eq, dev8_eq, dev9_eq])
    iapply (wp_send0 m ρ K c (peer c) rfl HatB_pay1_v _ _) $$ [Hsrc0 HatB_pay1 HO HtS0 HtRP0 HatB_pay9]
    · isplitr; · iexact HIs0
      isplitr; · iexact HIrP0
      isplitl [Hsrc0]; · iexact Hsrc0
      isplitl [HatB_pay1]; · iexact HatB_pay1
      isplitl [HO]; · iexact HO
      isplitl [HtS0]; · iexact HtS0
      isplitr; · iexact HrS0
      isplitl [HtRP0]; · iexact HtRP0
      iexact HatB_pay9
    iintro ⟨HcS0, HO⟩
    sl_exec (disch := first | exact dev1_eq c | exact dev2_eq c | exact dev3_eq c | exact dev4_eq c | exact dev5_eq c | exact dev6_eq c | exact dev7_eq c | exact dev8_eq c | exact dev9_eq c | simp only [dev1_eq, dev2_eq, dev3_eq, dev4_eq, dev5_eq, dev6_eq, dev7_eq, dev8_eq, dev9_eq])
    iapply (wp_send1 m ρ K c (peer c) rfl HatB_pay2_v _ _) $$ [Hsrc1 HatB_pay2 HO HtS1 HtRP1 HatB_pay10]
    · isplitr; · iexact HIs1
      isplitr; · iexact HIrP1
      isplitl [Hsrc1]; · iexact Hsrc1
      isplitl [HatB_pay2]; · iexact HatB_pay2
      isplitl [HO]; · iexact HO
      isplitl [HtS1]; · iexact HtS1
      isplitr; · iexact HrS1
      isplitl [HtRP1]; · iexact HtRP1
      iexact HatB_pay10
    iintro ⟨HcS1, HO⟩
    sl_exec (disch := first | exact dev1_eq c | exact dev2_eq c | exact dev3_eq c | exact dev4_eq c | exact dev5_eq c | exact dev6_eq c | exact dev7_eq c | exact dev8_eq c | exact dev9_eq c | simp only [dev1_eq, dev2_eq, dev3_eq, dev4_eq, dev5_eq, dev6_eq, dev7_eq, dev8_eq, dev9_eq])
    iapply (wp_send2 m ρ K c (peer c) rfl HatB_pay3_v _ _) $$ [Hsrc2 HatB_pay3 HO HtS2 HtRP2 HatB_pay11]
    · isplitr; · iexact HIs2
      isplitr; · iexact HIrP2
      isplitl [Hsrc2]; · iexact Hsrc2
      isplitl [HatB_pay3]; · iexact HatB_pay3
      isplitl [HO]; · iexact HO
      isplitl [HtS2]; · iexact HtS2
      isplitr; · iexact HrS2
      isplitl [HtRP2]; · iexact HtRP2
      iexact HatB_pay11
    iintro ⟨HcS2, HO⟩
    sl_exec (disch := first | exact dev1_eq c | exact dev2_eq c | exact dev3_eq c | exact dev4_eq c | exact dev5_eq c | exact dev6_eq c | exact dev7_eq c | exact dev8_eq c | exact dev9_eq c | simp only [dev1_eq, dev2_eq, dev3_eq, dev4_eq, dev5_eq, dev6_eq, dev7_eq, dev8_eq, dev9_eq])
    iapply (wp_send3 m ρ K c (peer c) rfl HatB_pay4_v _ _) $$ [Hsrc3 HatB_pay4 HO HtS3 HtRP3 HatB_pay12]
    · isplitr; · iexact HIs3
      isplitr; · iexact HIrP3
      isplitl [Hsrc3]; · iexact Hsrc3
      isplitl [HatB_pay4]; · iexact HatB_pay4
      isplitl [HO]; · iexact HO
      isplitl [HtS3]; · iexact HtS3
      isplitr; · iexact HrS3
      isplitl [HtRP3]; · iexact HtRP3
      iexact HatB_pay12
    iintro ⟨HcS3, HO⟩
    sl_exec (disch := first | exact dev1_eq c | exact dev2_eq c | exact dev3_eq c | exact dev4_eq c | exact dev5_eq c | exact dev6_eq c | exact dev7_eq c | exact dev8_eq c | exact dev9_eq c | simp only [dev1_eq, dev2_eq, dev3_eq, dev4_eq, dev5_eq, dev6_eq, dev7_eq, dev8_eq, dev9_eq])
    iapply (wp_send4 m ρ K c (peer c) rfl HatB_pay5_v _ _) $$ [Hsrc4 HatB_pay5 HO HtS4 HtRP4 HatB_pay13]
    · isplitr; · iexact HIs4
      isplitr; · iexact HIrP4
      isplitl [Hsrc4]; · iexact Hsrc4
      isplitl [HatB_pay5]; · iexact HatB_pay5
      isplitl [HO]; · iexact HO
      isplitl [HtS4]; · iexact HtS4
      isplitr; · iexact HrS4
      isplitl [HtRP4]; · iexact HtRP4
      iexact HatB_pay13
    iintro ⟨HcS4, HO⟩
    sl_exec (disch := first | exact dev1_eq c | exact dev2_eq c | exact dev3_eq c | exact dev4_eq c | exact dev5_eq c | exact dev6_eq c | exact dev7_eq c | exact dev8_eq c | exact dev9_eq c | simp only [dev1_eq, dev2_eq, dev3_eq, dev4_eq, dev5_eq, dev6_eq, dev7_eq, dev8_eq, dev9_eq])
    iapply (wp_send5 m ρ K c (peer c) rfl HatB_pay6_v _ _) $$ [Hsrc5 HatB_pay6 HO HtS5 HtRP5 HatB_pay14]
    · isplitr; · iexact HIs5
      isplitr; · iexact HIrP5
      isplitl [Hsrc5]; · iexact Hsrc5
      isplitl [HatB_pay6]; · iexact HatB_pay6
      isplitl [HO]; · iexact HO
      isplitl [HtS5]; · iexact HtS5
      isplitr; · iexact HrS5
      isplitl [HtRP5]; · iexact HtRP5
      iexact HatB_pay14
    iintro ⟨HcS5, HO⟩
    sl_exec (disch := first | exact dev1_eq c | exact dev2_eq c | exact dev3_eq c | exact dev4_eq c | exact dev5_eq c | exact dev6_eq c | exact dev7_eq c | exact dev8_eq c | exact dev9_eq c | simp only [dev1_eq, dev2_eq, dev3_eq, dev4_eq, dev5_eq, dev6_eq, dev7_eq, dev8_eq, dev9_eq])
    iapply (wp_send6 m ρ K c (peer c) rfl HatB_pay7_v _ _) $$ [Hsrc6 HatB_pay7 HO HtS6 HtRP6 HatB_pay15]
    · isplitr; · iexact HIs6
      isplitr; · iexact HIrP6
      isplitl [Hsrc6]; · iexact Hsrc6
      isplitl [HatB_pay7]; · iexact HatB_pay7
      isplitl [HO]; · iexact HO
      isplitl [HtS6]; · iexact HtS6
      isplitr; · iexact HrS6
      isplitl [HtRP6]; · iexact HtRP6
      iexact HatB_pay15
    iintro ⟨HcS6, HO⟩
    sl_exec (disch := first | exact dev1_eq c | exact dev2_eq c | exact dev3_eq c | exact dev4_eq c | exact dev5_eq c | exact dev6_eq c | exact dev7_eq c | exact dev8_eq c | exact dev9_eq c | simp only [dev1_eq, dev2_eq, dev3_eq, dev4_eq, dev5_eq, dev6_eq, dev7_eq, dev8_eq, dev9_eq])
    iapply (wp_send7 m ρ K c (peer c) rfl HatB_pay8_v _ _) $$ [Hsrc7 HatB_pay8 HO HtS7 HtRP7 HatB_pay16]
    · isplitr; · iexact HIs7
      isplitr; · iexact HIrP7
      isplitl [Hsrc7]; · iexact Hsrc7
      isplitl [HatB_pay8]; · iexact HatB_pay8
      isplitl [HO]; · iexact HO
      isplitl [HtS7]; · iexact HtS7
      isplitr; · iexact HrS7
      isplitl [HtRP7]; · iexact HtRP7
      iexact HatB_pay16
    iintro ⟨HcS7, HO⟩
    sl_exec! (disch := first | exact dev1_eq c | exact dev2_eq c | exact dev3_eq c | exact dev4_eq c | exact dev5_eq c | exact dev6_eq c | exact dev7_eq c | exact dev8_eq c | exact dev9_eq c | simp only [dev1_eq, dev2_eq, dev3_eq, dev4_eq, dev5_eq, dev6_eq, dev7_eq, dev8_eq, dev9_eq])
    imod (Rounds.cell_close ER (rd m ρ) (Set.mem_univ (K (c, 1))) (fun h => h) (R := 1) (duties_later m ρ (sendCell0 c))) $$ [HatS0] with HzS0
    · isplitr; · iexact HIs0
      iexact HatS0
    imod (Rounds.cell_close ER (rd m ρ) (Set.mem_univ (K (c, 2))) (fun h => h) (R := 1) (duties_later m ρ (sendCell1 c))) $$ [HatS1] with HzS1
    · isplitr; · iexact HIs1
      iexact HatS1
    imod (Rounds.cell_close ER (rd m ρ) (Set.mem_univ (K (c, 3))) (fun h => h) (R := 1) (duties_later m ρ (sendCell2 c))) $$ [HatS2] with HzS2
    · isplitr; · iexact HIs2
      iexact HatS2
    imod (Rounds.cell_close ER (rd m ρ) (Set.mem_univ (K (c, 4))) (fun h => h) (R := 1) (duties_later m ρ (sendCell3 c))) $$ [HatS3] with HzS3
    · isplitr; · iexact HIs3
      iexact HatS3
    imod (Rounds.cell_close ER (rd m ρ) (Set.mem_univ (K (c, 5))) (fun h => h) (R := 1) (duties_later m ρ (sendCell4 c))) $$ [HatS4] with HzS4
    · isplitr; · iexact HIs4
      iexact HatS4
    imod (Rounds.cell_close ER (rd m ρ) (Set.mem_univ (K (c, 6))) (fun h => h) (R := 1) (duties_later m ρ (sendCell5 c))) $$ [HatS5] with HzS5
    · isplitr; · iexact HIs5
      iexact HatS5
    imod (Rounds.cell_close ER (rd m ρ) (Set.mem_univ (K (c, 7))) (fun h => h) (R := 1) (duties_later m ρ (sendCell6 c))) $$ [HatS6] with HzS6
    · isplitr; · iexact HIs6
      iexact HatS6
    imod (Rounds.cell_close ER (rd m ρ) (Set.mem_univ (K (c, 8))) (fun h => h) (R := 1) (duties_later m ρ (sendCell7 c))) $$ [HatS7] with HzS7
    · isplitr; · iexact HIs7
      iexact HatS7
    imod (Rounds.cell_close ER (rd m ρ) (Set.mem_univ (K (c, 9))) (fun h => h) (R := 1) (duties_later m ρ (recvCell0 c))) $$ [HatR0] with HzR0
    · isplitr; · iexact HIr0
      iexact HatR0
    imod (Rounds.cell_close ER (rd m ρ) (Set.mem_univ (K (c, 10))) (fun h => h) (R := 1) (duties_later m ρ (recvCell1 c))) $$ [HatR1] with HzR1
    · isplitr; · iexact HIr1
      iexact HatR1
    imod (Rounds.cell_close ER (rd m ρ) (Set.mem_univ (K (c, 11))) (fun h => h) (R := 1) (duties_later m ρ (recvCell2 c))) $$ [HatR2] with HzR2
    · isplitr; · iexact HIr2
      iexact HatR2
    imod (Rounds.cell_close ER (rd m ρ) (Set.mem_univ (K (c, 12))) (fun h => h) (R := 1) (duties_later m ρ (recvCell3 c))) $$ [HatR3] with HzR3
    · isplitr; · iexact HIr3
      iexact HatR3
    imod (Rounds.cell_close ER (rd m ρ) (Set.mem_univ (K (c, 13))) (fun h => h) (R := 1) (duties_later m ρ (recvCell4 c))) $$ [HatR4] with HzR4
    · isplitr; · iexact HIr4
      iexact HatR4
    imod (Rounds.cell_close ER (rd m ρ) (Set.mem_univ (K (c, 14))) (fun h => h) (R := 1) (duties_later m ρ (recvCell5 c))) $$ [HatR5] with HzR5
    · isplitr; · iexact HIr5
      iexact HatR5
    imod (Rounds.cell_close ER (rd m ρ) (Set.mem_univ (K (c, 15))) (fun h => h) (R := 1) (duties_later m ρ (recvCell6 c))) $$ [HatR6] with HzR6
    · isplitr; · iexact HIr6
      iexact HatR6
    imod (Rounds.cell_close ER (rd m ρ) (Set.mem_univ (K (c, 16))) (fun h => h) (R := 1) (duties_later m ρ (recvCell7 c))) $$ [HatR7] with HzR7
    · isplitr; · iexact HIr7
      iexact HatR7
    sl_step
    iapply Hkont
    isplitl [Hq]; · iexact Hq
    isplitl [Hk]; · iexact Hk
    isplitl [Hv]; · iexact Hv
    isplitl [HatS0_pay1]; · iexact HatS0_pay1
    isplitl [HatS1_pay1]; · iexact HatS1_pay1
    isplitl [HatS2_pay1]; · iexact HatS2_pay1
    isplitl [HatS3_pay1]; · iexact HatS3_pay1
    isplitl [HatS4_pay1]; · iexact HatS4_pay1
    isplitl [HatS5_pay1]; · iexact HatS5_pay1
    isplitl [HatS6_pay1]; · iexact HatS6_pay1
    isplitl [HatS7_pay1]; · iexact HatS7_pay1
    isplitl [HatR0_pay1]; · iexact HatR0_pay1
    isplitl [HatR1_pay1]; · iexact HatR1_pay1
    isplitl [HatR2_pay1]; · iexact HatR2_pay1
    isplitl [HatR3_pay1]; · iexact HatR3_pay1
    isplitl [HatR4_pay1]; · iexact HatR4_pay1
    isplitl [HatR5_pay1]; · iexact HatR5_pay1
    isplitl [HatR6_pay1]; · iexact HatR6_pay1
    isplitl [HatR7_pay1]; · iexact HatR7_pay1
    isplitl [Hout]; · iexact Hout
    isplitl [Hs2]; · iexists _; iexact Hs2
    isplitl [Hs3]; · iexists _; iexact Hs3
    isplitl [Hs4]; · iexists _; iexact Hs4
    isplitl [HzS0 HzS1 HzS2 HzS3 HzS4 HzS5 HzS6 HzS7 HzR0 HzR1 HzR2 HzR3 HzR4 HzR5 HzR6 HzR7]
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      isplitl [HzS6]; · iexact HzS6
      isplitl [HzS7]; · iexact HzS7
      isplitl [HzR0]; · iexact HzR0
      isplitl [HzR1]; · iexact HzR1
      isplitl [HzR2]; · iexact HzR2
      isplitl [HzR3]; · iexact HzR3
      isplitl [HzR4]; · iexact HzR4
      isplitl [HzR5]; · iexact HzR5
      isplitl [HzR6]; · iexact HzR6
      iexact HzR7
    iexists _; iexact HO

end Cert.Kernel.Hand

end
-- ==== Proof.BitsData.lean ====
/-
  The proof data of the one grid point: what each staging buffer holds after the body, what a device holds between
  launch and body (its share of the exchange's ghost state, its launch credit, its scratch buffers) and after it
  (the scratch buffers and its sixteen semaphores back at zero), and what it owes.
-/
import proofs.«900412_g7700000000000413_dist_agattn_v7x_xyz2x2x2_z_b2_s256_h8_d64_f32_1_alg».proof.Proof.BitsProtocol

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The invariants of the cells device c's body opens: its own seventeen, the partner's barrier cell (its signal) and
    the partner's eight receive cells (its copies). -/
def invs (K : Dev nD × Fin 17 → ℕ) (c : Dev nD) : sProp 𝕄 :=
  iprop(cellInv ER (rd m ρ) (K (c, 0)) (barCell c)
    ∗ cellInv ER (rd m ρ) (K (c, 1)) (sendCell0 c)
    ∗ cellInv ER (rd m ρ) (K (c, 2)) (sendCell1 c)
    ∗ cellInv ER (rd m ρ) (K (c, 3)) (sendCell2 c)
    ∗ cellInv ER (rd m ρ) (K (c, 4)) (sendCell3 c)
    ∗ cellInv ER (rd m ρ) (K (c, 5)) (sendCell4 c)
    ∗ cellInv ER (rd m ρ) (K (c, 6)) (sendCell5 c)
    ∗ cellInv ER (rd m ρ) (K (c, 7)) (sendCell6 c)
    ∗ cellInv ER (rd m ρ) (K (c, 8)) (sendCell7 c)
    ∗ cellInv ER (rd m ρ) (K (c, 9)) (recvCell0 c)
    ∗ cellInv ER (rd m ρ) (K (c, 10)) (recvCell1 c)
    ∗ cellInv ER (rd m ρ) (K (c, 11)) (recvCell2 c)
    ∗ cellInv ER (rd m ρ) (K (c, 12)) (recvCell3 c)
    ∗ cellInv ER (rd m ρ) (K (c, 13)) (recvCell4 c)
    ∗ cellInv ER (rd m ρ) (K (c, 14)) (recvCell5 c)
    ∗ cellInv ER (rd m ρ) (K (c, 15)) (recvCell6 c)
    ∗ cellInv ER (rd m ρ) (K (c, 16)) (recvCell7 c)
    ∗ cellInv ER (rd m ρ) (K (peer c, 0)) (barCell (peer c))
    ∗ cellInv ER (rd m ρ) (K (peer c, 9)) (recvCell0 (peer c))
    ∗ cellInv ER (rd m ρ) (K (peer c, 10)) (recvCell1 (peer c))
    ∗ cellInv ER (rd m ρ) (K (peer c, 11)) (recvCell2 (peer c))
    ∗ cellInv ER (rd m ρ) (K (peer c, 12)) (recvCell3 (peer c))
    ∗ cellInv ER (rd m ρ) (K (peer c, 13)) (recvCell4 (peer c))
    ∗ cellInv ER (rd m ρ) (K (peer c, 14)) (recvCell5 (peer c))
    ∗ cellInv ER (rd m ρ) (K (peer c, 15)) (recvCell6 (peer c))
    ∗ cellInv ER (rd m ρ) (K (peer c, 16)) (recvCell7 (peer c)))

instance invs_persistent (K : Dev nD × Fin 17 → ℕ) (c : Dev nD) : BI.Persistent (invs m ρ K c) := by unfold invs; infer_instance

/-- The exchange's ghost state device c starts from: the invariants; its positions at round 0 of its seventeen cells;
    the reached-marks of the cells it pays and of its own receive cells (which its signal hands the partner); the
    seventeen duty tokens it pays with. -/
def ghost (K : Dev nD × Fin 17 → ℕ) (c : Dev nD) : sProp 𝕄 :=
  iprop(invs m ρ K c
    ∗ atPos ER (barCell c) 0 ∅ 0
    ∗ atPos ER (sendCell0 c) 0 ∅ 0
    ∗ atPos ER (sendCell1 c) 0 ∅ 0
    ∗ atPos ER (sendCell2 c) 0 ∅ 0
    ∗ atPos ER (sendCell3 c) 0 ∅ 0
    ∗ atPos ER (sendCell4 c) 0 ∅ 0
    ∗ atPos ER (sendCell5 c) 0 ∅ 0
    ∗ atPos ER (sendCell6 c) 0 ∅ 0
    ∗ atPos ER (sendCell7 c) 0 ∅ 0
    ∗ atPos ER (recvCell0 c) 0 ∅ 0
    ∗ atPos ER (recvCell1 c) 0 ∅ 0
    ∗ atPos ER (recvCell2 c) 0 ∅ 0
    ∗ atPos ER (recvCell3 c) 0 ∅ 0
    ∗ atPos ER (recvCell4 c) 0 ∅ 0
    ∗ atPos ER (recvCell5 c) 0 ∅ 0
    ∗ atPos ER (recvCell6 c) 0 ∅ 0
    ∗ atPos ER (recvCell7 c) 0 ∅ 0
    ∗ reached ER (barCell (peer c)) 0
    ∗ reached ER (sendCell0 c) 0
    ∗ reached ER (sendCell1 c) 0
    ∗ reached ER (sendCell2 c) 0
    ∗ reached ER (sendCell3 c) 0
    ∗ reached ER (sendCell4 c) 0
    ∗ reached ER (sendCell5 c) 0
    ∗ reached ER (sendCell6 c) 0
    ∗ reached ER (sendCell7 c) 0
    ∗ reached ER (recvCell0 c) 0
    ∗ reached ER (recvCell1 c) 0
    ∗ reached ER (recvCell2 c) 0
    ∗ reached ER (recvCell3 c) 0
    ∗ reached ER (recvCell4 c) 0
    ∗ reached ER (recvCell5 c) 0
    ∗ reached ER (recvCell6 c) 0
    ∗ reached ER (recvCell7 c) 0
    ∗ dutyTok ER (barCell (peer c)) 0 ()
    ∗ dutyTok ER (recvCell0 (peer c)) 0 ()
    ∗ dutyTok ER (recvCell1 (peer c)) 0 ()
    ∗ dutyTok ER (recvCell2 (peer c)) 0 ()
    ∗ dutyTok ER (recvCell3 (peer c)) 0 ()
    ∗ dutyTok ER (recvCell4 (peer c)) 0 ()
    ∗ dutyTok ER (recvCell5 (peer c)) 0 ()
    ∗ dutyTok ER (recvCell6 (peer c)) 0 ()
    ∗ dutyTok ER (recvCell7 (peer c)) 0 ()
    ∗ dutyTok ER (sendCell0 c) 0 ()
    ∗ dutyTok ER (sendCell1 c) 0 ()
    ∗ dutyTok ER (sendCell2 c) 0 ()
    ∗ dutyTok ER (sendCell3 c) 0 ()
    ∗ dutyTok ER (sendCell4 c) 0 ()
    ∗ dutyTok ER (sendCell5 c) 0 ()
    ∗ dutyTok ER (sendCell6 c) 0 ()
    ∗ dutyTok ER (sendCell7 c) 0 ())

/-- Its launch credit: one unit on its barrier cell, one copy's credit on each receive cell. -/
def creds (c : Dev nD) : sProp 𝕄 :=
  iprop(cred (tallyAt (barCell c) () 1) ∗ cred (tallyAt (recvCell0 c) () Ncr) ∗ cred (tallyAt (recvCell1 c) () Ncr) ∗ cred (tallyAt (recvCell2 c) () Ncr) ∗ cred (tallyAt (recvCell3 c) () Ncr) ∗ cred (tallyAt (recvCell4 c) () Ncr) ∗ cred (tallyAt (recvCell5 c) () Ncr) ∗ cred (tallyAt (recvCell6 c) () Ncr) ∗ cred (tallyAt (recvCell7 c) () Ncr))

def start (c : Dev nD) : sProp 𝕄 := iprop((∃ K, ghost m ρ K c) ∗ creds c ∗ levAts L lv)

/-- The five scratch buffers, each whole at some contents. -/
def scratch (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f))

/-- The sixteen own semaphores at zero. -/
def semsZero (c : Dev nD) : sProp 𝕄 :=
  iprop(semVal (sendCell0 c) 0 ∗ semVal (sendCell1 c) 0 ∗ semVal (sendCell2 c) 0 ∗ semVal (sendCell3 c) 0 ∗ semVal (sendCell4 c) 0 ∗ semVal (sendCell5 c) 0 ∗ semVal (sendCell6 c) 0 ∗ semVal (sendCell7 c) 0 ∗ semVal (recvCell0 c) 0 ∗ semVal (recvCell1 c) 0 ∗ semVal (recvCell2 c) 0 ∗ semVal (recvCell3 c) 0 ∗ semVal (recvCell4 c) 0 ∗ semVal (recvCell5 c) 0 ∗ semVal (recvCell6 c) 0 ∗ semVal (recvCell7 c) 0)

def Φ₀ (c : Dev nD) : sProp 𝕄 := iprop(start m ρ c ∗ scratch c)
def Φ₁ (c : Dev nD) : sProp 𝕄 := iprop(scratch c ∗ semsZero c)

/-- The proof data, for any contents `out c` of the result's staging buffer after the body. -/
def dats (out : (c : Dev nD) → (cc0_stg3_0 : Ref sig .tc).ty.Contents (Elt F)) (_ : Fin 1) (c : Dev nD) : Dat τ (Elt F) Unit ℕ UU ℕ cfg0 c where
  A w := (s₀ m ρ).mem ((cfg0.win w).arr.view.loc (c : Thread nD τ))
  after w _ := match w with
    | ⟨0, _⟩ => qstg m ρ c
    | ⟨1, _⟩ => kstg m ρ c
    | ⟨2, _⟩ => vstg m ρ c
    | ⟨3, _⟩ => out c
  Φ t := match t with
    | ⟨0, _⟩ => Φ₀ m ρ c
    | ⟨_ + 1, _⟩ => Φ₁ c
  q _ := fullShare
  owed t := match t with
    | ⟨0, _⟩ => O₀ c
    | ⟨_ + 1, _⟩ => 0

end Cert.Kernel.Hand

end
-- ==== Proof.BitsRows.lean ====
/-
  A buffer of 256 rows (axis 1) is its four blocks of 64 rows: the points-to of the whole buffer, at any share, is
  the four blocks' points-tos, and back.
-/
import proofs.«900412_g7700000000000413_dist_agattn_v7x_xyz2x2x2_z_b2_s256_h8_d64_f32_1_alg».proof.Proof.BitsProtocol

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

/-- Block 0 is the indices whose row lies in [0, 64). -/
theorem mem_rows0 (i : S2x256x8x64.Idx) : i ∈ (rows 0).set ↔ 0 ≤ (i 1 : ℕ) ∧ (i 1 : ℕ) < 64 := by
  rw [Rect.mem_set_unit]
  constructor
  · intro h
    have h1 := h 1
    change 0 ≤ (i 1 : ℕ) ∧ (i 1 : ℕ) < 0 + 64 at h1
    omega
  · intro h a
    have h0 := (i 0).isLt; have h2 := (i 2).isLt; have h3 := (i 3).isLt
    change (i 0 : ℕ) < 2 at h0; change (i 2 : ℕ) < 8 at h2; change (i 3 : ℕ) < 64 at h3
    fin_cases a
    · change 0 ≤ (i 0 : ℕ) ∧ (i 0 : ℕ) < 0 + 2; omega
    · change 0 ≤ (i 1 : ℕ) ∧ (i 1 : ℕ) < 0 + 64; omega
    · change 0 ≤ (i 2 : ℕ) ∧ (i 2 : ℕ) < 0 + 8; omega
    · change 0 ≤ (i 3 : ℕ) ∧ (i 3 : ℕ) < 0 + 64; omega

/-- Block 1 is the indices whose row lies in [64, 128). -/
theorem mem_rows1 (i : S2x256x8x64.Idx) : i ∈ (rows 1).set ↔ 64 ≤ (i 1 : ℕ) ∧ (i 1 : ℕ) < 128 := by
  rw [Rect.mem_set_unit]
  constructor
  · intro h
    have h1 := h 1
    change 64 ≤ (i 1 : ℕ) ∧ (i 1 : ℕ) < 64 + 64 at h1
    omega
  · intro h a
    have h0 := (i 0).isLt; have h2 := (i 2).isLt; have h3 := (i 3).isLt
    change (i 0 : ℕ) < 2 at h0; change (i 2 : ℕ) < 8 at h2; change (i 3 : ℕ) < 64 at h3
    fin_cases a
    · change 0 ≤ (i 0 : ℕ) ∧ (i 0 : ℕ) < 0 + 2; omega
    · change 64 ≤ (i 1 : ℕ) ∧ (i 1 : ℕ) < 64 + 64; omega
    · change 0 ≤ (i 2 : ℕ) ∧ (i 2 : ℕ) < 0 + 8; omega
    · change 0 ≤ (i 3 : ℕ) ∧ (i 3 : ℕ) < 0 + 64; omega

/-- Block 2 is the indices whose row lies in [128, 192). -/
theorem mem_rows2 (i : S2x256x8x64.Idx) : i ∈ (rows 2).set ↔ 128 ≤ (i 1 : ℕ) ∧ (i 1 : ℕ) < 192 := by
  rw [Rect.mem_set_unit]
  constructor
  · intro h
    have h1 := h 1
    change 128 ≤ (i 1 : ℕ) ∧ (i 1 : ℕ) < 128 + 64 at h1
    omega
  · intro h a
    have h0 := (i 0).isLt; have h2 := (i 2).isLt; have h3 := (i 3).isLt
    change (i 0 : ℕ) < 2 at h0; change (i 2 : ℕ) < 8 at h2; change (i 3 : ℕ) < 64 at h3
    fin_cases a
    · change 0 ≤ (i 0 : ℕ) ∧ (i 0 : ℕ) < 0 + 2; omega
    · change 128 ≤ (i 1 : ℕ) ∧ (i 1 : ℕ) < 128 + 64; omega
    · change 0 ≤ (i 2 : ℕ) ∧ (i 2 : ℕ) < 0 + 8; omega
    · change 0 ≤ (i 3 : ℕ) ∧ (i 3 : ℕ) < 0 + 64; omega

/-- Block 3 is the indices whose row lies in [192, 256). -/
theorem mem_rows3 (i : S2x256x8x64.Idx) : i ∈ (rows 3).set ↔ 192 ≤ (i 1 : ℕ) ∧ (i 1 : ℕ) < 256 := by
  rw [Rect.mem_set_unit]
  constructor
  · intro h
    have h1 := h 1
    change 192 ≤ (i 1 : ℕ) ∧ (i 1 : ℕ) < 192 + 64 at h1
    omega
  · intro h a
    have h0 := (i 0).isLt; have h2 := (i 2).isLt; have h3 := (i 3).isLt
    change (i 0 : ℕ) < 2 at h0; change (i 2 : ℕ) < 8 at h2; change (i 3 : ℕ) < 64 at h3
    fin_cases a
    · change 0 ≤ (i 0 : ℕ) ∧ (i 0 : ℕ) < 0 + 2; omega
    · change 192 ≤ (i 1 : ℕ) ∧ (i 1 : ℕ) < 192 + 64; omega
    · change 0 ≤ (i 2 : ℕ) ∧ (i 2 : ℕ) < 0 + 8; omega
    · change 0 ≤ (i 3 : ℕ) ∧ (i 3 : ℕ) < 0 + 64; omega

theorem rows1_sub : (rows 1).set ⊆ Finset.univ \ (rows 0).set := fun i hi => by
  rw [Finset.mem_sdiff, mem_rows0]; rw [mem_rows1] at hi; exact ⟨Finset.mem_univ _, by omega⟩
theorem rows2_sub : (rows 2).set ⊆ (Finset.univ \ (rows 0).set) \ (rows 1).set := fun i hi => by
  rw [Finset.mem_sdiff, Finset.mem_sdiff, mem_rows0, mem_rows1]; rw [mem_rows2] at hi; exact ⟨⟨Finset.mem_univ _, by omega⟩, by omega⟩
theorem rows3_eq : ((Finset.univ \ (rows 0).set) \ (rows 1).set) \ (rows 2).set = (rows 3).set := by
  ext i
  rw [Finset.mem_sdiff, Finset.mem_sdiff, Finset.mem_sdiff, mem_rows0, mem_rows1, mem_rows2, mem_rows3]
  have := (i 1).isLt; change (i 1 : ℕ) < 256 at this
  constructor
  · rintro ⟨⟨⟨-, h0⟩, h1⟩, h2⟩; omega
  · intro h; exact ⟨⟨⟨Finset.mem_univ _, by omega⟩, by omega⟩, by omega⟩

omit [FloatOps F] in
/-- The whole buffer b (256 rows) at share q and contents f is its four blocks of rows at q and f. -/
theorem rows_split (b : Ref sig .tc) (hb : b.ty.shape = S2x256x8x64) (c : Dev nD) (q : PosShare TreeShare)
    (R0 R1 R2 R3 : Finset (Idx ((c : Thread nD τ).loc b))) (h1 : R1 ⊆ Finset.univ \ R0) (h2 : R2 ⊆ (Finset.univ \ R0) \ R1)
    (h3 : ((Finset.univ \ R0) \ R1) \ R2 = R3) (f : Buf (Elt F) ((c : Thread nD τ).loc b)) :
    ((((c : Thread nD τ).loc b) ↦{q} f : sProp 𝕄))
      ⊣⊢ iprop((((c : Thread nD τ).loc b) ↦[R0]{q} f) ∗ (((c : Thread nD τ).loc b) ↦[R1]{q} f) ∗ (((c : Thread nD τ).loc b) ↦[R2]{q} f) ∗ (((c : Thread nD τ).loc b) ↦[R3]{q} f)) := by
  subst h3
  refine (pointsTo_split_subset (Finset.subset_univ R0)).trans ?_
  refine sep_congr_right ?_
  refine (pointsTo_split_subset h1).trans ?_
  refine sep_congr_right ?_
  exact pointsTo_split_subset h2

end Cert.Kernel.Hand

end
-- ==== Proof.BitsObligation.lean ====
/-
  The body's run as the staging pipeline's obligation at the one grid point: K and V are split in two halves by share,
  one half cut into the four blocks of rows the copies read, and the landing buffers cut into the four blocks the
  partner writes, before the body; all are put back together after it.
-/
import proofs.«900412_g7700000000000413_dist_agattn_v7x_xyz2x2x2_z_b2_s256_h8_d64_f32_1_alg».proof.Proof.BitsBodyRun
import proofs.«900412_g7700000000000413_dist_agattn_v7x_xyz2x2x2_z_b2_s256_h8_d64_f32_1_alg».proof.Proof.BitsData
import proofs.«900412_g7700000000000413_dist_agattn_v7x_xyz2x2x2_z_b2_s256_h8_d64_f32_1_alg».proof.Proof.BitsRows

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- What the result's staging buffer holds after the body on device c. -/
def outAt (c : Dev nD) : (cc0_stg3_0 : Ref sig .tc).ty.Contents (Elt F) := (kernelRun m ρ c).1

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The copies' views' element sets are the blocks of rows. -/
theorem set_src0 : (srcM0 : Memref sig .tc .vmem S2x64x8x64 .f32).view.set = (rows 0).set := View.set_slice_whole _ _
theorem set_dst0 : (dstM0 : Memref sig .tc .vmem S2x64x8x64 .f32).view.set = (rows 0).set := View.set_slice_whole _ _
theorem set_src1 : (srcM1 : Memref sig .tc .vmem S2x64x8x64 .f32).view.set = (rows 0).set := View.set_slice_whole _ _
theorem set_dst1 : (dstM1 : Memref sig .tc .vmem S2x64x8x64 .f32).view.set = (rows 0).set := View.set_slice_whole _ _
theorem set_src2 : (srcM2 : Memref sig .tc .vmem S2x64x8x64 .f32).view.set = (rows 1).set := View.set_slice_whole _ _
theorem set_dst2 : (dstM2 : Memref sig .tc .vmem S2x64x8x64 .f32).view.set = (rows 1).set := View.set_slice_whole _ _
theorem set_src3 : (srcM3 : Memref sig .tc .vmem S2x64x8x64 .f32).view.set = (rows 1).set := View.set_slice_whole _ _
theorem set_dst3 : (dstM3 : Memref sig .tc .vmem S2x64x8x64 .f32).view.set = (rows 1).set := View.set_slice_whole _ _
theorem set_src4 : (srcM4 : Memref sig .tc .vmem S2x64x8x64 .f32).view.set = (rows 2).set := View.set_slice_whole _ _
theorem set_dst4 : (dstM4 : Memref sig .tc .vmem S2x64x8x64 .f32).view.set = (rows 2).set := View.set_slice_whole _ _
theorem set_src5 : (srcM5 : Memref sig .tc .vmem S2x64x8x64 .f32).view.set = (rows 2).set := View.set_slice_whole _ _
theorem set_dst5 : (dstM5 : Memref sig .tc .vmem S2x64x8x64 .f32).view.set = (rows 2).set := View.set_slice_whole _ _
theorem set_src6 : (srcM6 : Memref sig .tc .vmem S2x64x8x64 .f32).view.set = (rows 3).set := View.set_slice_whole _ _
theorem set_dst6 : (dstM6 : Memref sig .tc .vmem S2x64x8x64 .f32).view.set = (rows 3).set := View.set_slice_whole _ _
theorem set_src7 : (srcM7 : Memref sig .tc .vmem S2x64x8x64 .f32).view.set = (rows 3).set := View.set_slice_whole _ _
theorem set_dst7 : (dstM7 : Memref sig .tc .vmem S2x64x8x64 .f32).view.set = (rows 3).set := View.set_slice_whole _ _

def bodyPre' (c : Dev nD) : sProp 𝕄 :=
  iprop(Φ₀ m ρ c ∗ (dats m ρ (outAt m ρ) 0 c).owesAt () t₀.castSucc
    ∗ (∃ d, stg c cc0_stg0_0 ((dats m ρ (outAt m ρ) 0 c).before (0 : Fin 4) t₀ d))
    ∗ (∃ d, stg c cc0_stg1_0 ((dats m ρ (outAt m ρ) 0 c).before (1 : Fin 4) t₀ d))
    ∗ (∃ d, stg c cc0_stg2_0 ((dats m ρ (outAt m ρ) 0 c).before (2 : Fin 4) t₀ d))
    ∗ (∃ d, stg c cc0_stg3_0 ((dats m ρ (outAt m ρ) 0 c).before (3 : Fin 4) t₀ d)))

def bodyPost (c : Dev nD) : sProp 𝕄 :=
  iprop(Φ₁ c ∗ (dats m ρ (outAt m ρ) 0 c).owesAt () t₀.succ
    ∗ stg c cc0_stg0_0 (qstg m ρ c) ∗ stg c cc0_stg1_0 (kstg m ρ c) ∗ stg c cc0_stg2_0 (vstg m ρ c) ∗ stg c cc0_stg3_0 (outAt m ρ c))

theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl
theorem fetch_2 (t : Fin cfg0.N) : (cfg0.win (2 : Fin 4)).fetch t = true := by rw [fin_N t]; rfl

set_option maxHeartbeats 4000000 in
set_option maxRecDepth 65536 in
/-- The pipeline's body obligation on device c. -/
theorem body_obligation (c : Dev nD) : BodyObligation (dats (F := F) m ρ (outAt m ρ) 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_scratch0) (Memref.isWhole_whole _) (Memref.whole cc0_scratch1) (Memref.isWhole_whole _)
      (Memref.whole cc0_scratch2) (Memref.isWhole_whole _) (Memref.whole cc0_scratch3) (Memref.isWhole_whole _) (Memref.whole cc0_scratch4) (Memref.isWhole_whole _)
      cc0_scratch5 cc0_scratch6) (fun _ => bodyPost m ρ c)
  unfold bodyPre' Φ₀ start creds scratch
  iintro ⟨⟨⟨⟨%K, Hg⟩, ⟨HcB, HcR0, HcR1, HcR2, HcR3, HcR4, HcR5, HcR6, HcR7⟩, #Hlev⟩, ⟨%f0, Hs0⟩, ⟨%f1, Hs1⟩, ⟨%f2, Hs2⟩, ⟨%f3, Hs3⟩, ⟨%f4, Hs4⟩⟩, Ho, ⟨%d0, %g0, %hg0, Hq⟩, ⟨%d1, %g1, %hg1, Hkf⟩, ⟨%d2, %g2, %hg2, Hvf⟩, ⟨%d3, %g3, %hg3, Hout⟩⟩
  have hq : g0 = qstg m ρ c := by rw [hg0]; unfold Dat.before; rw [if_pos (fetch_0 t₀)]; rfl
  have hk : g1 = kstg m ρ c := by rw [hg1]; unfold Dat.before; rw [if_pos (fetch_1 t₀)]; rfl
  have hv : g2 = vstg m ρ c := by rw [hg2]; unfold Dat.before; rw [if_pos (fetch_2 t₀)]; rfl
  subst hq hk hv
  unfold Dat.owesAt Pipeline.owesWithin
  icases Ho with ⟨%W, %hW, HO⟩
  rw [show (dats m ρ (outAt m ρ) 0 c).owed t₀.castSucc = O₀ c from rfl]
  unfold O₀ O₁ ghost invs
  icases Hg with ⟨⟨#HIbar, #HIs0, #HIs1, #HIs2, #HIs3, #HIs4, #HIs5, #HIs6, #HIs7, #HIr0, #HIr1, #HIr2, #HIr3, #HIr4, #HIr5, #HIr6, #HIr7, #HIbarP, #HIrP0, #HIrP1, #HIrP2, #HIrP3, #HIrP4, #HIrP5, #HIrP6, #HIrP7⟩, HatB, HatS0, HatS1, HatS2, HatS3, HatS4, HatS5, HatS6, HatS7, HatR0, HatR1, HatR2, HatR3, HatR4, HatR5, HatR6, HatR7, #HrBP, #HrS0, #HrS1, #HrS2, #HrS3, #HrS4, #HrS5, #HrS6, #HrS7, #HrR0, #HrR1, #HrR2, #HrR3, #HrR4, #HrR5, #HrR6, #HrR7, HtBP, HtRP0, HtRP1, HtRP2, HtRP3, HtRP4, HtRP5, HtRP6, HtRP7, HtS0, HtS1, HtS2, HtS3, HtS4, HtS5, HtS6, HtS7⟩
  -- K and V: half the share stays whole for the loads, the other half goes by blocks of rows to the copies
  ihave Hk2 := (pointsTo_share (PosShare.mem_left_op_right fullShare)).1 $$ Hkf
  icases Hk2 with ⟨HkL, Hk⟩
  ihave Hv2 := (pointsTo_share (PosShare.mem_left_op_right fullShare)).1 $$ Hvf
  icases Hv2 with ⟨HvL, Hv⟩
  ihave HkR := (rows_split cc0_stg1_0 rfl c fullShare.left (rows 0).set (rows 1).set (rows 2).set (rows 3).set rows1_sub rows2_sub rows3_eq _).1 $$ HkL
  icases HkR with ⟨Hsrc0, Hsrc2, Hsrc4, Hsrc6⟩
  ihave HvR := (rows_split cc0_stg2_0 rfl c fullShare.left (rows 0).set (rows 1).set (rows 2).set (rows 3).set rows1_sub rows2_sub rows3_eq _).1 $$ HvL
  icases HvR with ⟨Hsrc1, Hsrc3, Hsrc5, Hsrc7⟩
  ihave Hs0R := (rows_split cc0_scratch0 rfl c fullShare (rows 0).set (rows 1).set (rows 2).set (rows 3).set rows1_sub rows2_sub rows3_eq f0).1 $$ Hs0
  icases Hs0R with ⟨Hslot0, Hslot2, Hslot4, Hslot6⟩
  ihave Hs1R := (rows_split cc0_scratch1 rfl c fullShare (rows 0).set (rows 1).set (rows 2).set (rows 3).set rows1_sub rows2_sub rows3_eq f1).1 $$ Hs1
  icases Hs1R with ⟨Hslot1, Hslot3, Hslot5, Hslot7⟩
  iapply ((kernelRun m ρ c).2 K W g3 f2 f3 f4 (fun _ => bodyPost m ρ c))
  isplitr []
  · unfold runPre sendPay0 slot0 sendPay1 slot1 sendPay2 slot2 sendPay3 slot3 sendPay4 slot4 sendPay5 slot5 sendPay6 slot6 sendPay7 slot7
    rw [set_src0, set_dst0, set_src1, set_dst1, set_src2, set_dst2, set_src3, set_dst3, set_src4, set_dst4, set_src5, set_dst5, set_src6, set_dst6, set_src7, set_dst7]
    isplitr; · iexact HIbar
    isplitr; · iexact HIs0
    isplitr; · iexact HIs1
    isplitr; · iexact HIs2
    isplitr; · iexact HIs3
    isplitr; · iexact HIs4
    isplitr; · iexact HIs5
    isplitr; · iexact HIs6
    isplitr; · iexact HIs7
    isplitr; · iexact HIr0
    isplitr; · iexact HIr1
    isplitr; · iexact HIr2
    isplitr; · iexact HIr3
    isplitr; · iexact HIr4
    isplitr; · iexact HIr5
    isplitr; · iexact HIr6
    isplitr; · iexact HIr7
    isplitr; · iexact HIbarP
    isplitr; · iexact HIrP0
    isplitr; · iexact HIrP1
    isplitr; · iexact HIrP2
    isplitr; · iexact HIrP3
    isplitr; · iexact HIrP4
    isplitr; · iexact HIrP5
    isplitr; · iexact HIrP6
    isplitr; · iexact HIrP7
    isplitl [HatB]; · iexact HatB
    isplitl [HatS0]; · iexact HatS0
    isplitl [HatS1]; · iexact HatS1
    isplitl [HatS2]; · iexact HatS2
    isplitl [HatS3]; · iexact HatS3
    isplitl [HatS4]; · iexact HatS4
    isplitl [HatS5]; · iexact HatS5
    isplitl [HatS6]; · iexact HatS6
    isplitl [HatS7]; · iexact HatS7
    isplitl [HatR0]; · iexact HatR0
    isplitl [HatR1]; · iexact HatR1
    isplitl [HatR2]; · iexact HatR2
    isplitl [HatR3]; · iexact HatR3
    isplitl [HatR4]; · iexact HatR4
    isplitl [HatR5]; · iexact HatR5
    isplitl [HatR6]; · iexact HatR6
    isplitl [HatR7]; · iexact HatR7
    isplitr; · iexact HrBP
    isplitr; · iexact HrS0
    isplitr; · iexact HrS1
    isplitr; · iexact HrS2
    isplitr; · iexact HrS3
    isplitr; · iexact HrS4
    isplitr; · iexact HrS5
    isplitr; · iexact HrS6
    isplitr; · iexact HrS7
    isplitr; · iexact HrR0
    isplitr; · iexact HrR1
    isplitr; · iexact HrR2
    isplitr; · iexact HrR3
    isplitr; · iexact HrR4
    isplitr; · iexact HrR5
    isplitr; · iexact HrR6
    isplitr; · iexact HrR7
    isplitl [HtBP]; · iexact HtBP
    isplitl [HtRP0]; · iexact HtRP0
    isplitl [HtRP1]; · iexact HtRP1
    isplitl [HtRP2]; · iexact HtRP2
    isplitl [HtRP3]; · iexact HtRP3
    isplitl [HtRP4]; · iexact HtRP4
    isplitl [HtRP5]; · iexact HtRP5
    isplitl [HtRP6]; · iexact HtRP6
    isplitl [HtRP7]; · iexact HtRP7
    isplitl [HtS0]; · iexact HtS0
    isplitl [HtS1]; · iexact HtS1
    isplitl [HtS2]; · iexact HtS2
    isplitl [HtS3]; · iexact HtS3
    isplitl [HtS4]; · iexact HtS4
    isplitl [HtS5]; · iexact HtS5
    isplitl [HtS6]; · iexact HtS6
    isplitl [HtS7]; · iexact HtS7
    isplitl [HcB]; · iexact HcB
    isplitl [HcR0]; · iexact HcR0
    isplitl [HcR1]; · iexact HcR1
    isplitl [HcR2]; · iexact HcR2
    isplitl [HcR3]; · iexact HcR3
    isplitl [HcR4]; · iexact HcR4
    isplitl [HcR5]; · iexact HcR5
    isplitl [HcR6]; · iexact HcR6
    isplitl [HcR7]; · iexact HcR7
    isplitl [HO]; · iexact HO
    isplitr; · iexact Hlev
    isplitl [Hq]; · iexact Hq
    isplitl [Hk]; · iexact Hk
    isplitl [Hv]; · iexact Hv
    isplitl [Hsrc0]; · iexact Hsrc0
    isplitl [Hsrc1]; · iexact Hsrc1
    isplitl [Hsrc2]; · iexact Hsrc2
    isplitl [Hsrc3]; · iexact Hsrc3
    isplitl [Hsrc4]; · iexact Hsrc4
    isplitl [Hsrc5]; · iexact Hsrc5
    isplitl [Hsrc6]; · iexact Hsrc6
    isplitl [Hsrc7]; · iexact Hsrc7
    isplitl [Hout]; · iexact Hout
    isplitl [Hslot0]; · (iexists _; iexact Hslot0)
    isplitl [Hslot1]; · (iexists _; iexact Hslot1)
    isplitl [Hslot2]; · (iexists _; iexact Hslot2)
    isplitl [Hslot3]; · (iexists _; iexact Hslot3)
    isplitl [Hslot4]; · (iexists _; iexact Hslot4)
    isplitl [Hslot5]; · (iexists _; iexact Hslot5)
    isplitl [Hslot6]; · (iexists _; iexact Hslot6)
    isplitl [Hslot7]; · (iexists _; iexact Hslot7)
    isplitl [Hs2]; · iexact Hs2
    isplitl [Hs3]; · iexact Hs3
    iexact Hs4
  · unfold bodyPost
    generalize hout : (kernelRun m ρ c).1 = out
    have e : outAt m ρ c = out := hout
    rw [e]
    unfold runPost sendPay0 recvPay0 sendPay1 recvPay1 sendPay2 recvPay2 sendPay3 recvPay3 sendPay4 recvPay4 sendPay5 recvPay5 sendPay6 recvPay6 sendPay7 recvPay7 klanded vlanded
    rw [set_src0, set_dst0, set_src1, set_dst1, set_src2, set_dst2, set_src3, set_dst3, set_src4, set_dst4, set_src5, set_dst5, set_src6, set_dst6, set_src7, set_dst7]
    iintro ⟨Hq, Hk, Hv, HS0, HS1, HS2, HS3, HS4, HS5, HS6, HS7, HR0, HR1, HR2, HR3, HR4, HR5, HR6, HR7, Hout, ⟨%e2, Hs2⟩, ⟨%e3, Hs3⟩, ⟨%e4, Hs4⟩, Hz, ⟨%W', HO⟩⟩
    ihave HkL := (rows_split cc0_stg1_0 rfl c fullShare.left (rows 0).set (rows 1).set (rows 2).set (rows 3).set rows1_sub rows2_sub rows3_eq (kstg m ρ c)).2 $$ [HS0 HS2 HS4 HS6]
    · isplitl [HS0]; · iexact HS0
      isplitl [HS2]; · iexact HS2
      isplitl [HS4]; · iexact HS4
      iexact HS6
    ihave Hkf := (pointsTo_share (PosShare.mem_left_op_right fullShare)).2 $$ [HkL Hk]
    · isplitl [HkL]; · iexact HkL
      iexact Hk
    ihave HvL := (rows_split cc0_stg2_0 rfl c fullShare.left (rows 0).set (rows 1).set (rows 2).set (rows 3).set rows1_sub rows2_sub rows3_eq (vstg m ρ c)).2 $$ [HS1 HS3 HS5 HS7]
    · isplitl [HS1]; · iexact HS1
      isplitl [HS3]; · iexact HS3
      isplitl [HS5]; · iexact HS5
      iexact HS7
    ihave Hvf := (pointsTo_share (PosShare.mem_left_op_right fullShare)).2 $$ [HvL Hv]
    · isplitl [HvL]; · iexact HvL
      iexact Hv
    ihave Hs0 := (rows_split cc0_scratch0 rfl c fullShare (rows 0).set (rows 1).set (rows 2).set (rows 3).set rows1_sub rows2_sub rows3_eq (kstg m ρ (peer c))).2 $$ [HR0 HR2 HR4 HR6]
    · isplitl [HR0]; · iexact HR0
      isplitl [HR2]; · iexact HR2
      isplitl [HR4]; · iexact HR4
      iexact HR6
    ihave Hs1 := (rows_split cc0_scratch1 rfl c fullShare (rows 0).set (rows 1).set (rows 2).set (rows 3).set rows1_sub rows2_sub rows3_eq (vstg m ρ (peer c))).2 $$ [HR1 HR3 HR5 HR7]
    · isplitl [HR1]; · iexact HR1
      isplitl [HR3]; · iexact HR3
      isplitl [HR5]; · iexact HR5
      iexact HR7
    unfold Φ₁ scratch semsZero Dat.owesAt Pipeline.owesWithin
    rw [show (dats m ρ (outAt m ρ) 0 c).owed t₀.succ = 0 from rfl]
    isplitl [Hs0 Hs1 Hs2 Hs3 Hs4 Hz]
    · isplitl [Hs0 Hs1 Hs2 Hs3 Hs4]
      · isplitl [Hs0]; · (iexists _; iexact Hs0)
        isplitl [Hs1]; · (iexists _; iexact Hs1)
        isplitl [Hs2]; · (iexists _; iexact Hs2)
        isplitl [Hs3]; · (iexists _; iexact Hs3)
        iexists _; iexact Hs4
      · iexact Hz
    isplitl [HO]
    · iexists W'
      isplitr; · (ipureintro; exact fun _ _ => Or.inl trivial)
      iexact HO
    isplitl [Hq]
    · iexists _; isplitr; · (ipureintro; rfl)
      iexact Hq
    isplitl [Hkf]
    · iexists _; isplitr; · (ipureintro; rfl)
      iexact Hkf
    isplitl [Hvf]
    · iexists _; isplitr; · (ipureintro; rfl)
      iexact Hvf
    iexists _; isplitr; · (ipureintro; rfl)
    iexact Hout

end Cert.Kernel.Hand

end
-- ==== Proof.BitsLaunch.lean ====
/-
  The launch of the exchange on the mesh: the ghost state of every device's seventeen cells is allocated in one
  update (a barrier cell's invariant is shared by a device and its partner), the duty tokens of the barrier and
  receive cells are dealt to the partner that pays them, each device is handed its launch credit, and the run of
  @main follows from the body obligation of every device.
-/
import proofs.«900412_g7700000000000413_dist_agattn_v7x_xyz2x2x2_z_b2_s256_h8_d64_f32_1_alg».proof.Proof.BitsData
import Idealize.ShloMosaic.Lib.Pipeline.Launch
import Idealize.ShloMosaic.Lib.Pipeline.Kit
import Idealize.ShloMosaic.Lib.Tactic

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The cells and their tokens -/

theorem ownSemFacts : Pipeline.OwnSemFacts cfg0.spec osem := by decide

theorem share_eq (out : (c : Dev nD) → (cc0_stg3_0 : Ref sig .tc).ty.Contents (Elt F)) (c : Dev nD) (w : Fin cfg0.W) :
    (dats m ρ out 0 c).share w = fullShare := by unfold Dat.share; split <;> rfl

theorem csem_injective : Function.Injective (csem : Fin 17 → SemLoc sig) := by decide

theorem kcell_injective : Function.Injective (kcell : Dev nD × Fin 17 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl

/-- All cells of the exchange: seventeen per device. -/
def xCells : Finset (GSem nD τ sig) := Finset.univ.map ⟨kcell, kcell_injective⟩

/-- A cell's one duty token as minted. -/
abbrev tokOf (ck : Dev nD × Fin 17) : GSem nD τ sig × ℕ × Unit := (kcell ck, 0, ())
theorem tokOf_injective : Function.Injective (tokOf : Dev nD × Fin 17 → GSem nD τ sig × ℕ × Unit) :=
  fun a b h => kcell_injective (congrArg Prod.fst h)
def xToks : Finset (GSem nD τ sig × ℕ × Unit) := Finset.univ.map ⟨tokOf, tokOf_injective⟩

def u₀ : UU :=
  (initOf (Pipeline.cells cfgs cellOf_inj) (Pipeline.launchToks cfgs cellOf_inj), initOf xCells xToks)

/-- The duty tokens of device c's own seventeen cells. -/
def toks (c : Dev nD) : sProp 𝕄 :=
  iprop(dutyTok ER (barCell c) 0 ()
    ∗ dutyTok ER (sendCell0 c) 0 ()
    ∗ dutyTok ER (sendCell1 c) 0 ()
    ∗ dutyTok ER (sendCell2 c) 0 ()
    ∗ dutyTok ER (sendCell3 c) 0 ()
    ∗ dutyTok ER (sendCell4 c) 0 ()
    ∗ dutyTok ER (sendCell5 c) 0 ()
    ∗ dutyTok ER (sendCell6 c) 0 ()
    ∗ dutyTok ER (sendCell7 c) 0 ()
    ∗ dutyTok ER (recvCell0 c) 0 ()
    ∗ dutyTok ER (recvCell1 c) 0 ()
    ∗ dutyTok ER (recvCell2 c) 0 ()
    ∗ dutyTok ER (recvCell3 c) 0 ()
    ∗ dutyTok ER (recvCell4 c) 0 ()
    ∗ dutyTok ER (recvCell5 c) 0 ()
    ∗ dutyTok ER (recvCell6 c) 0 ()
    ∗ dutyTok ER (recvCell7 c) 0 ())

/-- What the launch element deals device c. -/
def G (c : Dev nD) : sProp 𝕄 :=
  iprop((bigSep Finset.univ fun k : Fin 17 => roundState ER (rd m ρ) (kcell (c, k)) 0)
    ∗ (bigSep Finset.univ fun k : Fin 17 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin17 (Φ : Fin 17 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

omit [FloatOps F] in
theorem fund : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 17 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin17]; rfl
  iintro HX
  imod (Rounds.fund ER (rd m ρ) xCells xToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

omit [FloatOps F] in
/-- The sixteen send and receive semaphores are the kernel's own; -/
theorem ownSems0_eq (c : Dev nD) : (Pipeline.ownSems0 (Ix := Unit) (Name := ℕ) (U := UU) (Lvl := ℕ) (Val := Elt F) (τ := τ) osem c : sProp 𝕄)
    = semsZero c := by
  rw [Pipeline.ownSems0_eq_of_list c osem [0, 1, 2, 3, 4, 5, 6, 7, 8, 9, 10, 11, 12, 13, 14, 15] (by decide) (by decide)]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 17 => semVal (kcell (c, k)) 0 : sProp 𝕄) := by
  rw [ownSems0_eq, unscopedSems0_eq, bigSep_fin17]
  unfold semsZero
  iintro ⟨HS, HB⟩
  isplitl [HB]; · iexact HB
  iexact HS

/-! ## The invariants allocated -/

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k : Fin 17 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 17 => semVal (kcell (c, k)) 0) ∗ bigSep Finset.univ fun k : Fin 17 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant at the names it was allocated at, and that every cell has reached round 0. -/
def records (K : Dev nD × Fin 17 → ℕ) : sProp 𝕄 :=
  iprop((bigSep Finset.univ fun ck : Dev nD × Fin 17 => cellInv ER (rd m ρ) (K ck) (kcell ck))
    ∗ bigSep Finset.univ fun ck : Dev nD × Fin 17 => reached ER (kcell ck) 0)

instance records_persistent (K : Dev nD × Fin 17 → ℕ) : BI.Persistent (records m ρ K) := by unfold records; infer_instance

omit [FloatOps F] in
theorem inv_at (K : Dev nD × Fin 17 → ℕ) (ck : Dev nD × Fin 17) :
    (bigSep Finset.univ fun ck : Dev nD × Fin 17 => (cellInv ER (rd m ρ) (K ck) (kcell ck) : sProp 𝕄)) ⊢ cellInv ER (rd m ρ) (K ck) (kcell ck) :=
  bigSep_elim (Finset.mem_univ ck)
omit [FloatOps F] in
theorem reached_at (ck : Dev nD × Fin 17) :
    (bigSep Finset.univ fun ck : Dev nD × Fin 17 => (reached ER (kcell ck) 0 : sProp 𝕄)) ⊢ reached ER (kcell ck) 0 :=
  bigSep_elim (Finset.mem_univ ck)

/-- The tokens of the duties device c pays: its partner's barrier and receive duties, its own send duties. -/
def payToks (c : Dev nD) : sProp 𝕄 :=
  iprop(dutyTok ER (barCell (peer c)) 0 ()
    ∗ dutyTok ER (recvCell0 (peer c)) 0 ()
    ∗ dutyTok ER (recvCell1 (peer c)) 0 ()
    ∗ dutyTok ER (recvCell2 (peer c)) 0 ()
    ∗ dutyTok ER (recvCell3 (peer c)) 0 ()
    ∗ dutyTok ER (recvCell4 (peer c)) 0 ()
    ∗ dutyTok ER (recvCell5 (peer c)) 0 ()
    ∗ dutyTok ER (recvCell6 (peer c)) 0 ()
    ∗ dutyTok ER (recvCell7 (peer c)) 0 ()
    ∗ dutyTok ER (sendCell0 c) 0 ()
    ∗ dutyTok ER (sendCell1 c) 0 ()
    ∗ dutyTok ER (sendCell2 c) 0 ()
    ∗ dutyTok ER (sendCell3 c) 0 ()
    ∗ dutyTok ER (sendCell4 c) 0 ()
    ∗ dutyTok ER (sendCell5 c) 0 ()
    ∗ dutyTok ER (sendCell6 c) 0 ()
    ∗ dutyTok ER (sendCell7 c) 0 ())

/-- What stays with device c: its positions, and the tokens it pays with. -/
def linear (c : Dev nD) : sProp 𝕄 :=
  iprop((atPos ER (barCell c) 0 ∅ 0
      ∗ atPos ER (sendCell0 c) 0 ∅ 0
      ∗ atPos ER (sendCell1 c) 0 ∅ 0
      ∗ atPos ER (sendCell2 c) 0 ∅ 0
      ∗ atPos ER (sendCell3 c) 0 ∅ 0
      ∗ atPos ER (sendCell4 c) 0 ∅ 0
      ∗ atPos ER (sendCell5 c) 0 ∅ 0
      ∗ atPos ER (sendCell6 c) 0 ∅ 0
      ∗ atPos ER (sendCell7 c) 0 ∅ 0
      ∗ atPos ER (recvCell0 c) 0 ∅ 0
      ∗ atPos ER (recvCell1 c) 0 ∅ 0
      ∗ atPos ER (recvCell2 c) 0 ∅ 0
      ∗ atPos ER (recvCell3 c) 0 ∅ 0
      ∗ atPos ER (recvCell4 c) 0 ∅ 0
      ∗ atPos ER (recvCell5 c) 0 ∅ 0
      ∗ atPos ER (recvCell6 c) 0 ∅ 0
      ∗ atPos ER (recvCell7 c) 0 ∅ 0)
    ∗ payToks c)

set_option maxHeartbeats 1600000 in
omit [FloatOps F] in
theorem ghost_intro (K : Dev nD × Fin 17 → ℕ) (c : Dev nD) : iprop(records m ρ K ∗ linear c) ⊢ G' m ρ c := by
  unfold records linear payToks G' ghost invs
  iintro ⟨⟨#HI, #HR⟩, ⟨A0, A1, A2, A3, A4, A5, A6, A7, A8, A9, A10, A11, A12, A13, A14, A15, A16⟩, TB, TR0, TR1, TR2, TR3, TR4, TR5, TR6, TR7, TS0, TS1, TS2, TS3, TS4, TS5, TS6, TS7⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (c, 5)); iexact HI
    isplitr; · iapply (inv_at m ρ K (c, 6)); iexact HI
    isplitr; · iapply (inv_at m ρ K (c, 7)); iexact HI
    isplitr; · iapply (inv_at m ρ K (c, 8)); iexact HI
    isplitr; · iapply (inv_at m ρ K (c, 9)); iexact HI
    isplitr; · iapply (inv_at m ρ K (c, 10)); iexact HI
    isplitr; · iapply (inv_at m ρ K (c, 11)); iexact HI
    isplitr; · iapply (inv_at m ρ K (c, 12)); iexact HI
    isplitr; · iapply (inv_at m ρ K (c, 13)); iexact HI
    isplitr; · iapply (inv_at m ρ K (c, 14)); iexact HI
    isplitr; · iapply (inv_at m ρ K (c, 15)); iexact HI
    isplitr; · iapply (inv_at m ρ K (c, 16)); iexact HI
    isplitr; · iapply (inv_at m ρ K (peer c, 0)); iexact HI
    isplitr; · iapply (inv_at m ρ K (peer c, 9)); iexact HI
    isplitr; · iapply (inv_at m ρ K (peer c, 10)); iexact HI
    isplitr; · iapply (inv_at m ρ K (peer c, 11)); iexact HI
    isplitr; · iapply (inv_at m ρ K (peer c, 12)); iexact HI
    isplitr; · iapply (inv_at m ρ K (peer c, 13)); iexact HI
    isplitr; · iapply (inv_at m ρ K (peer c, 14)); iexact HI
    isplitr; · iapply (inv_at m ρ K (peer c, 15)); iexact HI
    iapply (inv_at m ρ K (peer c, 16)); iexact HI
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitr; · iapply (reached_at (F := F) (peer c, 0)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitr; · iapply (reached_at (F := F) (c, 5)); iexact HR
  isplitr; · iapply (reached_at (F := F) (c, 6)); iexact HR
  isplitr; · iapply (reached_at (F := F) (c, 7)); iexact HR
  isplitr; · iapply (reached_at (F := F) (c, 8)); iexact HR
  isplitr; · iapply (reached_at (F := F) (c, 9)); iexact HR
  isplitr; · iapply (reached_at (F := F) (c, 10)); iexact HR
  isplitr; · iapply (reached_at (F := F) (c, 11)); iexact HR
  isplitr; · iapply (reached_at (F := F) (c, 12)); iexact HR
  isplitr; · iapply (reached_at (F := F) (c, 13)); iexact HR
  isplitr; · iapply (reached_at (F := F) (c, 14)); iexact HR
  isplitr; · iapply (reached_at (F := F) (c, 15)); iexact HR
  isplitr; · iapply (reached_at (F := F) (c, 16)); iexact HR
  isplitl [TB]; · iexact TB
  isplitl [TR0]; · iexact TR0
  isplitl [TR1]; · iexact TR1
  isplitl [TR2]; · iexact TR2
  isplitl [TR3]; · iexact TR3
  isplitl [TR4]; · iexact TR4
  isplitl [TR5]; · iexact TR5
  isplitl [TR6]; · iexact TR6
  isplitl [TR7]; · iexact TR7
  isplitl [TS0]; · iexact TS0
  isplitl [TS1]; · iexact TS1
  isplitl [TS2]; · iexact TS2
  isplitl [TS3]; · iexact TS3
  isplitl [TS4]; · iexact TS4
  isplitl [TS5]; · iexact TS5
  isplitl [TS6]; · iexact TS6
  iexact TS7

omit [FloatOps F] in
/-- The tokens dealt between partners: a device's barrier token and its eight receive tokens go to its partner, its
    send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv swap (fun c : Dev nD => (dutyTok ER (barCell c) 0 () : sProp 𝕄)),
    bigSep_univ_equiv swap (fun c : Dev nD => (dutyTok ER (recvCell0 c) 0 () : sProp 𝕄)),
    bigSep_univ_equiv swap (fun c : Dev nD => (dutyTok ER (recvCell1 c) 0 () : sProp 𝕄)),
    bigSep_univ_equiv swap (fun c : Dev nD => (dutyTok ER (recvCell2 c) 0 () : sProp 𝕄)),
    bigSep_univ_equiv swap (fun c : Dev nD => (dutyTok ER (recvCell3 c) 0 () : sProp 𝕄)),
    bigSep_univ_equiv swap (fun c : Dev nD => (dutyTok ER (recvCell4 c) 0 () : sProp 𝕄)),
    bigSep_univ_equiv swap (fun c : Dev nD => (dutyTok ER (recvCell5 c) 0 () : sProp 𝕄)),
    bigSep_univ_equiv swap (fun c : Dev nD => (dutyTok ER (recvCell6 c) 0 () : sProp 𝕄)),
    bigSep_univ_equiv swap (fun c : Dev nD => (dutyTok ER (recvCell7 c) 0 () : sProp 𝕄))]
  iintro ⟨HB, HS0, HS1, HS2, HS3, HS4, HS5, HS6, HS7, HR0, HR1, HR2, HR3, HR4, HR5, HR6, HR7⟩
  isplitl [HB]; · iexact HB
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iexact HS7

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (rd m ρ) κ (kcell (c, k))))
          ∗ (bigSep Finset.univ fun k : Fin 17 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 17 => iprop(∃ κ : ℕ, cellInv ER (rd m ρ) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 17 => (atPos ER (kcell (c, k)) 0 ∅ 0 : sProp 𝕄)) payToks).symm).trans
      (bigSep_mono fun c _ => show _ ⊢ linear c from Entails.of_eq (by unfold linear; rw [bigSep_fin17])))
    isplitl [Hat]; · iexact Hat
    iexact Htk

omit [FloatOps F] in
/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- Every device owes its partner's barrier cell one unit and each of its partner's receive cells one copy's credit:
    the launch deals each device exactly the credit of its own nine waits. -/
theorem creds_intro (c : Dev nD) : (Pipeline.launchCred O₀ c : sProp 𝕄) ⊢ creds c := by
  show (Pipeline.launchCred (fun d : Dev nD => 0 + tallyAt (recvCell7 (peer d)) () Ncr + tallyAt (recvCell6 (peer d)) () Ncr + tallyAt (recvCell5 (peer d)) () Ncr + tallyAt (recvCell4 (peer d)) () Ncr + tallyAt (recvCell3 (peer d)) () Ncr + tallyAt (recvCell2 (peer d)) () Ncr + tallyAt (recvCell1 (peer d)) () Ncr + tallyAt (recvCell0 (peer d)) () Ncr + tallyAt (barCell (peer d)) () 1) c : sProp 𝕄) ⊢ _
  rw [Pipeline.launchCred_add, Pipeline.launchCred_add, Pipeline.launchCred_add, Pipeline.launchCred_add, Pipeline.launchCred_add,
    Pipeline.launchCred_add, Pipeline.launchCred_add, Pipeline.launchCred_add, Pipeline.launchCred_add, Pipeline.launchCred_zero]
  unfold creds
  iintro ⟨⟨⟨⟨⟨⟨⟨⟨⟨-, H7⟩, H6⟩, H5⟩, H4⟩, H3⟩, H2⟩, H1⟩, H0⟩, HB⟩
  isplitl [HB]; · iapply (Pipeline.launchCred_tallyAt (.reg barS) peer peer peer_peer peer_peer () 1 c); iexact HB
  isplitl [H0]; · iapply (Pipeline.launchCred_tallyAt (.dma recvS0.sem) peer peer peer_peer peer_peer () Ncr c); iexact H0
  isplitl [H1]; · iapply (Pipeline.launchCred_tallyAt (.dma recvS1.sem) peer peer peer_peer peer_peer () Ncr c); iexact H1
  isplitl [H2]; · iapply (Pipeline.launchCred_tallyAt (.dma recvS2.sem) peer peer peer_peer peer_peer () Ncr c); iexact H2
  isplitl [H3]; · iapply (Pipeline.launchCred_tallyAt (.dma recvS3.sem) peer peer peer_peer peer_peer () Ncr c); iexact H3
  isplitl [H4]; · iapply (Pipeline.launchCred_tallyAt (.dma recvS4.sem) peer peer peer_peer peer_peer () Ncr c); iexact H4
  isplitl [H5]; · iapply (Pipeline.launchCred_tallyAt (.dma recvS5.sem) peer peer peer_peer peer_peer () Ncr c); iexact H5
  isplitl [H6]; · iapply (Pipeline.launchCred_tallyAt (.dma recvS6.sem) peer peer peer_peer peer_peer () Ncr c); iexact H6
  iapply (Pipeline.launchCred_tallyAt (.dma recvS7.sem) peer peer peer_peer peer_peer () Ncr c); iexact H7

/-! ## The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (out : (c : Dev nD) → (cc0_stg3_0 : Ref sig .tc).ty.Contents (Elt F)) (c : Dev nD) :
    iprop(start m ρ c ∗ Pipeline.prefHeld Pipeline.Prefetch.none c (fun _ => fullShare.right) (fun k => k.elim0) ∗ Pipeline.scopedRest cfg0.spec c)
      ⊢ (dats m ρ out 0 c).Φ 0 := by
  rw [show (dats m ρ out 0 c).Φ 0 = Φ₀ m ρ c from rfl, scopedRest0_eq]
  unfold Φ₀ scratch
  iintro ⟨Hs, -, Hr⟩
  isplitl [Hs]; · iexact Hs
  iexact Hr

theorem phi1_exit (out : (c : Dev nD) → (cc0_stg3_0 : Ref sig .tc).ty.Contents (Elt F)) (c : Dev nD) :
    (dats m ρ out 0 c).Φ (Fin.last cfg0.N) ⊢ iprop(emp ∗ Pipeline.ownSems0 osem c ∗ Pipeline.scopedRest cfg0.spec c) := by
  rw [show (dats m ρ out 0 c).Φ (Fin.last cfg0.N) = Φ₁ c from rfl, scopedRest0_eq, ownSems0_eq]
  unfold Φ₁ scratch
  iintro ⟨Hr, Hz⟩
  isplitr; · iempintro
  isplitl [Hz]; · iexact Hz
  iexact Hr

theorem waits (out : (c : Dev nD) → (cc0_stg3_0 : Ref sig .tc).ty.Contents (Elt F)) (c : Dev nD) : (levAts L lv : sProp 𝕄) ⊢ Pipeline.cellsWaits cfgs (dats m ρ out) () 0 c :=
  Pipeline.cellsWaits_intro cfgs (dats m ρ out) () 0 c fun w s t =>
    mayWait_stage c _ (by fin_cases w <;> fin_cases s <;> decide) _ (by
      rcases t with ⟨_ | _, ht⟩
      · exact Or.inl rfl
      · exact Or.inr rfl)

/-! ## The run -/

def QC (out : (c : Dev nD) → (cc0_stg3_0 : Ref sig .tc).ty.Contents (Elt F)) : PUnit × MemSt nD τ sig (Elt F) → Prop := fun r =>
  ∀ c : Dev nD, ∀ w : Fin cfg0.W, r.2.mem ((cfg0.win w).arr.view.loc (c : Thread nD τ)) = (dats m ρ out 0 c).arrAt w cfg0.N

set_option maxRecDepth 65536 in
/-- On the compiled mesh of eight devices, for any float values, from any memory with zero counters: if every device's
    body meets its obligation with result contents out, every weakly fair execution of @main terminates, and every
    final state has each device's arrays at the contents the proof data computes. -/
theorem run_main (out : (c : Dev nD) → (cc0_stg3_0 : Ref sig .tc).ty.Contents (Elt F))
    (hbody : ∀ c : Dev nD, BodyObligation (dats (F := F) m ρ out 0 c) (defs₀ (F := F)) 𝒱₀ () Set.univ) :
    θ_run defs (onTc (τ := τ) (main (F := F))) (s₀ m ρ) (QC m ρ out) :=
  Pipeline.θ_run_region_owing_glob_pf (fun p => (cfgs p).toPCfg) (fun p => (cfgs p).toPCfg_adm) (dats m ρ out) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ out)
    (hdistinct := winFacts0.arr_inj)
    (O₀ := O₀) (howed₀ := fun _ => rfl) (howedN := fun _ => rfl)
    (L := L) (lv := lv) (hL := L_of_ne) (hwaits := waits m ρ out)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ out) (hout := phi1_exit m ρ out)
    (QY := fun _ _ => True)
    (hY := fun c s' => by
      iintro ⟨-, -, HSI⟩
      imodintro
      isplitr; · ipureintro; trivial
      iexact HSI)
    (hQ := fun _ h c w => (h c).1 w)

/-- The three argument arrays after the run hold what they held. -/
theorem finalA_in0 (out : (c : Dev nD) → (cc0_stg3_0 : Ref sig .tc).ty.Contents (Elt F)) (c : Dev nD) :
    (dats m ρ out 0 c).arrAt (0 : Fin 4) cfg0.N = (s₀ m ρ).mem (win0_0.arr.view.loc (c : Thread nD τ)) :=
  (dats (F := F) m ρ out 0 c).arrAt_in (0 : Fin 4) rfl _
theorem finalA_in1 (out : (c : Dev nD) → (cc0_stg3_0 : Ref sig .tc).ty.Contents (Elt F)) (c : Dev nD) :
    (dats m ρ out 0 c).arrAt (1 : Fin 4) cfg0.N = (s₀ m ρ).mem (win0_1.arr.view.loc (c : Thread nD τ)) :=
  (dats (F := F) m ρ out 0 c).arrAt_in (1 : Fin 4) rfl _
theorem finalA_in2 (out : (c : Dev nD) → (cc0_stg3_0 : Ref sig .tc).ty.Contents (Elt F)) (c : Dev nD) :
    (dats m ρ out 0 c).arrAt (2 : Fin 4) cfg0.N = (s₀ m ρ).mem (win0_2.arr.view.loc (c : Thread nD τ)) :=
  (dats (F := F) m ρ out 0 c).arrAt_in (2 : Fin 4) rfl _

/-- The run read at the argument arrays: every final state has each device's three argument arrays as launched. -/
theorem run_frame (out : (c : Dev nD) → (cc0_stg3_0 : Ref sig .tc).ty.Contents (Elt F))
    (hbody : ∀ c : Dev nD, BodyObligation (dats (F := F) m ρ out 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c 0).trans (finalA_in0 m ρ out c), (h c 1).trans (finalA_in1 m ρ out c), (h c 2).trans (finalA_in2 m ρ out c)⟩)
    (run_main m ρ out hbody)

/-- info: 'Cert.Kernel.Hand.run_main' depends on axioms: [propext, Classical.choice, Quot.sound] -/
#guard_msgs in #print axioms run_main

/-- info: 'Cert.Kernel.Hand.run_frame' depends on axioms: [propext, Classical.choice, Quot.sound] -/
#guard_msgs in #print axioms run_frame

end Cert.Kernel.Hand

end
-- ==== Proof.BitsFinal.lean ====
/-
  The run read at its ends. The kernel has no grid: each of the four windows has one block, the whole array, at the one
  grid point. So the three input staging buffers hold, during the body, the device's three argument arrays as launched,
  and the result array after the run is the result's staging buffer as the body left it, written back whole. With the
  argument arrays never written, every final state of the run has the arguments as launched.
-/
import proofs.«900412_g7700000000000413_dist_agattn_v7x_xyz2x2x2_z_b2_s256_h8_d64_f32_1_alg».proof.Proof.BitsLaunch

noncomputable section

namespace Cert.Kernel.Hand

open Cert.Kernel Cert.Kernel.Gen
open Idealize.ShloMosaic
open Idealize.ShloMosaic.TcCoe
open Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-- The result array after the one grid point: the staging buffer, written back whole. The one block of the result's
    window is the whole array, the point flushes it, and a write through the whole array on every index leaves the
    payload. -/
theorem finalA_out (out : (c : Dev nD) → (cc0_stg3_0 : Ref sig .tc).ty.Contents (Elt F)) (c : Dev nD) :
    (dats (F := F) m ρ out 0 c).arrAt (3 : Fin 4) cfg0.N = out c := by
  rw [show cfg0.N = (t₀ : Fin cfg0.N).val + 1 from rfl, (dats (F := F) m ρ out 0 c).arrAt_succ (3 : Fin 4) t₀]
  rw [flush0_3 t₀, if_pos rfl]
  have hz : (fun a => (win0_3.index t₀) a * main_v1.ty.shape.size a) = fun _ => 0 := funext fun a => by fin_cases a <;> decide
  exact Memref.write_access_unit_zero_univ (Elt F) main_v1 hz (fun a => by fin_cases a <;> decide) _ (out c)

/-- What the three input staging buffers hold during the body is the device's three argument arrays as launched: each
    window's one block is the whole array. -/
theorem qstg_eq (c : Dev nD) : qstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
theorem kstg_eq (c : Dev nD) : kstg m ρ c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _
theorem vstg_eq (c : Dev nD) : vstg m ρ c = m ((c : Thread nD τ).loc main_arg2) := by
  have hz : (fun a => (win0_2.index (0 : Fin 1)) a * main_arg2.ty.shape.size a) = fun _ => 0 := funext fun a => by fin_cases a <;> decide
  exact Memref.read_access_unit_zero (Elt F) main_arg2 hz (fun a => by fin_cases a <;> decide) _

/-- The run read at the argument arrays, for any result contents the bodies are proved at: every weakly fair execution
    of @main from a memory with zero counters terminates with each device's three argument arrays as launched. -/
theorem frame_of_body
    (out : ((ℓ : Loc nD τ sig) → Buf (Elt F) ℓ) → (Dev nD → PrngReg) → (c : Dev nD) → (cc0_stg3_0 : Ref sig .tc).ty.Contents (Elt F))
    (hbody : ∀ (m : (ℓ : Loc nD τ sig) → Buf (Elt F) ℓ) (ρ : Dev nD → PrngReg) (c : Dev nD),
      BodyObligation (dats (F := F) m ρ (out m ρ) 0 c) (defs₀ (F := F)) 𝒱₀ () Set.univ)
    (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_frame m ρ (out m ρ) (hbody m ρ)

/-- info: 'Cert.Kernel.Hand.finalA_out' depends on axioms: [propext, Classical.choice, Quot.sound] -/
#guard_msgs in #print axioms finalA_out

/-- info: 'Cert.Kernel.Hand.qstg_eq' depends on axioms: [propext, Classical.choice, Quot.sound] -/
#guard_msgs in #print axioms qstg_eq

/-- info: 'Cert.Kernel.Hand.frame_of_body' depends on axioms: [propext, Classical.choice, Quot.sound] -/
#guard_msgs in #print axioms frame_of_body

end Cert.Kernel.Hand

end
-- ==== Proof.Launch.lean ====
/-
  The launch of the exchange on the mesh: the ghost state of every device's seventeen cells is allocated in one
  update (a barrier cell's invariant is shared by a device and its partner), the duty tokens of the barrier and
  receive cells are dealt to the partner that pays them, each device is handed its launch credit, and the run of
  @main follows from the body obligation of every device.
-/
import proofs.«900412_g7700000000000413_dist_agattn_v7x_xyz2x2x2_z_b2_s256_h8_d64_f32_1_alg».proof.Proof.Data
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The cells and their tokens -/

theorem ownSemFacts : Pipeline.OwnSemFacts cfg0.spec osem := by decide

theorem share_eq (out : (c : Dev nD) → (cc0_stg3_0 : Ref sig .tc).ty.Contents (Elt F)) (c : Dev nD) (w : Fin cfg0.W) :
    (dats m ρ out 0 c).share w = fullShare := by unfold Dat.share; split <;> rfl

theorem csem_injective : Function.Injective (csem : Fin 17 → SemLoc sig) := by decide

theorem kcell_injective : Function.Injective (kcell : Dev nD × Fin 17 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl

/-- All cells of the exchange: seventeen per device. -/
def xCells : Finset (GSem nD τ sig) := Finset.univ.map ⟨kcell, kcell_injective⟩

/-- A cell's one duty token as minted. -/
abbrev tokOf (ck : Dev nD × Fin 17) : GSem nD τ sig × ℕ × Unit := (kcell ck, 0, ())
theorem tokOf_injective : Function.Injective (tokOf : Dev nD × Fin 17 → GSem nD τ sig × ℕ × Unit) :=
  fun a b h => kcell_injective (congrArg Prod.fst h)
def xToks : Finset (GSem nD τ sig × ℕ × Unit) := Finset.univ.map ⟨tokOf, tokOf_injective⟩

def u₀ : UU :=
  (initOf (Pipeline.cells cfgs cellOf_inj) (Pipeline.launchToks cfgs cellOf_inj), initOf xCells xToks)

/-- The duty tokens of device c's own seventeen cells. -/
def toks (c : Dev nD) : sProp 𝕄 :=
  iprop(dutyTok ER (barCell c) 0 ()
    ∗ dutyTok ER (sendCell0 c) 0 ()
    ∗ dutyTok ER (sendCell1 c) 0 ()
    ∗ dutyTok ER (sendCell2 c) 0 ()
    ∗ dutyTok ER (sendCell3 c) 0 ()
    ∗ dutyTok ER (sendCell4 c) 0 ()
    ∗ dutyTok ER (sendCell5 c) 0 ()
    ∗ dutyTok ER (sendCell6 c) 0 ()
    ∗ dutyTok ER (sendCell7 c) 0 ()
    ∗ dutyTok ER (recvCell0 c) 0 ()
    ∗ dutyTok ER (recvCell1 c) 0 ()
    ∗ dutyTok ER (recvCell2 c) 0 ()
    ∗ dutyTok ER (recvCell3 c) 0 ()
    ∗ dutyTok ER (recvCell4 c) 0 ()
    ∗ dutyTok ER (recvCell5 c) 0 ()
    ∗ dutyTok ER (recvCell6 c) 0 ()
    ∗ dutyTok ER (recvCell7 c) 0 ())

/-- What the launch element deals device c. -/
def G (c : Dev nD) : sProp 𝕄 :=
  iprop((bigSep Finset.univ fun k : Fin 17 => roundState ER (rd m ρ) (kcell (c, k)) 0)
    ∗ (bigSep Finset.univ fun k : Fin 17 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin17 (Φ : Fin 17 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

omit [FloatOps F] in
theorem fund : BI.own (ER (initOf xCells xToks)) ⊢ (|==> bigSep Finset.univ (G m ρ) : sProp 𝕄) := by
  have hX (Φ : GSem nD τ sig → sProp 𝕄) : bigSep xCells Φ = bigSep Finset.univ fun c : Dev nD => bigSep Finset.univ fun k : Fin 17 => Φ (kcell (c, k)) := by
    unfold xCells; rw [bigSep_map, bigSep_univ_prod]; rfl
  have hT : bigSep xToks (fun x => (dutyTok ER x.1 x.2.1 x.2.2 : sProp 𝕄)) = bigSep Finset.univ fun c : Dev nD => toks c := by
    unfold xToks; rw [bigSep_map, bigSep_univ_prod]
    exact bigSep_congr fun c _ => by unfold toks; rw [bigSep_fin17]; rfl
  iintro HX
  imod (Rounds.fund ER (rd m ρ) xCells xToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

omit [FloatOps F] in
/-- The sixteen send and receive semaphores are the kernel's own; -/
theorem ownSems0_eq (c : Dev nD) : (Pipeline.ownSems0 (Ix := Unit) (Name := ℕ) (U := UU) (Lvl := ℕ) (Val := Elt F) (τ := τ) osem c : sProp 𝕄)
    = semsZero c := by
  rw [Pipeline.ownSems0_eq_of_list c osem [0, 1, 2, 3, 4, 5, 6, 7, 8, 9, 10, 11, 12, 13, 14, 15] (by decide) (by decide)]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 17 => semVal (kcell (c, k)) 0 : sProp 𝕄) := by
  rw [ownSems0_eq, unscopedSems0_eq, bigSep_fin17]
  unfold semsZero
  iintro ⟨HS, HB⟩
  isplitl [HB]; · iexact HB
  iexact HS

/-! ## The invariants allocated -/

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k : Fin 17 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 17 => semVal (kcell (c, k)) 0) ∗ bigSep Finset.univ fun k : Fin 17 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant at the names it was allocated at, and that every cell has reached round 0. -/
def records (K : Dev nD × Fin 17 → ℕ) : sProp 𝕄 :=
  iprop((bigSep Finset.univ fun ck : Dev nD × Fin 17 => cellInv ER (rd m ρ) (K ck) (kcell ck))
    ∗ bigSep Finset.univ fun ck : Dev nD × Fin 17 => reached ER (kcell ck) 0)

instance records_persistent (K : Dev nD × Fin 17 → ℕ) : BI.Persistent (records m ρ K) := by unfold records; infer_instance

omit [FloatOps F] in
theorem inv_at (K : Dev nD × Fin 17 → ℕ) (ck : Dev nD × Fin 17) :
    (bigSep Finset.univ fun ck : Dev nD × Fin 17 => (cellInv ER (rd m ρ) (K ck) (kcell ck) : sProp 𝕄)) ⊢ cellInv ER (rd m ρ) (K ck) (kcell ck) :=
  bigSep_elim (Finset.mem_univ ck)
omit [FloatOps F] in
theorem reached_at (ck : Dev nD × Fin 17) :
    (bigSep Finset.univ fun ck : Dev nD × Fin 17 => (reached ER (kcell ck) 0 : sProp 𝕄)) ⊢ reached ER (kcell ck) 0 :=
  bigSep_elim (Finset.mem_univ ck)

/-- The tokens of the duties device c pays: its partner's barrier and receive duties, its own send duties. -/
def payToks (c : Dev nD) : sProp 𝕄 :=
  iprop(dutyTok ER (barCell (peer c)) 0 ()
    ∗ dutyTok ER (recvCell0 (peer c)) 0 ()
    ∗ dutyTok ER (recvCell1 (peer c)) 0 ()
    ∗ dutyTok ER (recvCell2 (peer c)) 0 ()
    ∗ dutyTok ER (recvCell3 (peer c)) 0 ()
    ∗ dutyTok ER (recvCell4 (peer c)) 0 ()
    ∗ dutyTok ER (recvCell5 (peer c)) 0 ()
    ∗ dutyTok ER (recvCell6 (peer c)) 0 ()
    ∗ dutyTok ER (recvCell7 (peer c)) 0 ()
    ∗ dutyTok ER (sendCell0 c) 0 ()
    ∗ dutyTok ER (sendCell1 c) 0 ()
    ∗ dutyTok ER (sendCell2 c) 0 ()
    ∗ dutyTok ER (sendCell3 c) 0 ()
    ∗ dutyTok ER (sendCell4 c) 0 ()
    ∗ dutyTok ER (sendCell5 c) 0 ()
    ∗ dutyTok ER (sendCell6 c) 0 ()
    ∗ dutyTok ER (sendCell7 c) 0 ())

/-- What stays with device c: its positions, and the tokens it pays with. -/
def linear (c : Dev nD) : sProp 𝕄 :=
  iprop((atPos ER (barCell c) 0 ∅ 0
      ∗ atPos ER (sendCell0 c) 0 ∅ 0
      ∗ atPos ER (sendCell1 c) 0 ∅ 0
      ∗ atPos ER (sendCell2 c) 0 ∅ 0
      ∗ atPos ER (sendCell3 c) 0 ∅ 0
      ∗ atPos ER (sendCell4 c) 0 ∅ 0
      ∗ atPos ER (sendCell5 c) 0 ∅ 0
      ∗ atPos ER (sendCell6 c) 0 ∅ 0
      ∗ atPos ER (sendCell7 c) 0 ∅ 0
      ∗ atPos ER (recvCell0 c) 0 ∅ 0
      ∗ atPos ER (recvCell1 c) 0 ∅ 0
      ∗ atPos ER (recvCell2 c) 0 ∅ 0
      ∗ atPos ER (recvCell3 c) 0 ∅ 0
      ∗ atPos ER (recvCell4 c) 0 ∅ 0
      ∗ atPos ER (recvCell5 c) 0 ∅ 0
      ∗ atPos ER (recvCell6 c) 0 ∅ 0
      ∗ atPos ER (recvCell7 c) 0 ∅ 0)
    ∗ payToks c)

set_option maxHeartbeats 1600000 in
omit [FloatOps F] in
theorem ghost_intro (K : Dev nD × Fin 17 → ℕ) (c : Dev nD) : iprop(records m ρ K ∗ linear c) ⊢ G' m ρ c := by
  unfold records linear payToks G' ghost invs
  iintro ⟨⟨#HI, #HR⟩, ⟨A0, A1, A2, A3, A4, A5, A6, A7, A8, A9, A10, A11, A12, A13, A14, A15, A16⟩, TB, TR0, TR1, TR2, TR3, TR4, TR5, TR6, TR7, TS0, TS1, TS2, TS3, TS4, TS5, TS6, TS7⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (c, 5)); iexact HI
    isplitr; · iapply (inv_at m ρ K (c, 6)); iexact HI
    isplitr; · iapply (inv_at m ρ K (c, 7)); iexact HI
    isplitr; · iapply (inv_at m ρ K (c, 8)); iexact HI
    isplitr; · iapply (inv_at m ρ K (c, 9)); iexact HI
    isplitr; · iapply (inv_at m ρ K (c, 10)); iexact HI
    isplitr; · iapply (inv_at m ρ K (c, 11)); iexact HI
    isplitr; · iapply (inv_at m ρ K (c, 12)); iexact HI
    isplitr; · iapply (inv_at m ρ K (c, 13)); iexact HI
    isplitr; · iapply (inv_at m ρ K (c, 14)); iexact HI
    isplitr; · iapply (inv_at m ρ K (c, 15)); iexact HI
    isplitr; · iapply (inv_at m ρ K (c, 16)); iexact HI
    isplitr; · iapply (inv_at m ρ K (peer c, 0)); iexact HI
    isplitr; · iapply (inv_at m ρ K (peer c, 9)); iexact HI
    isplitr; · iapply (inv_at m ρ K (peer c, 10)); iexact HI
    isplitr; · iapply (inv_at m ρ K (peer c, 11)); iexact HI
    isplitr; · iapply (inv_at m ρ K (peer c, 12)); iexact HI
    isplitr; · iapply (inv_at m ρ K (peer c, 13)); iexact HI
    isplitr; · iapply (inv_at m ρ K (peer c, 14)); iexact HI
    isplitr; · iapply (inv_at m ρ K (peer c, 15)); iexact HI
    iapply (inv_at m ρ K (peer c, 16)); iexact HI
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  isplitl [A15]; · iexact A15
  isplitl [A16]; · iexact A16
  isplitr; · iapply (reached_at (F := F) (peer c, 0)); iexact HR
  isplitr; · iapply (reached_at (F := F) (c, 1)); iexact HR
  isplitr; · iapply (reached_at (F := F) (c, 2)); iexact HR
  isplitr; · iapply (reached_at (F := F) (c, 3)); iexact HR
  isplitr; · iapply (reached_at (F := F) (c, 4)); iexact HR
  isplitr; · iapply (reached_at (F := F) (c, 5)); iexact HR
  isplitr; · iapply (reached_at (F := F) (c, 6)); iexact HR
  isplitr; · iapply (reached_at (F := F) (c, 7)); iexact HR
  isplitr; · iapply (reached_at (F := F) (c, 8)); iexact HR
  isplitr; · iapply (reached_at (F := F) (c, 9)); iexact HR
  isplitr; · iapply (reached_at (F := F) (c, 10)); iexact HR
  isplitr; · iapply (reached_at (F := F) (c, 11)); iexact HR
  isplitr; · iapply (reached_at (F := F) (c, 12)); iexact HR
  isplitr; · iapply (reached_at (F := F) (c, 13)); iexact HR
  isplitr; · iapply (reached_at (F := F) (c, 14)); iexact HR
  isplitr; · iapply (reached_at (F := F) (c, 15)); iexact HR
  isplitr; · iapply (reached_at (F := F) (c, 16)); iexact HR
  isplitl [TB]; · iexact TB
  isplitl [TR0]; · iexact TR0
  isplitl [TR1]; · iexact TR1
  isplitl [TR2]; · iexact TR2
  isplitl [TR3]; · iexact TR3
  isplitl [TR4]; · iexact TR4
  isplitl [TR5]; · iexact TR5
  isplitl [TR6]; · iexact TR6
  isplitl [TR7]; · iexact TR7
  isplitl [TS0]; · iexact TS0
  isplitl [TS1]; · iexact TS1
  isplitl [TS2]; · iexact TS2
  isplitl [TS3]; · iexact TS3
  isplitl [TS4]; · iexact TS4
  isplitl [TS5]; · iexact TS5
  isplitl [TS6]; · iexact TS6
  iexact TS7

omit [FloatOps F] in
/-- The tokens dealt between partners: a device's barrier token and its eight receive tokens go to its partner, its
    send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv swap (fun c : Dev nD => (dutyTok ER (barCell c) 0 () : sProp 𝕄)),
    bigSep_univ_equiv swap (fun c : Dev nD => (dutyTok ER (recvCell0 c) 0 () : sProp 𝕄)),
    bigSep_univ_equiv swap (fun c : Dev nD => (dutyTok ER (recvCell1 c) 0 () : sProp 𝕄)),
    bigSep_univ_equiv swap (fun c : Dev nD => (dutyTok ER (recvCell2 c) 0 () : sProp 𝕄)),
    bigSep_univ_equiv swap (fun c : Dev nD => (dutyTok ER (recvCell3 c) 0 () : sProp 𝕄)),
    bigSep_univ_equiv swap (fun c : Dev nD => (dutyTok ER (recvCell4 c) 0 () : sProp 𝕄)),
    bigSep_univ_equiv swap (fun c : Dev nD => (dutyTok ER (recvCell5 c) 0 () : sProp 𝕄)),
    bigSep_univ_equiv swap (fun c : Dev nD => (dutyTok ER (recvCell6 c) 0 () : sProp 𝕄)),
    bigSep_univ_equiv swap (fun c : Dev nD => (dutyTok ER (recvCell7 c) 0 () : sProp 𝕄))]
  iintro ⟨HB, HS0, HS1, HS2, HS3, HS4, HS5, HS6, HS7, HR0, HR1, HR2, HR3, HR4, HR5, HR6, HR7⟩
  isplitl [HB]; · iexact HB
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iexact HS7

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (rd m ρ) κ (kcell (c, k))))
          ∗ (bigSep Finset.univ fun k : Fin 17 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 17 => iprop(∃ κ : ℕ, cellInv ER (rd m ρ) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 17 => (atPos ER (kcell (c, k)) 0 ∅ 0 : sProp 𝕄)) payToks).symm).trans
      (bigSep_mono fun c _ => show _ ⊢ linear c from Entails.of_eq (by unfold linear; rw [bigSep_fin17])))
    isplitl [Hat]; · iexact Hat
    iexact Htk

omit [FloatOps F] in
/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- Every device owes its partner's barrier cell one unit and each of its partner's receive cells one copy's credit:
    the launch deals each device exactly the credit of its own nine waits. -/
theorem creds_intro (c : Dev nD) : (Pipeline.launchCred O₀ c : sProp 𝕄) ⊢ creds c := by
  show (Pipeline.launchCred (fun d : Dev nD => 0 + tallyAt (recvCell7 (peer d)) () Ncr + tallyAt (recvCell6 (peer d)) () Ncr + tallyAt (recvCell5 (peer d)) () Ncr + tallyAt (recvCell4 (peer d)) () Ncr + tallyAt (recvCell3 (peer d)) () Ncr + tallyAt (recvCell2 (peer d)) () Ncr + tallyAt (recvCell1 (peer d)) () Ncr + tallyAt (recvCell0 (peer d)) () Ncr + tallyAt (barCell (peer d)) () 1) c : sProp 𝕄) ⊢ _
  rw [Pipeline.launchCred_add, Pipeline.launchCred_add, Pipeline.launchCred_add, Pipeline.launchCred_add, Pipeline.launchCred_add,
    Pipeline.launchCred_add, Pipeline.launchCred_add, Pipeline.launchCred_add, Pipeline.launchCred_add, Pipeline.launchCred_zero]
  unfold creds
  iintro ⟨⟨⟨⟨⟨⟨⟨⟨⟨-, H7⟩, H6⟩, H5⟩, H4⟩, H3⟩, H2⟩, H1⟩, H0⟩, HB⟩
  isplitl [HB]; · iapply (Pipeline.launchCred_tallyAt (.reg barS) peer peer peer_peer peer_peer () 1 c); iexact HB
  isplitl [H0]; · iapply (Pipeline.launchCred_tallyAt (.dma recvS0.sem) peer peer peer_peer peer_peer () Ncr c); iexact H0
  isplitl [H1]; · iapply (Pipeline.launchCred_tallyAt (.dma recvS1.sem) peer peer peer_peer peer_peer () Ncr c); iexact H1
  isplitl [H2]; · iapply (Pipeline.launchCred_tallyAt (.dma recvS2.sem) peer peer peer_peer peer_peer () Ncr c); iexact H2
  isplitl [H3]; · iapply (Pipeline.launchCred_tallyAt (.dma recvS3.sem) peer peer peer_peer peer_peer () Ncr c); iexact H3
  isplitl [H4]; · iapply (Pipeline.launchCred_tallyAt (.dma recvS4.sem) peer peer peer_peer peer_peer () Ncr c); iexact H4
  isplitl [H5]; · iapply (Pipeline.launchCred_tallyAt (.dma recvS5.sem) peer peer peer_peer peer_peer () Ncr c); iexact H5
  isplitl [H6]; · iapply (Pipeline.launchCred_tallyAt (.dma recvS6.sem) peer peer peer_peer peer_peer () Ncr c); iexact H6
  iapply (Pipeline.launchCred_tallyAt (.dma recvS7.sem) peer peer peer_peer peer_peer () Ncr c); iexact H7

/-! ## The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (out : (c : Dev nD) → (cc0_stg3_0 : Ref sig .tc).ty.Contents (Elt F)) (c : Dev nD) :
    iprop(start m ρ c ∗ Pipeline.prefHeld Pipeline.Prefetch.none c (fun _ => fullShare.right) (fun k => k.elim0) ∗ Pipeline.scopedRest cfg0.spec c)
      ⊢ (dats m ρ out 0 c).Φ 0 := by
  rw [show (dats m ρ out 0 c).Φ 0 = Φ₀ m ρ c from rfl, scopedRest0_eq]
  unfold Φ₀ scratch
  iintro ⟨Hs, -, Hr⟩
  isplitl [Hs]; · iexact Hs
  iexact Hr

theorem phi1_exit (out : (c : Dev nD) → (cc0_stg3_0 : Ref sig .tc).ty.Contents (Elt F)) (c : Dev nD) :
    (dats m ρ out 0 c).Φ (Fin.last cfg0.N) ⊢ iprop(emp ∗ Pipeline.ownSems0 osem c ∗ Pipeline.scopedRest cfg0.spec c) := by
  rw [show (dats m ρ out 0 c).Φ (Fin.last cfg0.N) = Φ₁ c from rfl, scopedRest0_eq, ownSems0_eq]
  unfold Φ₁ scratch
  iintro ⟨Hr, Hz⟩
  isplitr; · iempintro
  isplitl [Hz]; · iexact Hz
  iexact Hr

theorem waits (out : (c : Dev nD) → (cc0_stg3_0 : Ref sig .tc).ty.Contents (Elt F)) (c : Dev nD) : (levAts L lv : sProp 𝕄) ⊢ Pipeline.cellsWaits cfgs (dats m ρ out) () 0 c :=
  Pipeline.cellsWaits_intro cfgs (dats m ρ out) () 0 c fun w s t =>
    mayWait_stage c _ (by fin_cases w <;> fin_cases s <;> decide) _ (by
      rcases t with ⟨_ | _, ht⟩
      · exact Or.inl rfl
      · exact Or.inr rfl)

/-! ## The run -/

def QC (out : (c : Dev nD) → (cc0_stg3_0 : Ref sig .tc).ty.Contents (Elt F)) : PUnit × MemSt nD τ sig (Elt F) → Prop := fun r =>
  ∀ c : Dev nD, ∀ w : Fin cfg0.W, r.2.mem ((cfg0.win w).arr.view.loc (c : Thread nD τ)) = (dats m ρ out 0 c).arrAt w cfg0.N

set_option maxRecDepth 65536 in
/-- On the compiled mesh of eight devices, for any float values, from any memory with zero counters: if every device's
    body meets its obligation with result contents out, every weakly fair execution of @main terminates, and every
    final state has each device's arrays at the contents the proof data computes. -/
theorem run_main (out : (c : Dev nD) → (cc0_stg3_0 : Ref sig .tc).ty.Contents (Elt F))
    (hbody : ∀ c : Dev nD, BodyObligation (dats (F := F) m ρ out 0 c) (defs₀ (F := F)) 𝒱₀ () Set.univ) :
    θ_run defs (onTc (τ := τ) (main (F := F))) (s₀ m ρ) (QC m ρ out) :=
  Pipeline.θ_run_region_owing_glob_pf (fun p => (cfgs p).toPCfg) (fun p => (cfgs p).toPCfg_adm) (dats m ρ out) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ out)
    (hdistinct := winFacts0.arr_inj)
    (O₀ := O₀) (howed₀ := fun _ => rfl) (howedN := fun _ => rfl)
    (L := L) (lv := lv) (hL := L_of_ne) (hwaits := waits m ρ out)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ out) (hout := phi1_exit m ρ out)
    (QY := fun _ _ => True)
    (hY := fun c s' => by
      iintro ⟨-, -, HSI⟩
      imodintro
      isplitr; · ipureintro; trivial
      iexact HSI)
    (hQ := fun _ h c w => (h c).1 w)

/-- The three argument arrays after the run hold what they held. -/
theorem finalA_in0 (out : (c : Dev nD) → (cc0_stg3_0 : Ref sig .tc).ty.Contents (Elt F)) (c : Dev nD) :
    (dats m ρ out 0 c).arrAt (0 : Fin 4) cfg0.N = (s₀ m ρ).mem (win0_0.arr.view.loc (c : Thread nD τ)) :=
  (dats (F := F) m ρ out 0 c).arrAt_in (0 : Fin 4) rfl _
theorem finalA_in1 (out : (c : Dev nD) → (cc0_stg3_0 : Ref sig .tc).ty.Contents (Elt F)) (c : Dev nD) :
    (dats m ρ out 0 c).arrAt (1 : Fin 4) cfg0.N = (s₀ m ρ).mem (win0_1.arr.view.loc (c : Thread nD τ)) :=
  (dats (F := F) m ρ out 0 c).arrAt_in (1 : Fin 4) rfl _
theorem finalA_in2 (out : (c : Dev nD) → (cc0_stg3_0 : Ref sig .tc).ty.Contents (Elt F)) (c : Dev nD) :
    (dats m ρ out 0 c).arrAt (2 : Fin 4) cfg0.N = (s₀ m ρ).mem (win0_2.arr.view.loc (c : Thread nD τ)) :=
  (dats (F := F) m ρ out 0 c).arrAt_in (2 : Fin 4) rfl _

/-- The run read at the argument arrays: every final state has each device's three argument arrays as launched. -/
theorem run_frame (out : (c : Dev nD) → (cc0_stg3_0 : Ref sig .tc).ty.Contents (Elt F))
    (hbody : ∀ c : Dev nD, BodyObligation (dats (F := F) m ρ out 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c 0).trans (finalA_in0 m ρ out c), (h c 1).trans (finalA_in1 m ρ out c), (h c 2).trans (finalA_in2 m ρ out c)⟩)
    (run_main m ρ out hbody)

/-- info: 'Cert.KernelIdeal.Hand.run_main' depends on axioms: [propext, Classical.choice, Quot.sound] -/
#guard_msgs in #print axioms run_main

/-- info: 'Cert.KernelIdeal.Hand.run_frame' depends on axioms: [propext, Classical.choice, Quot.sound] -/
#guard_msgs in #print axioms run_frame

end Cert.KernelIdeal.Hand

end
-- ==== Proof.Final.lean ====
/-
  The run read at its ends. The kernel has no grid: each of the four windows has one block, the whole array, at the one
  grid point. So the three input staging buffers hold, during the body, the device's three argument arrays as launched,
  and the result array after the run is the result's staging buffer as the body left it, written back whole. With the
  argument arrays never written, every final state of the run has the arguments as launched.
-/
import proofs.«900412_g7700000000000413_dist_agattn_v7x_xyz2x2x2_z_b2_s256_h8_d64_f32_1_alg».proof.Proof.Launch

noncomputable section

namespace Cert.KernelIdeal.Hand

open Cert.KernelIdeal Cert.KernelIdeal.Gen
open Idealize.ShloMosaic
open Idealize.ShloMosaic.TcCoe
open Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-- The result array after the one grid point: the staging buffer, written back whole. The one block of the result's
    window is the whole array, the point flushes it, and a write through the whole array on every index leaves the
    payload. -/
theorem finalA_out (out : (c : Dev nD) → (cc0_stg3_0 : Ref sig .tc).ty.Contents (Elt F)) (c : Dev nD) :
    (dats (F := F) m ρ out 0 c).arrAt (3 : Fin 4) cfg0.N = out c := by
  rw [show cfg0.N = (t₀ : Fin cfg0.N).val + 1 from rfl, (dats (F := F) m ρ out 0 c).arrAt_succ (3 : Fin 4) t₀]
  rw [flush0_3 t₀, if_pos rfl]
  have hz : (fun a => (win0_3.index t₀) a * main_v1.ty.shape.size a) = fun _ => 0 := funext fun a => by fin_cases a <;> decide
  exact Memref.write_access_unit_zero_univ (Elt F) main_v1 hz (fun a => by fin_cases a <;> decide) _ (out c)

/-- What the three input staging buffers hold during the body is the device's three argument arrays as launched: each
    window's one block is the whole array. -/
theorem qstg_eq (c : Dev nD) : qstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
theorem kstg_eq (c : Dev nD) : kstg m ρ c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _
theorem vstg_eq (c : Dev nD) : vstg m ρ c = m ((c : Thread nD τ).loc main_arg2) := by
  have hz : (fun a => (win0_2.index (0 : Fin 1)) a * main_arg2.ty.shape.size a) = fun _ => 0 := funext fun a => by fin_cases a <;> decide
  exact Memref.read_access_unit_zero (Elt F) main_arg2 hz (fun a => by fin_cases a <;> decide) _

/-- The run read at the argument arrays, for any result contents the bodies are proved at: every weakly fair execution
    of @main from a memory with zero counters terminates with each device's three argument arrays as launched. -/
theorem frame_of_body
    (out : ((ℓ : Loc nD τ sig) → Buf (Elt F) ℓ) → (Dev nD → PrngReg) → (c : Dev nD) → (cc0_stg3_0 : Ref sig .tc).ty.Contents (Elt F))
    (hbody : ∀ (m : (ℓ : Loc nD τ sig) → Buf (Elt F) ℓ) (ρ : Dev nD → PrngReg) (c : Dev nD),
      BodyObligation (dats (F := F) m ρ (out m ρ) 0 c) (defs₀ (F := F)) 𝒱₀ () Set.univ)
    (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_frame m ρ (out m ρ) (hbody m ρ)

/-- info: 'Cert.KernelIdeal.Hand.finalA_out' depends on axioms: [propext, Classical.choice, Quot.sound] -/
#guard_msgs in #print axioms finalA_out

/-- info: 'Cert.KernelIdeal.Hand.qstg_eq' depends on axioms: [propext, Classical.choice, Quot.sound] -/
#guard_msgs in #print axioms qstg_eq

/-- info: 'Cert.KernelIdeal.Hand.frame_of_body' depends on axioms: [propext, Classical.choice, Quot.sound] -/
#guard_msgs in #print axioms frame_of_body

end Cert.KernelIdeal.Hand

end
-- ==== Proof.Spec.lean ====
/-
  Scaled dot-product attention over whole arrays, index by index in the extended reals, and the law that brings it
  to the form in which the scale sits inside the scores, the row maximum is gone, and one division follows the sum.

  For queries Q, keys K and values V of shape [batch 2, position 512, head 8, feature 64]:
    score b h q k = (∑ e, Q[b,q,h,e] · K[b,k,h,e]) · c                      c = 1/8
    M b h q       = the maximum over k of score b h q k, folded from -∞
    attn[b,q,h,d] = ∑ k, V[b,k,h,d] · (exp (score k − M) / ∑ j, exp (score j − M)).
  When every entry is a real number, exp (s − M) = exp s / exp M with exp M a positive real, so M cancels between
  numerator and denominator, the scale moves onto Q inside the feature sum, and the quotient by the normaliser
  moves out of the sum over k:
    attn[b,q,h,d] = (∑ k, exp (s' k) · V[b,k,h,d]) · (1 / ∑ k, exp (s' k)),   s' k = ∑ e, (Q[b,q,h,e] · c) · K[b,k,h,e].
-/
import Idealize.ShloMosaic.PureOps.Ideal
import Idealize.ShloMosaic.Lib.ValueIdx

noncomputable section

open scoped BigOperators

namespace Cert.Attn

open Idealize.ShloMosaic Idealize.ShloMosaic.ValueIdx

/-- The arrays' index type: [2, 512, 8, 64]. -/
abbrev Ix : Type := (⟨4, ![2, 512, 8, 64]⟩ : Shape).Idx

/-- The score of query position q against key position k in batch b, head h: the feature dot product, scaled by 1/8. -/
def score (Q K : Ix → EReal) (b : Fin 2) (h : Fin 8) (q k : Fin 512) : EReal :=
  (∑ e : Fin 64, Q (ix4 b q h e) * K (ix4 b k h e)) * Ideal.ofBits .f32 0x3E000000#32

/-- The row maximum of the scores, folded from -∞ over the key positions. -/
def rowMax (Q K : Ix → EReal) (b : Fin 2) (h : Fin 8) (q : Fin 512) : EReal :=
  (Finset.univ : Finset (Fin 512)).fold max (Ideal.ofBits .f32 0xFF800000#32) (fun k => score Q K b h q k)

/-- Attention at batch b, query position q, head h, feature d. -/
def attnAt (Q K V : Ix → EReal) (b : Fin 2) (q : Fin 512) (h : Fin 8) (d : Fin 64) : EReal :=
  ∑ k : Fin 512, V (ix4 b k h d)
    * Ideal.div (Ideal.exp (score Q K b h q k - rowMax Q K b h q)) (∑ j : Fin 512, Ideal.exp (score Q K b h q j - rowMax Q K b h q))

/-- Attention as one array of the three. -/
def attn (Q K V : Ix → EReal) : Ix → EReal := fun i => attnAt Q K V (i 0) (i 1) (i 2) (i 3)

theorem attn_ix4 (Q K V : Ix → EReal) (b : Fin 2) (q : Fin 512) (h : Fin 8) (d : Fin 64) :
    attn Q K V (ix4 b q h d) = attnAt Q K V b q h d := rfl

/-! ## The three words -/

theorem scale_real : Ideal.ofBits .f32 0x3E000000#32 = (((1 : ℝ) / 8 : ℝ) : EReal) := by
  simp [Ideal.ofBits, Ideal.ieee, -EReal.coe_mul]; norm_num
theorem negInf_eq : Ideal.ofBits .f32 0xFF800000#32 = (⊥ : EReal) := by simp [Ideal.ofBits, Ideal.ieee]
theorem one_eq : Ideal.ofBits .f32 0x3F800000#32 = (1 : EReal) := by
  rw [show (1 : EReal) = ((1 : ℝ) : EReal) by norm_cast]
  simp [Ideal.ofBits, Ideal.ieee, -EReal.coe_mul]; norm_num

/-! ## The law over the reals -/

/-- Softmax weights against values: the shift by M cancels, and the division by the normaliser leaves the sum. -/
theorem softmax_real {ι : Type} [Fintype ι] [Nonempty ι] (s v : ι → ℝ) (M : ℝ) :
    ∑ k, v k * (Real.exp (s k - M) * (1 / ∑ j, Real.exp (s j - M))) = (∑ k, Real.exp (s k) * v k) * (1 * (1 / ∑ k, Real.exp (s k))) := by
  have hE : Real.exp M ≠ 0 := (Real.exp_pos M).ne'
  have hA : (∑ j, Real.exp (s j)) ≠ 0 := (Finset.sum_pos (fun j _ => Real.exp_pos (s j)) Finset.univ_nonempty).ne'
  simp only [Real.exp_sub]
  rw [← Finset.sum_div, Finset.sum_mul]
  refine Finset.sum_congr rfl fun k _ => ?_
  field_simp

/-! ## Real sums and maxima inside the extended reals -/

theorem coe_finsum {α : Type} (t : Finset α) (f : α → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem fold_max_coe_aux {ι : Type} [DecidableEq ι] (s : ι → ℝ) (t : Finset ι) :
    (t.fold max (⊥ : EReal) (fun k => (s k : EReal)) = ⊥ ∧ t = ∅) ∨ ∃ r : ℝ, t.fold max (⊥ : EReal) (fun k => (s k : EReal)) = (r : EReal) := by
  induction t using Finset.induction_on with
  | empty => exact Or.inl ⟨Finset.fold_empty, rfl⟩
  | insert a t ha ih =>
    refine Or.inr ?_
    rw [Finset.fold_insert ha]
    rcases ih with ⟨h0, -⟩ | ⟨r, hr⟩
    · exact ⟨s a, by rw [h0]; exact max_eq_left bot_le⟩
    · exact ⟨max (s a) r, by rw [hr]; exact (EReal.coe_strictMono.monotone.map_max).symm⟩

/-- The maximum of finitely many reals (at least one), folded from -∞, is a real. -/
theorem fold_max_coe {ι : Type} [Fintype ι] [Nonempty ι] (s : ι → ℝ) :
    ∃ M : ℝ, (Finset.univ : Finset ι).fold max (⊥ : EReal) (fun k => (s k : EReal)) = (M : EReal) := by
  classical
  rcases fold_max_coe_aux s Finset.univ with ⟨-, h⟩ | h
  · exact absurd h Finset.univ_nonempty.ne_empty
  · exact h

/-! ## The law in the extended reals -/

/-- The law over abstract finite key and feature types, at real entries and a real scale. -/
theorem law_abs {ι ε : Type} [Fintype ι] [Nonempty ι] [Fintype ε] (qv : ε → ℝ) (kv : ι → ε → ℝ) (vv : ι → ℝ) (c : ℝ) :
    (∑ k, (vv k : EReal) * Ideal.div
        (Ideal.exp ((∑ e, (qv e : EReal) * (kv k e : EReal)) * (c : EReal)
          - (Finset.univ : Finset ι).fold max (⊥ : EReal) (fun k' => (∑ e, (qv e : EReal) * (kv k' e : EReal)) * (c : EReal))))
        (∑ j, Ideal.exp ((∑ e, (qv e : EReal) * (kv j e : EReal)) * (c : EReal)
          - (Finset.univ : Finset ι).fold max (⊥ : EReal) (fun k' => (∑ e, (qv e : EReal) * (kv k' e : EReal)) * (c : EReal)))))
      = (∑ k, Ideal.exp (∑ e, ((qv e : EReal) * (c : EReal)) * (kv k e : EReal)) * (vv k : EReal))
          * Ideal.div 1 (∑ k, Ideal.exp (∑ e, ((qv e : EReal) * (c : EReal)) * (kv k e : EReal))) := by
  have hs : ∀ k, (∑ e, (qv e : EReal) * (kv k e : EReal)) * (c : EReal) = (((∑ e, qv e * kv k e) * c : ℝ) : EReal) := fun k => by
    rw [EReal.coe_mul, coe_finsum]; simp only [EReal.coe_mul]
  have hs' : ∀ k, (∑ e, ((qv e : EReal) * (c : EReal)) * (kv k e : EReal)) = (((∑ e, qv e * kv k e) * c : ℝ) : EReal) := fun k => by
    rw [Finset.sum_mul, coe_finsum]
    refine Finset.sum_congr rfl fun e _ => ?_
    rw [← EReal.coe_mul, ← EReal.coe_mul]; exact congrArg _ (by ring)
  simp only [hs, hs']
  obtain ⟨M, hM⟩ := fold_max_coe (fun k => (∑ e, qv e * kv k e) * c)
  rw [hM]
  have hpos : ∀ (f : ι → ℝ), (∑ j, Real.exp (f j)) ≠ 0 := fun f =>
    (Finset.sum_pos (fun j _ => Real.exp_pos (f j)) Finset.univ_nonempty).ne'
  simp only [← EReal.coe_sub, Ideal.exp_coe, ← coe_finsum]
  rw [Ideal.div_coe (hpos _), show (1 : EReal) = ((1 : ℝ) : EReal) from rfl]
  simp only [Ideal.div_coe (hpos _), ← EReal.coe_mul, ← coe_finsum]
  exact congrArg _ (softmax_real _ _ M)

/-- THE LAW. For arrays all of whose entries are reals, attention at (b, q, h, d) is the exponentials of the scores
    (the scale inside the feature sum) against the values, summed over ALL key positions, times the reciprocal of the
    exponentials' sum. -/
theorem attn_law (Q K V : Ix → EReal) (hQ : ∀ i, ∃ r : ℝ, Q i = (r : EReal)) (hK : ∀ i, ∃ r : ℝ, K i = (r : EReal))
    (hV : ∀ i, ∃ r : ℝ, V i = (r : EReal)) (b : Fin 2) (q : Fin 512) (h : Fin 8) (d : Fin 64) :
    attn Q K V (ix4 b q h d)
      = (∑ k : Fin 512, Ideal.exp (∑ e : Fin 64, (Q (ix4 b q h e) * Ideal.ofBits .f32 0x3E000000#32) * K (ix4 b k h e)) * V (ix4 b k h d))
          * Ideal.div (Ideal.ofBits .f32 0x3F800000#32)
              (∑ k : Fin 512, Ideal.exp (∑ e : Fin 64, (Q (ix4 b q h e) * Ideal.ofBits .f32 0x3E000000#32) * K (ix4 b k h e))) := by
  choose qr hqr using hQ
  choose kr hkr using hK
  choose vr hvr using hV
  rw [attn_ix4]
  unfold attnAt rowMax score
  simp only [hqr, hkr, hvr, scale_real, negInf_eq, one_eq]
  exact law_abs (fun e => qr (ix4 b q h e)) (fun k e => kr (ix4 b k h e)) (fun k => vr (ix4 b k h d)) ((1 : ℝ) / 8)

/-- info: 'Cert.Attn.attn_law' depends on axioms: [propext, Classical.choice, Quot.sound] -/
#guard_msgs in #print axioms attn_law

end Cert.Attn

end
-- ==== Proof.DevSpec.lean ====
/-
  One device's share of attention. A device holds positions 256·z … 256·z+255 of the queries, keys and values (z its
  coordinate on the mesh axis the arrays are cut along) and is given its partner's 256 positions of keys and values.
  It scales its queries, takes the exponentials of the scores against its own 256 keys and against the partner's keys
  in four groups of 64, sums the exponentials (the normaliser) and the exponentials against the values (the numerator)
  in that order, and divides once at the end. Because a finite sum may be taken in any order, the two sums are the
  sums over all 512 key positions, and by the law of the specification the quotient is the device's block of attention.
-/
import proofs.«900412_g7700000000000413_dist_agattn_v7x_xyz2x2x2_z_b2_s256_h8_d64_f32_1_alg».proof.Proof.Spec
import Idealize.ShloMosaic.Lib.Layout
import Idealize.ShloMosaic.Lib.ValueIdx

noncomputable section

open scoped BigOperators

namespace Cert.Attn

open Idealize.ShloMosaic Idealize.ShloMosaic.ValueIdx

/-- A device's arrays' index type: [2, 256, 8, 64]. -/
abbrev IxB : Type := (⟨4, ![2, 256, 8, 64]⟩ : Shape).Idx

/-! ## What one device computes -/

/-- The scaled query. -/
def qs (Qc : IxB → EReal) (b : Fin 2) (q : Fin 256) (h : Fin 8) (e : Fin 64) : EReal :=
  Qc (ix4 b q h e) * Ideal.ofBits .f32 0x3E000000#32

/-- The exponential of the score against the device's own key k. -/
def pOwn (Qc Kc : IxB → EReal) (b : Fin 2) (h : Fin 8) (q : Fin 256) (k : Fin 256) : EReal :=
  Ideal.exp (∑ e : Fin 64, qs Qc b q h e * Kc (ix4 b k h e))

/-- Position k' of group j among the partner's 256 positions. -/
def parRow (j : Fin 4) (k' : Fin 64) : Fin 256 := ⟨64 * j.val + k'.val, by have := j.isLt; have := k'.isLt; omega⟩

/-- The exponential of the score against the partner's key k' of group j. -/
def pPar (Qc Kp : IxB → EReal) (b : Fin 2) (h : Fin 8) (q : Fin 256) (j : Fin 4) (k' : Fin 64) : EReal :=
  Ideal.exp (∑ e : Fin 64, qs Qc b q h e * Kp (ix4 b (parRow j k') h e))

/-- The normaliser: the exponentials summed, own keys first, then the partner's four groups. -/
def devL (Qc Kc Kp : IxB → EReal) (b : Fin 2) (h : Fin 8) (q : Fin 256) : EReal :=
  ((((∑ k : Fin 256, pOwn Qc Kc b h q k) + ∑ k' : Fin 64, pPar Qc Kp b h q 0 k') + ∑ k' : Fin 64, pPar Qc Kp b h q 1 k')
    + ∑ k' : Fin 64, pPar Qc Kp b h q 2 k') + ∑ k' : Fin 64, pPar Qc Kp b h q 3 k'

/-- The numerator at feature d: the exponentials against the values, in the same order. -/
def devNum (Qc Kc Vc Kp Vp : IxB → EReal) (b : Fin 2) (h : Fin 8) (q : Fin 256) (d : Fin 64) : EReal :=
  ((((∑ k : Fin 256, pOwn Qc Kc b h q k * Vc (ix4 b k h d)) + ∑ k' : Fin 64, pPar Qc Kp b h q 0 k' * Vp (ix4 b (parRow 0 k') h d))
      + ∑ k' : Fin 64, pPar Qc Kp b h q 1 k' * Vp (ix4 b (parRow 1 k') h d))
    + ∑ k' : Fin 64, pPar Qc Kp b h q 2 k' * Vp (ix4 b (parRow 2 k') h d)) + ∑ k' : Fin 64, pPar Qc Kp b h q 3 k' * Vp (ix4 b (parRow 3 k') h d)

/-- The device's result at (b, q, h, d): the numerator times the reciprocal of the normaliser. -/
def devOutAt (Qc Kc Vc Kp Vp : IxB → EReal) (b : Fin 2) (q : Fin 256) (h : Fin 8) (d : Fin 64) : EReal :=
  devNum Qc Kc Vc Kp Vp b h q d * Ideal.div (Ideal.ofBits .f32 0x3F800000#32) (devL Qc Kc Kp b h q)

/-- The device's result as one array. -/
def devOut (Qc Kc Vc Kp Vp : IxB → EReal) : IxB → EReal := fun i => devOutAt Qc Kc Vc Kp Vp (i 0) (i 1) (i 2) (i 3)

theorem devOut_ix4 (Qc Kc Vc Kp Vp : IxB → EReal) (b : Fin 2) (q : Fin 256) (h : Fin 8) (d : Fin 64) :
    devOut Qc Kc Vc Kp Vp (ix4 b q h d) = devOutAt Qc Kc Vc Kp Vp b q h d := rfl

/-! ## A sum over all 512 positions, taken as the device takes it -/

/-- Position q of the half z. -/
def halfRow (z : Fin 2) (q : Fin 256) : Fin 512 := ⟨256 * z.val + q.val, by have := z.isLt; have := q.isLt; omega⟩

/-- A sum over 256 positions is the four groups' sums, left to right. -/
theorem sum_quarters {M : Type} [AddCommMonoid M] (g : Fin 256 → M) :
    ∑ i : Fin 256, g i = (((∑ k' : Fin 64, g (parRow 0 k')) + ∑ k' : Fin 64, g (parRow 1 k')) + ∑ k' : Fin 64, g (parRow 2 k')) + ∑ k' : Fin 64, g (parRow 3 k') := by
  have e : ∑ i : Fin 256, g i = ∑ i : Fin (64 + 64 + 64 + 64), g i := rfl
  rw [e, Fin.sum_univ_add, Fin.sum_univ_add, Fin.sum_univ_add]
  refine congrArg₂ (· + ·) (congrArg₂ (· + ·) (congrArg₂ (· + ·) ?_ ?_) ?_) ?_ <;>
    exact Finset.sum_congr rfl fun k' _ => congrArg g (Fin.ext (by simp [parRow] <;> omega))

/-- A sum over 512 positions is the lower half's plus the upper half's. -/
theorem sum_halves {M : Type} [AddCommMonoid M] (f : Fin 512 → M) :
    ∑ i : Fin 512, f i = (∑ k : Fin 256, f (halfRow 0 k)) + ∑ k : Fin 256, f (halfRow 1 k) := by
  have e : ∑ i : Fin 512, f i = ∑ i : Fin (256 + 256), f i := rfl
  rw [e, Fin.sum_univ_add]
  refine congrArg₂ (· + ·) ?_ ?_ <;>
    exact Finset.sum_congr rfl fun k _ => congrArg f (Fin.ext (by simp [halfRow] <;> omega))

/-- The sum over all 512 positions in the device's order: its own half z, then the other half's four groups. -/
theorem sum_split {M : Type} [AddCommMonoid M] (f : Fin 512 → M) (z zp : Fin 2) (hz : zp.val = 1 - z.val) :
    ∑ i : Fin 512, f i
      = ((((∑ k : Fin 256, f (halfRow z k)) + ∑ k' : Fin 64, f (halfRow zp (parRow 0 k'))) + ∑ k' : Fin 64, f (halfRow zp (parRow 1 k')))
          + ∑ k' : Fin 64, f (halfRow zp (parRow 2 k'))) + ∑ k' : Fin 64, f (halfRow zp (parRow 3 k')) := by
  rw [sum_halves f]
  have hq := fun y : Fin 2 => sum_quarters (fun i => f (halfRow y i))
  obtain ⟨z, hzlt⟩ := z
  obtain ⟨zp, hzplt⟩ := zp
  simp only at hz
  interval_cases z
  · obtain rfl : zp = 1 := by omega
    rw [hq 1]
    simp only [add_assoc]
    rfl
  · obtain rfl : zp = 0 := by omega
    rw [hq 0, add_comm]
    simp only [add_assoc]
    rfl

/-! ## A device's block of a whole array -/

/-- The coordinate of device c on the mesh axis the arrays are cut along. -/
def zOf (c : Fin 8) : Fin 2 := ⟨c.val % 2, Nat.mod_lt _ (by decide)⟩

/-- Device c's block of a whole array reads the array at position 256·z + q. -/
theorem block_at {α : Type} (c : Fin 8) (X : Ix → α) (b : Fin 2) (q : Fin 256) (h : Fin 8) (d : Fin 64) :
    (Layout.blockN ⟨4, ![2, 256, 8, 64]⟩ ⟨4, ![2, 512, 8, 64]⟩ (Layout.meshBlock [2, 2, 2] ![[], [2], [], []] c) X) (ix4 b q h d)
      = X (ix4 b (halfRow (zOf c) q) h d) := by
  rw [Layout.blockN_apply]
  refine congrArg X (funext fun a => Fin.ext ?_)
  rw [Layout.TilesN.idx_val]
  match a with
  | ⟨0, _⟩ => show 0 * 2 + b.val = b.val; omega
  | ⟨1, _⟩ => show (c.val / 1 % 2 * 1 + 0) * 256 + q.val = 256 * (c.val % 2) + q.val; omega
  | ⟨2, _⟩ => show 0 * 8 + h.val = h.val; omega
  | ⟨3, _⟩ => show 0 * 64 + d.val = d.val; omega

/-! ## The device's result is its block of attention -/

/-- For whole arrays of real entries, device c (coordinate z on the cut axis) given the blocks of its partner p (the
    other coordinate) computes its block of attention. -/
theorem devOut_eq_block (Q K V : Ix → EReal) (hQ : ∀ i, ∃ r : ℝ, Q i = (r : EReal)) (hK : ∀ i, ∃ r : ℝ, K i = (r : EReal))
    (hV : ∀ i, ∃ r : ℝ, V i = (r : EReal)) (c p : Fin 8) (hp : p.val % 2 = 1 - c.val % 2) :
    devOut
        (Layout.blockN ⟨4, ![2, 256, 8, 64]⟩ ⟨4, ![2, 512, 8, 64]⟩ (Layout.meshBlock [2, 2, 2] ![[], [2], [], []] c) Q)
        (Layout.blockN ⟨4, ![2, 256, 8, 64]⟩ ⟨4, ![2, 512, 8, 64]⟩ (Layout.meshBlock [2, 2, 2] ![[], [2], [], []] c) K)
        (Layout.blockN ⟨4, ![2, 256, 8, 64]⟩ ⟨4, ![2, 512, 8, 64]⟩ (Layout.meshBlock [2, 2, 2] ![[], [2], [], []] c) V)
        (Layout.blockN ⟨4, ![2, 256, 8, 64]⟩ ⟨4, ![2, 512, 8, 64]⟩ (Layout.meshBlock [2, 2, 2] ![[], [2], [], []] p) K)
        (Layout.blockN ⟨4, ![2, 256, 8, 64]⟩ ⟨4, ![2, 512, 8, 64]⟩ (Layout.meshBlock [2, 2, 2] ![[], [2], [], []] p) V)
      = Layout.blockN ⟨4, ![2, 256, 8, 64]⟩ ⟨4, ![2, 512, 8, 64]⟩ (Layout.meshBlock [2, 2, 2] ![[], [2], [], []] c) (attn Q K V) := by
  funext i
  obtain ⟨b, q, h, d, rfl⟩ : ∃ (b : Fin 2) (q : Fin 256) (h : Fin 8) (d : Fin 64), i = ix4 b q h d := ⟨i 0, i 1, i 2, i 3, eq_ix4 i⟩
  rw [devOut_ix4, block_at c (attn Q K V), attn_law Q K V hQ hK hV]
  unfold devOutAt devNum devL pOwn pPar qs
  simp only [block_at]
  have hz : (zOf p).val = 1 - (zOf c).val := hp
  refine congrArg₂ (fun x y => x * Ideal.div (Ideal.ofBits .f32 0x3F800000#32) y) ?_ ?_
  · exact (sum_split (fun kk : Fin 512 =>
      Ideal.exp (∑ e : Fin 64, (Q (ix4 b (halfRow (zOf c) q) h e) * Ideal.ofBits .f32 0x3E000000#32) * K (ix4 b kk h e)) * V (ix4 b kk h d))
      (zOf c) (zOf p) hz).symm
  · exact (sum_split (fun kk : Fin 512 =>
      Ideal.exp (∑ e : Fin 64, (Q (ix4 b (halfRow (zOf c) q) h e) * Ideal.ofBits .f32 0x3E000000#32) * K (ix4 b kk h e)))
      (zOf c) (zOf p) hz).symm

/-- The partner of device c in closed form: the device that differs from c in its coordinate on the cut axis only. -/
def partner (c : Fin 8) : Fin 8 :=
  ⟨(4 * (c.val / 4) + 2 * ((c.val / 2) % 2) + 1) - (c.val % 2), by have := c.isLt; omega⟩

theorem partner_z (c : Fin 8) : (partner c).val % 2 = 1 - c.val % 2 := by
  have := c.isLt; unfold partner; simp only; omega

/-- The theorem at the partner in closed form. -/
theorem devOut_eq_block_partner (Q K V : Ix → EReal) (hQ : ∀ i, ∃ r : ℝ, Q i = (r : EReal)) (hK : ∀ i, ∃ r : ℝ, K i = (r : EReal))
    (hV : ∀ i, ∃ r : ℝ, V i = (r : EReal)) (c p : Fin 8) (hp : p.val = (4 * (c.val / 4) + 2 * ((c.val / 2) % 2) + 1) - (c.val % 2)) :
    devOut
        (Layout.blockN ⟨4, ![2, 256, 8, 64]⟩ ⟨4, ![2, 512, 8, 64]⟩ (Layout.meshBlock [2, 2, 2] ![[], [2], [], []] c) Q)
        (Layout.blockN ⟨4, ![2, 256, 8, 64]⟩ ⟨4, ![2, 512, 8, 64]⟩ (Layout.meshBlock [2, 2, 2] ![[], [2], [], []] c) K)
        (Layout.blockN ⟨4, ![2, 256, 8, 64]⟩ ⟨4, ![2, 512, 8, 64]⟩ (Layout.meshBlock [2, 2, 2] ![[], [2], [], []] c) V)
        (Layout.blockN ⟨4, ![2, 256, 8, 64]⟩ ⟨4, ![2, 512, 8, 64]⟩ (Layout.meshBlock [2, 2, 2] ![[], [2], [], []] p) K)
        (Layout.blockN ⟨4, ![2, 256, 8, 64]⟩ ⟨4, ![2, 512, 8, 64]⟩ (Layout.meshBlock [2, 2, 2] ![[], [2], [], []] p) V)
      = Layout.blockN ⟨4, ![2, 256, 8, 64]⟩ ⟨4, ![2, 512, 8, 64]⟩ (Layout.meshBlock [2, 2, 2] ![[], [2], [], []] c) (attn Q K V) :=
  devOut_eq_block Q K V hQ hK hV c p (by have := c.isLt; rw [hp]; omega)

/-- info: 'Cert.Attn.devOut_eq_block' depends on axioms: [propext, Classical.choice, Quot.sound] -/
#guard_msgs in #print axioms devOut_eq_block

end Cert.Attn

end
-- ==== Proof.Finite.lean ====
/-
  Finiteness of the whole arrays. Each device's precondition says that every entry of its three blocks has absolute
  value below +∞; each device's block is the block of the reference's whole array that its mesh coordinates name;
  and every whole-array index lies in the block of device 0 (positions 0 … 255 along axis 1) or of device 1
  (positions 256 … 511). So every entry of the reference's three argument arrays is a real number.
-/
import proofs.«900412_g7700000000000413_dist_agattn_v7x_xyz2x2x2_z_b2_s256_h8_d64_f32_1_alg».proof.Defs
import Idealize.ShloMosaic.Lib.ReduceAll
import Idealize.ShloMosaic.Lib.ValueIdx

noncomputable section

namespace Cert.AttnFinite

open Idealize.ShloMosaic Idealize.ShloMosaic.ValueIdx Idealize.SL.Sem

abbrev SB : Shape := ⟨4, ![2, 256, 8, 64]⟩
abbrev SW : Shape := ⟨4, ![2, 512, 8, 64]⟩

/-- An extended real whose absolute value compares below +∞ is a real. -/
theorem real_of_abs_lt_inf (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- A block of which the precondition holds has real entries in all three arrays. -/
theorem block_real [Cert.Pre_finite_inputs_Kernel.Facts] (a0 a1 a2 : FVec Ideal SB .f32)
    (h : Cert.Pre_finite_inputs_Kernel.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [Cert.Pre_finite_inputs_Kernel.fn] at h0
  obtain ⟨h01, h2⟩ := IntOp.andi_eq_one.1 h0
  obtain ⟨h00, h1⟩ := IntOp.andi_eq_one.1 h01
  haveI : Subsingleton Cert.Pre_finite_inputs_Kernel.S_.Idx := ⟨fun a b => funext fun d => d.elim0⟩
  exact ⟨fun i => real_of_abs_lt_inf _ (Host.reduce_andi_all _ _ _ _ _ h00 i),
    fun i => real_of_abs_lt_inf _ (Host.reduce_andi_all _ _ _ _ _ h1 i),
    fun i => real_of_abs_lt_inf _ (Host.reduce_andi_all _ _ _ _ _ h2 i)⟩

/-! ## Every whole-array index lies in the block of device 0 or of device 1 -/

/-- Positions 0 … 255 along axis 1: the block of device 0 (z = 0). -/
theorem whole_lo {α : Type} (v : SW.Idx → α) (i : SW.Idx) (hi : (i 1).val < 256) :
    v i = (Layout.blockN SB SW (Layout.meshBlock [2, 2, 2] ![[], [2], [], []] (0 : Fin 8)) v) (ix4 (n0 := 2) (n1 := 256) (n2 := 8) (n3 := 64) (i 0) ⟨(i 1).val, hi⟩ (i 2) (i 3)) := by
  rw [Layout.blockN_apply]
  refine congrArg v (funext fun b => Fin.ext ?_)
  rw [Layout.TilesN.idx_val]
  match b with
  | ⟨0, _⟩ => show (i 0).val = 0 * 2 + (i 0).val; omega
  | ⟨1, _⟩ => show (i 1).val = 0 * 256 + (i 1).val; omega
  | ⟨2, _⟩ => show (i 2).val = 0 * 8 + (i 2).val; omega
  | ⟨3, _⟩ => show (i 3).val = 0 * 64 + (i 3).val; omega

/-- Positions 256 … 511 along axis 1: the block of device 1 (z = 1). -/
theorem whole_hi {α : Type} (v : SW.Idx → α) (i : SW.Idx) (hi : ¬ (i 1).val < 256) :
    v i = (Layout.blockN SB SW (Layout.meshBlock [2, 2, 2] ![[], [2], [], []] (1 : Fin 8)) v)
      (ix4 (n0 := 2) (n1 := 256) (n2 := 8) (n3 := 64) (i 0) ⟨(i 1).val - 256, by have := (i 1).isLt; change (i 1).val < 512 at this; omega⟩ (i 2) (i 3)) := by
  rw [Layout.blockN_apply]
  refine congrArg v (funext fun b => Fin.ext ?_)
  rw [Layout.TilesN.idx_val]
  match b with
  | ⟨0, _⟩ => show (i 0).val = 0 * 2 + (i 0).val; omega
  | ⟨1, _⟩ => show (i 1).val = 1 * 256 + ((i 1).val - 256); omega
  | ⟨2, _⟩ => show (i 2).val = 0 * 8 + (i 2).val; omega
  | ⟨3, _⟩ => show (i 3).val = 0 * 64 + (i 3).val; omega

/-- A whole array whose blocks on devices 0 and 1 have real entries has real entries. -/
theorem whole_real_of_blocks (v : SW.Idx → EReal)
    (h0 : ∀ j, ∃ r : ℝ, (Layout.blockN SB SW (Layout.meshBlock [2, 2, 2] ![[], [2], [], []] (0 : Fin 8)) v) j = (r : EReal))
    (h1 : ∀ j, ∃ r : ℝ, (Layout.blockN SB SW (Layout.meshBlock [2, 2, 2] ![[], [2], [], []] (1 : Fin 8)) v) j = (r : EReal))
    (i : SW.Idx) : ∃ r : ℝ, v i = (r : EReal) := by
  by_cases hi : (i 1).val < 256
  · rw [whole_lo v i hi]; exact h0 _
  · rw [whole_hi v i hi]; exact h1 _

/-! ## The reference's three argument arrays -/

/-- From the kernel's precondition on every device and the agreement of each device's argument buffers with its blocks
    of the reference's arrays: every entry of the reference's three argument arrays is a real. -/
theorem args_real [hPre : Cert.Pre_finite_inputs_Kernel.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = Layout.blockN ⟨4, ![2, 256, 8, 64]⟩ ⟨4, ![2, 512, 8, 64]⟩ (Layout.meshBlock [2, 2, 2] ![[], [2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 256, 8, 64]⟩ ⟨4, ![2, 512, 8, 64]⟩ (Layout.meshBlock [2, 2, 2] ![[], [2], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 256, 8, 64]⟩ ⟨4, ![2, 512, 8, 64]⟩ (Layout.meshBlock [2, 2, 2] ![[], [2], [], []] c) (m' (((0 : Dev Cert.ReferenceIdeal.nD).tc : Thread Cert.ReferenceIdeal.nD Cert.ReferenceIdeal.τ).loc Cert.ReferenceIdeal.main_arg2))) :
    (∀ i : SW.Idx, ∃ r : ℝ, m' (((0 : Dev Cert.ReferenceIdeal.nD).tc : Thread Cert.ReferenceIdeal.nD Cert.ReferenceIdeal.τ).loc Cert.ReferenceIdeal.main_arg0) i = (r : EReal))
    ∧ (∀ i : SW.Idx, ∃ r : ℝ, m' (((0 : Dev Cert.ReferenceIdeal.nD).tc : Thread Cert.ReferenceIdeal.nD Cert.ReferenceIdeal.τ).loc Cert.ReferenceIdeal.main_arg1) i = (r : EReal))
    ∧ (∀ i : SW.Idx, ∃ r : ℝ, m' (((0 : Dev Cert.ReferenceIdeal.nD).tc : Thread Cert.ReferenceIdeal.nD Cert.ReferenceIdeal.τ).loc Cert.ReferenceIdeal.main_arg2) i = (r : EReal)) := by
  have b0 := block_real _ _ _ (hpre (0 : Fin 8))
  have b1 := block_real _ _ _ (hpre (1 : Fin 8))
  rw [(hagree (0 : Fin 8)).1, (hagree (0 : Fin 8)).2.1, (hagree (0 : Fin 8)).2.2] at b0
  rw [(hagree (1 : Fin 8)).1, (hagree (1 : Fin 8)).2.1, (hagree (1 : Fin 8)).2.2] at b1
  exact ⟨whole_real_of_blocks _ b0.1 b1.1, whole_real_of_blocks _ b0.2.1 b1.2.1, whole_real_of_blocks _ b0.2.2 b1.2.2⟩

/-- info: 'Cert.AttnFinite.args_real' depends on axioms: [propext, Classical.choice, Quot.sound] -/
#guard_msgs in #print axioms args_real

end Cert.AttnFinite

end
-- ==== Proof.RefIsAttn.lean ====
/-
  The reference program computes attention: the term its run states for the result, read index by index through its
  seventeen operations, is `Cert.Attn.attn` of the three argument arrays. The scores are the first contraction times
  the broadcast scale; the row maximum is the max-reduce over the key axis read as a fold from -∞; the weights are
  the exponentials of the shifted scores over their sum (from the zero word, which is 0); the second contraction sums
  the values against the weights over the key axis; the transpose puts the result at [batch, position, head, feature].
-/
import proofs.«900412_g7700000000000413_dist_agattn_v7x_xyz2x2x2_z_b2_s256_h8_d64_f32_1_alg».proof.Proof.Gen.ReferenceIdeal.Read
import proofs.«900412_g7700000000000413_dist_agattn_v7x_xyz2x2x2_z_b2_s256_h8_d64_f32_1_alg».proof.Proof.Spec

noncomputable section

open scoped BigOperators

namespace Cert.RefAttn

open Cert.ReferenceIdeal Cert.ReferenceIdeal.Gen Cert.ReferenceIdeal.Read
open Idealize.ShloMosaic Idealize.ShloMosaic.TcCoe Idealize.SL.Sem Idealize.ShloMosaic.ValueIdx Idealize.ShloMosaic.StableHlo

abbrev Arr : Type := (⟨S2x512x8x64, .f32⟩ : BufTy).Contents (Elt Ideal)

/-- The scaled scores. -/
theorem v2_at (Q K : Arr) (b : Fin 2) (h : Fin 8) (q k : Fin 512) :
    val_main_v2 (F := Ideal) Q K (ix4 b h q k) = Cert.Attn.score Q K b h q k := by
  rw [val_main_v2_apply, val_main_v0_apply, val_main_v1_apply, val_main_cst_apply]
  unfold Cert.Attn.score
  show (∑ e : Fin 64, Q (lidx_main_v0 (ix4 b h q k) e) * K (ridx_main_v0 (ix4 b h q k) e)) * Ideal.ofBits .f32 0x3E000000#32 = _
  refine congrArg (· * Ideal.ofBits .f32 0x3E000000#32) (Finset.sum_congr rfl fun e _ => ?_)
  rw [show lidx_main_v0 (ix4 b h q k) e = ix4 b q h e from funext fun a => Fin.ext (by match a with | ⟨0, _⟩ => rfl | ⟨1, _⟩ => rfl | ⟨2, _⟩ => rfl | ⟨3, _⟩ => rfl),
    show ridx_main_v0 (ix4 b h q k) e = ix4 b k h e from funext fun a => Fin.ext (by match a with | ⟨0, _⟩ => rfl | ⟨1, _⟩ => rfl | ⟨2, _⟩ => rfl | ⟨3, _⟩ => rfl)]

/-- The key axis put back into a row index. -/
theorem lift_at (hr : S2x8x512x512.Reduces [3] S2x8x512) (b : Fin 2) (h : Fin 8) (q : Fin 512) (k : Fin (S2x8x512x512.size 3)) :
    hr.lift (ix3 b h q) k = ix4 b h q (⟨k.val, k.isLt⟩ : Fin 512) := by
  funext c; apply Fin.ext
  fin_cases c <;> rfl

/-- The row maximum. -/
theorem v3_at (Q K : Arr) (b : Fin 2) (h : Fin 8) (q : Fin 512) :
    val_main_v3 (F := Ideal) Q K (ix3 b h q) = Cert.Attn.rowMax Q K b h q := by
  unfold val_main_v3 Cert.Attn.rowMax
  rw [Host.reduce_eq_fold_single FloatOps.maximumf _ _ reducesTo_S2x8x512x512_S2x8x512_d3 (by decide : S2x8x512x512.Reduces [3] S2x8x512) h_S_]
  refine congrArg (fun f => Finset.fold max (Ideal.ofBits .f32 0xFF800000#32) f (Finset.univ : Finset (Fin 512))) ?_
  funext k
  show val_main_v2 (F := Ideal) Q K (Shape.Reduces.lift _ (ix3 b h q) k) = _
  rw [lift_at, v2_at]
  rfl

/-- The exponential of the shifted score. -/
theorem v7_at (Q K : Arr) (b : Fin 2) (h : Fin 8) (q k : Fin 512) :
    val_main_v7 (F := Ideal) Q K (ix4 b h q k) = Ideal.exp (Cert.Attn.score Q K b h q k - Cert.Attn.rowMax Q K b h q) := by
  rw [val_main_v7_apply, val_main_v6_apply, val_main_v5_apply, val_main_v4_apply, v2_at,
    show idx_main_v4 (idx_main_v5 (ix4 b h q k)) = ix3 b h q from funext fun a => Fin.ext (by match a with | ⟨0, _⟩ => rfl | ⟨1, _⟩ => rfl | ⟨2, _⟩ => rfl),
    v3_at]
  rfl

/-- The normaliser. -/
theorem v8_at (Q K : Arr) (b : Fin 2) (h : Fin 8) (q : Fin 512) :
    val_main_v8 (F := Ideal) Q K (ix3 b h q) = ∑ j : Fin 512, Ideal.exp (Cert.Attn.score Q K b h q j - Cert.Attn.rowMax Q K b h q) := by
  rw [val_main_v8_apply, val_main_cst_1_apply]
  show Ideal.ofBits .f32 0x00000000#32 + _ = _
  rw [Ideal.ofBits_zero_f32, zero_add]
  refine Finset.sum_congr rfl fun j _ => ?_
  rw [show idx_main_v8 (ix3 b h q) j = ix4 b h q j from funext fun a => Fin.ext (by match a with | ⟨0, _⟩ => rfl | ⟨1, _⟩ => rfl | ⟨2, _⟩ => rfl | ⟨3, _⟩ => rfl),
    v7_at]

/-- The weights. -/
theorem v11_at (Q K : Arr) (b : Fin 2) (h : Fin 8) (q k : Fin 512) :
    val_main_v11 (F := Ideal) Q K (ix4 b h q k)
      = Ideal.div (Ideal.exp (Cert.Attn.score Q K b h q k - Cert.Attn.rowMax Q K b h q))
          (∑ j : Fin 512, Ideal.exp (Cert.Attn.score Q K b h q j - Cert.Attn.rowMax Q K b h q)) := by
  rw [val_main_v11_apply, val_main_v10_apply, val_main_v9_apply, v7_at,
    show idx_main_v9 (idx_main_v10 (ix4 b h q k)) = ix3 b h q from funext fun a => Fin.ext (by match a with | ⟨0, _⟩ => rfl | ⟨1, _⟩ => rfl | ⟨2, _⟩ => rfl),
    v8_at]
  rfl

/-- The reference's last stage is attention. -/
theorem val_is_attn (Q K V : Arr) : val_main_v13 (F := Ideal) Q K V = Cert.Attn.attn Q K V := by
  funext i
  obtain ⟨b, q, h, d, rfl⟩ : ∃ (b : Fin 2) (q : Fin 512) (h : Fin 8) (d : Fin 64), i = ix4 b q h d := ⟨i 0, i 1, i 2, i 3, eq_ix4 i⟩
  rw [Cert.Attn.attn_ix4, val_main_v13_apply, val_main_v12_apply]
  unfold Cert.Attn.attnAt
  refine Finset.sum_congr rfl fun k _ => ?_
  rw [show lidx_main_v12 (idx_main_v13 (ix4 b q h d)) k = ix4 b k h d from funext fun a => Fin.ext (by match a with | ⟨0, _⟩ => rfl | ⟨1, _⟩ => rfl | ⟨2, _⟩ => rfl | ⟨3, _⟩ => rfl),
    show ridx_main_v12 (idx_main_v13 (ix4 b q h d)) k = ix4 b h q k from funext fun a => Fin.ext (by match a with | ⟨0, _⟩ => rfl | ⟨1, _⟩ => rfl | ⟨2, _⟩ => rfl | ⟨3, _⟩ => rfl),
    v11_at]

/-- The reference's run with its result named: every weakly fair execution of the reference's @main terminates with
    the result array holding attention of the three argument arrays as launched, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13)
          = Cert.Attn.attn (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c).1.trans ((val_main_v13_eq (F := Ideal) _ _ _).trans (val_is_attn _ _ _)), (h c).2⟩)
    (Cert.ReferenceIdeal.Value.run (F := Ideal) m ρ)

/-- info: 'Cert.RefAttn.val_is_attn' depends on axioms: [propext, Classical.choice, Quot.sound] -/
#guard_msgs in #print axioms val_is_attn

/-- info: 'Cert.RefAttn.ref_run' depends on axioms: [propext, Classical.choice, Quot.sound] -/
#guard_msgs in #print axioms ref_run

end Cert.RefAttn

end
-- ==== Proof.Algebraic.lean ====
/-
  The kernel against the reference, over the extended reals. Each device's three argument buffers are its blocks of the
  reference's arrays; the partner's rows of K and V that land in a device's buffers are the partner's blocks. The result
  array a device ends with is the result's staging buffer as its body left it, which is the device's share of attention
  computed from those five blocks; with every entry of the reference's arrays a real number, that share is the device's
  block of attention of the whole arrays, and attention of the whole arrays is what the reference's run ends holding.
-/
import proofs.«900412_g7700000000000413_dist_agattn_v7x_xyz2x2x2_z_b2_s256_h8_d64_f32_1_alg».proof.Defs
import proofs.«900412_g7700000000000413_dist_agattn_v7x_xyz2x2x2_z_b2_s256_h8_d64_f32_1_alg».proof.Proof.Final
import proofs.«900412_g7700000000000413_dist_agattn_v7x_xyz2x2x2_z_b2_s256_h8_d64_f32_1_alg».proof.Proof.DevSpec
import proofs.«900412_g7700000000000413_dist_agattn_v7x_xyz2x2x2_z_b2_s256_h8_d64_f32_1_alg».proof.Proof.Finite
import proofs.«900412_g7700000000000413_dist_agattn_v7x_xyz2x2x2_z_b2_s256_h8_d64_f32_1_alg».proof.Proof.RefIsAttn
import proofs.«900412_g7700000000000413_dist_agattn_v7x_xyz2x2x2_z_b2_s256_h8_d64_f32_1_alg».proof.Proof.Gen.Pre_finite_inputs_Kernel
import proofs.«900412_g7700000000000413_dist_agattn_v7x_xyz2x2x2_z_b2_s256_h8_d64_f32_1_alg».proof.Proof.Gen.ReferenceIdeal

noncomputable section

namespace Cert.Proof.Final

open Cert.KernelIdeal Cert.KernelIdeal.Gen Cert.KernelIdeal.Hand
open Idealize.ShloMosaic
open Idealize.ShloMosaic.TcCoe
open Idealize.SL.Sem
open Idealize.ShloMosaic.Pipeline (Dat Cfg Window BodyObligation cellOf)

/-- The frame claim of the program read over the extended reals, from the bodies' obligations at any result contents. -/
theorem frame_KernelIdeal_of
    (out : ((ℓ : Loc nD τ sig) → Buf (Elt Ideal) ℓ) → (Dev nD → PrngReg) → (c : Dev nD) → (cc0_stg3_0 : Ref sig .tc).ty.Contents (Elt Ideal))
    (hbody : ∀ (m : (ℓ : Loc nD τ sig) → Buf (Elt Ideal) ℓ) (ρ : Dev nD → PrngReg) (c : Dev nD),
      BodyObligation (dats (F := Ideal) m ρ (out m ρ) 0 c) (defs₀ (F := Ideal)) 𝒱₀ () Set.univ) :
    Cert.frame_KernelIdeal (hKernelIdeal := Cert.KernelIdeal.Gen.facts) (hPre_finite_inputs_Kernel := Cert.Pre_finite_inputs_Kernel.Gen.facts) :=
  fun m g _ => frame_of_body out hbody m g

/-- If every device's body meets its obligation with result contents `out`, and `out` is the device's share of attention
    computed from its own rows of Q, K, V and its partner's rows of K and V, then the kernel on eight devices and the
    reference on one agree: from memories where each device's argument buffers hold its blocks of the reference's arrays
    (finite entries), both run, the reference ends holding attention of its arrays, each device ends holding its block of
    that, and the arguments of both end unchanged. -/
theorem algebraic_of
    (out : ((ℓ : Loc nD τ sig) → Buf (Elt Ideal) ℓ) → (Dev nD → PrngReg) → (c : Dev nD) → (cc0_stg3_0 : Ref sig .tc).ty.Contents (Elt Ideal))
    (hbody : ∀ (m : (ℓ : Loc nD τ sig) → Buf (Elt Ideal) ℓ) (ρ : Dev nD → PrngReg) (c : Dev nD),
      BodyObligation (dats (F := Ideal) m ρ (out m ρ) 0 c) (defs₀ (F := Ideal)) 𝒱₀ () Set.univ)
    (hout : ∀ (m : (ℓ : Loc nD τ sig) → Buf (Elt Ideal) ℓ) (ρ : Dev nD → PrngReg) (c : Dev nD),
      out m ρ c = Cert.Attn.devOut (qstg m ρ c) (kstg m ρ c) (vstg m ρ c) (klanded m ρ c) (vlanded m ρ c)) :
    Cert.algebraic_KernelIdeal_ReferenceIdeal (hKernelIdeal := Cert.KernelIdeal.Gen.facts)
      (hReferenceIdeal := Cert.ReferenceIdeal.Gen.facts) (hPre_finite_inputs_Kernel := Cert.Pre_finite_inputs_Kernel.Gen.facts) := by
  intro m g m' g' hpre hagree
  -- every entry of the reference's three arrays is a real
  obtain ⟨hQ, hK, hV⟩ := Cert.AttnFinite.args_real m m' hpre hagree
  -- the value both programs end at: attention of the reference's arrays
  refine ⟨Cert.Attn.attn
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)), ?_, ?_⟩
  · -- the kernel's run, its final arrays read off the proof data
    refine (θ_run defs _ _).mono (fun r h c => ?_) (run_main m g (out m g) (hbody m g))
    refine ⟨?_, (h c 0).trans (finalA_in0 m g _ c), (h c 1).trans (finalA_in1 m g _ c), (h c 2).trans (finalA_in2 m g _ c)⟩
    refine (h c 3).trans ((finalA_out m g _ c).trans ?_)
    -- the staging buffers are the argument arrays, the landed rows the partner's argument arrays
    rw [hout, qstg_eq, kstg_eq, vstg_eq]
    unfold klanded vlanded
    rw [kstg_eq, vstg_eq]
    -- each of which is its device's block of the reference's array
    rw [(hagree c).1, (hagree c).2.1, (hagree c).2.2, (hagree (peer c)).2.1, (hagree (peer c)).2.2]
    exact Cert.Attn.devOut_eq_block_partner _ _ _ hQ hK hV c (peer c) rfl
  · -- the reference's run
    exact (θ_run _ _ _).mono (fun r h => h 0) (Cert.RefAttn.ref_run m' g')

/-- info: 'Cert.Proof.Final.frame_KernelIdeal_of' depends on axioms: [propext, Classical.choice, Quot.sound] -/
#guard_msgs in #print axioms frame_KernelIdeal_of

/-- info: 'Cert.Proof.Final.algebraic_of' depends on axioms: [propext, Classical.choice, Quot.sound] -/
#guard_msgs in #print axioms algebraic_of

end Cert.Proof.Final

end
-- ==== Proof.OutPrims.lean ====
/-
  The vector operations of the device's arithmetic read at an index, over the extended reals: the casts between a
  block of an array ([1, n, 1, 64], [1, 1, 256, n]) and the matrix it is ([n, 64], [256, n]), the four contractions
  as sums over the contracted coordinate, the row sum, and the column of reciprocals spread along a row.
-/
import proofs.«900412_g7700000000000413_dist_agattn_v7x_xyz2x2x2_z_b2_s256_h8_d64_f32_1_alg».proof.Proof.Gen.KernelIdeal
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Prims

open Cert.KernelIdeal Cert.KernelIdeal.Gen
open Idealize.ShloMosaic Idealize.ShloMosaic.ValueIdx

/-! ## Casts between blocks and matrices -/

theorem cast_rows_mat {n : Nat} (v : (⟨4, ![1, n, 1, 64]⟩ : Shape).Idx → EReal) (hc : (⟨4, ![1, n, 1, 64]⟩ : Shape).ShapeCasts ⟨2, ![n, 64]⟩)
    (q : Fin n) (e : Fin 64) : shapeCast ⟨2, ![n, 64]⟩ v hc (ix2 q e) = v (ix4 (0 : Fin 1) q (0 : Fin 1) e) :=
  shapeCast_apply v hc _ _ (by
    rw [Shape.rowMajor_val_four, Shape.rowMajor_val_two]
    show ((0 * n + q.val) * 1 + 0) * 64 + e.val = q.val * 64 + e.val
    omega)

theorem cast_mat_rows {n : Nat} (x : (⟨2, ![n, 64]⟩ : Shape).Idx → EReal) (hc : (⟨2, ![n, 64]⟩ : Shape).ShapeCasts ⟨4, ![1, n, 1, 64]⟩)
    (u : Fin 1) (q : Fin n) (w : Fin 1) (e : Fin 64) : shapeCast ⟨4, ![1, n, 1, 64]⟩ x hc (ix4 u q w e) = x (ix2 q e) :=
  shapeCast_apply x hc _ _ (by
    have hu : u.val = 0 := by omega
    have hw : w.val = 0 := by omega
    rw [Shape.rowMajor_val_four, Shape.rowMajor_val_two]
    show q.val * 64 + e.val = ((u.val * n + q.val) * 1 + w.val) * 64 + e.val
    rw [hu, hw]; omega)

theorem cast_head_mat {n : Nat} (v : (⟨4, ![1, 1, 256, n]⟩ : Shape).Idx → EReal) (hc : (⟨4, ![1, 1, 256, n]⟩ : Shape).ShapeCasts ⟨2, ![256, n]⟩)
    (q : Fin 256) (e : Fin n) : shapeCast ⟨2, ![256, n]⟩ v hc (ix2 q e) = v (ix4 (0 : Fin 1) (0 : Fin 1) q e) :=
  shapeCast_apply v hc _ _ (by
    rw [Shape.rowMajor_val_four, Shape.rowMajor_val_two]
    show ((0 * 1 + 0) * 256 + q.val) * n + e.val = q.val * n + e.val
    simp)

theorem cast_mat_head {n : Nat} (x : (⟨2, ![256, n]⟩ : Shape).Idx → EReal) (hc : (⟨2, ![256, n]⟩ : Shape).ShapeCasts ⟨4, ![1, 1, 256, n]⟩)
    (u w : Fin 1) (q : Fin 256) (e : Fin n) : shapeCast ⟨4, ![1, 1, 256, n]⟩ x hc (ix4 u w q e) = x (ix2 q e) :=
  shapeCast_apply x hc _ _ (by
    have hu : u.val = 0 := by omega
    have hw : w.val = 0 := by omega
    rw [Shape.rowMajor_val_four, Shape.rowMajor_val_two]
    show q.val * n + e.val = ((u.val * 1 + w.val) * 256 + q.val) * n + e.val
    rw [hu, hw]; simp)

theorem cast_vec_col (x : (⟨1, ![256]⟩ : Shape).Idx → EReal) (hc : (⟨1, ![256]⟩ : Shape).ShapeCasts ⟨2, ![256, 1]⟩)
    (q : Fin 256) (u : Fin 1) : shapeCast ⟨2, ![256, 1]⟩ x hc (ix2 q u) = x (ix1 q) :=
  shapeCast_apply x hc _ _ (by
    have hu : u.val = 0 := by omega
    rw [Shape.rowMajor_val_two, Shape.rowMajor_val_one]
    show q.val = q.val * 1 + u.val
    rw [hu]; omega)

/-! ## The contractions -/

/-- Scaled queries against keys: contract the feature axis of both. -/
theorem dot_qk_apply {n : Nat} (D : DotDims (⟨2, ![256, 64]⟩ : Shape) (⟨2, ![n, 64]⟩ : Shape) (⟨2, ![256, n]⟩ : Shape))
    (hr : D.contr.rank = 1) (hs : D.contr.size ⟨0, by omega⟩ = 64)
    (hl0 : ∀ (j : (⟨2, ![256, n]⟩ : Shape).Idx) (k : D.contr.Idx), (D.lhsIdx j k 0).val = (j 0).val)
    (hl1 : ∀ (j : (⟨2, ![256, n]⟩ : Shape).Idx) (k : D.contr.Idx), (D.lhsIdx j k 1).val = (k ⟨0, by omega⟩).val)
    (hr0 : ∀ (j : (⟨2, ![256, n]⟩ : Shape).Idx) (k : D.contr.Idx), (D.rhsIdx j k 0).val = (j 1).val)
    (hr1 : ∀ (j : (⟨2, ![256, n]⟩ : Shape).Idx) (k : D.contr.Idx), (D.rhsIdx j k 1).val = (k ⟨0, by omega⟩).val)
    (lhs : FVec Ideal (⟨2, ![256, 64]⟩ : Shape) .f32) (rhs : FVec Ideal (⟨2, ![n, 64]⟩ : Shape) .f32) (q : Fin 256) (k : Fin n) :
    matmul D none lhs rhs (constant (⟨2, ![256, n]⟩ : Shape) .f32 0x00000000#32) (ix2 q k) = ∑ e : Fin 64, lhs (ix2 q e) * rhs (ix2 k e) := by
  show FloatOps.matmul D none lhs rhs (constant (⟨2, ![256, n]⟩ : Shape) .f32 0x00000000#32) (ix2 q k) = _
  rw [Ideal.matmul_constant_zero_apply, ← Equiv.sum_comp (contrEquiv1 D 64 hr hs).symm]
  refine Finset.sum_congr rfl fun e _ => ?_
  have hk := contrEquiv1_symm_val D 64 hr hs e
  have el : D.lhsIdx (ix2 q k) ((contrEquiv1 D 64 hr hs).symm e) = ix2 q e := funext fun a => Fin.ext (by
    match a with
    | ⟨0, _⟩ => exact hl0 _ _
    | ⟨1, _⟩ => exact (hl1 _ _).trans hk)
  have er : D.rhsIdx (ix2 q k) ((contrEquiv1 D 64 hr hs).symm e) = ix2 k e := funext fun a => Fin.ext (by
    match a with
    | ⟨0, _⟩ => exact hr0 _ _
    | ⟨1, _⟩ => exact (hr1 _ _).trans hk)
  rw [el, er]

/-- Weights against values: contract the key axis (the weights' second, the values' first). -/
theorem dot_pv_apply {n : Nat} (D : DotDims (⟨2, ![256, n]⟩ : Shape) (⟨2, ![n, 64]⟩ : Shape) (⟨2, ![256, 64]⟩ : Shape))
    (hr : D.contr.rank = 1) (hs : D.contr.size ⟨0, by omega⟩ = n)
    (hl0 : ∀ (j : (⟨2, ![256, 64]⟩ : Shape).Idx) (k : D.contr.Idx), (D.lhsIdx j k 0).val = (j 0).val)
    (hl1 : ∀ (j : (⟨2, ![256, 64]⟩ : Shape).Idx) (k : D.contr.Idx), (D.lhsIdx j k 1).val = (k ⟨0, by omega⟩).val)
    (hr0 : ∀ (j : (⟨2, ![256, 64]⟩ : Shape).Idx) (k : D.contr.Idx), (D.rhsIdx j k 0).val = (k ⟨0, by omega⟩).val)
    (hr1 : ∀ (j : (⟨2, ![256, 64]⟩ : Shape).Idx) (k : D.contr.Idx), (D.rhsIdx j k 1).val = (j 1).val)
    (lhs : FVec Ideal (⟨2, ![256, n]⟩ : Shape) .f32) (rhs : FVec Ideal (⟨2, ![n, 64]⟩ : Shape) .f32) (acc : FVec Ideal (⟨2, ![256, 64]⟩ : Shape) .f32)
    (q : Fin 256) (d : Fin 64) :
    matmul D none lhs rhs acc (ix2 q d) = acc (ix2 q d) + ∑ k : Fin n, lhs (ix2 q k) * rhs (ix2 k d) := by
  show FloatOps.matmul D none lhs rhs acc (ix2 q d) = _
  rw [Ideal.matmul_apply, ← Equiv.sum_comp (contrEquiv1 D n hr hs).symm]
  refine congrArg (acc (ix2 q d) + ·) (Finset.sum_congr rfl fun k _ => ?_)
  have hk := contrEquiv1_symm_val D n hr hs k
  have el : D.lhsIdx (ix2 q d) ((contrEquiv1 D n hr hs).symm k) = ix2 q k := funext fun a => Fin.ext (by
    match a with
    | ⟨0, _⟩ => exact hl0 _ _
    | ⟨1, _⟩ => exact (hl1 _ _).trans hk)
  have er : D.rhsIdx (ix2 q d) ((contrEquiv1 D n hr hs).symm k) = ix2 k d := funext fun a => Fin.ext (by
    match a with
    | ⟨0, _⟩ => exact (hr0 _ _).trans hk
    | ⟨1, _⟩ => exact hr1 _ _)
  rw [el, er]

/-! ## The four contractions of this program, the row sums, the reciprocal column -/

theorem qk_own (lhs rhs : FVec Ideal S256x64 .f32) (q k : Fin 256) :
    matmul dot_S256x64_S256x64_S256x256_1_1_0_0_n_n none lhs rhs (constant S256x256 .f32 0x00000000#32) (ix2 q k)
      = ∑ e : Fin 64, lhs (ix2 q e) * rhs (ix2 k e) :=
  dot_qk_apply dot_S256x64_S256x64_S256x256_1_1_0_0_n_n rfl rfl
    (fun j k => by unfold DotDims.lhsIdx; rw [dif_neg (by decide), dif_pos (by decide)]; rfl)
    (fun j k => dot_S256x64_S256x64_S256x256_1_1_0_0_n_n.lhsIdx_val_of_single rfl j k)
    (fun j k => by unfold DotDims.rhsIdx; rw [dif_neg (by decide), dif_pos (by decide)]; rfl)
    (fun j k => dot_S256x64_S256x64_S256x256_1_1_0_0_n_n.rhsIdx_val_of_single rfl j k)
    lhs rhs q k

theorem pv_own (lhs : FVec Ideal S256x256 .f32) (rhs acc : FVec Ideal S256x64 .f32) (q : Fin 256) (d : Fin 64) :
    matmul dot_S256x256_S256x64_S256x64_1_0_0_1_n_n none lhs rhs acc (ix2 q d)
      = acc (ix2 q d) + ∑ k : Fin 256, lhs (ix2 q k) * rhs (ix2 k d) :=
  dot_pv_apply dot_S256x256_S256x64_S256x64_1_0_0_1_n_n rfl rfl
    (fun j k => by unfold DotDims.lhsIdx; rw [dif_neg (by decide), dif_pos (by decide)]; rfl)
    (fun j k => dot_S256x256_S256x64_S256x64_1_0_0_1_n_n.lhsIdx_val_of_single rfl j k)
    (fun j k => dot_S256x256_S256x64_S256x64_1_0_0_1_n_n.rhsIdx_val_of_single rfl j k)
    (fun j k => by unfold DotDims.rhsIdx; rw [dif_neg (by decide), dif_pos (by decide)]; rfl)
    lhs rhs acc q d

theorem qk_par (lhs : FVec Ideal S256x64 .f32) (rhs : FVec Ideal S64x64 .f32) (q : Fin 256) (k : Fin 64) :
    matmul dot_S256x64_S64x64_S256x64_1_1_0_0_n_n none lhs rhs (constant S256x64 .f32 0x00000000#32) (ix2 q k)
      = ∑ e : Fin 64, lhs (ix2 q e) * rhs (ix2 k e) :=
  dot_qk_apply dot_S256x64_S64x64_S256x64_1_1_0_0_n_n rfl rfl
    (fun j k => by unfold DotDims.lhsIdx; rw [dif_neg (by decide), dif_pos (by decide)]; rfl)
    (fun j k => dot_S256x64_S64x64_S256x64_1_1_0_0_n_n.lhsIdx_val_of_single rfl j k)
    (fun j k => by unfold DotDims.rhsIdx; rw [dif_neg (by decide), dif_pos (by decide)]; rfl)
    (fun j k => dot_S256x64_S64x64_S256x64_1_1_0_0_n_n.rhsIdx_val_of_single rfl j k)
    lhs rhs q k

theorem pv_par (lhs : FVec Ideal S256x64 .f32) (rhs : FVec Ideal S64x64 .f32) (acc : FVec Ideal S256x64 .f32) (q : Fin 256) (d : Fin 64) :
    matmul dot_S256x64_S64x64_S256x64_1_0_0_1_n_n none lhs rhs acc (ix2 q d)
      = acc (ix2 q d) + ∑ k : Fin 64, lhs (ix2 q k) * rhs (ix2 k d) :=
  dot_pv_apply dot_S256x64_S64x64_S256x64_1_0_0_1_n_n rfl rfl
    (fun j k => by unfold DotDims.lhsIdx; rw [dif_neg (by decide), dif_pos (by decide)]; rfl)
    (fun j k => dot_S256x64_S64x64_S256x64_1_0_0_1_n_n.lhsIdx_val_of_single rfl j k)
    (fun j k => dot_S256x64_S64x64_S256x64_1_0_0_1_n_n.rhsIdx_val_of_single rfl j k)
    (fun j k => by unfold DotDims.rhsIdx; rw [dif_neg (by decide), dif_pos (by decide)]; rfl)
    lhs rhs acc q d

/-- The zero accumulator adds nothing. -/
theorem zero_acc (s : Shape) (j : s.Idx) : (constant (F := Ideal) s .f32 0x00000000#32) j + (0 : EReal) = 0 := by
  show Ideal.ofBits .f32 0x00000000#32 + (0 : EReal) = 0
  rw [Ideal.ofBits_zero_f32, add_zero]

theorem const_zero (s : Shape) (j : s.Idx) : (constant (F := Ideal) s .f32 0x00000000#32) j = (0 : EReal) := by
  show Ideal.ofBits .f32 0x00000000#32 = (0 : EReal)
  exact Ideal.ofBits_zero_f32

/-- The row sums. -/
theorem rowsum_own (p : FVec Ideal S256x256 .f32) (q : Fin 256) (hφ : FKind.Formats .f32)
    (hacc : (0x00000000#32 : BitVec 32) = FKind.add.neutral .f32 hφ) :
    multiReduction .add [1] S256 p 0x00000000#32 reduces_S256x256_S256 hφ hacc (ix1 q) = ∑ k : Fin 256, p (ix2 q k) :=
  (Ideal.multiReduction_add_single p 0x00000000#32 reduces_S256x256_S256 hφ hacc (ix1 q)).trans
    (Finset.sum_congr rfl fun k _ => congrArg p (funext fun a => Fin.ext (by fin_cases a <;> rfl)))

theorem rowsum_par (p : FVec Ideal S256x64 .f32) (q : Fin 256) (hφ : FKind.Formats .f32)
    (hacc : (0x00000000#32 : BitVec 32) = FKind.add.neutral .f32 hφ) :
    multiReduction .add [1] S256 p 0x00000000#32 reduces_S256x64_S256 hφ hacc (ix1 q) = ∑ k : Fin 64, p (ix2 q k) :=
  (Ideal.multiReduction_add_single p 0x00000000#32 reduces_S256x64_S256 hφ hacc (ix1 q)).trans
    (Finset.sum_congr rfl fun k _ => congrArg p (funext fun a => Fin.ext (by fin_cases a <;> rfl)))

/-- A column spread along the rows. -/
theorem spread_col (x : FVec Ideal S256x1 .f32) (q : Fin 256) (d : Fin 64) :
    broadcastTo S256x64 x broadcasts_S256x1_S256x64 (ix2 q d) = x (ix2 q (0 : Fin 1)) :=
  broadcastTo_apply x broadcasts_S256x1_S256x64 _ _ (fun a => by
    match a with
    | ⟨0, _⟩ => show q.val = if (256 : Nat) = 1 then 0 else q.val; rw [if_neg (by decide)]
    | ⟨1, _⟩ => show 0 = if (1 : Nat) = 1 then 0 else d.val; rw [if_pos rfl])

/-! ## The stages of the device's arithmetic on blocks, each read at an index -/

/-- The queries of one head scaled: [1,256,1,64] to a 256 × 64 matrix times 1/8. -/
def scaleQ (qb : FVec Ideal S1x256x1x64 .f32) : FVec Ideal S256x64 .f32 :=
  mulf (shapeCast S256x64 qb shapeCasts_S1x256x1x64_S256x64) (broadcast S256x64 (Scalar.ofBits (F := Ideal) .f32 0x3E000000#32))

theorem scaleQ_at (qb : FVec Ideal S1x256x1x64 .f32) (q : Fin 256) (e : Fin 64) :
    scaleQ qb (ix2 q e) = qb (ix4 (0 : Fin 1) q (0 : Fin 1) e) * Ideal.ofBits .f32 0x3E000000#32 :=
  congrArg (· * Ideal.ofBits .f32 0x3E000000#32) (cast_rows_mat qb shapeCasts_S1x256x1x64_S256x64 q e)

/-- A matrix put into a head's block of the scratch buffers [1,1,256,n]. -/
def toHead64 (x : FVec Ideal S256x64 .f32) : FVec Ideal S1x1x256x64 .f32 := shapeCast S1x1x256x64 x shapeCasts_S256x64_S1x1x256x64
theorem toHead64_at (x : FVec Ideal S256x64 .f32) (q : Fin 256) (e : Fin 64) :
    toHead64 x (ix4 (0 : Fin 1) (0 : Fin 1) q e) = x (ix2 q e) := cast_mat_head x shapeCasts_S256x64_S1x1x256x64 0 0 q e

/-- The exponentials of the scores against the device's own 256 keys. -/
def expOwn (qs : FVec Ideal S256x64 .f32) (kb : FVec Ideal S1x256x1x64 .f32) : FVec Ideal S256x256 .f32 :=
  exp (matmul dot_S256x64_S256x64_S256x256_1_1_0_0_n_n none qs (shapeCast S256x64 kb shapeCasts_S1x256x1x64_S256x64) (constant S256x256 .f32 0x00000000#32))

theorem expOwn_at (qs : FVec Ideal S256x64 .f32) (kb : FVec Ideal S1x256x1x64 .f32) (q k : Fin 256) :
    expOwn qs kb (ix2 q k) = Ideal.exp (∑ e : Fin 64, qs (ix2 q e) * kb (ix4 (0 : Fin 1) k (0 : Fin 1) e)) :=
  congrArg Ideal.exp ((qk_own qs _ q k).trans (Finset.sum_congr rfl fun e _ =>
    congrArg (qs (ix2 q e) * ·) (cast_rows_mat kb shapeCasts_S1x256x1x64_S256x64 k e)))

/-- Row sums of the own exponentials, as the normaliser's block [1,1,256,1]. -/
def rowsOwn (p : FVec Ideal S256x256 .f32) : FVec Ideal S1x1x256x1 .f32 :=
  shapeCast S1x1x256x1 (shapeCast S256x1 (multiReduction .add [1] S256 p 0x00000000#32 reduces_S256x256_S256 (.inl rfl) rfl) shapeCasts_S256_S256x1) shapeCasts_S256x1_S1x1x256x1

theorem rowsOwn_at (p : FVec Ideal S256x256 .f32) (q : Fin 256) :
    rowsOwn p (ix4 (0 : Fin 1) (0 : Fin 1) q (0 : Fin 1)) = ∑ k : Fin 256, p (ix2 q k) :=
  (cast_mat_head (n := 1) _ shapeCasts_S256x1_S1x1x256x1 0 0 q 0).trans ((cast_vec_col _ shapeCasts_S256_S256x1 q 0).trans (rowsum_own p q _ _))

/-- Own exponentials against own values, as a block [1,256,1,64]. -/
def pvOwn (p : FVec Ideal S256x256 .f32) (vb : FVec Ideal S1x256x1x64 .f32) : FVec Ideal S1x256x1x64 .f32 :=
  shapeCast S1x256x1x64 (matmul dot_S256x256_S256x64_S256x64_1_0_0_1_n_n none p (shapeCast S256x64 vb shapeCasts_S1x256x1x64_S256x64) (constant S256x64 .f32 0x00000000#32)) shapeCasts_S256x64_S1x256x1x64

theorem pvOwn_at (p : FVec Ideal S256x256 .f32) (vb : FVec Ideal S1x256x1x64 .f32) (q : Fin 256) (d : Fin 64) :
    pvOwn p vb (ix4 (0 : Fin 1) q (0 : Fin 1) d) = ∑ k : Fin 256, p (ix2 q k) * vb (ix4 (0 : Fin 1) k (0 : Fin 1) d) :=
  (cast_mat_rows _ shapeCasts_S256x64_S1x256x1x64 0 q 0 d).trans ((pv_own p _ _ q d).trans (by
    rw [const_zero, zero_add]
    exact Finset.sum_congr rfl fun k _ => congrArg (p (ix2 q k) * ·) (cast_rows_mat vb shapeCasts_S1x256x1x64_S256x64 k d)))

/-- The exponentials of the scores against one group of 64 of the partner's keys. -/
def expPar (qm : FVec Ideal S256x64 .f32) (kr : FVec Ideal S1x64x1x64 .f32) : FVec Ideal S256x64 .f32 :=
  exp (matmul dot_S256x64_S64x64_S256x64_1_1_0_0_n_n none qm (shapeCast S64x64 kr shapeCasts_S1x64x1x64_S64x64) (constant S256x64 .f32 0x00000000#32))

theorem expPar_at (qm : FVec Ideal S256x64 .f32) (kr : FVec Ideal S1x64x1x64 .f32) (q : Fin 256) (k : Fin 64) :
    expPar qm kr (ix2 q k) = Ideal.exp (∑ e : Fin 64, qm (ix2 q e) * kr (ix4 (0 : Fin 1) k (0 : Fin 1) e)) :=
  congrArg Ideal.exp ((qk_par qm _ q k).trans (Finset.sum_congr rfl fun e _ =>
    congrArg (qm (ix2 q e) * ·) (cast_rows_mat kr shapeCasts_S1x64x1x64_S64x64 k e)))

/-- A head's block [1,1,256,64] as a matrix. -/
def ofHead64 (x : FVec Ideal S1x1x256x64 .f32) : FVec Ideal S256x64 .f32 := shapeCast S256x64 x shapeCasts_S1x1x256x64_S256x64
theorem ofHead64_at (x : FVec Ideal S1x1x256x64 .f32) (q : Fin 256) (e : Fin 64) :
    ofHead64 x (ix2 q e) = x (ix4 (0 : Fin 1) (0 : Fin 1) q e) := cast_head_mat x shapeCasts_S1x1x256x64_S256x64 q e

/-- The normaliser's block plus the row sums of a group's exponentials. -/
def accL (l : FVec Ideal S1x1x256x1 .f32) (p : FVec Ideal S256x64 .f32) : FVec Ideal S1x1x256x1 .f32 :=
  shapeCast S1x1x256x1 (addf (shapeCast S256x1 l shapeCasts_S1x1x256x1_S256x1)
    (shapeCast S256x1 (multiReduction .add [1] S256 p 0x00000000#32 reduces_S256x64_S256 (.inl rfl) rfl) shapeCasts_S256_S256x1)) shapeCasts_S256x1_S1x1x256x1

theorem accL_at (l : FVec Ideal S1x1x256x1 .f32) (p : FVec Ideal S256x64 .f32) (q : Fin 256) :
    accL l p (ix4 (0 : Fin 1) (0 : Fin 1) q (0 : Fin 1)) = l (ix4 (0 : Fin 1) (0 : Fin 1) q (0 : Fin 1)) + ∑ k : Fin 64, p (ix2 q k) :=
  (cast_mat_head (n := 1) _ shapeCasts_S256x1_S1x1x256x1 0 0 q 0).trans
    (congrArg₂ (· + ·) (cast_head_mat (n := 1) l shapeCasts_S1x1x256x1_S256x1 q 0) ((cast_vec_col _ shapeCasts_S256_S256x1 q 0).trans (rowsum_par p q _ _)))

/-- The result's block plus a group's exponentials against the partner's values of that group. -/
def accOut (o : FVec Ideal S1x256x1x64 .f32) (p : FVec Ideal S256x64 .f32) (vr : FVec Ideal S1x64x1x64 .f32) : FVec Ideal S1x256x1x64 .f32 :=
  shapeCast S1x256x1x64 (addf (shapeCast S256x64 o shapeCasts_S1x256x1x64_S256x64)
    (matmul dot_S256x64_S64x64_S256x64_1_0_0_1_n_n none p (shapeCast S64x64 vr shapeCasts_S1x64x1x64_S64x64) (constant S256x64 .f32 0x00000000#32))) shapeCasts_S256x64_S1x256x1x64

theorem accOut_at (o : FVec Ideal S1x256x1x64 .f32) (p : FVec Ideal S256x64 .f32) (vr : FVec Ideal S1x64x1x64 .f32) (q : Fin 256) (d : Fin 64) :
    accOut o p vr (ix4 (0 : Fin 1) q (0 : Fin 1) d)
      = o (ix4 (0 : Fin 1) q (0 : Fin 1) d) + ∑ k : Fin 64, p (ix2 q k) * vr (ix4 (0 : Fin 1) k (0 : Fin 1) d) :=
  (cast_mat_rows _ shapeCasts_S256x64_S1x256x1x64 0 q 0 d).trans
    (congrArg₂ (· + ·) (cast_rows_mat o shapeCasts_S1x256x1x64_S256x64 q d) ((pv_par p _ _ q d).trans (by
      rw [const_zero, zero_add]
      exact Finset.sum_congr rfl fun k _ => congrArg (p (ix2 q k) * ·) (cast_rows_mat vr shapeCasts_S1x64x1x64_S64x64 k d))))

/-- The last step: the result's block plus the last group's share, times the reciprocal of the normaliser. -/
def finish (o : FVec Ideal S1x256x1x64 .f32) (pm : FVec Ideal S256x64 .f32) (vr : FVec Ideal S1x64x1x64 .f32) (l : FVec Ideal S1x1x256x1 .f32) :
    FVec Ideal S1x256x1x64 .f32 :=
  shapeCast S1x256x1x64 (mulf
    (addf (shapeCast S256x64 o shapeCasts_S1x256x1x64_S256x64)
      (matmul dot_S256x64_S64x64_S256x64_1_0_0_1_n_n none pm (shapeCast S64x64 vr shapeCasts_S1x64x1x64_S64x64) (constant S256x64 .f32 0x00000000#32)))
    (broadcastTo S256x64 (divf (broadcast S256x1 (Scalar.ofBits (F := Ideal) .f32 0x3F800000#32)) (shapeCast S256x1 l shapeCasts_S1x1x256x1_S256x1)) broadcasts_S256x1_S256x64))
    shapeCasts_S256x64_S1x256x1x64

theorem finish_at (o : FVec Ideal S1x256x1x64 .f32) (pm : FVec Ideal S256x64 .f32) (vr : FVec Ideal S1x64x1x64 .f32) (l : FVec Ideal S1x1x256x1 .f32)
    (q : Fin 256) (d : Fin 64) :
    finish o pm vr l (ix4 (0 : Fin 1) q (0 : Fin 1) d)
      = (o (ix4 (0 : Fin 1) q (0 : Fin 1) d) + ∑ k : Fin 64, pm (ix2 q k) * vr (ix4 (0 : Fin 1) k (0 : Fin 1) d))
          * Ideal.div (Ideal.ofBits .f32 0x3F800000#32) (l (ix4 (0 : Fin 1) (0 : Fin 1) q (0 : Fin 1))) :=
  (cast_mat_rows _ shapeCasts_S256x64_S1x256x1x64 0 q 0 d).trans
    (congrArg₂ (· * ·)
      (congrArg₂ (· + ·) (cast_rows_mat o shapeCasts_S1x256x1x64_S256x64 q d) ((pv_par pm _ _ q d).trans (by
        rw [const_zero, zero_add]
        exact Finset.sum_congr rfl fun k _ => congrArg (pm (ix2 q k) * ·) (cast_rows_mat vr shapeCasts_S1x64x1x64_S64x64 k d))))
      ((spread_col _ q d).trans (congrArg (Ideal.div (Ideal.ofBits .f32 0x3F800000#32)) (cast_head_mat (n := 1) l shapeCasts_S1x1x256x1_S256x1 q 0))))

end Cert.KernelIdeal.Prims

end
-- ==== Proof.OutChain.lean ====
/-
  One head's arithmetic, stage by stage, is the device's formula: from blocks that hold the device's rows of Q, K, V
  for batch b and head h and the partner's four groups of K and V rows, the scaled queries, the exponentials of the
  scores, the running normaliser and the running numerator, and the last step's quotient give `devOutAt` at (b, q, h, d).
-/
import proofs.«900412_g7700000000000413_dist_agattn_v7x_xyz2x2x2_z_b2_s256_h8_d64_f32_1_alg».proof.Proof.OutPrims
import proofs.«900412_g7700000000000413_dist_agattn_v7x_xyz2x2x2_z_b2_s256_h8_d64_f32_1_alg».proof.Proof.DevSpec

noncomputable section

open scoped BigOperators

namespace Cert.KernelIdeal.Prims

open Cert.KernelIdeal Cert.KernelIdeal.Gen Cert.Attn
open Idealize.ShloMosaic Idealize.ShloMosaic.ValueIdx

set_option maxHeartbeats 1600000 in
/-- The stages composed. The blocks are given by what they hold at an index (`hq` … `hvr3`); every loaded intermediate
    is given as the stage that produced it. -/
theorem chain_at (Qc Kc Vc Kp Vp : IxB → EReal) (b : Fin 2) (h : Fin 8)
    (qb kb vb : FVec Ideal S1x256x1x64 .f32)
    (hq : ∀ (q : Fin 256) (e : Fin 64), qb (ix4 (0 : Fin 1) q (0 : Fin 1) e) = Qc (ix4 b q h e))
    (hk : ∀ (k : Fin 256) (e : Fin 64), kb (ix4 (0 : Fin 1) k (0 : Fin 1) e) = Kc (ix4 b k h e))
    (hv : ∀ (k : Fin 256) (d : Fin 64), vb (ix4 (0 : Fin 1) k (0 : Fin 1) d) = Vc (ix4 b k h d))
    (kr0 kr1 kr2 kr3 vr0 vr1 vr2 vr3 : FVec Ideal S1x64x1x64 .f32)
    (hkr0 : ∀ (k : Fin 64) (e : Fin 64), kr0 (ix4 (0 : Fin 1) k (0 : Fin 1) e) = Kp (ix4 b (parRow 0 k) h e))
    (hkr1 : ∀ (k : Fin 64) (e : Fin 64), kr1 (ix4 (0 : Fin 1) k (0 : Fin 1) e) = Kp (ix4 b (parRow 1 k) h e))
    (hkr2 : ∀ (k : Fin 64) (e : Fin 64), kr2 (ix4 (0 : Fin 1) k (0 : Fin 1) e) = Kp (ix4 b (parRow 2 k) h e))
    (hkr3 : ∀ (k : Fin 64) (e : Fin 64), kr3 (ix4 (0 : Fin 1) k (0 : Fin 1) e) = Kp (ix4 b (parRow 3 k) h e))
    (hvr0 : ∀ (k : Fin 64) (d : Fin 64), vr0 (ix4 (0 : Fin 1) k (0 : Fin 1) d) = Vp (ix4 b (parRow 0 k) h d))
    (hvr1 : ∀ (k : Fin 64) (d : Fin 64), vr1 (ix4 (0 : Fin 1) k (0 : Fin 1) d) = Vp (ix4 b (parRow 1 k) h d))
    (hvr2 : ∀ (k : Fin 64) (d : Fin 64), vr2 (ix4 (0 : Fin 1) k (0 : Fin 1) d) = Vp (ix4 b (parRow 2 k) h d))
    (hvr3 : ∀ (k : Fin 64) (d : Fin 64), vr3 (ix4 (0 : Fin 1) k (0 : Fin 1) d) = Vp (ix4 b (parRow 3 k) h d))
    (qsc0 qsc1 qsc2 qsc3 psc : FVec Ideal S1x1x256x64 .f32) (l0 l1 l2 l3 l4 : FVec Ideal S1x1x256x1 .f32)
    (o0 o1 o2 o3 : FVec Ideal S1x256x1x64 .f32)
    (hqsc0 : qsc0 = toHead64 (scaleQ qb)) (hqsc1 : qsc1 = toHead64 (scaleQ qb)) (hqsc2 : qsc2 = toHead64 (scaleQ qb))
    (hqsc3 : qsc3 = toHead64 (scaleQ qb))
    (hl0 : l0 = rowsOwn (expOwn (scaleQ qb) kb)) (ho0 : o0 = pvOwn (expOwn (scaleQ qb) kb) vb)
    (hl1 : l1 = accL l0 (expPar (ofHead64 qsc0) kr0)) (ho1 : o1 = accOut o0 (expPar (ofHead64 qsc0) kr0) vr0)
    (hl2 : l2 = accL l1 (expPar (ofHead64 qsc1) kr1)) (ho2 : o2 = accOut o1 (expPar (ofHead64 qsc1) kr1) vr1)
    (hl3 : l3 = accL l2 (expPar (ofHead64 qsc2) kr2)) (ho3 : o3 = accOut o2 (expPar (ofHead64 qsc2) kr2) vr2)
    (hpsc : psc = toHead64 (expPar (ofHead64 qsc3) kr3)) (hl4 : l4 = accL l3 (expPar (ofHead64 qsc3) kr3))
    (q : Fin 256) (d : Fin 64) :
    finish o3 (ofHead64 psc) vr3 l4 (ix4 (0 : Fin 1) q (0 : Fin 1) d) = devOutAt Qc Kc Vc Kp Vp b q h d := by
  subst hqsc0 hqsc1 hqsc2 hqsc3 hl0 ho0 hl1 ho1 hl2 ho2 hl3 ho3 hpsc hl4
  unfold devOutAt devNum devL pOwn pPar qs
  simp only [finish_at, accOut_at, accL_at, pvOwn_at, rowsOwn_at, expOwn_at, expPar_at, ofHead64_at, toHead64_at, scaleQ_at,
    hq, hk, hv, hkr0, hkr1, hkr2, hkr3, hvr0, hvr1, hvr2, hvr3]

/-! ## A block of rows read through its rectangle -/

/-- The rectangle of rows r0 … r0+n-1 of batch bb, head hh reads a [2,256,8,64] array at (bb, r0 + q, hh, e). -/
theorem ld_rows {n : ℕ} (X : S2x256x8x64.Idx → EReal) (off : Fin 4 → ℕ)
    (inb : ∀ a, off a + (⟨4, ![1, n, 1, 64]⟩ : Shape).size a ≤ S2x256x8x64.size a)
    (bb : Fin 2) (hh : Fin 8) (r0 : ℕ) (hoff : off = ![bb.val, r0, hh.val, 0]) (q : Fin n) (e : Fin 64) (row : Fin 256)
    (hrow : row.val = r0 + q.val) :
    X ((Rect.unit (s := S2x256x8x64) off (⟨4, ![1, n, 1, 64]⟩ : Shape).size inb).toLoadRect.idx (ix4 (0 : Fin 1) q (0 : Fin 1) e))
      = X (ix4 bb row hh e) := by
  subst hoff
  refine congrArg X (funext fun a => Fin.ext ?_)
  match a with
  | ⟨0, _⟩ => show bb.val + 1 * 0 = bb.val; omega
  | ⟨1, _⟩ => show r0 + 1 * q.val = row.val; omega
  | ⟨2, _⟩ => show hh.val + 1 * 0 = hh.val; omega
  | ⟨3, _⟩ => show 0 + 1 * e.val = e.val; omega

/-! ## Reading back a tile from a list of stored tiles -/

namespace Lists

open Idealize.ShloMosaic.View

/-- Two boxes are separated on some axis: one's last coordinate lies before the other's first. -/
def sepB {s : Shape} (r₁ r₂ : LoadRect s) : Bool :=
  (List.finRange s.rank).any fun a =>
    decide (r₁.off a + r₁.stride a * (r₁.size a - 1) < r₂.off a) || decide (r₂.off a + r₂.stride a * (r₂.size a - 1) < r₁.off a)

theorem disjoint_of_sepB {s : Shape} {r₁ r₂ : LoadRect s} (h : sepB r₁ r₂ = true) : Disjoint r₁.set r₂.set := by
  unfold sepB at h
  rw [List.any_eq_true] at h
  obtain ⟨a, -, ha⟩ := h
  rw [Bool.or_eq_true, decide_eq_true_eq, decide_eq_true_eq] at ha
  rcases ha with ha | ha
  · exact LoadRect.disjoint_of_separated r₁ r₂ a (.inl (.inr ha))
  · exact LoadRect.disjoint_of_separated r₁ r₂ a (.inr (.inr ha))

/-- A load through the rectangle of the n-th piece of a list, the pieces before it all separated from it, reads that
    piece's payload. -/
theorem readCov_nth {sig : RefSig} {κ : Kind} {sp : Space} {s : Shape} {e : EltTy} {Val : EltTy → Type} [∀ e, Nonempty (Val e)]
    (v : View sig κ sp s e) : ∀ (n : ℕ) (L : List (Piece Val s e)) (r : Rect s) (w : r.shape.Idx → Val e) (rest : List (Piece Val s e)),
      L.drop n = ⟨r, w⟩ :: rest → ((L.take n).all fun p => sepB p.1.toLoadRect r.toLoadRect) = true →
      v.readCov L r.toLoadRect = w
  | 0, L, r, w, rest, hd, _ => by
    rw [List.drop_zero] at hd; subst hd; exact readCov_cons_toLoadRect v r w rest
  | n + 1, [], r, w, rest, hd, _ => by simp at hd
  | n + 1, p :: L, r, w, rest, hd, hs => by
    rw [List.drop_succ_cons] at hd
    rw [List.take_succ_cons, List.all_cons, Bool.and_eq_true] at hs
    rw [readCov_cons_of_disjoint v p L r.toLoadRect (disjoint_of_sepB hs.1)]
    exact readCov_nth v n L r w rest hd hs.2

end Lists

end Cert.KernelIdeal.Prims

end
-- ==== Proof.OutValue.lean ====
/-
  What one device's body leaves in the result's buffer is the device's formula of the contents of its own and its
  partner's input buffers: head by head, the run's stored tiles are read back through the stages of the arithmetic.
-/
import proofs.«900412_g7700000000000413_dist_agattn_v7x_xyz2x2x2_z_b2_s256_h8_d64_f32_1_alg».proof.Proof.BodyRun
import proofs.«900412_g7700000000000413_dist_agattn_v7x_xyz2x2x2_z_b2_s256_h8_d64_f32_1_alg».proof.Proof.OutChain

noncomputable section

open scoped BigOperators

namespace Cert.KernelIdeal.Hand

open Cert.KernelIdeal Cert.KernelIdeal.Gen Cert.KernelIdeal.Prims
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-! ## Head by head: the final tile of the result's buffer, read back through the stages -/

set_option maxRecDepth 100000 in
set_option maxHeartbeats 4000000 in
theorem tile_0_0 (q : Fin 256) (d : Fin 64) :
    oStg.view.readCov (kernelRun.sl.Hout_80 (F := Ideal) m ρ c) (Rect.unit (s := S2x256x8x64) ![0, 0, 0, 0] S1x256x1x64.size inb_S2x256x8x64_S1x256x1x64_0_0_0_0).toLoadRect (ix4 (0 : Fin 1) q (0 : Fin 1) d)
      = Cert.Attn.devOutAt (qstg m ρ c) (kstg m ρ c) (vstg m ρ c) (klanded m ρ c) (vlanded m ρ c) 0 q 0 d :=
  (congrFun (Lists.readCov_nth _ 15 _ _ _ _ rfl rfl) _).trans
    (chain_at (qstg m ρ c) (kstg m ρ c) (vstg m ρ c) (klanded m ρ c) (vlanded m ρ c) 0 0
      (View.readAt (Elt Ideal) qStg.view (Rect.unit (s := S2x256x8x64) ![0, 0, 0, 0] S1x256x1x64.size inb_S2x256x8x64_S1x256x1x64_0_0_0_0).toLoadRect (qstg m ρ c))
      (View.readAt (Elt Ideal) kStg.view (Rect.unit (s := S2x256x8x64) ![0, 0, 0, 0] S1x256x1x64.size inb_S2x256x8x64_S1x256x1x64_0_0_0_0).toLoadRect (kstg m ρ c))
      (View.readAt (Elt Ideal) vStg.view (Rect.unit (s := S2x256x8x64) ![0, 0, 0, 0] S1x256x1x64.size inb_S2x256x8x64_S1x256x1x64_0_0_0_0).toLoadRect (vstg m ρ c))
      (fun q e => ld_rows (qstg m ρ c) ![0, 0, 0, 0] _ 0 0 0 rfl q e q (Nat.zero_add _).symm) (fun q e => ld_rows (kstg m ρ c) ![0, 0, 0, 0] _ 0 0 0 rfl q e q (Nat.zero_add _).symm) (fun q e => ld_rows (vstg m ρ c) ![0, 0, 0, 0] _ 0 0 0 rfl q e q (Nat.zero_add _).symm)
      (View.readAt (Elt Ideal) (Memref.whole cc0_scratch0).view (Rect.unit (s := S2x256x8x64) ![0, 0, 0, 0] S1x64x1x64.size inb_S2x256x8x64_S1x64x1x64_0_0_0_0).toLoadRect (klanded m ρ c))
      (View.readAt (Elt Ideal) (Memref.whole cc0_scratch0).view (Rect.unit (s := S2x256x8x64) ![0, 64, 0, 0] S1x64x1x64.size inb_S2x256x8x64_S1x64x1x64_0_64_0_0).toLoadRect (klanded m ρ c))
      (View.readAt (Elt Ideal) (Memref.whole cc0_scratch0).view (Rect.unit (s := S2x256x8x64) ![0, 128, 0, 0] S1x64x1x64.size inb_S2x256x8x64_S1x64x1x64_0_128_0_0).toLoadRect (klanded m ρ c))
      (View.readAt (Elt Ideal) (Memref.whole cc0_scratch0).view (Rect.unit (s := S2x256x8x64) ![0, 192, 0, 0] S1x64x1x64.size inb_S2x256x8x64_S1x64x1x64_0_192_0_0).toLoadRect (klanded m ρ c))
      (View.readAt (Elt Ideal) (Memref.whole cc0_scratch1).view (Rect.unit (s := S2x256x8x64) ![0, 0, 0, 0] S1x64x1x64.size inb_S2x256x8x64_S1x64x1x64_0_0_0_0).toLoadRect (vlanded m ρ c))
      (View.readAt (Elt Ideal) (Memref.whole cc0_scratch1).view (Rect.unit (s := S2x256x8x64) ![0, 64, 0, 0] S1x64x1x64.size inb_S2x256x8x64_S1x64x1x64_0_64_0_0).toLoadRect (vlanded m ρ c))
      (View.readAt (Elt Ideal) (Memref.whole cc0_scratch1).view (Rect.unit (s := S2x256x8x64) ![0, 128, 0, 0] S1x64x1x64.size inb_S2x256x8x64_S1x64x1x64_0_128_0_0).toLoadRect (vlanded m ρ c))
      (View.readAt (Elt Ideal) (Memref.whole cc0_scratch1).view (Rect.unit (s := S2x256x8x64) ![0, 192, 0, 0] S1x64x1x64.size inb_S2x256x8x64_S1x64x1x64_0_192_0_0).toLoadRect (vlanded m ρ c))
      (fun k e => ld_rows (klanded m ρ c) ![0, 0, 0, 0] _ 0 0 0 rfl k e (Cert.Attn.parRow 0 k) rfl)
      (fun k e => ld_rows (klanded m ρ c) ![0, 64, 0, 0] _ 0 0 64 rfl k e (Cert.Attn.parRow 1 k) rfl)
      (fun k e => ld_rows (klanded m ρ c) ![0, 128, 0, 0] _ 0 0 128 rfl k e (Cert.Attn.parRow 2 k) rfl)
      (fun k e => ld_rows (klanded m ρ c) ![0, 192, 0, 0] _ 0 0 192 rfl k e (Cert.Attn.parRow 3 k) rfl)
      (fun k e => ld_rows (vlanded m ρ c) ![0, 0, 0, 0] _ 0 0 0 rfl k e (Cert.Attn.parRow 0 k) rfl)
      (fun k e => ld_rows (vlanded m ρ c) ![0, 64, 0, 0] _ 0 0 64 rfl k e (Cert.Attn.parRow 1 k) rfl)
      (fun k e => ld_rows (vlanded m ρ c) ![0, 128, 0, 0] _ 0 0 128 rfl k e (Cert.Attn.parRow 2 k) rfl)
      (fun k e => ld_rows (vlanded m ρ c) ![0, 192, 0, 0] _ 0 0 192 rfl k e (Cert.Attn.parRow 3 k) rfl)
      (kernelRun.sl.v485 (F := Ideal) m ρ c) (kernelRun.sl.v873 (F := Ideal) m ρ c) (kernelRun.sl.v485 (F := Ideal) m ρ c) (kernelRun.sl.v485 (F := Ideal) m ρ c) (kernelRun.sl.v1923 (F := Ideal) m ρ c)
      (kernelRun.sl.v491 (F := Ideal) m ρ c) (kernelRun.sl.v879 (F := Ideal) m ρ c) (kernelRun.sl.v1267 (F := Ideal) m ρ c) (kernelRun.sl.v1648 (F := Ideal) m ρ c) (kernelRun.sl.v1929 (F := Ideal) m ρ c)
      (kernelRun.sl.v499 (F := Ideal) m ρ c) (kernelRun.sl.v887 (F := Ideal) m ρ c) (kernelRun.sl.v1275 (F := Ideal) m ρ c) (kernelRun.sl.v1921 (F := Ideal) m ρ c)
      ((Lists.readCov_nth _ 15 _ _ _ _ rfl rfl).trans rfl) ((Lists.readCov_nth _ 15 _ _ _ _ rfl rfl).trans rfl) ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      q d)

set_option maxRecDepth 100000 in
set_option maxHeartbeats 4000000 in
theorem tile_0_1 (q : Fin 256) (d : Fin 64) :
    oStg.view.readCov (kernelRun.sl.Hout_80 (F := Ideal) m ρ c) (Rect.unit (s := S2x256x8x64) ![0, 0, 1, 0] S1x256x1x64.size inb_S2x256x8x64_S1x256x1x64_0_0_1_0).toLoadRect (ix4 (0 : Fin 1) q (0 : Fin 1) d)
      = Cert.Attn.devOutAt (qstg m ρ c) (kstg m ρ c) (vstg m ρ c) (klanded m ρ c) (vlanded m ρ c) 0 q 1 d :=
  (congrFun (Lists.readCov_nth _ 14 _ _ _ _ rfl rfl) _).trans
    (chain_at (qstg m ρ c) (kstg m ρ c) (vstg m ρ c) (klanded m ρ c) (vlanded m ρ c) 0 1
      (View.readAt (Elt Ideal) qStg.view (Rect.unit (s := S2x256x8x64) ![0, 0, 1, 0] S1x256x1x64.size inb_S2x256x8x64_S1x256x1x64_0_0_1_0).toLoadRect (qstg m ρ c))
      (View.readAt (Elt Ideal) kStg.view (Rect.unit (s := S2x256x8x64) ![0, 0, 1, 0] S1x256x1x64.size inb_S2x256x8x64_S1x256x1x64_0_0_1_0).toLoadRect (kstg m ρ c))
      (View.readAt (Elt Ideal) vStg.view (Rect.unit (s := S2x256x8x64) ![0, 0, 1, 0] S1x256x1x64.size inb_S2x256x8x64_S1x256x1x64_0_0_1_0).toLoadRect (vstg m ρ c))
      (fun q e => ld_rows (qstg m ρ c) ![0, 0, 1, 0] _ 0 1 0 rfl q e q (Nat.zero_add _).symm) (fun q e => ld_rows (kstg m ρ c) ![0, 0, 1, 0] _ 0 1 0 rfl q e q (Nat.zero_add _).symm) (fun q e => ld_rows (vstg m ρ c) ![0, 0, 1, 0] _ 0 1 0 rfl q e q (Nat.zero_add _).symm)
      (View.readAt (Elt Ideal) (Memref.whole cc0_scratch0).view (Rect.unit (s := S2x256x8x64) ![0, 0, 1, 0] S1x64x1x64.size inb_S2x256x8x64_S1x64x1x64_0_0_1_0).toLoadRect (klanded m ρ c))
      (View.readAt (Elt Ideal) (Memref.whole cc0_scratch0).view (Rect.unit (s := S2x256x8x64) ![0, 64, 1, 0] S1x64x1x64.size inb_S2x256x8x64_S1x64x1x64_0_64_1_0).toLoadRect (klanded m ρ c))
      (View.readAt (Elt Ideal) (Memref.whole cc0_scratch0).view (Rect.unit (s := S2x256x8x64) ![0, 128, 1, 0] S1x64x1x64.size inb_S2x256x8x64_S1x64x1x64_0_128_1_0).toLoadRect (klanded m ρ c))
      (View.readAt (Elt Ideal) (Memref.whole cc0_scratch0).view (Rect.unit (s := S2x256x8x64) ![0, 192, 1, 0] S1x64x1x64.size inb_S2x256x8x64_S1x64x1x64_0_192_1_0).toLoadRect (klanded m ρ c))
      (View.readAt (Elt Ideal) (Memref.whole cc0_scratch1).view (Rect.unit (s := S2x256x8x64) ![0, 0, 1, 0] S1x64x1x64.size inb_S2x256x8x64_S1x64x1x64_0_0_1_0).toLoadRect (vlanded m ρ c))
      (View.readAt (Elt Ideal) (Memref.whole cc0_scratch1).view (Rect.unit (s := S2x256x8x64) ![0, 64, 1, 0] S1x64x1x64.size inb_S2x256x8x64_S1x64x1x64_0_64_1_0).toLoadRect (vlanded m ρ c))
      (View.readAt (Elt Ideal) (Memref.whole cc0_scratch1).view (Rect.unit (s := S2x256x8x64) ![0, 128, 1, 0] S1x64x1x64.size inb_S2x256x8x64_S1x64x1x64_0_128_1_0).toLoadRect (vlanded m ρ c))
      (View.readAt (Elt Ideal) (Memref.whole cc0_scratch1).view (Rect.unit (s := S2x256x8x64) ![0, 192, 1, 0] S1x64x1x64.size inb_S2x256x8x64_S1x64x1x64_0_192_1_0).toLoadRect (vlanded m ρ c))
      (fun k e => ld_rows (klanded m ρ c) ![0, 0, 1, 0] _ 0 1 0 rfl k e (Cert.Attn.parRow 0 k) rfl)
      (fun k e => ld_rows (klanded m ρ c) ![0, 64, 1, 0] _ 0 1 64 rfl k e (Cert.Attn.parRow 1 k) rfl)
      (fun k e => ld_rows (klanded m ρ c) ![0, 128, 1, 0] _ 0 1 128 rfl k e (Cert.Attn.parRow 2 k) rfl)
      (fun k e => ld_rows (klanded m ρ c) ![0, 192, 1, 0] _ 0 1 192 rfl k e (Cert.Attn.parRow 3 k) rfl)
      (fun k e => ld_rows (vlanded m ρ c) ![0, 0, 1, 0] _ 0 1 0 rfl k e (Cert.Attn.parRow 0 k) rfl)
      (fun k e => ld_rows (vlanded m ρ c) ![0, 64, 1, 0] _ 0 1 64 rfl k e (Cert.Attn.parRow 1 k) rfl)
      (fun k e => ld_rows (vlanded m ρ c) ![0, 128, 1, 0] _ 0 1 128 rfl k e (Cert.Attn.parRow 2 k) rfl)
      (fun k e => ld_rows (vlanded m ρ c) ![0, 192, 1, 0] _ 0 1 192 rfl k e (Cert.Attn.parRow 3 k) rfl)
      (kernelRun.sl.v508 (F := Ideal) m ρ c) (kernelRun.sl.v508 (F := Ideal) m ρ c) (kernelRun.sl.v508 (F := Ideal) m ρ c) (kernelRun.sl.v508 (F := Ideal) m ρ c) (kernelRun.sl.v1940 (F := Ideal) m ρ c)
      (kernelRun.sl.v514 (F := Ideal) m ρ c) (kernelRun.sl.v902 (F := Ideal) m ρ c) (kernelRun.sl.v1290 (F := Ideal) m ρ c) (kernelRun.sl.v1665 (F := Ideal) m ρ c) (kernelRun.sl.v1946 (F := Ideal) m ρ c)
      (kernelRun.sl.v522 (F := Ideal) m ρ c) (kernelRun.sl.v910 (F := Ideal) m ρ c) (kernelRun.sl.v1298 (F := Ideal) m ρ c) (kernelRun.sl.v1938 (F := Ideal) m ρ c)
      ((Lists.readCov_nth _ 14 _ _ _ _ rfl rfl).trans rfl) ((Lists.readCov_nth _ 14 _ _ _ _ rfl rfl).trans rfl) ((Lists.readCov_nth _ 14 _ _ _ _ rfl rfl).trans rfl) ((Lists.readCov_nth _ 14 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 14 _ _ _ _ rfl rfl).trans rfl) ((Lists.readCov_nth _ 14 _ _ _ _ rfl rfl).trans rfl)
      q d)

set_option maxRecDepth 100000 in
set_option maxHeartbeats 4000000 in
theorem tile_0_2 (q : Fin 256) (d : Fin 64) :
    oStg.view.readCov (kernelRun.sl.Hout_80 (F := Ideal) m ρ c) (Rect.unit (s := S2x256x8x64) ![0, 0, 2, 0] S1x256x1x64.size inb_S2x256x8x64_S1x256x1x64_0_0_2_0).toLoadRect (ix4 (0 : Fin 1) q (0 : Fin 1) d)
      = Cert.Attn.devOutAt (qstg m ρ c) (kstg m ρ c) (vstg m ρ c) (klanded m ρ c) (vlanded m ρ c) 0 q 2 d :=
  (congrFun (Lists.readCov_nth _ 13 _ _ _ _ rfl rfl) _).trans
    (chain_at (qstg m ρ c) (kstg m ρ c) (vstg m ρ c) (klanded m ρ c) (vlanded m ρ c) 0 2
      (View.readAt (Elt Ideal) qStg.view (Rect.unit (s := S2x256x8x64) ![0, 0, 2, 0] S1x256x1x64.size inb_S2x256x8x64_S1x256x1x64_0_0_2_0).toLoadRect (qstg m ρ c))
      (View.readAt (Elt Ideal) kStg.view (Rect.unit (s := S2x256x8x64) ![0, 0, 2, 0] S1x256x1x64.size inb_S2x256x8x64_S1x256x1x64_0_0_2_0).toLoadRect (kstg m ρ c))
      (View.readAt (Elt Ideal) vStg.view (Rect.unit (s := S2x256x8x64) ![0, 0, 2, 0] S1x256x1x64.size inb_S2x256x8x64_S1x256x1x64_0_0_2_0).toLoadRect (vstg m ρ c))
      (fun q e => ld_rows (qstg m ρ c) ![0, 0, 2, 0] _ 0 2 0 rfl q e q (Nat.zero_add _).symm) (fun q e => ld_rows (kstg m ρ c) ![0, 0, 2, 0] _ 0 2 0 rfl q e q (Nat.zero_add _).symm) (fun q e => ld_rows (vstg m ρ c) ![0, 0, 2, 0] _ 0 2 0 rfl q e q (Nat.zero_add _).symm)
      (View.readAt (Elt Ideal) (Memref.whole cc0_scratch0).view (Rect.unit (s := S2x256x8x64) ![0, 0, 2, 0] S1x64x1x64.size inb_S2x256x8x64_S1x64x1x64_0_0_2_0).toLoadRect (klanded m ρ c))
      (View.readAt (Elt Ideal) (Memref.whole cc0_scratch0).view (Rect.unit (s := S2x256x8x64) ![0, 64, 2, 0] S1x64x1x64.size inb_S2x256x8x64_S1x64x1x64_0_64_2_0).toLoadRect (klanded m ρ c))
      (View.readAt (Elt Ideal) (Memref.whole cc0_scratch0).view (Rect.unit (s := S2x256x8x64) ![0, 128, 2, 0] S1x64x1x64.size inb_S2x256x8x64_S1x64x1x64_0_128_2_0).toLoadRect (klanded m ρ c))
      (View.readAt (Elt Ideal) (Memref.whole cc0_scratch0).view (Rect.unit (s := S2x256x8x64) ![0, 192, 2, 0] S1x64x1x64.size inb_S2x256x8x64_S1x64x1x64_0_192_2_0).toLoadRect (klanded m ρ c))
      (View.readAt (Elt Ideal) (Memref.whole cc0_scratch1).view (Rect.unit (s := S2x256x8x64) ![0, 0, 2, 0] S1x64x1x64.size inb_S2x256x8x64_S1x64x1x64_0_0_2_0).toLoadRect (vlanded m ρ c))
      (View.readAt (Elt Ideal) (Memref.whole cc0_scratch1).view (Rect.unit (s := S2x256x8x64) ![0, 64, 2, 0] S1x64x1x64.size inb_S2x256x8x64_S1x64x1x64_0_64_2_0).toLoadRect (vlanded m ρ c))
      (View.readAt (Elt Ideal) (Memref.whole cc0_scratch1).view (Rect.unit (s := S2x256x8x64) ![0, 128, 2, 0] S1x64x1x64.size inb_S2x256x8x64_S1x64x1x64_0_128_2_0).toLoadRect (vlanded m ρ c))
      (View.readAt (Elt Ideal) (Memref.whole cc0_scratch1).view (Rect.unit (s := S2x256x8x64) ![0, 192, 2, 0] S1x64x1x64.size inb_S2x256x8x64_S1x64x1x64_0_192_2_0).toLoadRect (vlanded m ρ c))
      (fun k e => ld_rows (klanded m ρ c) ![0, 0, 2, 0] _ 0 2 0 rfl k e (Cert.Attn.parRow 0 k) rfl)
      (fun k e => ld_rows (klanded m ρ c) ![0, 64, 2, 0] _ 0 2 64 rfl k e (Cert.Attn.parRow 1 k) rfl)
      (fun k e => ld_rows (klanded m ρ c) ![0, 128, 2, 0] _ 0 2 128 rfl k e (Cert.Attn.parRow 2 k) rfl)
      (fun k e => ld_rows (klanded m ρ c) ![0, 192, 2, 0] _ 0 2 192 rfl k e (Cert.Attn.parRow 3 k) rfl)
      (fun k e => ld_rows (vlanded m ρ c) ![0, 0, 2, 0] _ 0 2 0 rfl k e (Cert.Attn.parRow 0 k) rfl)
      (fun k e => ld_rows (vlanded m ρ c) ![0, 64, 2, 0] _ 0 2 64 rfl k e (Cert.Attn.parRow 1 k) rfl)
      (fun k e => ld_rows (vlanded m ρ c) ![0, 128, 2, 0] _ 0 2 128 rfl k e (Cert.Attn.parRow 2 k) rfl)
      (fun k e => ld_rows (vlanded m ρ c) ![0, 192, 2, 0] _ 0 2 192 rfl k e (Cert.Attn.parRow 3 k) rfl)
      (kernelRun.sl.v531 (F := Ideal) m ρ c) (kernelRun.sl.v531 (F := Ideal) m ρ c) (kernelRun.sl.v531 (F := Ideal) m ρ c) (kernelRun.sl.v531 (F := Ideal) m ρ c) (kernelRun.sl.v1957 (F := Ideal) m ρ c)
      (kernelRun.sl.v537 (F := Ideal) m ρ c) (kernelRun.sl.v925 (F := Ideal) m ρ c) (kernelRun.sl.v1313 (F := Ideal) m ρ c) (kernelRun.sl.v1682 (F := Ideal) m ρ c) (kernelRun.sl.v1963 (F := Ideal) m ρ c)
      (kernelRun.sl.v545 (F := Ideal) m ρ c) (kernelRun.sl.v933 (F := Ideal) m ρ c) (kernelRun.sl.v1321 (F := Ideal) m ρ c) (kernelRun.sl.v1955 (F := Ideal) m ρ c)
      ((Lists.readCov_nth _ 13 _ _ _ _ rfl rfl).trans rfl) ((Lists.readCov_nth _ 13 _ _ _ _ rfl rfl).trans rfl) ((Lists.readCov_nth _ 13 _ _ _ _ rfl rfl).trans rfl) ((Lists.readCov_nth _ 13 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 13 _ _ _ _ rfl rfl).trans rfl) ((Lists.readCov_nth _ 13 _ _ _ _ rfl rfl).trans rfl)
      q d)

set_option maxRecDepth 100000 in
set_option maxHeartbeats 4000000 in
theorem tile_0_3 (q : Fin 256) (d : Fin 64) :
    oStg.view.readCov (kernelRun.sl.Hout_80 (F := Ideal) m ρ c) (Rect.unit (s := S2x256x8x64) ![0, 0, 3, 0] S1x256x1x64.size inb_S2x256x8x64_S1x256x1x64_0_0_3_0).toLoadRect (ix4 (0 : Fin 1) q (0 : Fin 1) d)
      = Cert.Attn.devOutAt (qstg m ρ c) (kstg m ρ c) (vstg m ρ c) (klanded m ρ c) (vlanded m ρ c) 0 q 3 d :=
  (congrFun (Lists.readCov_nth _ 12 _ _ _ _ rfl rfl) _).trans
    (chain_at (qstg m ρ c) (kstg m ρ c) (vstg m ρ c) (klanded m ρ c) (vlanded m ρ c) 0 3
      (View.readAt (Elt Ideal) qStg.view (Rect.unit (s := S2x256x8x64) ![0, 0, 3, 0] S1x256x1x64.size inb_S2x256x8x64_S1x256x1x64_0_0_3_0).toLoadRect (qstg m ρ c))
      (View.readAt (Elt Ideal) kStg.view (Rect.unit (s := S2x256x8x64) ![0, 0, 3, 0] S1x256x1x64.size inb_S2x256x8x64_S1x256x1x64_0_0_3_0).toLoadRect (kstg m ρ c))
      (View.readAt (Elt Ideal) vStg.view (Rect.unit (s := S2x256x8x64) ![0, 0, 3, 0] S1x256x1x64.size inb_S2x256x8x64_S1x256x1x64_0_0_3_0).toLoadRect (vstg m ρ c))
      (fun q e => ld_rows (qstg m ρ c) ![0, 0, 3, 0] _ 0 3 0 rfl q e q (Nat.zero_add _).symm) (fun q e => ld_rows (kstg m ρ c) ![0, 0, 3, 0] _ 0 3 0 rfl q e q (Nat.zero_add _).symm) (fun q e => ld_rows (vstg m ρ c) ![0, 0, 3, 0] _ 0 3 0 rfl q e q (Nat.zero_add _).symm)
      (View.readAt (Elt Ideal) (Memref.whole cc0_scratch0).view (Rect.unit (s := S2x256x8x64) ![0, 0, 3, 0] S1x64x1x64.size inb_S2x256x8x64_S1x64x1x64_0_0_3_0).toLoadRect (klanded m ρ c))
      (View.readAt (Elt Ideal) (Memref.whole cc0_scratch0).view (Rect.unit (s := S2x256x8x64) ![0, 64, 3, 0] S1x64x1x64.size inb_S2x256x8x64_S1x64x1x64_0_64_3_0).toLoadRect (klanded m ρ c))
      (View.readAt (Elt Ideal) (Memref.whole cc0_scratch0).view (Rect.unit (s := S2x256x8x64) ![0, 128, 3, 0] S1x64x1x64.size inb_S2x256x8x64_S1x64x1x64_0_128_3_0).toLoadRect (klanded m ρ c))
      (View.readAt (Elt Ideal) (Memref.whole cc0_scratch0).view (Rect.unit (s := S2x256x8x64) ![0, 192, 3, 0] S1x64x1x64.size inb_S2x256x8x64_S1x64x1x64_0_192_3_0).toLoadRect (klanded m ρ c))
      (View.readAt (Elt Ideal) (Memref.whole cc0_scratch1).view (Rect.unit (s := S2x256x8x64) ![0, 0, 3, 0] S1x64x1x64.size inb_S2x256x8x64_S1x64x1x64_0_0_3_0).toLoadRect (vlanded m ρ c))
      (View.readAt (Elt Ideal) (Memref.whole cc0_scratch1).view (Rect.unit (s := S2x256x8x64) ![0, 64, 3, 0] S1x64x1x64.size inb_S2x256x8x64_S1x64x1x64_0_64_3_0).toLoadRect (vlanded m ρ c))
      (View.readAt (Elt Ideal) (Memref.whole cc0_scratch1).view (Rect.unit (s := S2x256x8x64) ![0, 128, 3, 0] S1x64x1x64.size inb_S2x256x8x64_S1x64x1x64_0_128_3_0).toLoadRect (vlanded m ρ c))
      (View.readAt (Elt Ideal) (Memref.whole cc0_scratch1).view (Rect.unit (s := S2x256x8x64) ![0, 192, 3, 0] S1x64x1x64.size inb_S2x256x8x64_S1x64x1x64_0_192_3_0).toLoadRect (vlanded m ρ c))
      (fun k e => ld_rows (klanded m ρ c) ![0, 0, 3, 0] _ 0 3 0 rfl k e (Cert.Attn.parRow 0 k) rfl)
      (fun k e => ld_rows (klanded m ρ c) ![0, 64, 3, 0] _ 0 3 64 rfl k e (Cert.Attn.parRow 1 k) rfl)
      (fun k e => ld_rows (klanded m ρ c) ![0, 128, 3, 0] _ 0 3 128 rfl k e (Cert.Attn.parRow 2 k) rfl)
      (fun k e => ld_rows (klanded m ρ c) ![0, 192, 3, 0] _ 0 3 192 rfl k e (Cert.Attn.parRow 3 k) rfl)
      (fun k e => ld_rows (vlanded m ρ c) ![0, 0, 3, 0] _ 0 3 0 rfl k e (Cert.Attn.parRow 0 k) rfl)
      (fun k e => ld_rows (vlanded m ρ c) ![0, 64, 3, 0] _ 0 3 64 rfl k e (Cert.Attn.parRow 1 k) rfl)
      (fun k e => ld_rows (vlanded m ρ c) ![0, 128, 3, 0] _ 0 3 128 rfl k e (Cert.Attn.parRow 2 k) rfl)
      (fun k e => ld_rows (vlanded m ρ c) ![0, 192, 3, 0] _ 0 3 192 rfl k e (Cert.Attn.parRow 3 k) rfl)
      (kernelRun.sl.v554 (F := Ideal) m ρ c) (kernelRun.sl.v554 (F := Ideal) m ρ c) (kernelRun.sl.v554 (F := Ideal) m ρ c) (kernelRun.sl.v554 (F := Ideal) m ρ c) (kernelRun.sl.v1974 (F := Ideal) m ρ c)
      (kernelRun.sl.v560 (F := Ideal) m ρ c) (kernelRun.sl.v948 (F := Ideal) m ρ c) (kernelRun.sl.v1336 (F := Ideal) m ρ c) (kernelRun.sl.v1699 (F := Ideal) m ρ c) (kernelRun.sl.v1980 (F := Ideal) m ρ c)
      (kernelRun.sl.v568 (F := Ideal) m ρ c) (kernelRun.sl.v956 (F := Ideal) m ρ c) (kernelRun.sl.v1344 (F := Ideal) m ρ c) (kernelRun.sl.v1972 (F := Ideal) m ρ c)
      ((Lists.readCov_nth _ 12 _ _ _ _ rfl rfl).trans rfl) ((Lists.readCov_nth _ 12 _ _ _ _ rfl rfl).trans rfl) ((Lists.readCov_nth _ 12 _ _ _ _ rfl rfl).trans rfl) ((Lists.readCov_nth _ 12 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 12 _ _ _ _ rfl rfl).trans rfl) ((Lists.readCov_nth _ 12 _ _ _ _ rfl rfl).trans rfl)
      q d)

set_option maxRecDepth 100000 in
set_option maxHeartbeats 4000000 in
theorem tile_0_4 (q : Fin 256) (d : Fin 64) :
    oStg.view.readCov (kernelRun.sl.Hout_80 (F := Ideal) m ρ c) (Rect.unit (s := S2x256x8x64) ![0, 0, 4, 0] S1x256x1x64.size inb_S2x256x8x64_S1x256x1x64_0_0_4_0).toLoadRect (ix4 (0 : Fin 1) q (0 : Fin 1) d)
      = Cert.Attn.devOutAt (qstg m ρ c) (kstg m ρ c) (vstg m ρ c) (klanded m ρ c) (vlanded m ρ c) 0 q 4 d :=
  (congrFun (Lists.readCov_nth _ 11 _ _ _ _ rfl rfl) _).trans
    (chain_at (qstg m ρ c) (kstg m ρ c) (vstg m ρ c) (klanded m ρ c) (vlanded m ρ c) 0 4
      (View.readAt (Elt Ideal) qStg.view (Rect.unit (s := S2x256x8x64) ![0, 0, 4, 0] S1x256x1x64.size inb_S2x256x8x64_S1x256x1x64_0_0_4_0).toLoadRect (qstg m ρ c))
      (View.readAt (Elt Ideal) kStg.view (Rect.unit (s := S2x256x8x64) ![0, 0, 4, 0] S1x256x1x64.size inb_S2x256x8x64_S1x256x1x64_0_0_4_0).toLoadRect (kstg m ρ c))
      (View.readAt (Elt Ideal) vStg.view (Rect.unit (s := S2x256x8x64) ![0, 0, 4, 0] S1x256x1x64.size inb_S2x256x8x64_S1x256x1x64_0_0_4_0).toLoadRect (vstg m ρ c))
      (fun q e => ld_rows (qstg m ρ c) ![0, 0, 4, 0] _ 0 4 0 rfl q e q (Nat.zero_add _).symm) (fun q e => ld_rows (kstg m ρ c) ![0, 0, 4, 0] _ 0 4 0 rfl q e q (Nat.zero_add _).symm) (fun q e => ld_rows (vstg m ρ c) ![0, 0, 4, 0] _ 0 4 0 rfl q e q (Nat.zero_add _).symm)
      (View.readAt (Elt Ideal) (Memref.whole cc0_scratch0).view (Rect.unit (s := S2x256x8x64) ![0, 0, 4, 0] S1x64x1x64.size inb_S2x256x8x64_S1x64x1x64_0_0_4_0).toLoadRect (klanded m ρ c))
      (View.readAt (Elt Ideal) (Memref.whole cc0_scratch0).view (Rect.unit (s := S2x256x8x64) ![0, 64, 4, 0] S1x64x1x64.size inb_S2x256x8x64_S1x64x1x64_0_64_4_0).toLoadRect (klanded m ρ c))
      (View.readAt (Elt Ideal) (Memref.whole cc0_scratch0).view (Rect.unit (s := S2x256x8x64) ![0, 128, 4, 0] S1x64x1x64.size inb_S2x256x8x64_S1x64x1x64_0_128_4_0).toLoadRect (klanded m ρ c))
      (View.readAt (Elt Ideal) (Memref.whole cc0_scratch0).view (Rect.unit (s := S2x256x8x64) ![0, 192, 4, 0] S1x64x1x64.size inb_S2x256x8x64_S1x64x1x64_0_192_4_0).toLoadRect (klanded m ρ c))
      (View.readAt (Elt Ideal) (Memref.whole cc0_scratch1).view (Rect.unit (s := S2x256x8x64) ![0, 0, 4, 0] S1x64x1x64.size inb_S2x256x8x64_S1x64x1x64_0_0_4_0).toLoadRect (vlanded m ρ c))
      (View.readAt (Elt Ideal) (Memref.whole cc0_scratch1).view (Rect.unit (s := S2x256x8x64) ![0, 64, 4, 0] S1x64x1x64.size inb_S2x256x8x64_S1x64x1x64_0_64_4_0).toLoadRect (vlanded m ρ c))
      (View.readAt (Elt Ideal) (Memref.whole cc0_scratch1).view (Rect.unit (s := S2x256x8x64) ![0, 128, 4, 0] S1x64x1x64.size inb_S2x256x8x64_S1x64x1x64_0_128_4_0).toLoadRect (vlanded m ρ c))
      (View.readAt (Elt Ideal) (Memref.whole cc0_scratch1).view (Rect.unit (s := S2x256x8x64) ![0, 192, 4, 0] S1x64x1x64.size inb_S2x256x8x64_S1x64x1x64_0_192_4_0).toLoadRect (vlanded m ρ c))
      (fun k e => ld_rows (klanded m ρ c) ![0, 0, 4, 0] _ 0 4 0 rfl k e (Cert.Attn.parRow 0 k) rfl)
      (fun k e => ld_rows (klanded m ρ c) ![0, 64, 4, 0] _ 0 4 64 rfl k e (Cert.Attn.parRow 1 k) rfl)
      (fun k e => ld_rows (klanded m ρ c) ![0, 128, 4, 0] _ 0 4 128 rfl k e (Cert.Attn.parRow 2 k) rfl)
      (fun k e => ld_rows (klanded m ρ c) ![0, 192, 4, 0] _ 0 4 192 rfl k e (Cert.Attn.parRow 3 k) rfl)
      (fun k e => ld_rows (vlanded m ρ c) ![0, 0, 4, 0] _ 0 4 0 rfl k e (Cert.Attn.parRow 0 k) rfl)
      (fun k e => ld_rows (vlanded m ρ c) ![0, 64, 4, 0] _ 0 4 64 rfl k e (Cert.Attn.parRow 1 k) rfl)
      (fun k e => ld_rows (vlanded m ρ c) ![0, 128, 4, 0] _ 0 4 128 rfl k e (Cert.Attn.parRow 2 k) rfl)
      (fun k e => ld_rows (vlanded m ρ c) ![0, 192, 4, 0] _ 0 4 192 rfl k e (Cert.Attn.parRow 3 k) rfl)
      (kernelRun.sl.v577 (F := Ideal) m ρ c) (kernelRun.sl.v577 (F := Ideal) m ρ c) (kernelRun.sl.v577 (F := Ideal) m ρ c) (kernelRun.sl.v577 (F := Ideal) m ρ c) (kernelRun.sl.v1991 (F := Ideal) m ρ c)
      (kernelRun.sl.v583 (F := Ideal) m ρ c) (kernelRun.sl.v971 (F := Ideal) m ρ c) (kernelRun.sl.v1359 (F := Ideal) m ρ c) (kernelRun.sl.v1716 (F := Ideal) m ρ c) (kernelRun.sl.v1997 (F := Ideal) m ρ c)
      (kernelRun.sl.v591 (F := Ideal) m ρ c) (kernelRun.sl.v979 (F := Ideal) m ρ c) (kernelRun.sl.v1367 (F := Ideal) m ρ c) (kernelRun.sl.v1989 (F := Ideal) m ρ c)
      ((Lists.readCov_nth _ 11 _ _ _ _ rfl rfl).trans rfl) ((Lists.readCov_nth _ 11 _ _ _ _ rfl rfl).trans rfl) ((Lists.readCov_nth _ 11 _ _ _ _ rfl rfl).trans rfl) ((Lists.readCov_nth _ 11 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 11 _ _ _ _ rfl rfl).trans rfl) ((Lists.readCov_nth _ 11 _ _ _ _ rfl rfl).trans rfl)
      q d)

set_option maxRecDepth 100000 in
set_option maxHeartbeats 4000000 in
theorem tile_0_5 (q : Fin 256) (d : Fin 64) :
    oStg.view.readCov (kernelRun.sl.Hout_80 (F := Ideal) m ρ c) (Rect.unit (s := S2x256x8x64) ![0, 0, 5, 0] S1x256x1x64.size inb_S2x256x8x64_S1x256x1x64_0_0_5_0).toLoadRect (ix4 (0 : Fin 1) q (0 : Fin 1) d)
      = Cert.Attn.devOutAt (qstg m ρ c) (kstg m ρ c) (vstg m ρ c) (klanded m ρ c) (vlanded m ρ c) 0 q 5 d :=
  (congrFun (Lists.readCov_nth _ 10 _ _ _ _ rfl rfl) _).trans
    (chain_at (qstg m ρ c) (kstg m ρ c) (vstg m ρ c) (klanded m ρ c) (vlanded m ρ c) 0 5
      (View.readAt (Elt Ideal) qStg.view (Rect.unit (s := S2x256x8x64) ![0, 0, 5, 0] S1x256x1x64.size inb_S2x256x8x64_S1x256x1x64_0_0_5_0).toLoadRect (qstg m ρ c))
      (View.readAt (Elt Ideal) kStg.view (Rect.unit (s := S2x256x8x64) ![0, 0, 5, 0] S1x256x1x64.size inb_S2x256x8x64_S1x256x1x64_0_0_5_0).toLoadRect (kstg m ρ c))
      (View.readAt (Elt Ideal) vStg.view (Rect.unit (s := S2x256x8x64) ![0, 0, 5, 0] S1x256x1x64.size inb_S2x256x8x64_S1x256x1x64_0_0_5_0).toLoadRect (vstg m ρ c))
      (fun q e => ld_rows (qstg m ρ c) ![0, 0, 5, 0] _ 0 5 0 rfl q e q (Nat.zero_add _).symm) (fun q e => ld_rows (kstg m ρ c) ![0, 0, 5, 0] _ 0 5 0 rfl q e q (Nat.zero_add _).symm) (fun q e => ld_rows (vstg m ρ c) ![0, 0, 5, 0] _ 0 5 0 rfl q e q (Nat.zero_add _).symm)
      (View.readAt (Elt Ideal) (Memref.whole cc0_scratch0).view (Rect.unit (s := S2x256x8x64) ![0, 0, 5, 0] S1x64x1x64.size inb_S2x256x8x64_S1x64x1x64_0_0_5_0).toLoadRect (klanded m ρ c))
      (View.readAt (Elt Ideal) (Memref.whole cc0_scratch0).view (Rect.unit (s := S2x256x8x64) ![0, 64, 5, 0] S1x64x1x64.size inb_S2x256x8x64_S1x64x1x64_0_64_5_0).toLoadRect (klanded m ρ c))
      (View.readAt (Elt Ideal) (Memref.whole cc0_scratch0).view (Rect.unit (s := S2x256x8x64) ![0, 128, 5, 0] S1x64x1x64.size inb_S2x256x8x64_S1x64x1x64_0_128_5_0).toLoadRect (klanded m ρ c))
      (View.readAt (Elt Ideal) (Memref.whole cc0_scratch0).view (Rect.unit (s := S2x256x8x64) ![0, 192, 5, 0] S1x64x1x64.size inb_S2x256x8x64_S1x64x1x64_0_192_5_0).toLoadRect (klanded m ρ c))
      (View.readAt (Elt Ideal) (Memref.whole cc0_scratch1).view (Rect.unit (s := S2x256x8x64) ![0, 0, 5, 0] S1x64x1x64.size inb_S2x256x8x64_S1x64x1x64_0_0_5_0).toLoadRect (vlanded m ρ c))
      (View.readAt (Elt Ideal) (Memref.whole cc0_scratch1).view (Rect.unit (s := S2x256x8x64) ![0, 64, 5, 0] S1x64x1x64.size inb_S2x256x8x64_S1x64x1x64_0_64_5_0).toLoadRect (vlanded m ρ c))
      (View.readAt (Elt Ideal) (Memref.whole cc0_scratch1).view (Rect.unit (s := S2x256x8x64) ![0, 128, 5, 0] S1x64x1x64.size inb_S2x256x8x64_S1x64x1x64_0_128_5_0).toLoadRect (vlanded m ρ c))
      (View.readAt (Elt Ideal) (Memref.whole cc0_scratch1).view (Rect.unit (s := S2x256x8x64) ![0, 192, 5, 0] S1x64x1x64.size inb_S2x256x8x64_S1x64x1x64_0_192_5_0).toLoadRect (vlanded m ρ c))
      (fun k e => ld_rows (klanded m ρ c) ![0, 0, 5, 0] _ 0 5 0 rfl k e (Cert.Attn.parRow 0 k) rfl)
      (fun k e => ld_rows (klanded m ρ c) ![0, 64, 5, 0] _ 0 5 64 rfl k e (Cert.Attn.parRow 1 k) rfl)
      (fun k e => ld_rows (klanded m ρ c) ![0, 128, 5, 0] _ 0 5 128 rfl k e (Cert.Attn.parRow 2 k) rfl)
      (fun k e => ld_rows (klanded m ρ c) ![0, 192, 5, 0] _ 0 5 192 rfl k e (Cert.Attn.parRow 3 k) rfl)
      (fun k e => ld_rows (vlanded m ρ c) ![0, 0, 5, 0] _ 0 5 0 rfl k e (Cert.Attn.parRow 0 k) rfl)
      (fun k e => ld_rows (vlanded m ρ c) ![0, 64, 5, 0] _ 0 5 64 rfl k e (Cert.Attn.parRow 1 k) rfl)
      (fun k e => ld_rows (vlanded m ρ c) ![0, 128, 5, 0] _ 0 5 128 rfl k e (Cert.Attn.parRow 2 k) rfl)
      (fun k e => ld_rows (vlanded m ρ c) ![0, 192, 5, 0] _ 0 5 192 rfl k e (Cert.Attn.parRow 3 k) rfl)
      (kernelRun.sl.v600 (F := Ideal) m ρ c) (kernelRun.sl.v600 (F := Ideal) m ρ c) (kernelRun.sl.v600 (F := Ideal) m ρ c) (kernelRun.sl.v600 (F := Ideal) m ρ c) (kernelRun.sl.v2008 (F := Ideal) m ρ c)
      (kernelRun.sl.v606 (F := Ideal) m ρ c) (kernelRun.sl.v994 (F := Ideal) m ρ c) (kernelRun.sl.v1382 (F := Ideal) m ρ c) (kernelRun.sl.v1733 (F := Ideal) m ρ c) (kernelRun.sl.v2014 (F := Ideal) m ρ c)
      (kernelRun.sl.v614 (F := Ideal) m ρ c) (kernelRun.sl.v1002 (F := Ideal) m ρ c) (kernelRun.sl.v1390 (F := Ideal) m ρ c) (kernelRun.sl.v2006 (F := Ideal) m ρ c)
      ((Lists.readCov_nth _ 10 _ _ _ _ rfl rfl).trans rfl) ((Lists.readCov_nth _ 10 _ _ _ _ rfl rfl).trans rfl) ((Lists.readCov_nth _ 10 _ _ _ _ rfl rfl).trans rfl) ((Lists.readCov_nth _ 10 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 10 _ _ _ _ rfl rfl).trans rfl) ((Lists.readCov_nth _ 10 _ _ _ _ rfl rfl).trans rfl)
      q d)

set_option maxRecDepth 100000 in
set_option maxHeartbeats 4000000 in
theorem tile_0_6 (q : Fin 256) (d : Fin 64) :
    oStg.view.readCov (kernelRun.sl.Hout_80 (F := Ideal) m ρ c) (Rect.unit (s := S2x256x8x64) ![0, 0, 6, 0] S1x256x1x64.size inb_S2x256x8x64_S1x256x1x64_0_0_6_0).toLoadRect (ix4 (0 : Fin 1) q (0 : Fin 1) d)
      = Cert.Attn.devOutAt (qstg m ρ c) (kstg m ρ c) (vstg m ρ c) (klanded m ρ c) (vlanded m ρ c) 0 q 6 d :=
  (congrFun (Lists.readCov_nth _ 9 _ _ _ _ rfl rfl) _).trans
    (chain_at (qstg m ρ c) (kstg m ρ c) (vstg m ρ c) (klanded m ρ c) (vlanded m ρ c) 0 6
      (View.readAt (Elt Ideal) qStg.view (Rect.unit (s := S2x256x8x64) ![0, 0, 6, 0] S1x256x1x64.size inb_S2x256x8x64_S1x256x1x64_0_0_6_0).toLoadRect (qstg m ρ c))
      (View.readAt (Elt Ideal) kStg.view (Rect.unit (s := S2x256x8x64) ![0, 0, 6, 0] S1x256x1x64.size inb_S2x256x8x64_S1x256x1x64_0_0_6_0).toLoadRect (kstg m ρ c))
      (View.readAt (Elt Ideal) vStg.view (Rect.unit (s := S2x256x8x64) ![0, 0, 6, 0] S1x256x1x64.size inb_S2x256x8x64_S1x256x1x64_0_0_6_0).toLoadRect (vstg m ρ c))
      (fun q e => ld_rows (qstg m ρ c) ![0, 0, 6, 0] _ 0 6 0 rfl q e q (Nat.zero_add _).symm) (fun q e => ld_rows (kstg m ρ c) ![0, 0, 6, 0] _ 0 6 0 rfl q e q (Nat.zero_add _).symm) (fun q e => ld_rows (vstg m ρ c) ![0, 0, 6, 0] _ 0 6 0 rfl q e q (Nat.zero_add _).symm)
      (View.readAt (Elt Ideal) (Memref.whole cc0_scratch0).view (Rect.unit (s := S2x256x8x64) ![0, 0, 6, 0] S1x64x1x64.size inb_S2x256x8x64_S1x64x1x64_0_0_6_0).toLoadRect (klanded m ρ c))
      (View.readAt (Elt Ideal) (Memref.whole cc0_scratch0).view (Rect.unit (s := S2x256x8x64) ![0, 64, 6, 0] S1x64x1x64.size inb_S2x256x8x64_S1x64x1x64_0_64_6_0).toLoadRect (klanded m ρ c))
      (View.readAt (Elt Ideal) (Memref.whole cc0_scratch0).view (Rect.unit (s := S2x256x8x64) ![0, 128, 6, 0] S1x64x1x64.size inb_S2x256x8x64_S1x64x1x64_0_128_6_0).toLoadRect (klanded m ρ c))
      (View.readAt (Elt Ideal) (Memref.whole cc0_scratch0).view (Rect.unit (s := S2x256x8x64) ![0, 192, 6, 0] S1x64x1x64.size inb_S2x256x8x64_S1x64x1x64_0_192_6_0).toLoadRect (klanded m ρ c))
      (View.readAt (Elt Ideal) (Memref.whole cc0_scratch1).view (Rect.unit (s := S2x256x8x64) ![0, 0, 6, 0] S1x64x1x64.size inb_S2x256x8x64_S1x64x1x64_0_0_6_0).toLoadRect (vlanded m ρ c))
      (View.readAt (Elt Ideal) (Memref.whole cc0_scratch1).view (Rect.unit (s := S2x256x8x64) ![0, 64, 6, 0] S1x64x1x64.size inb_S2x256x8x64_S1x64x1x64_0_64_6_0).toLoadRect (vlanded m ρ c))
      (View.readAt (Elt Ideal) (Memref.whole cc0_scratch1).view (Rect.unit (s := S2x256x8x64) ![0, 128, 6, 0] S1x64x1x64.size inb_S2x256x8x64_S1x64x1x64_0_128_6_0).toLoadRect (vlanded m ρ c))
      (View.readAt (Elt Ideal) (Memref.whole cc0_scratch1).view (Rect.unit (s := S2x256x8x64) ![0, 192, 6, 0] S1x64x1x64.size inb_S2x256x8x64_S1x64x1x64_0_192_6_0).toLoadRect (vlanded m ρ c))
      (fun k e => ld_rows (klanded m ρ c) ![0, 0, 6, 0] _ 0 6 0 rfl k e (Cert.Attn.parRow 0 k) rfl)
      (fun k e => ld_rows (klanded m ρ c) ![0, 64, 6, 0] _ 0 6 64 rfl k e (Cert.Attn.parRow 1 k) rfl)
      (fun k e => ld_rows (klanded m ρ c) ![0, 128, 6, 0] _ 0 6 128 rfl k e (Cert.Attn.parRow 2 k) rfl)
      (fun k e => ld_rows (klanded m ρ c) ![0, 192, 6, 0] _ 0 6 192 rfl k e (Cert.Attn.parRow 3 k) rfl)
      (fun k e => ld_rows (vlanded m ρ c) ![0, 0, 6, 0] _ 0 6 0 rfl k e (Cert.Attn.parRow 0 k) rfl)
      (fun k e => ld_rows (vlanded m ρ c) ![0, 64, 6, 0] _ 0 6 64 rfl k e (Cert.Attn.parRow 1 k) rfl)
      (fun k e => ld_rows (vlanded m ρ c) ![0, 128, 6, 0] _ 0 6 128 rfl k e (Cert.Attn.parRow 2 k) rfl)
      (fun k e => ld_rows (vlanded m ρ c) ![0, 192, 6, 0] _ 0 6 192 rfl k e (Cert.Attn.parRow 3 k) rfl)
      (kernelRun.sl.v623 (F := Ideal) m ρ c) (kernelRun.sl.v623 (F := Ideal) m ρ c) (kernelRun.sl.v623 (F := Ideal) m ρ c) (kernelRun.sl.v623 (F := Ideal) m ρ c) (kernelRun.sl.v2025 (F := Ideal) m ρ c)
      (kernelRun.sl.v629 (F := Ideal) m ρ c) (kernelRun.sl.v1017 (F := Ideal) m ρ c) (kernelRun.sl.v1405 (F := Ideal) m ρ c) (kernelRun.sl.v1750 (F := Ideal) m ρ c) (kernelRun.sl.v2031 (F := Ideal) m ρ c)
      (kernelRun.sl.v637 (F := Ideal) m ρ c) (kernelRun.sl.v1025 (F := Ideal) m ρ c) (kernelRun.sl.v1413 (F := Ideal) m ρ c) (kernelRun.sl.v2023 (F := Ideal) m ρ c)
      ((Lists.readCov_nth _ 9 _ _ _ _ rfl rfl).trans rfl) ((Lists.readCov_nth _ 9 _ _ _ _ rfl rfl).trans rfl) ((Lists.readCov_nth _ 9 _ _ _ _ rfl rfl).trans rfl) ((Lists.readCov_nth _ 9 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 9 _ _ _ _ rfl rfl).trans rfl) ((Lists.readCov_nth _ 9 _ _ _ _ rfl rfl).trans rfl)
      q d)

set_option maxRecDepth 100000 in
set_option maxHeartbeats 4000000 in
theorem tile_0_7 (q : Fin 256) (d : Fin 64) :
    oStg.view.readCov (kernelRun.sl.Hout_80 (F := Ideal) m ρ c) (Rect.unit (s := S2x256x8x64) ![0, 0, 7, 0] S1x256x1x64.size inb_S2x256x8x64_S1x256x1x64_0_0_7_0).toLoadRect (ix4 (0 : Fin 1) q (0 : Fin 1) d)
      = Cert.Attn.devOutAt (qstg m ρ c) (kstg m ρ c) (vstg m ρ c) (klanded m ρ c) (vlanded m ρ c) 0 q 7 d :=
  (congrFun (Lists.readCov_nth _ 8 _ _ _ _ rfl rfl) _).trans
    (chain_at (qstg m ρ c) (kstg m ρ c) (vstg m ρ c) (klanded m ρ c) (vlanded m ρ c) 0 7
      (View.readAt (Elt Ideal) qStg.view (Rect.unit (s := S2x256x8x64) ![0, 0, 7, 0] S1x256x1x64.size inb_S2x256x8x64_S1x256x1x64_0_0_7_0).toLoadRect (qstg m ρ c))
      (View.readAt (Elt Ideal) kStg.view (Rect.unit (s := S2x256x8x64) ![0, 0, 7, 0] S1x256x1x64.size inb_S2x256x8x64_S1x256x1x64_0_0_7_0).toLoadRect (kstg m ρ c))
      (View.readAt (Elt Ideal) vStg.view (Rect.unit (s := S2x256x8x64) ![0, 0, 7, 0] S1x256x1x64.size inb_S2x256x8x64_S1x256x1x64_0_0_7_0).toLoadRect (vstg m ρ c))
      (fun q e => ld_rows (qstg m ρ c) ![0, 0, 7, 0] _ 0 7 0 rfl q e q (Nat.zero_add _).symm) (fun q e => ld_rows (kstg m ρ c) ![0, 0, 7, 0] _ 0 7 0 rfl q e q (Nat.zero_add _).symm) (fun q e => ld_rows (vstg m ρ c) ![0, 0, 7, 0] _ 0 7 0 rfl q e q (Nat.zero_add _).symm)
      (View.readAt (Elt Ideal) (Memref.whole cc0_scratch0).view (Rect.unit (s := S2x256x8x64) ![0, 0, 7, 0] S1x64x1x64.size inb_S2x256x8x64_S1x64x1x64_0_0_7_0).toLoadRect (klanded m ρ c))
      (View.readAt (Elt Ideal) (Memref.whole cc0_scratch0).view (Rect.unit (s := S2x256x8x64) ![0, 64, 7, 0] S1x64x1x64.size inb_S2x256x8x64_S1x64x1x64_0_64_7_0).toLoadRect (klanded m ρ c))
      (View.readAt (Elt Ideal) (Memref.whole cc0_scratch0).view (Rect.unit (s := S2x256x8x64) ![0, 128, 7, 0] S1x64x1x64.size inb_S2x256x8x64_S1x64x1x64_0_128_7_0).toLoadRect (klanded m ρ c))
      (View.readAt (Elt Ideal) (Memref.whole cc0_scratch0).view (Rect.unit (s := S2x256x8x64) ![0, 192, 7, 0] S1x64x1x64.size inb_S2x256x8x64_S1x64x1x64_0_192_7_0).toLoadRect (klanded m ρ c))
      (View.readAt (Elt Ideal) (Memref.whole cc0_scratch1).view (Rect.unit (s := S2x256x8x64) ![0, 0, 7, 0] S1x64x1x64.size inb_S2x256x8x64_S1x64x1x64_0_0_7_0).toLoadRect (vlanded m ρ c))
      (View.readAt (Elt Ideal) (Memref.whole cc0_scratch1).view (Rect.unit (s := S2x256x8x64) ![0, 64, 7, 0] S1x64x1x64.size inb_S2x256x8x64_S1x64x1x64_0_64_7_0).toLoadRect (vlanded m ρ c))
      (View.readAt (Elt Ideal) (Memref.whole cc0_scratch1).view (Rect.unit (s := S2x256x8x64) ![0, 128, 7, 0] S1x64x1x64.size inb_S2x256x8x64_S1x64x1x64_0_128_7_0).toLoadRect (vlanded m ρ c))
      (View.readAt (Elt Ideal) (Memref.whole cc0_scratch1).view (Rect.unit (s := S2x256x8x64) ![0, 192, 7, 0] S1x64x1x64.size inb_S2x256x8x64_S1x64x1x64_0_192_7_0).toLoadRect (vlanded m ρ c))
      (fun k e => ld_rows (klanded m ρ c) ![0, 0, 7, 0] _ 0 7 0 rfl k e (Cert.Attn.parRow 0 k) rfl)
      (fun k e => ld_rows (klanded m ρ c) ![0, 64, 7, 0] _ 0 7 64 rfl k e (Cert.Attn.parRow 1 k) rfl)
      (fun k e => ld_rows (klanded m ρ c) ![0, 128, 7, 0] _ 0 7 128 rfl k e (Cert.Attn.parRow 2 k) rfl)
      (fun k e => ld_rows (klanded m ρ c) ![0, 192, 7, 0] _ 0 7 192 rfl k e (Cert.Attn.parRow 3 k) rfl)
      (fun k e => ld_rows (vlanded m ρ c) ![0, 0, 7, 0] _ 0 7 0 rfl k e (Cert.Attn.parRow 0 k) rfl)
      (fun k e => ld_rows (vlanded m ρ c) ![0, 64, 7, 0] _ 0 7 64 rfl k e (Cert.Attn.parRow 1 k) rfl)
      (fun k e => ld_rows (vlanded m ρ c) ![0, 128, 7, 0] _ 0 7 128 rfl k e (Cert.Attn.parRow 2 k) rfl)
      (fun k e => ld_rows (vlanded m ρ c) ![0, 192, 7, 0] _ 0 7 192 rfl k e (Cert.Attn.parRow 3 k) rfl)
      (kernelRun.sl.v646 (F := Ideal) m ρ c) (kernelRun.sl.v646 (F := Ideal) m ρ c) (kernelRun.sl.v646 (F := Ideal) m ρ c) (kernelRun.sl.v646 (F := Ideal) m ρ c) (kernelRun.sl.v2042 (F := Ideal) m ρ c)
      (kernelRun.sl.v652 (F := Ideal) m ρ c) (kernelRun.sl.v1040 (F := Ideal) m ρ c) (kernelRun.sl.v1428 (F := Ideal) m ρ c) (kernelRun.sl.v1767 (F := Ideal) m ρ c) (kernelRun.sl.v2048 (F := Ideal) m ρ c)
      (kernelRun.sl.v660 (F := Ideal) m ρ c) (kernelRun.sl.v1048 (F := Ideal) m ρ c) (kernelRun.sl.v1436 (F := Ideal) m ρ c) (kernelRun.sl.v2040 (F := Ideal) m ρ c)
      ((Lists.readCov_nth _ 8 _ _ _ _ rfl rfl).trans rfl) ((Lists.readCov_nth _ 8 _ _ _ _ rfl rfl).trans rfl) ((Lists.readCov_nth _ 8 _ _ _ _ rfl rfl).trans rfl) ((Lists.readCov_nth _ 8 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 8 _ _ _ _ rfl rfl).trans rfl) ((Lists.readCov_nth _ 8 _ _ _ _ rfl rfl).trans rfl)
      q d)

set_option maxRecDepth 100000 in
set_option maxHeartbeats 4000000 in
theorem tile_1_0 (q : Fin 256) (d : Fin 64) :
    oStg.view.readCov (kernelRun.sl.Hout_80 (F := Ideal) m ρ c) (Rect.unit (s := S2x256x8x64) ![1, 0, 0, 0] S1x256x1x64.size inb_S2x256x8x64_S1x256x1x64_1_0_0_0).toLoadRect (ix4 (0 : Fin 1) q (0 : Fin 1) d)
      = Cert.Attn.devOutAt (qstg m ρ c) (kstg m ρ c) (vstg m ρ c) (klanded m ρ c) (vlanded m ρ c) 1 q 0 d :=
  (congrFun (Lists.readCov_nth _ 7 _ _ _ _ rfl rfl) _).trans
    (chain_at (qstg m ρ c) (kstg m ρ c) (vstg m ρ c) (klanded m ρ c) (vlanded m ρ c) 1 0
      (View.readAt (Elt Ideal) qStg.view (Rect.unit (s := S2x256x8x64) ![1, 0, 0, 0] S1x256x1x64.size inb_S2x256x8x64_S1x256x1x64_1_0_0_0).toLoadRect (qstg m ρ c))
      (View.readAt (Elt Ideal) kStg.view (Rect.unit (s := S2x256x8x64) ![1, 0, 0, 0] S1x256x1x64.size inb_S2x256x8x64_S1x256x1x64_1_0_0_0).toLoadRect (kstg m ρ c))
      (View.readAt (Elt Ideal) vStg.view (Rect.unit (s := S2x256x8x64) ![1, 0, 0, 0] S1x256x1x64.size inb_S2x256x8x64_S1x256x1x64_1_0_0_0).toLoadRect (vstg m ρ c))
      (fun q e => ld_rows (qstg m ρ c) ![1, 0, 0, 0] _ 1 0 0 rfl q e q (Nat.zero_add _).symm) (fun q e => ld_rows (kstg m ρ c) ![1, 0, 0, 0] _ 1 0 0 rfl q e q (Nat.zero_add _).symm) (fun q e => ld_rows (vstg m ρ c) ![1, 0, 0, 0] _ 1 0 0 rfl q e q (Nat.zero_add _).symm)
      (View.readAt (Elt Ideal) (Memref.whole cc0_scratch0).view (Rect.unit (s := S2x256x8x64) ![1, 0, 0, 0] S1x64x1x64.size inb_S2x256x8x64_S1x64x1x64_1_0_0_0).toLoadRect (klanded m ρ c))
      (View.readAt (Elt Ideal) (Memref.whole cc0_scratch0).view (Rect.unit (s := S2x256x8x64) ![1, 64, 0, 0] S1x64x1x64.size inb_S2x256x8x64_S1x64x1x64_1_64_0_0).toLoadRect (klanded m ρ c))
      (View.readAt (Elt Ideal) (Memref.whole cc0_scratch0).view (Rect.unit (s := S2x256x8x64) ![1, 128, 0, 0] S1x64x1x64.size inb_S2x256x8x64_S1x64x1x64_1_128_0_0).toLoadRect (klanded m ρ c))
      (View.readAt (Elt Ideal) (Memref.whole cc0_scratch0).view (Rect.unit (s := S2x256x8x64) ![1, 192, 0, 0] S1x64x1x64.size inb_S2x256x8x64_S1x64x1x64_1_192_0_0).toLoadRect (klanded m ρ c))
      (View.readAt (Elt Ideal) (Memref.whole cc0_scratch1).view (Rect.unit (s := S2x256x8x64) ![1, 0, 0, 0] S1x64x1x64.size inb_S2x256x8x64_S1x64x1x64_1_0_0_0).toLoadRect (vlanded m ρ c))
      (View.readAt (Elt Ideal) (Memref.whole cc0_scratch1).view (Rect.unit (s := S2x256x8x64) ![1, 64, 0, 0] S1x64x1x64.size inb_S2x256x8x64_S1x64x1x64_1_64_0_0).toLoadRect (vlanded m ρ c))
      (View.readAt (Elt Ideal) (Memref.whole cc0_scratch1).view (Rect.unit (s := S2x256x8x64) ![1, 128, 0, 0] S1x64x1x64.size inb_S2x256x8x64_S1x64x1x64_1_128_0_0).toLoadRect (vlanded m ρ c))
      (View.readAt (Elt Ideal) (Memref.whole cc0_scratch1).view (Rect.unit (s := S2x256x8x64) ![1, 192, 0, 0] S1x64x1x64.size inb_S2x256x8x64_S1x64x1x64_1_192_0_0).toLoadRect (vlanded m ρ c))
      (fun k e => ld_rows (klanded m ρ c) ![1, 0, 0, 0] _ 1 0 0 rfl k e (Cert.Attn.parRow 0 k) rfl)
      (fun k e => ld_rows (klanded m ρ c) ![1, 64, 0, 0] _ 1 0 64 rfl k e (Cert.Attn.parRow 1 k) rfl)
      (fun k e => ld_rows (klanded m ρ c) ![1, 128, 0, 0] _ 1 0 128 rfl k e (Cert.Attn.parRow 2 k) rfl)
      (fun k e => ld_rows (klanded m ρ c) ![1, 192, 0, 0] _ 1 0 192 rfl k e (Cert.Attn.parRow 3 k) rfl)
      (fun k e => ld_rows (vlanded m ρ c) ![1, 0, 0, 0] _ 1 0 0 rfl k e (Cert.Attn.parRow 0 k) rfl)
      (fun k e => ld_rows (vlanded m ρ c) ![1, 64, 0, 0] _ 1 0 64 rfl k e (Cert.Attn.parRow 1 k) rfl)
      (fun k e => ld_rows (vlanded m ρ c) ![1, 128, 0, 0] _ 1 0 128 rfl k e (Cert.Attn.parRow 2 k) rfl)
      (fun k e => ld_rows (vlanded m ρ c) ![1, 192, 0, 0] _ 1 0 192 rfl k e (Cert.Attn.parRow 3 k) rfl)
      (kernelRun.sl.v669 (F := Ideal) m ρ c) (kernelRun.sl.v669 (F := Ideal) m ρ c) (kernelRun.sl.v669 (F := Ideal) m ρ c) (kernelRun.sl.v669 (F := Ideal) m ρ c) (kernelRun.sl.v2059 (F := Ideal) m ρ c)
      (kernelRun.sl.v675 (F := Ideal) m ρ c) (kernelRun.sl.v1063 (F := Ideal) m ρ c) (kernelRun.sl.v1451 (F := Ideal) m ρ c) (kernelRun.sl.v1784 (F := Ideal) m ρ c) (kernelRun.sl.v2065 (F := Ideal) m ρ c)
      (kernelRun.sl.v683 (F := Ideal) m ρ c) (kernelRun.sl.v1071 (F := Ideal) m ρ c) (kernelRun.sl.v1459 (F := Ideal) m ρ c) (kernelRun.sl.v2057 (F := Ideal) m ρ c)
      ((Lists.readCov_nth _ 7 _ _ _ _ rfl rfl).trans rfl) ((Lists.readCov_nth _ 7 _ _ _ _ rfl rfl).trans rfl) ((Lists.readCov_nth _ 7 _ _ _ _ rfl rfl).trans rfl) ((Lists.readCov_nth _ 7 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 7 _ _ _ _ rfl rfl).trans rfl) ((Lists.readCov_nth _ 7 _ _ _ _ rfl rfl).trans rfl)
      q d)

set_option maxRecDepth 100000 in
set_option maxHeartbeats 4000000 in
theorem tile_1_1 (q : Fin 256) (d : Fin 64) :
    oStg.view.readCov (kernelRun.sl.Hout_80 (F := Ideal) m ρ c) (Rect.unit (s := S2x256x8x64) ![1, 0, 1, 0] S1x256x1x64.size inb_S2x256x8x64_S1x256x1x64_1_0_1_0).toLoadRect (ix4 (0 : Fin 1) q (0 : Fin 1) d)
      = Cert.Attn.devOutAt (qstg m ρ c) (kstg m ρ c) (vstg m ρ c) (klanded m ρ c) (vlanded m ρ c) 1 q 1 d :=
  (congrFun (Lists.readCov_nth _ 6 _ _ _ _ rfl rfl) _).trans
    (chain_at (qstg m ρ c) (kstg m ρ c) (vstg m ρ c) (klanded m ρ c) (vlanded m ρ c) 1 1
      (View.readAt (Elt Ideal) qStg.view (Rect.unit (s := S2x256x8x64) ![1, 0, 1, 0] S1x256x1x64.size inb_S2x256x8x64_S1x256x1x64_1_0_1_0).toLoadRect (qstg m ρ c))
      (View.readAt (Elt Ideal) kStg.view (Rect.unit (s := S2x256x8x64) ![1, 0, 1, 0] S1x256x1x64.size inb_S2x256x8x64_S1x256x1x64_1_0_1_0).toLoadRect (kstg m ρ c))
      (View.readAt (Elt Ideal) vStg.view (Rect.unit (s := S2x256x8x64) ![1, 0, 1, 0] S1x256x1x64.size inb_S2x256x8x64_S1x256x1x64_1_0_1_0).toLoadRect (vstg m ρ c))
      (fun q e => ld_rows (qstg m ρ c) ![1, 0, 1, 0] _ 1 1 0 rfl q e q (Nat.zero_add _).symm) (fun q e => ld_rows (kstg m ρ c) ![1, 0, 1, 0] _ 1 1 0 rfl q e q (Nat.zero_add _).symm) (fun q e => ld_rows (vstg m ρ c) ![1, 0, 1, 0] _ 1 1 0 rfl q e q (Nat.zero_add _).symm)
      (View.readAt (Elt Ideal) (Memref.whole cc0_scratch0).view (Rect.unit (s := S2x256x8x64) ![1, 0, 1, 0] S1x64x1x64.size inb_S2x256x8x64_S1x64x1x64_1_0_1_0).toLoadRect (klanded m ρ c))
      (View.readAt (Elt Ideal) (Memref.whole cc0_scratch0).view (Rect.unit (s := S2x256x8x64) ![1, 64, 1, 0] S1x64x1x64.size inb_S2x256x8x64_S1x64x1x64_1_64_1_0).toLoadRect (klanded m ρ c))
      (View.readAt (Elt Ideal) (Memref.whole cc0_scratch0).view (Rect.unit (s := S2x256x8x64) ![1, 128, 1, 0] S1x64x1x64.size inb_S2x256x8x64_S1x64x1x64_1_128_1_0).toLoadRect (klanded m ρ c))
      (View.readAt (Elt Ideal) (Memref.whole cc0_scratch0).view (Rect.unit (s := S2x256x8x64) ![1, 192, 1, 0] S1x64x1x64.size inb_S2x256x8x64_S1x64x1x64_1_192_1_0).toLoadRect (klanded m ρ c))
      (View.readAt (Elt Ideal) (Memref.whole cc0_scratch1).view (Rect.unit (s := S2x256x8x64) ![1, 0, 1, 0] S1x64x1x64.size inb_S2x256x8x64_S1x64x1x64_1_0_1_0).toLoadRect (vlanded m ρ c))
      (View.readAt (Elt Ideal) (Memref.whole cc0_scratch1).view (Rect.unit (s := S2x256x8x64) ![1, 64, 1, 0] S1x64x1x64.size inb_S2x256x8x64_S1x64x1x64_1_64_1_0).toLoadRect (vlanded m ρ c))
      (View.readAt (Elt Ideal) (Memref.whole cc0_scratch1).view (Rect.unit (s := S2x256x8x64) ![1, 128, 1, 0] S1x64x1x64.size inb_S2x256x8x64_S1x64x1x64_1_128_1_0).toLoadRect (vlanded m ρ c))
      (View.readAt (Elt Ideal) (Memref.whole cc0_scratch1).view (Rect.unit (s := S2x256x8x64) ![1, 192, 1, 0] S1x64x1x64.size inb_S2x256x8x64_S1x64x1x64_1_192_1_0).toLoadRect (vlanded m ρ c))
      (fun k e => ld_rows (klanded m ρ c) ![1, 0, 1, 0] _ 1 1 0 rfl k e (Cert.Attn.parRow 0 k) rfl)
      (fun k e => ld_rows (klanded m ρ c) ![1, 64, 1, 0] _ 1 1 64 rfl k e (Cert.Attn.parRow 1 k) rfl)
      (fun k e => ld_rows (klanded m ρ c) ![1, 128, 1, 0] _ 1 1 128 rfl k e (Cert.Attn.parRow 2 k) rfl)
      (fun k e => ld_rows (klanded m ρ c) ![1, 192, 1, 0] _ 1 1 192 rfl k e (Cert.Attn.parRow 3 k) rfl)
      (fun k e => ld_rows (vlanded m ρ c) ![1, 0, 1, 0] _ 1 1 0 rfl k e (Cert.Attn.parRow 0 k) rfl)
      (fun k e => ld_rows (vlanded m ρ c) ![1, 64, 1, 0] _ 1 1 64 rfl k e (Cert.Attn.parRow 1 k) rfl)
      (fun k e => ld_rows (vlanded m ρ c) ![1, 128, 1, 0] _ 1 1 128 rfl k e (Cert.Attn.parRow 2 k) rfl)
      (fun k e => ld_rows (vlanded m ρ c) ![1, 192, 1, 0] _ 1 1 192 rfl k e (Cert.Attn.parRow 3 k) rfl)
      (kernelRun.sl.v692 (F := Ideal) m ρ c) (kernelRun.sl.v692 (F := Ideal) m ρ c) (kernelRun.sl.v692 (F := Ideal) m ρ c) (kernelRun.sl.v692 (F := Ideal) m ρ c) (kernelRun.sl.v2076 (F := Ideal) m ρ c)
      (kernelRun.sl.v698 (F := Ideal) m ρ c) (kernelRun.sl.v1086 (F := Ideal) m ρ c) (kernelRun.sl.v1474 (F := Ideal) m ρ c) (kernelRun.sl.v1801 (F := Ideal) m ρ c) (kernelRun.sl.v2082 (F := Ideal) m ρ c)
      (kernelRun.sl.v706 (F := Ideal) m ρ c) (kernelRun.sl.v1094 (F := Ideal) m ρ c) (kernelRun.sl.v1482 (F := Ideal) m ρ c) (kernelRun.sl.v2074 (F := Ideal) m ρ c)
      ((Lists.readCov_nth _ 6 _ _ _ _ rfl rfl).trans rfl) ((Lists.readCov_nth _ 6 _ _ _ _ rfl rfl).trans rfl) ((Lists.readCov_nth _ 6 _ _ _ _ rfl rfl).trans rfl) ((Lists.readCov_nth _ 6 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 6 _ _ _ _ rfl rfl).trans rfl) ((Lists.readCov_nth _ 6 _ _ _ _ rfl rfl).trans rfl)
      q d)

set_option maxRecDepth 100000 in
set_option maxHeartbeats 4000000 in
theorem tile_1_2 (q : Fin 256) (d : Fin 64) :
    oStg.view.readCov (kernelRun.sl.Hout_80 (F := Ideal) m ρ c) (Rect.unit (s := S2x256x8x64) ![1, 0, 2, 0] S1x256x1x64.size inb_S2x256x8x64_S1x256x1x64_1_0_2_0).toLoadRect (ix4 (0 : Fin 1) q (0 : Fin 1) d)
      = Cert.Attn.devOutAt (qstg m ρ c) (kstg m ρ c) (vstg m ρ c) (klanded m ρ c) (vlanded m ρ c) 1 q 2 d :=
  (congrFun (Lists.readCov_nth _ 5 _ _ _ _ rfl rfl) _).trans
    (chain_at (qstg m ρ c) (kstg m ρ c) (vstg m ρ c) (klanded m ρ c) (vlanded m ρ c) 1 2
      (View.readAt (Elt Ideal) qStg.view (Rect.unit (s := S2x256x8x64) ![1, 0, 2, 0] S1x256x1x64.size inb_S2x256x8x64_S1x256x1x64_1_0_2_0).toLoadRect (qstg m ρ c))
      (View.readAt (Elt Ideal) kStg.view (Rect.unit (s := S2x256x8x64) ![1, 0, 2, 0] S1x256x1x64.size inb_S2x256x8x64_S1x256x1x64_1_0_2_0).toLoadRect (kstg m ρ c))
      (View.readAt (Elt Ideal) vStg.view (Rect.unit (s := S2x256x8x64) ![1, 0, 2, 0] S1x256x1x64.size inb_S2x256x8x64_S1x256x1x64_1_0_2_0).toLoadRect (vstg m ρ c))
      (fun q e => ld_rows (qstg m ρ c) ![1, 0, 2, 0] _ 1 2 0 rfl q e q (Nat.zero_add _).symm) (fun q e => ld_rows (kstg m ρ c) ![1, 0, 2, 0] _ 1 2 0 rfl q e q (Nat.zero_add _).symm) (fun q e => ld_rows (vstg m ρ c) ![1, 0, 2, 0] _ 1 2 0 rfl q e q (Nat.zero_add _).symm)
      (View.readAt (Elt Ideal) (Memref.whole cc0_scratch0).view (Rect.unit (s := S2x256x8x64) ![1, 0, 2, 0] S1x64x1x64.size inb_S2x256x8x64_S1x64x1x64_1_0_2_0).toLoadRect (klanded m ρ c))
      (View.readAt (Elt Ideal) (Memref.whole cc0_scratch0).view (Rect.unit (s := S2x256x8x64) ![1, 64, 2, 0] S1x64x1x64.size inb_S2x256x8x64_S1x64x1x64_1_64_2_0).toLoadRect (klanded m ρ c))
      (View.readAt (Elt Ideal) (Memref.whole cc0_scratch0).view (Rect.unit (s := S2x256x8x64) ![1, 128, 2, 0] S1x64x1x64.size inb_S2x256x8x64_S1x64x1x64_1_128_2_0).toLoadRect (klanded m ρ c))
      (View.readAt (Elt Ideal) (Memref.whole cc0_scratch0).view (Rect.unit (s := S2x256x8x64) ![1, 192, 2, 0] S1x64x1x64.size inb_S2x256x8x64_S1x64x1x64_1_192_2_0).toLoadRect (klanded m ρ c))
      (View.readAt (Elt Ideal) (Memref.whole cc0_scratch1).view (Rect.unit (s := S2x256x8x64) ![1, 0, 2, 0] S1x64x1x64.size inb_S2x256x8x64_S1x64x1x64_1_0_2_0).toLoadRect (vlanded m ρ c))
      (View.readAt (Elt Ideal) (Memref.whole cc0_scratch1).view (Rect.unit (s := S2x256x8x64) ![1, 64, 2, 0] S1x64x1x64.size inb_S2x256x8x64_S1x64x1x64_1_64_2_0).toLoadRect (vlanded m ρ c))
      (View.readAt (Elt Ideal) (Memref.whole cc0_scratch1).view (Rect.unit (s := S2x256x8x64) ![1, 128, 2, 0] S1x64x1x64.size inb_S2x256x8x64_S1x64x1x64_1_128_2_0).toLoadRect (vlanded m ρ c))
      (View.readAt (Elt Ideal) (Memref.whole cc0_scratch1).view (Rect.unit (s := S2x256x8x64) ![1, 192, 2, 0] S1x64x1x64.size inb_S2x256x8x64_S1x64x1x64_1_192_2_0).toLoadRect (vlanded m ρ c))
      (fun k e => ld_rows (klanded m ρ c) ![1, 0, 2, 0] _ 1 2 0 rfl k e (Cert.Attn.parRow 0 k) rfl)
      (fun k e => ld_rows (klanded m ρ c) ![1, 64, 2, 0] _ 1 2 64 rfl k e (Cert.Attn.parRow 1 k) rfl)
      (fun k e => ld_rows (klanded m ρ c) ![1, 128, 2, 0] _ 1 2 128 rfl k e (Cert.Attn.parRow 2 k) rfl)
      (fun k e => ld_rows (klanded m ρ c) ![1, 192, 2, 0] _ 1 2 192 rfl k e (Cert.Attn.parRow 3 k) rfl)
      (fun k e => ld_rows (vlanded m ρ c) ![1, 0, 2, 0] _ 1 2 0 rfl k e (Cert.Attn.parRow 0 k) rfl)
      (fun k e => ld_rows (vlanded m ρ c) ![1, 64, 2, 0] _ 1 2 64 rfl k e (Cert.Attn.parRow 1 k) rfl)
      (fun k e => ld_rows (vlanded m ρ c) ![1, 128, 2, 0] _ 1 2 128 rfl k e (Cert.Attn.parRow 2 k) rfl)
      (fun k e => ld_rows (vlanded m ρ c) ![1, 192, 2, 0] _ 1 2 192 rfl k e (Cert.Attn.parRow 3 k) rfl)
      (kernelRun.sl.v715 (F := Ideal) m ρ c) (kernelRun.sl.v715 (F := Ideal) m ρ c) (kernelRun.sl.v715 (F := Ideal) m ρ c) (kernelRun.sl.v715 (F := Ideal) m ρ c) (kernelRun.sl.v2093 (F := Ideal) m ρ c)
      (kernelRun.sl.v721 (F := Ideal) m ρ c) (kernelRun.sl.v1109 (F := Ideal) m ρ c) (kernelRun.sl.v1497 (F := Ideal) m ρ c) (kernelRun.sl.v1818 (F := Ideal) m ρ c) (kernelRun.sl.v2099 (F := Ideal) m ρ c)
      (kernelRun.sl.v729 (F := Ideal) m ρ c) (kernelRun.sl.v1117 (F := Ideal) m ρ c) (kernelRun.sl.v1505 (F := Ideal) m ρ c) (kernelRun.sl.v2091 (F := Ideal) m ρ c)
      ((Lists.readCov_nth _ 5 _ _ _ _ rfl rfl).trans rfl) ((Lists.readCov_nth _ 5 _ _ _ _ rfl rfl).trans rfl) ((Lists.readCov_nth _ 5 _ _ _ _ rfl rfl).trans rfl) ((Lists.readCov_nth _ 5 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 5 _ _ _ _ rfl rfl).trans rfl) ((Lists.readCov_nth _ 5 _ _ _ _ rfl rfl).trans rfl)
      q d)

set_option maxRecDepth 100000 in
set_option maxHeartbeats 4000000 in
theorem tile_1_3 (q : Fin 256) (d : Fin 64) :
    oStg.view.readCov (kernelRun.sl.Hout_80 (F := Ideal) m ρ c) (Rect.unit (s := S2x256x8x64) ![1, 0, 3, 0] S1x256x1x64.size inb_S2x256x8x64_S1x256x1x64_1_0_3_0).toLoadRect (ix4 (0 : Fin 1) q (0 : Fin 1) d)
      = Cert.Attn.devOutAt (qstg m ρ c) (kstg m ρ c) (vstg m ρ c) (klanded m ρ c) (vlanded m ρ c) 1 q 3 d :=
  (congrFun (Lists.readCov_nth _ 4 _ _ _ _ rfl rfl) _).trans
    (chain_at (qstg m ρ c) (kstg m ρ c) (vstg m ρ c) (klanded m ρ c) (vlanded m ρ c) 1 3
      (View.readAt (Elt Ideal) qStg.view (Rect.unit (s := S2x256x8x64) ![1, 0, 3, 0] S1x256x1x64.size inb_S2x256x8x64_S1x256x1x64_1_0_3_0).toLoadRect (qstg m ρ c))
      (View.readAt (Elt Ideal) kStg.view (Rect.unit (s := S2x256x8x64) ![1, 0, 3, 0] S1x256x1x64.size inb_S2x256x8x64_S1x256x1x64_1_0_3_0).toLoadRect (kstg m ρ c))
      (View.readAt (Elt Ideal) vStg.view (Rect.unit (s := S2x256x8x64) ![1, 0, 3, 0] S1x256x1x64.size inb_S2x256x8x64_S1x256x1x64_1_0_3_0).toLoadRect (vstg m ρ c))
      (fun q e => ld_rows (qstg m ρ c) ![1, 0, 3, 0] _ 1 3 0 rfl q e q (Nat.zero_add _).symm) (fun q e => ld_rows (kstg m ρ c) ![1, 0, 3, 0] _ 1 3 0 rfl q e q (Nat.zero_add _).symm) (fun q e => ld_rows (vstg m ρ c) ![1, 0, 3, 0] _ 1 3 0 rfl q e q (Nat.zero_add _).symm)
      (View.readAt (Elt Ideal) (Memref.whole cc0_scratch0).view (Rect.unit (s := S2x256x8x64) ![1, 0, 3, 0] S1x64x1x64.size inb_S2x256x8x64_S1x64x1x64_1_0_3_0).toLoadRect (klanded m ρ c))
      (View.readAt (Elt Ideal) (Memref.whole cc0_scratch0).view (Rect.unit (s := S2x256x8x64) ![1, 64, 3, 0] S1x64x1x64.size inb_S2x256x8x64_S1x64x1x64_1_64_3_0).toLoadRect (klanded m ρ c))
      (View.readAt (Elt Ideal) (Memref.whole cc0_scratch0).view (Rect.unit (s := S2x256x8x64) ![1, 128, 3, 0] S1x64x1x64.size inb_S2x256x8x64_S1x64x1x64_1_128_3_0).toLoadRect (klanded m ρ c))
      (View.readAt (Elt Ideal) (Memref.whole cc0_scratch0).view (Rect.unit (s := S2x256x8x64) ![1, 192, 3, 0] S1x64x1x64.size inb_S2x256x8x64_S1x64x1x64_1_192_3_0).toLoadRect (klanded m ρ c))
      (View.readAt (Elt Ideal) (Memref.whole cc0_scratch1).view (Rect.unit (s := S2x256x8x64) ![1, 0, 3, 0] S1x64x1x64.size inb_S2x256x8x64_S1x64x1x64_1_0_3_0).toLoadRect (vlanded m ρ c))
      (View.readAt (Elt Ideal) (Memref.whole cc0_scratch1).view (Rect.unit (s := S2x256x8x64) ![1, 64, 3, 0] S1x64x1x64.size inb_S2x256x8x64_S1x64x1x64_1_64_3_0).toLoadRect (vlanded m ρ c))
      (View.readAt (Elt Ideal) (Memref.whole cc0_scratch1).view (Rect.unit (s := S2x256x8x64) ![1, 128, 3, 0] S1x64x1x64.size inb_S2x256x8x64_S1x64x1x64_1_128_3_0).toLoadRect (vlanded m ρ c))
      (View.readAt (Elt Ideal) (Memref.whole cc0_scratch1).view (Rect.unit (s := S2x256x8x64) ![1, 192, 3, 0] S1x64x1x64.size inb_S2x256x8x64_S1x64x1x64_1_192_3_0).toLoadRect (vlanded m ρ c))
      (fun k e => ld_rows (klanded m ρ c) ![1, 0, 3, 0] _ 1 3 0 rfl k e (Cert.Attn.parRow 0 k) rfl)
      (fun k e => ld_rows (klanded m ρ c) ![1, 64, 3, 0] _ 1 3 64 rfl k e (Cert.Attn.parRow 1 k) rfl)
      (fun k e => ld_rows (klanded m ρ c) ![1, 128, 3, 0] _ 1 3 128 rfl k e (Cert.Attn.parRow 2 k) rfl)
      (fun k e => ld_rows (klanded m ρ c) ![1, 192, 3, 0] _ 1 3 192 rfl k e (Cert.Attn.parRow 3 k) rfl)
      (fun k e => ld_rows (vlanded m ρ c) ![1, 0, 3, 0] _ 1 3 0 rfl k e (Cert.Attn.parRow 0 k) rfl)
      (fun k e => ld_rows (vlanded m ρ c) ![1, 64, 3, 0] _ 1 3 64 rfl k e (Cert.Attn.parRow 1 k) rfl)
      (fun k e => ld_rows (vlanded m ρ c) ![1, 128, 3, 0] _ 1 3 128 rfl k e (Cert.Attn.parRow 2 k) rfl)
      (fun k e => ld_rows (vlanded m ρ c) ![1, 192, 3, 0] _ 1 3 192 rfl k e (Cert.Attn.parRow 3 k) rfl)
      (kernelRun.sl.v738 (F := Ideal) m ρ c) (kernelRun.sl.v738 (F := Ideal) m ρ c) (kernelRun.sl.v738 (F := Ideal) m ρ c) (kernelRun.sl.v738 (F := Ideal) m ρ c) (kernelRun.sl.v2110 (F := Ideal) m ρ c)
      (kernelRun.sl.v744 (F := Ideal) m ρ c) (kernelRun.sl.v1132 (F := Ideal) m ρ c) (kernelRun.sl.v1520 (F := Ideal) m ρ c) (kernelRun.sl.v1835 (F := Ideal) m ρ c) (kernelRun.sl.v2116 (F := Ideal) m ρ c)
      (kernelRun.sl.v752 (F := Ideal) m ρ c) (kernelRun.sl.v1140 (F := Ideal) m ρ c) (kernelRun.sl.v1528 (F := Ideal) m ρ c) (kernelRun.sl.v2108 (F := Ideal) m ρ c)
      ((Lists.readCov_nth _ 4 _ _ _ _ rfl rfl).trans rfl) ((Lists.readCov_nth _ 4 _ _ _ _ rfl rfl).trans rfl) ((Lists.readCov_nth _ 4 _ _ _ _ rfl rfl).trans rfl) ((Lists.readCov_nth _ 4 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 4 _ _ _ _ rfl rfl).trans rfl) ((Lists.readCov_nth _ 4 _ _ _ _ rfl rfl).trans rfl)
      q d)

set_option maxRecDepth 100000 in
set_option maxHeartbeats 4000000 in
theorem tile_1_4 (q : Fin 256) (d : Fin 64) :
    oStg.view.readCov (kernelRun.sl.Hout_80 (F := Ideal) m ρ c) (Rect.unit (s := S2x256x8x64) ![1, 0, 4, 0] S1x256x1x64.size inb_S2x256x8x64_S1x256x1x64_1_0_4_0).toLoadRect (ix4 (0 : Fin 1) q (0 : Fin 1) d)
      = Cert.Attn.devOutAt (qstg m ρ c) (kstg m ρ c) (vstg m ρ c) (klanded m ρ c) (vlanded m ρ c) 1 q 4 d :=
  (congrFun (Lists.readCov_nth _ 3 _ _ _ _ rfl rfl) _).trans
    (chain_at (qstg m ρ c) (kstg m ρ c) (vstg m ρ c) (klanded m ρ c) (vlanded m ρ c) 1 4
      (View.readAt (Elt Ideal) qStg.view (Rect.unit (s := S2x256x8x64) ![1, 0, 4, 0] S1x256x1x64.size inb_S2x256x8x64_S1x256x1x64_1_0_4_0).toLoadRect (qstg m ρ c))
      (View.readAt (Elt Ideal) kStg.view (Rect.unit (s := S2x256x8x64) ![1, 0, 4, 0] S1x256x1x64.size inb_S2x256x8x64_S1x256x1x64_1_0_4_0).toLoadRect (kstg m ρ c))
      (View.readAt (Elt Ideal) vStg.view (Rect.unit (s := S2x256x8x64) ![1, 0, 4, 0] S1x256x1x64.size inb_S2x256x8x64_S1x256x1x64_1_0_4_0).toLoadRect (vstg m ρ c))
      (fun q e => ld_rows (qstg m ρ c) ![1, 0, 4, 0] _ 1 4 0 rfl q e q (Nat.zero_add _).symm) (fun q e => ld_rows (kstg m ρ c) ![1, 0, 4, 0] _ 1 4 0 rfl q e q (Nat.zero_add _).symm) (fun q e => ld_rows (vstg m ρ c) ![1, 0, 4, 0] _ 1 4 0 rfl q e q (Nat.zero_add _).symm)
      (View.readAt (Elt Ideal) (Memref.whole cc0_scratch0).view (Rect.unit (s := S2x256x8x64) ![1, 0, 4, 0] S1x64x1x64.size inb_S2x256x8x64_S1x64x1x64_1_0_4_0).toLoadRect (klanded m ρ c))
      (View.readAt (Elt Ideal) (Memref.whole cc0_scratch0).view (Rect.unit (s := S2x256x8x64) ![1, 64, 4, 0] S1x64x1x64.size inb_S2x256x8x64_S1x64x1x64_1_64_4_0).toLoadRect (klanded m ρ c))
      (View.readAt (Elt Ideal) (Memref.whole cc0_scratch0).view (Rect.unit (s := S2x256x8x64) ![1, 128, 4, 0] S1x64x1x64.size inb_S2x256x8x64_S1x64x1x64_1_128_4_0).toLoadRect (klanded m ρ c))
      (View.readAt (Elt Ideal) (Memref.whole cc0_scratch0).view (Rect.unit (s := S2x256x8x64) ![1, 192, 4, 0] S1x64x1x64.size inb_S2x256x8x64_S1x64x1x64_1_192_4_0).toLoadRect (klanded m ρ c))
      (View.readAt (Elt Ideal) (Memref.whole cc0_scratch1).view (Rect.unit (s := S2x256x8x64) ![1, 0, 4, 0] S1x64x1x64.size inb_S2x256x8x64_S1x64x1x64_1_0_4_0).toLoadRect (vlanded m ρ c))
      (View.readAt (Elt Ideal) (Memref.whole cc0_scratch1).view (Rect.unit (s := S2x256x8x64) ![1, 64, 4, 0] S1x64x1x64.size inb_S2x256x8x64_S1x64x1x64_1_64_4_0).toLoadRect (vlanded m ρ c))
      (View.readAt (Elt Ideal) (Memref.whole cc0_scratch1).view (Rect.unit (s := S2x256x8x64) ![1, 128, 4, 0] S1x64x1x64.size inb_S2x256x8x64_S1x64x1x64_1_128_4_0).toLoadRect (vlanded m ρ c))
      (View.readAt (Elt Ideal) (Memref.whole cc0_scratch1).view (Rect.unit (s := S2x256x8x64) ![1, 192, 4, 0] S1x64x1x64.size inb_S2x256x8x64_S1x64x1x64_1_192_4_0).toLoadRect (vlanded m ρ c))
      (fun k e => ld_rows (klanded m ρ c) ![1, 0, 4, 0] _ 1 4 0 rfl k e (Cert.Attn.parRow 0 k) rfl)
      (fun k e => ld_rows (klanded m ρ c) ![1, 64, 4, 0] _ 1 4 64 rfl k e (Cert.Attn.parRow 1 k) rfl)
      (fun k e => ld_rows (klanded m ρ c) ![1, 128, 4, 0] _ 1 4 128 rfl k e (Cert.Attn.parRow 2 k) rfl)
      (fun k e => ld_rows (klanded m ρ c) ![1, 192, 4, 0] _ 1 4 192 rfl k e (Cert.Attn.parRow 3 k) rfl)
      (fun k e => ld_rows (vlanded m ρ c) ![1, 0, 4, 0] _ 1 4 0 rfl k e (Cert.Attn.parRow 0 k) rfl)
      (fun k e => ld_rows (vlanded m ρ c) ![1, 64, 4, 0] _ 1 4 64 rfl k e (Cert.Attn.parRow 1 k) rfl)
      (fun k e => ld_rows (vlanded m ρ c) ![1, 128, 4, 0] _ 1 4 128 rfl k e (Cert.Attn.parRow 2 k) rfl)
      (fun k e => ld_rows (vlanded m ρ c) ![1, 192, 4, 0] _ 1 4 192 rfl k e (Cert.Attn.parRow 3 k) rfl)
      (kernelRun.sl.v761 (F := Ideal) m ρ c) (kernelRun.sl.v761 (F := Ideal) m ρ c) (kernelRun.sl.v761 (F := Ideal) m ρ c) (kernelRun.sl.v761 (F := Ideal) m ρ c) (kernelRun.sl.v2127 (F := Ideal) m ρ c)
      (kernelRun.sl.v767 (F := Ideal) m ρ c) (kernelRun.sl.v1155 (F := Ideal) m ρ c) (kernelRun.sl.v1543 (F := Ideal) m ρ c) (kernelRun.sl.v1852 (F := Ideal) m ρ c) (kernelRun.sl.v2133 (F := Ideal) m ρ c)
      (kernelRun.sl.v775 (F := Ideal) m ρ c) (kernelRun.sl.v1163 (F := Ideal) m ρ c) (kernelRun.sl.v1551 (F := Ideal) m ρ c) (kernelRun.sl.v2125 (F := Ideal) m ρ c)
      ((Lists.readCov_nth _ 3 _ _ _ _ rfl rfl).trans rfl) ((Lists.readCov_nth _ 3 _ _ _ _ rfl rfl).trans rfl) ((Lists.readCov_nth _ 3 _ _ _ _ rfl rfl).trans rfl) ((Lists.readCov_nth _ 3 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 3 _ _ _ _ rfl rfl).trans rfl) ((Lists.readCov_nth _ 3 _ _ _ _ rfl rfl).trans rfl)
      q d)

set_option maxRecDepth 100000 in
set_option maxHeartbeats 4000000 in
theorem tile_1_5 (q : Fin 256) (d : Fin 64) :
    oStg.view.readCov (kernelRun.sl.Hout_80 (F := Ideal) m ρ c) (Rect.unit (s := S2x256x8x64) ![1, 0, 5, 0] S1x256x1x64.size inb_S2x256x8x64_S1x256x1x64_1_0_5_0).toLoadRect (ix4 (0 : Fin 1) q (0 : Fin 1) d)
      = Cert.Attn.devOutAt (qstg m ρ c) (kstg m ρ c) (vstg m ρ c) (klanded m ρ c) (vlanded m ρ c) 1 q 5 d :=
  (congrFun (Lists.readCov_nth _ 2 _ _ _ _ rfl rfl) _).trans
    (chain_at (qstg m ρ c) (kstg m ρ c) (vstg m ρ c) (klanded m ρ c) (vlanded m ρ c) 1 5
      (View.readAt (Elt Ideal) qStg.view (Rect.unit (s := S2x256x8x64) ![1, 0, 5, 0] S1x256x1x64.size inb_S2x256x8x64_S1x256x1x64_1_0_5_0).toLoadRect (qstg m ρ c))
      (View.readAt (Elt Ideal) kStg.view (Rect.unit (s := S2x256x8x64) ![1, 0, 5, 0] S1x256x1x64.size inb_S2x256x8x64_S1x256x1x64_1_0_5_0).toLoadRect (kstg m ρ c))
      (View.readAt (Elt Ideal) vStg.view (Rect.unit (s := S2x256x8x64) ![1, 0, 5, 0] S1x256x1x64.size inb_S2x256x8x64_S1x256x1x64_1_0_5_0).toLoadRect (vstg m ρ c))
      (fun q e => ld_rows (qstg m ρ c) ![1, 0, 5, 0] _ 1 5 0 rfl q e q (Nat.zero_add _).symm) (fun q e => ld_rows (kstg m ρ c) ![1, 0, 5, 0] _ 1 5 0 rfl q e q (Nat.zero_add _).symm) (fun q e => ld_rows (vstg m ρ c) ![1, 0, 5, 0] _ 1 5 0 rfl q e q (Nat.zero_add _).symm)
      (View.readAt (Elt Ideal) (Memref.whole cc0_scratch0).view (Rect.unit (s := S2x256x8x64) ![1, 0, 5, 0] S1x64x1x64.size inb_S2x256x8x64_S1x64x1x64_1_0_5_0).toLoadRect (klanded m ρ c))
      (View.readAt (Elt Ideal) (Memref.whole cc0_scratch0).view (Rect.unit (s := S2x256x8x64) ![1, 64, 5, 0] S1x64x1x64.size inb_S2x256x8x64_S1x64x1x64_1_64_5_0).toLoadRect (klanded m ρ c))
      (View.readAt (Elt Ideal) (Memref.whole cc0_scratch0).view (Rect.unit (s := S2x256x8x64) ![1, 128, 5, 0] S1x64x1x64.size inb_S2x256x8x64_S1x64x1x64_1_128_5_0).toLoadRect (klanded m ρ c))
      (View.readAt (Elt Ideal) (Memref.whole cc0_scratch0).view (Rect.unit (s := S2x256x8x64) ![1, 192, 5, 0] S1x64x1x64.size inb_S2x256x8x64_S1x64x1x64_1_192_5_0).toLoadRect (klanded m ρ c))
      (View.readAt (Elt Ideal) (Memref.whole cc0_scratch1).view (Rect.unit (s := S2x256x8x64) ![1, 0, 5, 0] S1x64x1x64.size inb_S2x256x8x64_S1x64x1x64_1_0_5_0).toLoadRect (vlanded m ρ c))
      (View.readAt (Elt Ideal) (Memref.whole cc0_scratch1).view (Rect.unit (s := S2x256x8x64) ![1, 64, 5, 0] S1x64x1x64.size inb_S2x256x8x64_S1x64x1x64_1_64_5_0).toLoadRect (vlanded m ρ c))
      (View.readAt (Elt Ideal) (Memref.whole cc0_scratch1).view (Rect.unit (s := S2x256x8x64) ![1, 128, 5, 0] S1x64x1x64.size inb_S2x256x8x64_S1x64x1x64_1_128_5_0).toLoadRect (vlanded m ρ c))
      (View.readAt (Elt Ideal) (Memref.whole cc0_scratch1).view (Rect.unit (s := S2x256x8x64) ![1, 192, 5, 0] S1x64x1x64.size inb_S2x256x8x64_S1x64x1x64_1_192_5_0).toLoadRect (vlanded m ρ c))
      (fun k e => ld_rows (klanded m ρ c) ![1, 0, 5, 0] _ 1 5 0 rfl k e (Cert.Attn.parRow 0 k) rfl)
      (fun k e => ld_rows (klanded m ρ c) ![1, 64, 5, 0] _ 1 5 64 rfl k e (Cert.Attn.parRow 1 k) rfl)
      (fun k e => ld_rows (klanded m ρ c) ![1, 128, 5, 0] _ 1 5 128 rfl k e (Cert.Attn.parRow 2 k) rfl)
      (fun k e => ld_rows (klanded m ρ c) ![1, 192, 5, 0] _ 1 5 192 rfl k e (Cert.Attn.parRow 3 k) rfl)
      (fun k e => ld_rows (vlanded m ρ c) ![1, 0, 5, 0] _ 1 5 0 rfl k e (Cert.Attn.parRow 0 k) rfl)
      (fun k e => ld_rows (vlanded m ρ c) ![1, 64, 5, 0] _ 1 5 64 rfl k e (Cert.Attn.parRow 1 k) rfl)
      (fun k e => ld_rows (vlanded m ρ c) ![1, 128, 5, 0] _ 1 5 128 rfl k e (Cert.Attn.parRow 2 k) rfl)
      (fun k e => ld_rows (vlanded m ρ c) ![1, 192, 5, 0] _ 1 5 192 rfl k e (Cert.Attn.parRow 3 k) rfl)
      (kernelRun.sl.v784 (F := Ideal) m ρ c) (kernelRun.sl.v784 (F := Ideal) m ρ c) (kernelRun.sl.v784 (F := Ideal) m ρ c) (kernelRun.sl.v784 (F := Ideal) m ρ c) (kernelRun.sl.v2144 (F := Ideal) m ρ c)
      (kernelRun.sl.v790 (F := Ideal) m ρ c) (kernelRun.sl.v1178 (F := Ideal) m ρ c) (kernelRun.sl.v1566 (F := Ideal) m ρ c) (kernelRun.sl.v1869 (F := Ideal) m ρ c) (kernelRun.sl.v2150 (F := Ideal) m ρ c)
      (kernelRun.sl.v798 (F := Ideal) m ρ c) (kernelRun.sl.v1186 (F := Ideal) m ρ c) (kernelRun.sl.v1574 (F := Ideal) m ρ c) (kernelRun.sl.v2142 (F := Ideal) m ρ c)
      ((Lists.readCov_nth _ 2 _ _ _ _ rfl rfl).trans rfl) ((Lists.readCov_nth _ 2 _ _ _ _ rfl rfl).trans rfl) ((Lists.readCov_nth _ 2 _ _ _ _ rfl rfl).trans rfl) ((Lists.readCov_nth _ 2 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 2 _ _ _ _ rfl rfl).trans rfl) ((Lists.readCov_nth _ 2 _ _ _ _ rfl rfl).trans rfl)
      q d)

set_option maxRecDepth 100000 in
set_option maxHeartbeats 4000000 in
theorem tile_1_6 (q : Fin 256) (d : Fin 64) :
    oStg.view.readCov (kernelRun.sl.Hout_80 (F := Ideal) m ρ c) (Rect.unit (s := S2x256x8x64) ![1, 0, 6, 0] S1x256x1x64.size inb_S2x256x8x64_S1x256x1x64_1_0_6_0).toLoadRect (ix4 (0 : Fin 1) q (0 : Fin 1) d)
      = Cert.Attn.devOutAt (qstg m ρ c) (kstg m ρ c) (vstg m ρ c) (klanded m ρ c) (vlanded m ρ c) 1 q 6 d :=
  (congrFun (Lists.readCov_nth _ 1 _ _ _ _ rfl rfl) _).trans
    (chain_at (qstg m ρ c) (kstg m ρ c) (vstg m ρ c) (klanded m ρ c) (vlanded m ρ c) 1 6
      (View.readAt (Elt Ideal) qStg.view (Rect.unit (s := S2x256x8x64) ![1, 0, 6, 0] S1x256x1x64.size inb_S2x256x8x64_S1x256x1x64_1_0_6_0).toLoadRect (qstg m ρ c))
      (View.readAt (Elt Ideal) kStg.view (Rect.unit (s := S2x256x8x64) ![1, 0, 6, 0] S1x256x1x64.size inb_S2x256x8x64_S1x256x1x64_1_0_6_0).toLoadRect (kstg m ρ c))
      (View.readAt (Elt Ideal) vStg.view (Rect.unit (s := S2x256x8x64) ![1, 0, 6, 0] S1x256x1x64.size inb_S2x256x8x64_S1x256x1x64_1_0_6_0).toLoadRect (vstg m ρ c))
      (fun q e => ld_rows (qstg m ρ c) ![1, 0, 6, 0] _ 1 6 0 rfl q e q (Nat.zero_add _).symm) (fun q e => ld_rows (kstg m ρ c) ![1, 0, 6, 0] _ 1 6 0 rfl q e q (Nat.zero_add _).symm) (fun q e => ld_rows (vstg m ρ c) ![1, 0, 6, 0] _ 1 6 0 rfl q e q (Nat.zero_add _).symm)
      (View.readAt (Elt Ideal) (Memref.whole cc0_scratch0).view (Rect.unit (s := S2x256x8x64) ![1, 0, 6, 0] S1x64x1x64.size inb_S2x256x8x64_S1x64x1x64_1_0_6_0).toLoadRect (klanded m ρ c))
      (View.readAt (Elt Ideal) (Memref.whole cc0_scratch0).view (Rect.unit (s := S2x256x8x64) ![1, 64, 6, 0] S1x64x1x64.size inb_S2x256x8x64_S1x64x1x64_1_64_6_0).toLoadRect (klanded m ρ c))
      (View.readAt (Elt Ideal) (Memref.whole cc0_scratch0).view (Rect.unit (s := S2x256x8x64) ![1, 128, 6, 0] S1x64x1x64.size inb_S2x256x8x64_S1x64x1x64_1_128_6_0).toLoadRect (klanded m ρ c))
      (View.readAt (Elt Ideal) (Memref.whole cc0_scratch0).view (Rect.unit (s := S2x256x8x64) ![1, 192, 6, 0] S1x64x1x64.size inb_S2x256x8x64_S1x64x1x64_1_192_6_0).toLoadRect (klanded m ρ c))
      (View.readAt (Elt Ideal) (Memref.whole cc0_scratch1).view (Rect.unit (s := S2x256x8x64) ![1, 0, 6, 0] S1x64x1x64.size inb_S2x256x8x64_S1x64x1x64_1_0_6_0).toLoadRect (vlanded m ρ c))
      (View.readAt (Elt Ideal) (Memref.whole cc0_scratch1).view (Rect.unit (s := S2x256x8x64) ![1, 64, 6, 0] S1x64x1x64.size inb_S2x256x8x64_S1x64x1x64_1_64_6_0).toLoadRect (vlanded m ρ c))
      (View.readAt (Elt Ideal) (Memref.whole cc0_scratch1).view (Rect.unit (s := S2x256x8x64) ![1, 128, 6, 0] S1x64x1x64.size inb_S2x256x8x64_S1x64x1x64_1_128_6_0).toLoadRect (vlanded m ρ c))
      (View.readAt (Elt Ideal) (Memref.whole cc0_scratch1).view (Rect.unit (s := S2x256x8x64) ![1, 192, 6, 0] S1x64x1x64.size inb_S2x256x8x64_S1x64x1x64_1_192_6_0).toLoadRect (vlanded m ρ c))
      (fun k e => ld_rows (klanded m ρ c) ![1, 0, 6, 0] _ 1 6 0 rfl k e (Cert.Attn.parRow 0 k) rfl)
      (fun k e => ld_rows (klanded m ρ c) ![1, 64, 6, 0] _ 1 6 64 rfl k e (Cert.Attn.parRow 1 k) rfl)
      (fun k e => ld_rows (klanded m ρ c) ![1, 128, 6, 0] _ 1 6 128 rfl k e (Cert.Attn.parRow 2 k) rfl)
      (fun k e => ld_rows (klanded m ρ c) ![1, 192, 6, 0] _ 1 6 192 rfl k e (Cert.Attn.parRow 3 k) rfl)
      (fun k e => ld_rows (vlanded m ρ c) ![1, 0, 6, 0] _ 1 6 0 rfl k e (Cert.Attn.parRow 0 k) rfl)
      (fun k e => ld_rows (vlanded m ρ c) ![1, 64, 6, 0] _ 1 6 64 rfl k e (Cert.Attn.parRow 1 k) rfl)
      (fun k e => ld_rows (vlanded m ρ c) ![1, 128, 6, 0] _ 1 6 128 rfl k e (Cert.Attn.parRow 2 k) rfl)
      (fun k e => ld_rows (vlanded m ρ c) ![1, 192, 6, 0] _ 1 6 192 rfl k e (Cert.Attn.parRow 3 k) rfl)
      (kernelRun.sl.v807 (F := Ideal) m ρ c) (kernelRun.sl.v807 (F := Ideal) m ρ c) (kernelRun.sl.v807 (F := Ideal) m ρ c) (kernelRun.sl.v807 (F := Ideal) m ρ c) (kernelRun.sl.v2161 (F := Ideal) m ρ c)
      (kernelRun.sl.v813 (F := Ideal) m ρ c) (kernelRun.sl.v1201 (F := Ideal) m ρ c) (kernelRun.sl.v1589 (F := Ideal) m ρ c) (kernelRun.sl.v1886 (F := Ideal) m ρ c) (kernelRun.sl.v2167 (F := Ideal) m ρ c)
      (kernelRun.sl.v821 (F := Ideal) m ρ c) (kernelRun.sl.v1209 (F := Ideal) m ρ c) (kernelRun.sl.v1597 (F := Ideal) m ρ c) (kernelRun.sl.v2159 (F := Ideal) m ρ c)
      ((Lists.readCov_nth _ 1 _ _ _ _ rfl rfl).trans rfl) ((Lists.readCov_nth _ 1 _ _ _ _ rfl rfl).trans rfl) ((Lists.readCov_nth _ 1 _ _ _ _ rfl rfl).trans rfl) ((Lists.readCov_nth _ 1 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 1 _ _ _ _ rfl rfl).trans rfl) ((Lists.readCov_nth _ 1 _ _ _ _ rfl rfl).trans rfl)
      q d)

set_option maxRecDepth 100000 in
set_option maxHeartbeats 4000000 in
theorem tile_1_7 (q : Fin 256) (d : Fin 64) :
    oStg.view.readCov (kernelRun.sl.Hout_80 (F := Ideal) m ρ c) (Rect.unit (s := S2x256x8x64) ![1, 0, 7, 0] S1x256x1x64.size inb_S2x256x8x64_S1x256x1x64_1_0_7_0).toLoadRect (ix4 (0 : Fin 1) q (0 : Fin 1) d)
      = Cert.Attn.devOutAt (qstg m ρ c) (kstg m ρ c) (vstg m ρ c) (klanded m ρ c) (vlanded m ρ c) 1 q 7 d :=
  (congrFun (Lists.readCov_nth _ 0 _ _ _ _ rfl rfl) _).trans
    (chain_at (qstg m ρ c) (kstg m ρ c) (vstg m ρ c) (klanded m ρ c) (vlanded m ρ c) 1 7
      (View.readAt (Elt Ideal) qStg.view (Rect.unit (s := S2x256x8x64) ![1, 0, 7, 0] S1x256x1x64.size inb_S2x256x8x64_S1x256x1x64_1_0_7_0).toLoadRect (qstg m ρ c))
      (View.readAt (Elt Ideal) kStg.view (Rect.unit (s := S2x256x8x64) ![1, 0, 7, 0] S1x256x1x64.size inb_S2x256x8x64_S1x256x1x64_1_0_7_0).toLoadRect (kstg m ρ c))
      (View.readAt (Elt Ideal) vStg.view (Rect.unit (s := S2x256x8x64) ![1, 0, 7, 0] S1x256x1x64.size inb_S2x256x8x64_S1x256x1x64_1_0_7_0).toLoadRect (vstg m ρ c))
      (fun q e => ld_rows (qstg m ρ c) ![1, 0, 7, 0] _ 1 7 0 rfl q e q (Nat.zero_add _).symm) (fun q e => ld_rows (kstg m ρ c) ![1, 0, 7, 0] _ 1 7 0 rfl q e q (Nat.zero_add _).symm) (fun q e => ld_rows (vstg m ρ c) ![1, 0, 7, 0] _ 1 7 0 rfl q e q (Nat.zero_add _).symm)
      (View.readAt (Elt Ideal) (Memref.whole cc0_scratch0).view (Rect.unit (s := S2x256x8x64) ![1, 0, 7, 0] S1x64x1x64.size inb_S2x256x8x64_S1x64x1x64_1_0_7_0).toLoadRect (klanded m ρ c))
      (View.readAt (Elt Ideal) (Memref.whole cc0_scratch0).view (Rect.unit (s := S2x256x8x64) ![1, 64, 7, 0] S1x64x1x64.size inb_S2x256x8x64_S1x64x1x64_1_64_7_0).toLoadRect (klanded m ρ c))
      (View.readAt (Elt Ideal) (Memref.whole cc0_scratch0).view (Rect.unit (s := S2x256x8x64) ![1, 128, 7, 0] S1x64x1x64.size inb_S2x256x8x64_S1x64x1x64_1_128_7_0).toLoadRect (klanded m ρ c))
      (View.readAt (Elt Ideal) (Memref.whole cc0_scratch0).view (Rect.unit (s := S2x256x8x64) ![1, 192, 7, 0] S1x64x1x64.size inb_S2x256x8x64_S1x64x1x64_1_192_7_0).toLoadRect (klanded m ρ c))
      (View.readAt (Elt Ideal) (Memref.whole cc0_scratch1).view (Rect.unit (s := S2x256x8x64) ![1, 0, 7, 0] S1x64x1x64.size inb_S2x256x8x64_S1x64x1x64_1_0_7_0).toLoadRect (vlanded m ρ c))
      (View.readAt (Elt Ideal) (Memref.whole cc0_scratch1).view (Rect.unit (s := S2x256x8x64) ![1, 64, 7, 0] S1x64x1x64.size inb_S2x256x8x64_S1x64x1x64_1_64_7_0).toLoadRect (vlanded m ρ c))
      (View.readAt (Elt Ideal) (Memref.whole cc0_scratch1).view (Rect.unit (s := S2x256x8x64) ![1, 128, 7, 0] S1x64x1x64.size inb_S2x256x8x64_S1x64x1x64_1_128_7_0).toLoadRect (vlanded m ρ c))
      (View.readAt (Elt Ideal) (Memref.whole cc0_scratch1).view (Rect.unit (s := S2x256x8x64) ![1, 192, 7, 0] S1x64x1x64.size inb_S2x256x8x64_S1x64x1x64_1_192_7_0).toLoadRect (vlanded m ρ c))
      (fun k e => ld_rows (klanded m ρ c) ![1, 0, 7, 0] _ 1 7 0 rfl k e (Cert.Attn.parRow 0 k) rfl)
      (fun k e => ld_rows (klanded m ρ c) ![1, 64, 7, 0] _ 1 7 64 rfl k e (Cert.Attn.parRow 1 k) rfl)
      (fun k e => ld_rows (klanded m ρ c) ![1, 128, 7, 0] _ 1 7 128 rfl k e (Cert.Attn.parRow 2 k) rfl)
      (fun k e => ld_rows (klanded m ρ c) ![1, 192, 7, 0] _ 1 7 192 rfl k e (Cert.Attn.parRow 3 k) rfl)
      (fun k e => ld_rows (vlanded m ρ c) ![1, 0, 7, 0] _ 1 7 0 rfl k e (Cert.Attn.parRow 0 k) rfl)
      (fun k e => ld_rows (vlanded m ρ c) ![1, 64, 7, 0] _ 1 7 64 rfl k e (Cert.Attn.parRow 1 k) rfl)
      (fun k e => ld_rows (vlanded m ρ c) ![1, 128, 7, 0] _ 1 7 128 rfl k e (Cert.Attn.parRow 2 k) rfl)
      (fun k e => ld_rows (vlanded m ρ c) ![1, 192, 7, 0] _ 1 7 192 rfl k e (Cert.Attn.parRow 3 k) rfl)
      (kernelRun.sl.v830 (F := Ideal) m ρ c) (kernelRun.sl.v830 (F := Ideal) m ρ c) (kernelRun.sl.v830 (F := Ideal) m ρ c) (kernelRun.sl.v830 (F := Ideal) m ρ c) (kernelRun.sl.v2178 (F := Ideal) m ρ c)
      (kernelRun.sl.v836 (F := Ideal) m ρ c) (kernelRun.sl.v1224 (F := Ideal) m ρ c) (kernelRun.sl.v1612 (F := Ideal) m ρ c) (kernelRun.sl.v1903 (F := Ideal) m ρ c) (kernelRun.sl.v2184 (F := Ideal) m ρ c)
      (kernelRun.sl.v844 (F := Ideal) m ρ c) (kernelRun.sl.v1232 (F := Ideal) m ρ c) (kernelRun.sl.v1620 (F := Ideal) m ρ c) (kernelRun.sl.v2176 (F := Ideal) m ρ c)
      ((Lists.readCov_nth _ 0 _ _ _ _ rfl rfl).trans rfl) ((Lists.readCov_nth _ 0 _ _ _ _ rfl rfl).trans rfl) ((Lists.readCov_nth _ 0 _ _ _ _ rfl rfl).trans rfl) ((Lists.readCov_nth _ 0 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 15 _ _ _ _ rfl rfl).trans rfl) ((Lists.readCov_nth _ 15 _ _ _ _ rfl rfl).trans rfl)
      ((Lists.readCov_nth _ 0 _ _ _ _ rfl rfl).trans rfl) ((Lists.readCov_nth _ 0 _ _ _ _ rfl rfl).trans rfl)
      q d)

/-! ## The tiles as entries of the stored array -/

theorem canon_tile_0_0 (q : Fin 256) (d : Fin 64) :
    View.canon (kernelRun.sl.Hout_80 (F := Ideal) m ρ c) (ix4 (0 : Fin 2) q (0 : Fin 8) d)
      = Cert.Attn.devOutAt (qstg m ρ c) (kstg m ρ c) (vstg m ρ c) (klanded m ρ c) (vlanded m ρ c) 0 q 0 d :=
  (ld_rows (View.canon (kernelRun.sl.Hout_80 (F := Ideal) m ρ c)) ![0, 0, 0, 0] inb_S2x256x8x64_S1x256x1x64_0_0_0_0 0 0 0 rfl q d q (Nat.zero_add _).symm).symm.trans
    ((congrFun (View.readCov_eq_canon' oStg.view (kernelRun.sl.Hout_80 (F := Ideal) m ρ c) (Rect.unit (s := S2x256x8x64) ![0, 0, 0, 0] S1x256x1x64.size inb_S2x256x8x64_S1x256x1x64_0_0_0_0).toLoadRect) (ix4 (0 : Fin 1) q (0 : Fin 1) d)).symm.trans
      (tile_0_0 m ρ c q d))

theorem canon_tile_0_1 (q : Fin 256) (d : Fin 64) :
    View.canon (kernelRun.sl.Hout_80 (F := Ideal) m ρ c) (ix4 (0 : Fin 2) q (1 : Fin 8) d)
      = Cert.Attn.devOutAt (qstg m ρ c) (kstg m ρ c) (vstg m ρ c) (klanded m ρ c) (vlanded m ρ c) 0 q 1 d :=
  (ld_rows (View.canon (kernelRun.sl.Hout_80 (F := Ideal) m ρ c)) ![0, 0, 1, 0] inb_S2x256x8x64_S1x256x1x64_0_0_1_0 0 1 0 rfl q d q (Nat.zero_add _).symm).symm.trans
    ((congrFun (View.readCov_eq_canon' oStg.view (kernelRun.sl.Hout_80 (F := Ideal) m ρ c) (Rect.unit (s := S2x256x8x64) ![0, 0, 1, 0] S1x256x1x64.size inb_S2x256x8x64_S1x256x1x64_0_0_1_0).toLoadRect) (ix4 (0 : Fin 1) q (0 : Fin 1) d)).symm.trans
      (tile_0_1 m ρ c q d))

theorem canon_tile_0_2 (q : Fin 256) (d : Fin 64) :
    View.canon (kernelRun.sl.Hout_80 (F := Ideal) m ρ c) (ix4 (0 : Fin 2) q (2 : Fin 8) d)
      = Cert.Attn.devOutAt (qstg m ρ c) (kstg m ρ c) (vstg m ρ c) (klanded m ρ c) (vlanded m ρ c) 0 q 2 d :=
  (ld_rows (View.canon (kernelRun.sl.Hout_80 (F := Ideal) m ρ c)) ![0, 0, 2, 0] inb_S2x256x8x64_S1x256x1x64_0_0_2_0 0 2 0 rfl q d q (Nat.zero_add _).symm).symm.trans
    ((congrFun (View.readCov_eq_canon' oStg.view (kernelRun.sl.Hout_80 (F := Ideal) m ρ c) (Rect.unit (s := S2x256x8x64) ![0, 0, 2, 0] S1x256x1x64.size inb_S2x256x8x64_S1x256x1x64_0_0_2_0).toLoadRect) (ix4 (0 : Fin 1) q (0 : Fin 1) d)).symm.trans
      (tile_0_2 m ρ c q d))

theorem canon_tile_0_3 (q : Fin 256) (d : Fin 64) :
    View.canon (kernelRun.sl.Hout_80 (F := Ideal) m ρ c) (ix4 (0 : Fin 2) q (3 : Fin 8) d)
      = Cert.Attn.devOutAt (qstg m ρ c) (kstg m ρ c) (vstg m ρ c) (klanded m ρ c) (vlanded m ρ c) 0 q 3 d :=
  (ld_rows (View.canon (kernelRun.sl.Hout_80 (F := Ideal) m ρ c)) ![0, 0, 3, 0] inb_S2x256x8x64_S1x256x1x64_0_0_3_0 0 3 0 rfl q d q (Nat.zero_add _).symm).symm.trans
    ((congrFun (View.readCov_eq_canon' oStg.view (kernelRun.sl.Hout_80 (F := Ideal) m ρ c) (Rect.unit (s := S2x256x8x64) ![0, 0, 3, 0] S1x256x1x64.size inb_S2x256x8x64_S1x256x1x64_0_0_3_0).toLoadRect) (ix4 (0 : Fin 1) q (0 : Fin 1) d)).symm.trans
      (tile_0_3 m ρ c q d))

theorem canon_tile_0_4 (q : Fin 256) (d : Fin 64) :
    View.canon (kernelRun.sl.Hout_80 (F := Ideal) m ρ c) (ix4 (0 : Fin 2) q (4 : Fin 8) d)
      = Cert.Attn.devOutAt (qstg m ρ c) (kstg m ρ c) (vstg m ρ c) (klanded m ρ c) (vlanded m ρ c) 0 q 4 d :=
  (ld_rows (View.canon (kernelRun.sl.Hout_80 (F := Ideal) m ρ c)) ![0, 0, 4, 0] inb_S2x256x8x64_S1x256x1x64_0_0_4_0 0 4 0 rfl q d q (Nat.zero_add _).symm).symm.trans
    ((congrFun (View.readCov_eq_canon' oStg.view (kernelRun.sl.Hout_80 (F := Ideal) m ρ c) (Rect.unit (s := S2x256x8x64) ![0, 0, 4, 0] S1x256x1x64.size inb_S2x256x8x64_S1x256x1x64_0_0_4_0).toLoadRect) (ix4 (0 : Fin 1) q (0 : Fin 1) d)).symm.trans
      (tile_0_4 m ρ c q d))

theorem canon_tile_0_5 (q : Fin 256) (d : Fin 64) :
    View.canon (kernelRun.sl.Hout_80 (F := Ideal) m ρ c) (ix4 (0 : Fin 2) q (5 : Fin 8) d)
      = Cert.Attn.devOutAt (qstg m ρ c) (kstg m ρ c) (vstg m ρ c) (klanded m ρ c) (vlanded m ρ c) 0 q 5 d :=
  (ld_rows (View.canon (kernelRun.sl.Hout_80 (F := Ideal) m ρ c)) ![0, 0, 5, 0] inb_S2x256x8x64_S1x256x1x64_0_0_5_0 0 5 0 rfl q d q (Nat.zero_add _).symm).symm.trans
    ((congrFun (View.readCov_eq_canon' oStg.view (kernelRun.sl.Hout_80 (F := Ideal) m ρ c) (Rect.unit (s := S2x256x8x64) ![0, 0, 5, 0] S1x256x1x64.size inb_S2x256x8x64_S1x256x1x64_0_0_5_0).toLoadRect) (ix4 (0 : Fin 1) q (0 : Fin 1) d)).symm.trans
      (tile_0_5 m ρ c q d))

theorem canon_tile_0_6 (q : Fin 256) (d : Fin 64) :
    View.canon (kernelRun.sl.Hout_80 (F := Ideal) m ρ c) (ix4 (0 : Fin 2) q (6 : Fin 8) d)
      = Cert.Attn.devOutAt (qstg m ρ c) (kstg m ρ c) (vstg m ρ c) (klanded m ρ c) (vlanded m ρ c) 0 q 6 d :=
  (ld_rows (View.canon (kernelRun.sl.Hout_80 (F := Ideal) m ρ c)) ![0, 0, 6, 0] inb_S2x256x8x64_S1x256x1x64_0_0_6_0 0 6 0 rfl q d q (Nat.zero_add _).symm).symm.trans
    ((congrFun (View.readCov_eq_canon' oStg.view (kernelRun.sl.Hout_80 (F := Ideal) m ρ c) (Rect.unit (s := S2x256x8x64) ![0, 0, 6, 0] S1x256x1x64.size inb_S2x256x8x64_S1x256x1x64_0_0_6_0).toLoadRect) (ix4 (0 : Fin 1) q (0 : Fin 1) d)).symm.trans
      (tile_0_6 m ρ c q d))

theorem canon_tile_0_7 (q : Fin 256) (d : Fin 64) :
    View.canon (kernelRun.sl.Hout_80 (F := Ideal) m ρ c) (ix4 (0 : Fin 2) q (7 : Fin 8) d)
      = Cert.Attn.devOutAt (qstg m ρ c) (kstg m ρ c) (vstg m ρ c) (klanded m ρ c) (vlanded m ρ c) 0 q 7 d :=
  (ld_rows (View.canon (kernelRun.sl.Hout_80 (F := Ideal) m ρ c)) ![0, 0, 7, 0] inb_S2x256x8x64_S1x256x1x64_0_0_7_0 0 7 0 rfl q d q (Nat.zero_add _).symm).symm.trans
    ((congrFun (View.readCov_eq_canon' oStg.view (kernelRun.sl.Hout_80 (F := Ideal) m ρ c) (Rect.unit (s := S2x256x8x64) ![0, 0, 7, 0] S1x256x1x64.size inb_S2x256x8x64_S1x256x1x64_0_0_7_0).toLoadRect) (ix4 (0 : Fin 1) q (0 : Fin 1) d)).symm.trans
      (tile_0_7 m ρ c q d))

theorem canon_tile_1_0 (q : Fin 256) (d : Fin 64) :
    View.canon (kernelRun.sl.Hout_80 (F := Ideal) m ρ c) (ix4 (1 : Fin 2) q (0 : Fin 8) d)
      = Cert.Attn.devOutAt (qstg m ρ c) (kstg m ρ c) (vstg m ρ c) (klanded m ρ c) (vlanded m ρ c) 1 q 0 d :=
  (ld_rows (View.canon (kernelRun.sl.Hout_80 (F := Ideal) m ρ c)) ![1, 0, 0, 0] inb_S2x256x8x64_S1x256x1x64_1_0_0_0 1 0 0 rfl q d q (Nat.zero_add _).symm).symm.trans
    ((congrFun (View.readCov_eq_canon' oStg.view (kernelRun.sl.Hout_80 (F := Ideal) m ρ c) (Rect.unit (s := S2x256x8x64) ![1, 0, 0, 0] S1x256x1x64.size inb_S2x256x8x64_S1x256x1x64_1_0_0_0).toLoadRect) (ix4 (0 : Fin 1) q (0 : Fin 1) d)).symm.trans
      (tile_1_0 m ρ c q d))

theorem canon_tile_1_1 (q : Fin 256) (d : Fin 64) :
    View.canon (kernelRun.sl.Hout_80 (F := Ideal) m ρ c) (ix4 (1 : Fin 2) q (1 : Fin 8) d)
      = Cert.Attn.devOutAt (qstg m ρ c) (kstg m ρ c) (vstg m ρ c) (klanded m ρ c) (vlanded m ρ c) 1 q 1 d :=
  (ld_rows (View.canon (kernelRun.sl.Hout_80 (F := Ideal) m ρ c)) ![1, 0, 1, 0] inb_S2x256x8x64_S1x256x1x64_1_0_1_0 1 1 0 rfl q d q (Nat.zero_add _).symm).symm.trans
    ((congrFun (View.readCov_eq_canon' oStg.view (kernelRun.sl.Hout_80 (F := Ideal) m ρ c) (Rect.unit (s := S2x256x8x64) ![1, 0, 1, 0] S1x256x1x64.size inb_S2x256x8x64_S1x256x1x64_1_0_1_0).toLoadRect) (ix4 (0 : Fin 1) q (0 : Fin 1) d)).symm.trans
      (tile_1_1 m ρ c q d))

theorem canon_tile_1_2 (q : Fin 256) (d : Fin 64) :
    View.canon (kernelRun.sl.Hout_80 (F := Ideal) m ρ c) (ix4 (1 : Fin 2) q (2 : Fin 8) d)
      = Cert.Attn.devOutAt (qstg m ρ c) (kstg m ρ c) (vstg m ρ c) (klanded m ρ c) (vlanded m ρ c) 1 q 2 d :=
  (ld_rows (View.canon (kernelRun.sl.Hout_80 (F := Ideal) m ρ c)) ![1, 0, 2, 0] inb_S2x256x8x64_S1x256x1x64_1_0_2_0 1 2 0 rfl q d q (Nat.zero_add _).symm).symm.trans
    ((congrFun (View.readCov_eq_canon' oStg.view (kernelRun.sl.Hout_80 (F := Ideal) m ρ c) (Rect.unit (s := S2x256x8x64) ![1, 0, 2, 0] S1x256x1x64.size inb_S2x256x8x64_S1x256x1x64_1_0_2_0).toLoadRect) (ix4 (0 : Fin 1) q (0 : Fin 1) d)).symm.trans
      (tile_1_2 m ρ c q d))

theorem canon_tile_1_3 (q : Fin 256) (d : Fin 64) :
    View.canon (kernelRun.sl.Hout_80 (F := Ideal) m ρ c) (ix4 (1 : Fin 2) q (3 : Fin 8) d)
      = Cert.Attn.devOutAt (qstg m ρ c) (kstg m ρ c) (vstg m ρ c) (klanded m ρ c) (vlanded m ρ c) 1 q 3 d :=
  (ld_rows (View.canon (kernelRun.sl.Hout_80 (F := Ideal) m ρ c)) ![1, 0, 3, 0] inb_S2x256x8x64_S1x256x1x64_1_0_3_0 1 3 0 rfl q d q (Nat.zero_add _).symm).symm.trans
    ((congrFun (View.readCov_eq_canon' oStg.view (kernelRun.sl.Hout_80 (F := Ideal) m ρ c) (Rect.unit (s := S2x256x8x64) ![1, 0, 3, 0] S1x256x1x64.size inb_S2x256x8x64_S1x256x1x64_1_0_3_0).toLoadRect) (ix4 (0 : Fin 1) q (0 : Fin 1) d)).symm.trans
      (tile_1_3 m ρ c q d))

theorem canon_tile_1_4 (q : Fin 256) (d : Fin 64) :
    View.canon (kernelRun.sl.Hout_80 (F := Ideal) m ρ c) (ix4 (1 : Fin 2) q (4 : Fin 8) d)
      = Cert.Attn.devOutAt (qstg m ρ c) (kstg m ρ c) (vstg m ρ c) (klanded m ρ c) (vlanded m ρ c) 1 q 4 d :=
  (ld_rows (View.canon (kernelRun.sl.Hout_80 (F := Ideal) m ρ c)) ![1, 0, 4, 0] inb_S2x256x8x64_S1x256x1x64_1_0_4_0 1 4 0 rfl q d q (Nat.zero_add _).symm).symm.trans
    ((congrFun (View.readCov_eq_canon' oStg.view (kernelRun.sl.Hout_80 (F := Ideal) m ρ c) (Rect.unit (s := S2x256x8x64) ![1, 0, 4, 0] S1x256x1x64.size inb_S2x256x8x64_S1x256x1x64_1_0_4_0).toLoadRect) (ix4 (0 : Fin 1) q (0 : Fin 1) d)).symm.trans
      (tile_1_4 m ρ c q d))

theorem canon_tile_1_5 (q : Fin 256) (d : Fin 64) :
    View.canon (kernelRun.sl.Hout_80 (F := Ideal) m ρ c) (ix4 (1 : Fin 2) q (5 : Fin 8) d)
      = Cert.Attn.devOutAt (qstg m ρ c) (kstg m ρ c) (vstg m ρ c) (klanded m ρ c) (vlanded m ρ c) 1 q 5 d :=
  (ld_rows (View.canon (kernelRun.sl.Hout_80 (F := Ideal) m ρ c)) ![1, 0, 5, 0] inb_S2x256x8x64_S1x256x1x64_1_0_5_0 1 5 0 rfl q d q (Nat.zero_add _).symm).symm.trans
    ((congrFun (View.readCov_eq_canon' oStg.view (kernelRun.sl.Hout_80 (F := Ideal) m ρ c) (Rect.unit (s := S2x256x8x64) ![1, 0, 5, 0] S1x256x1x64.size inb_S2x256x8x64_S1x256x1x64_1_0_5_0).toLoadRect) (ix4 (0 : Fin 1) q (0 : Fin 1) d)).symm.trans
      (tile_1_5 m ρ c q d))

theorem canon_tile_1_6 (q : Fin 256) (d : Fin 64) :
    View.canon (kernelRun.sl.Hout_80 (F := Ideal) m ρ c) (ix4 (1 : Fin 2) q (6 : Fin 8) d)
      = Cert.Attn.devOutAt (qstg m ρ c) (kstg m ρ c) (vstg m ρ c) (klanded m ρ c) (vlanded m ρ c) 1 q 6 d :=
  (ld_rows (View.canon (kernelRun.sl.Hout_80 (F := Ideal) m ρ c)) ![1, 0, 6, 0] inb_S2x256x8x64_S1x256x1x64_1_0_6_0 1 6 0 rfl q d q (Nat.zero_add _).symm).symm.trans
    ((congrFun (View.readCov_eq_canon' oStg.view (kernelRun.sl.Hout_80 (F := Ideal) m ρ c) (Rect.unit (s := S2x256x8x64) ![1, 0, 6, 0] S1x256x1x64.size inb_S2x256x8x64_S1x256x1x64_1_0_6_0).toLoadRect) (ix4 (0 : Fin 1) q (0 : Fin 1) d)).symm.trans
      (tile_1_6 m ρ c q d))

theorem canon_tile_1_7 (q : Fin 256) (d : Fin 64) :
    View.canon (kernelRun.sl.Hout_80 (F := Ideal) m ρ c) (ix4 (1 : Fin 2) q (7 : Fin 8) d)
      = Cert.Attn.devOutAt (qstg m ρ c) (kstg m ρ c) (vstg m ρ c) (klanded m ρ c) (vlanded m ρ c) 1 q 7 d :=
  (ld_rows (View.canon (kernelRun.sl.Hout_80 (F := Ideal) m ρ c)) ![1, 0, 7, 0] inb_S2x256x8x64_S1x256x1x64_1_0_7_0 1 7 0 rfl q d q (Nat.zero_add _).symm).symm.trans
    ((congrFun (View.readCov_eq_canon' oStg.view (kernelRun.sl.Hout_80 (F := Ideal) m ρ c) (Rect.unit (s := S2x256x8x64) ![1, 0, 7, 0] S1x256x1x64.size inb_S2x256x8x64_S1x256x1x64_1_0_7_0).toLoadRect) (ix4 (0 : Fin 1) q (0 : Fin 1) d)).symm.trans
      (tile_1_7 m ρ c q d))

/-! ## The result -/

set_option maxHeartbeats 0 in
set_option maxRecDepth 1000000 in
/-- The run's witness, unfolded once: the stores threaded as one list of writes over junk. -/
theorem witness_eq : (kernelRun (F := Ideal) m ρ c).1 = oStg.view.writes (Elt Ideal) oStg.view.junk (kernelRun.sl.Hout_80 (F := Ideal) m ρ c) := rfl

set_option maxHeartbeats 0 in
set_option maxRecDepth 1000000 in
/-- What the body's run leaves in the result's buffer, as the canonical contents of its list of stored tiles. -/
theorem witness_eq_canon : (kernelRun (F := Ideal) m ρ c).1 = View.canon (kernelRun.sl.Hout_80 (F := Ideal) m ρ c) := by
  rw [witness_eq]
  exact View.read_writes_junk_eq_canon oStg.view (kernelRun.sl.Hout_80 (F := Ideal) m ρ c)

set_option maxHeartbeats 0 in
set_option maxRecDepth 1000000 in
/-- The result's staging buffer after the body holds the device's formula of its own Q, K, V rows and the landed K, V
    rows of its partner. -/
theorem outAt_eq : (kernelRun (F := Ideal) m ρ c).1
    = Cert.Attn.devOut (qstg m ρ c) (kstg m ρ c) (vstg m ρ c) (klanded m ρ c) (vlanded m ρ c) := by
  rw [witness_eq_canon]
  funext i
  obtain ⟨b, q, h, d, rfl⟩ : ∃ (b : Fin 2) (q : Fin 256) (h : Fin 8) (d : Fin 64), i = ix4 b q h d := ⟨i 0, i 1, i 2, i 3, eq_ix4 i⟩
  rw [Cert.Attn.devOut_ix4]
  fin_cases b <;> fin_cases h
  · exact canon_tile_0_0 m ρ c q d
  · exact canon_tile_0_1 m ρ c q d
  · exact canon_tile_0_2 m ρ c q d
  · exact canon_tile_0_3 m ρ c q d
  · exact canon_tile_0_4 m ρ c q d
  · exact canon_tile_0_5 m ρ c q d
  · exact canon_tile_0_6 m ρ c q d
  · exact canon_tile_0_7 m ρ c q d
  · exact canon_tile_1_0 m ρ c q d
  · exact canon_tile_1_1 m ρ c q d
  · exact canon_tile_1_2 m ρ c q d
  · exact canon_tile_1_3 m ρ c q d
  · exact canon_tile_1_4 m ρ c q d
  · exact canon_tile_1_5 m ρ c q d
  · exact canon_tile_1_6 m ρ c q d
  · exact canon_tile_1_7 m ρ c q d

/-- info: 'Cert.KernelIdeal.Hand.outAt_eq' depends on axioms: [propext, Classical.choice, Quot.sound] -/
#guard_msgs in #print axioms outAt_eq

end Cert.KernelIdeal.Hand

end
-- ==== Proof.lean ====
/- Attention over keys gathered from the partner device along the mesh's z axis, against whole-array softmax attention.
   Each device holds rows 256·z … 256·z+255 of Q, K and V; it exchanges its K and V rows with the device that differs
   in z only, accumulates exp(q·kᵀ/8)·v and the row sums of exp(q·kᵀ/8) over its own 256 keys and then over the partner's
   four blocks of 64 keys, and divides at the end. Over the extended reals, with finite inputs, this is
   softmax(q·kᵀ/8)·v over all 512 keys: subtracting the row maximum inside exp cancels between numerator and denominator. -/
import proofs.«900412_g7700000000000413_dist_agattn_v7x_xyz2x2x2_z_b2_s256_h8_d64_f32_1_alg».proof.Defs
import proofs.«900412_g7700000000000413_dist_agattn_v7x_xyz2x2x2_z_b2_s256_h8_d64_f32_1_alg».proof.Proof.Gen.Kernel
import proofs.«900412_g7700000000000413_dist_agattn_v7x_xyz2x2x2_z_b2_s256_h8_d64_f32_1_alg».proof.Proof.Gen.KernelIdeal
import proofs.«900412_g7700000000000413_dist_agattn_v7x_xyz2x2x2_z_b2_s256_h8_d64_f32_1_alg».proof.Proof.Gen.ReferenceIdeal
import proofs.«900412_g7700000000000413_dist_agattn_v7x_xyz2x2x2_z_b2_s256_h8_d64_f32_1_alg».proof.Proof.Gen.ReferenceIdeal.Run
import proofs.«900412_g7700000000000413_dist_agattn_v7x_xyz2x2x2_z_b2_s256_h8_d64_f32_1_alg».proof.Proof.Gen.Pre_finite_inputs_Kernel
import proofs.«900412_g7700000000000413_dist_agattn_v7x_xyz2x2x2_z_b2_s256_h8_d64_f32_1_alg».proof.Proof.Gen.Pre_finite_inputs_ReferenceIdeal
import proofs.«900412_g7700000000000413_dist_agattn_v7x_xyz2x2x2_z_b2_s256_h8_d64_f32_1_alg».proof.Proof.Obligation
import proofs.«900412_g7700000000000413_dist_agattn_v7x_xyz2x2x2_z_b2_s256_h8_d64_f32_1_alg».proof.Proof.BitsObligation
import proofs.«900412_g7700000000000413_dist_agattn_v7x_xyz2x2x2_z_b2_s256_h8_d64_f32_1_alg».proof.Proof.BitsFinal
import proofs.«900412_g7700000000000413_dist_agattn_v7x_xyz2x2x2_z_b2_s256_h8_d64_f32_1_alg».proof.Proof.Algebraic
import proofs.«900412_g7700000000000413_dist_agattn_v7x_xyz2x2x2_z_b2_s256_h8_d64_f32_1_alg».proof.Proof.OutValue
import Idealize.ShloMosaic.Adequacy
import Idealize.ShloMosaic.Init

noncomputable section

namespace Cert.Proof

open Idealize.ShloMosaic Idealize.SL.Sem

/-- The reference is a straight line of host operations: its run ends with the arguments as they were. -/
theorem frame_ri : Cert.frame_ReferenceIdeal (hReferenceIdeal := Cert.ReferenceIdeal.Gen.facts)
    (hPre_finite_inputs_ReferenceIdeal := Cert.Pre_finite_inputs_ReferenceIdeal.Gen.facts) := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- The word-level kernel's frame: the same exchange and the same body, read at the word-level instance. -/
theorem frame_k : Cert.frame_Kernel (hKernel := Cert.Kernel.Gen.facts) (hPre_finite_inputs_Kernel := Cert.Pre_finite_inputs_Kernel.Gen.facts) :=
  fun m g _ => Cert.Kernel.Hand.frame_of_body (F := Bits) (fun m ρ => Cert.Kernel.Hand.outAt m ρ) (fun m ρ c => Cert.Kernel.Hand.body_obligation m ρ c) m g

theorem frame_ki : Cert.frame_KernelIdeal (hKernelIdeal := Cert.KernelIdeal.Gen.facts) (hPre_finite_inputs_Kernel := Cert.Pre_finite_inputs_Kernel.Gen.facts) :=
  Cert.Proof.Final.frame_KernelIdeal_of (fun m ρ => Cert.KernelIdeal.Hand.outAt m ρ) (fun m ρ c => Cert.KernelIdeal.Hand.body_obligation m ρ c)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, Cert.Proof.Final.algebraic_of (fun m ρ => Cert.KernelIdeal.Hand.outAt m ρ) (fun m ρ c => Cert.KernelIdeal.Hand.body_obligation m ρ c) (fun m ρ c => Cert.KernelIdeal.Hand.outAt_eq m ρ c)⟩

end Cert.Proof

end
